-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2500x2 : Shape := ⟨2, ![2500, 2]⟩
abbrev S10000 : Shape := ⟨1, ![10000]⟩
abbrev S_ : Shape := ⟨0, ![]⟩

class Facts : Prop where
  bcast_S_S2500x2 : S_.BroadcastsInDim S2500x2 (![] : Fin 0 → Fin S2500x2.rank)
  reducesTo_S2500x2_S_d0_1 : S2500x2.ReducesTo [0, 1] S_
  h_S_ : 0 < S_.numel
  bcast_S_S10000 : S_.BroadcastsInDim S10000 (![] : Fin 0 → Fin S10000.rank)
  reducesTo_S10000_S_d0 : S10000.ReducesTo [0] S_

variable [Facts]

def fn {F : FTy → Type} [FloatOps F] (main_arg0 : FVec F S2500x2 .f32) (main_arg1 : IVec S10000 32) (main_arg2 : IVec S10000 32) (main_arg3 : FVec F S10000 .f32) (main_arg4 : FVec F S10000 .f32) : IVec S_ 1 :=
  let main_v0 : FVec F S2500x2 .f32 := Host.absf main_arg0
  let main_cst : FVec F S_ .f32 := constant S_ .f32 0x7F800000#32
  let main_v1 : FVec F S2500x2 .f32 := broadcastInDim S2500x2 ![] bcast_S_S2500x2 main_cst
  let main_v2 : IVec S2500x2 1 := cmpf .olt main_v0 main_v1
  let main_c : IVec S_ 1 := constantI S_ 1 1#1
  let main_v3 : IVec S_ 1 := (fun x v => Host.reduce IntOp.andi x v reducesTo_S2500x2_S_d0_1 h_S_) main_v2 main_c
  let main_v4 : FVec F S10000 .f32 := Host.absf main_arg3
  let main_cst_0 : FVec F S_ .f32 := constant S_ .f32 0x7F800000#32
  let main_v5 : FVec F S10000 .f32 := broadcastInDim S10000 ![] bcast_S_S10000 main_cst_0
  let main_v6 : IVec S10000 1 := cmpf .olt main_v4 main_v5
  let main_c_1 : IVec S_ 1 := constantI S_ 1 1#1
  let main_v7 : IVec S_ 1 := (fun x v => Host.reduce IntOp.andi x v reducesTo_S10000_S_d0 h_S_) main_v6 main_c_1
  let main_v8 : IVec S_ 1 := andi main_v3 main_v7
  let main_v9 : FVec F S10000 .f32 := Host.absf main_arg4
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  main_v13
-- ==== Kernel.lean ====
abbrev S2500x2 : Shape := ⟨2, ![2500, 2]⟩
abbrev S10000 : Shape := ⟨1, ![10000]⟩
abbrev S_ : Shape := ⟨0, ![]⟩
abbrev S10000x1 : Shape := ⟨2, ![10000, 1]⟩
abbrev S10000x2 : Shape := ⟨2, ![10000, 2]⟩
abbrev S36x10000 : Shape := ⟨2, ![36, 10000]⟩
abbrev S1x10000 : Shape := ⟨2, ![1, 10000]⟩
abbrev S10000x36 : Shape := ⟨2, ![10000, 36]⟩
abbrev S10000x6x6 : Shape := ⟨3, ![10000, 6, 6]⟩
abbrev S3 : Shape := ⟨1, ![3]⟩
abbrev S1x3 : Shape := ⟨2, ![1, 3]⟩
abbrev S10000x3 : Shape := ⟨2, ![10000, 3]⟩
abbrev S7500x7500 : Shape := ⟨2, ![7500, 7500]⟩
abbrev S10000x3x1 : Shape := ⟨3, ![10000, 3, 1]⟩
abbrev S10000x1x3 : Shape := ⟨3, ![10000, 1, 3]⟩
abbrev S10000x3x3 : Shape := ⟨3, ![10000, 3, 3]⟩
abbrev S10000x3x3x1 : Shape := ⟨4, ![10000, 3, 3, 1]⟩
abbrev S10000x3x3x2 : Shape := ⟨4, ![10000, 3, 3, 2]⟩

abbrev nBuf : Space → Nat
  | .hbm => 142
  | .vmem => 5
  | .smem => 0
  | _ => 0

abbrev hbmTy0_0 (i : Nat) : BufTy := match i % 128 with
  | 0 => ⟨S2500x2, .f32⟩
  | 1 => ⟨S10000, .i32⟩
  | 2 => ⟨S10000, .i32⟩
  | 3 => ⟨S10000, .f32⟩
  | 4 => ⟨S10000, .f32⟩
  | 5 => ⟨S_, .i32⟩
  | 6 => ⟨S10000, .i32⟩
  | 7 => ⟨S10000, .i1⟩
  | 8 => ⟨S_, .i32⟩
  | 9 => ⟨S10000, .i32⟩
  | 10 => ⟨S10000, .i32⟩
  | 11 => ⟨S10000, .i32⟩
  | 12 => ⟨S10000x1, .i32⟩
  | 13 => ⟨S10000x2, .f32⟩
  | 14 => ⟨S_, .i32⟩
  | 15 => ⟨S10000, .i32⟩
  | 16 => ⟨S10000, .i1⟩
  | 17 => ⟨S_, .i32⟩
  | 18 => ⟨S10000, .i32⟩
  | 19 => ⟨S10000, .i32⟩
  | 20 => ⟨S10000, .i32⟩
  | 21 => ⟨S10000x1, .i32⟩
  | 22 => ⟨S10000x2, .f32⟩
  | 23 => ⟨S10000x2, .f32⟩
  | 24 => ⟨S10000x1, .f32⟩
  | 25 => ⟨S10000, .f32⟩
  | 26 => ⟨S10000x1, .f32⟩
  | 27 => ⟨S10000, .f32⟩
  | 28 => ⟨S36x10000, .f32⟩
  | 29 => ⟨S10000x36, .f32⟩
  | 30 => ⟨S10000x6x6, .f32⟩
  | 31 => ⟨S3, .i32⟩
  | 32 => ⟨S10000x1, .i32⟩
  | 33 => ⟨S_, .i32⟩
  | 34 => ⟨S10000x1, .i32⟩
  | 35 => ⟨S10000x1, .i32⟩
  | 36 => ⟨S1x3, .i32⟩
  | 37 => ⟨S10000x3, .i32⟩
  | 38 => ⟨S10000x3, .i32⟩
  | 39 => ⟨S10000x3, .i32⟩
  | 40 => ⟨S10000x1, .i32⟩
  | 41 => ⟨S_, .i32⟩
  | 42 => ⟨S10000x1, .i32⟩
  | 43 => ⟨S10000x1, .i32⟩
  | 44 => ⟨S1x3, .i32⟩
  | 45 => ⟨S10000x3, .i32⟩
  | 46 => ⟨S10000x3, .i32⟩
  | 47 => ⟨S10000x3, .i32⟩
  | 48 => ⟨S_, .f32⟩
  | 49 => ⟨S7500x7500, .f32⟩
  | 50 => ⟨S10000x3x1, .i32⟩
  | 51 => ⟨S10000x1x3, .i32⟩
  | 52 => ⟨S10000x3x3, .f32⟩
  | 53 => ⟨S_, .i32⟩
  | 54 => ⟨S10000x3x1, .i32⟩
  | 55 => ⟨S10000x3x1, .i1⟩
  | 56 => ⟨S_, .i32⟩
  | 57 => ⟨S10000x3x1, .i32⟩
  | 58 => ⟨S10000x3x1, .i32⟩
  | 59 => ⟨S10000x3x1, .i32⟩
  | 60 => ⟨S_, .i32⟩
  | 61 => ⟨S10000x1x3, .i32⟩
  | 62 => ⟨S10000x1x3, .i1⟩
  | 63 => ⟨S_, .i32⟩
  | 64 => ⟨S10000x1x3, .i32⟩
  | 65 => ⟨S10000x1x3, .i32⟩
  | 66 => ⟨S10000x1x3, .i32⟩
  | 67 => ⟨S10000x3x3, .i32⟩
  | 68 => ⟨S10000x3x3, .i32⟩
  | 69 => ⟨S10000x3x3x1, .i32⟩
  | 70 => ⟨S10000x3x3x1, .i32⟩
  | 71 => ⟨S10000x3x3x2, .i32⟩
  | 72 => ⟨S7500x7500, .f32⟩
  | 73 => ⟨S10000x3x1, .i32⟩
  | 74 => ⟨S10000x1x3, .i32⟩
  | 75 => ⟨S10000x3x3, .f32⟩
  | 76 => ⟨S_, .i32⟩
  | 77 => ⟨S10000x3x1, .i32⟩
  | 78 => ⟨S10000x3x1, .i1⟩
  | 79 => ⟨S_, .i32⟩
  | 80 => ⟨S10000x3x1, .i32⟩
  | 81 => ⟨S10000x3x1, .i32⟩
  | 82 => ⟨S10000x3x1, .i32⟩
  | 83 => ⟨S_, .i32⟩
  | 84 => ⟨S10000x1x3, .i32⟩
  | 85 => ⟨S10000x1x3, .i1⟩
  | 86 => ⟨S_, .i32⟩
  | 87 => ⟨S10000x1x3, .i32⟩
  | 88 => ⟨S10000x1x3, .i32⟩
  | 89 => ⟨S10000x1x3, .i32⟩
  | 90 => ⟨S10000x3x3, .i32⟩
  | 91 => ⟨S10000x3x3, .i32⟩
  | 92 => ⟨S10000x3x3x1, .i32⟩
  | 93 => ⟨S10000x3x3x1, .i32⟩
  | 94 => ⟨S10000x3x3x2, .i32⟩
  | 95 => ⟨S7500x7500, .f32⟩
  | 96 => ⟨S10000x3x1, .i32⟩
  | 97 => ⟨S10000x1x3, .i32⟩
  | 98 => ⟨S10000x3x3, .f32⟩
  | 99 => ⟨S_, .i32⟩
  | 100 => ⟨S10000x3x1, .i32⟩
  | 101 => ⟨S10000x3x1, .i1⟩
  | 102 => ⟨S_, .i32⟩
  | 103 => ⟨S10000x3x1, .i32⟩
  | 104 => ⟨S10000x3x1, .i32⟩
  | 105 => ⟨S10000x3x1, .i32⟩
  | 106 => ⟨S_, .i32⟩
  | 107 => ⟨S10000x1x3, .i32⟩
  | 108 => ⟨S10000x1x3, .i1⟩
  | 109 => ⟨S_, .i32⟩
  | 110 => ⟨S10000x1x3, .i32⟩
  | 111 => ⟨S10000x1x3, .i32⟩
  | 112 => ⟨S10000x1x3, .i32⟩
  | 113 => ⟨S10000x3x3, .i32⟩
  | 114 => ⟨S10000x3x3, .i32⟩
  | 115 => ⟨S10000x3x3x1, .i32⟩
  | 116 => ⟨S10000x3x3x1, .i32⟩
  | 117 => ⟨S10000x3x3x2, .i32⟩
  | 118 => ⟨S7500x7500, .f32⟩
  | 119 => ⟨S10000x3x1, .i32⟩
  | 120 => ⟨S10000x1x3, .i32⟩
  | 121 => ⟨S10000x3x3, .f32⟩
  | 122 => ⟨S_, .i32⟩
  | 123 => ⟨S10000x3x1, .i32⟩
  | 124 => ⟨S10000x3x1, .i1⟩
  | 125 => ⟨S_, .i32⟩
  | 126 => ⟨S10000x3x1, .i32⟩
  | 127 => ⟨S10000x3x1, .i32⟩
  | _ => ⟨S2500x2, .f32⟩

abbrev hbmTy0_1 (i : Nat) : BufTy := match i % 128 with
  | 0 => ⟨S10000x3x1, .i32⟩
  | 1 => ⟨S_, .i32⟩
  | 2 => ⟨S10000x1x3, .i32⟩
  | 3 => ⟨S10000x1x3, .i1⟩
  | 4 => ⟨S_, .i32⟩
  | 5 => ⟨S10000x1x3, .i32⟩
  | 6 => ⟨S10000x1x3, .i32⟩
  | 7 => ⟨S10000x1x3, .i32⟩
  | 8 => ⟨S10000x3x3, .i32⟩
  | 9 => ⟨S10000x3x3, .i32⟩
  | 10 => ⟨S10000x3x3x1, .i32⟩
  | 11 => ⟨S10000x3x3x1, .i32⟩
  | 12 => ⟨S10000x3x3x2, .i32⟩
  | 13 => ⟨S7500x7500, .f32⟩
  | _ => ⟨S2500x2, .f32⟩

abbrev hbmTy (i : Nat) : BufTy := match i / 128 with
  | 0 => hbmTy0_0 i
  | 1 => hbmTy0_1 i
  | _ => ⟨S2500x2, .f32⟩

abbrev bufTy : (tb : Table) → Fin (tcTables nBuf tb) → BufTy
  | .hbm, ⟨i, _⟩ => hbmTy i
  | .local _ .vmem, ⟨0, _⟩ => ⟨S10000, .f32⟩
  | .local _ .vmem, ⟨1, _⟩ => ⟨S10000, .f32⟩
  | .local _ .vmem, ⟨2, _⟩ => ⟨S10000, .f32⟩
  | .local _ .vmem, ⟨3, _⟩ => ⟨S10000, .f32⟩
  | .local _ .vmem, ⟨4, _⟩ => ⟨S36x10000, .f32⟩
  | _, _ => ⟨S2500x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_5 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_9 : Ref sig .tc := ⟨.hbm, 76, rfl⟩
abbrev main_v60 : Ref sig .tc := ⟨.hbm, 77, rfl⟩
abbrev main_v61 : Ref sig .tc := ⟨.hbm, 78, rfl⟩
abbrev main_c_10 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_11 : Ref sig .tc := ⟨.hbm, 83, rfl⟩
abbrev main_v65 : Ref sig .tc := ⟨.hbm, 84, rfl⟩
abbrev main_v66 : Ref sig .tc := ⟨.hbm, 85, rfl⟩
abbrev main_c_12 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_13 : Ref sig .tc := ⟨.hbm, 99, rfl⟩
abbrev main_v79 : Ref sig .tc := ⟨.hbm, 100, rfl⟩
abbrev main_v80 : Ref sig .tc := ⟨.hbm, 101, rfl⟩
abbrev main_c_14 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_c_15 : Ref sig .tc := ⟨.hbm, 106, rfl⟩
abbrev main_v84 : Ref sig .tc := ⟨.hbm, 107, rfl⟩
abbrev main_v85 : Ref sig .tc := ⟨.hbm, 108, rfl⟩
abbrev main_c_16 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_c_17 : Ref sig .tc := ⟨.hbm, 122, rfl⟩
abbrev main_v98 : Ref sig .tc := ⟨.hbm, 123, rfl⟩
abbrev main_v99 : Ref sig .tc := ⟨.hbm, 124, rfl⟩
abbrev main_c_18 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_c_19 : Ref sig .tc := ⟨.hbm, 129, rfl⟩
abbrev main_v103 : Ref sig .tc := ⟨.hbm, 130, rfl⟩
abbrev main_v104 : Ref sig .tc := ⟨.hbm, 131, rfl⟩
abbrev main_c_20 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S36x10000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  slices_S10000x2_S10000x1_0_0 : S10000x2.Slices ![0, 0] S10000x1
  shapeCasts_S10000x1_S10000 : S10000x1.ShapeCasts S10000
  slices_S10000x2_S10000x1_0_1 : S10000x2.Slices ![0, 1] S10000x1
  inb_S10000_S10000_0 : ∀ a, (![0] : Fin 1 → Nat) a + S10000.size a ≤ S10000.size a
  h_S10000 : 0 < S10000.numel
  shapeCasts_S10000_S10000 : S10000.ShapeCasts S10000
  shapeCasts_S10000_S1x10000 : S10000.ShapeCasts S1x10000
  concatenates_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S36x10000_d0 : Shape.Concatenates (S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: S1x10000 :: []) S36x10000 0
  broadcasts_S1x10000_S36x10000 : S1x10000.Broadcasts S36x10000
  inb_S36x10000_S36x10000_0_0 : ∀ a, (![0, 0] : Fin 2 → Nat) a + S36x10000.size a ≤ S36x10000.size a
  h_S36x10000 : 0 < S36x10000.numel
  transposes_S36x10000_S10000x36_1_0 : S36x10000.Transposes [1, 0] S10000x36
  shapeCasts_S10000x36_S10000x6x6 : S10000x36.ShapeCasts S10000x6x6
  bcast_S_S10000x1 : S_.BroadcastsInDim S10000x1 (![] : Fin 0 → Fin S10000x1.rank)
  bcast_S3_S1x3_1 : S3.BroadcastsInDim S1x3 (![1] : Fin 1 → Fin S1x3.rank)
  bcast_S10000x1_S10000x3_0_1 : S10000x1.BroadcastsInDim S10000x3 (![0, 1] : Fin 2 → Fin S10000x3.rank)
  bcast_S1x3_S10000x3_0_1 : S1x3.BroadcastsInDim S10000x3 (![0, 1] : Fin 2 → Fin S10000x3.rank)
  bcast_S_S7500x7500 : S_.BroadcastsInDim S7500x7500 (![] : Fin 0 → Fin S7500x7500.rank)
  bcast_S10000x3_S10000x3x1_0_1 : S10000x3.BroadcastsInDim S10000x3x1 (![0, 1] : Fin 2 → Fin S10000x3x1.rank)
  bcast_S10000x3_S10000x1x3_0_2 : S10000x3.BroadcastsInDim S10000x1x3 (![0, 2] : Fin 2 → Fin S10000x1x3.rank)
  slices_S10000x6x6_S10000x3x3_0_0_0 : S10000x6x6.Slices ![0, 0, 0] S10000x3x3
  bcast_S_S10000x3x1 : S_.BroadcastsInDim S10000x3x1 (![] : Fin 0 → Fin S10000x3x1.rank)
  bcast_S_S10000x1x3 : S_.BroadcastsInDim S10000x1x3 (![] : Fin 0 → Fin S10000x1x3.rank)
  bcast_S10000x3x1_S10000x3x3_0_1_2 : S10000x3x1.BroadcastsInDim S10000x3x3 (![0, 1, 2] : Fin 3 → Fin S10000x3x3.rank)
  bcast_S10000x1x3_S10000x3x3_0_1_2 : S10000x1x3.BroadcastsInDim S10000x3x3 (![0, 1, 2] : Fin 3 → Fin S10000x3x3.rank)
  bcast_S10000x3x3_S10000x3x3x1_0_1_2 : S10000x3x3.BroadcastsInDim S10000x3x3x1 (![0, 1, 2] : Fin 3 → Fin S10000x3x3x1.rank)
  concatenates_S10000x3x3x1_S10000x3x3x1_S10000x3x3x2_d3 : Shape.Concatenates [S10000x3x3x1, S10000x3x3x1] S10000x3x3x2 3
  slices_S10000x6x6_S10000x3x3_0_0_3 : S10000x6x6.Slices ![0, 0, 3] S10000x3x3
  slices_S10000x6x6_S10000x3x3_0_3_0 : S10000x6x6.Slices ![0, 3, 0] S10000x3x3
  slices_S10000x6x6_S10000x3x3_0_3_3 : S10000x6x6.Slices ![0, 3, 3] S10000x3x3
  gather_S2500x2_S10000x1_S10000x2_1_0_n_n_0_1_12_wf : GatherDims.WF S2500x2 S10000x1 S10000x2 [1] [0] [] [0] [] 1 ![1, 2]
  scatter_S7500x7500_S10000x3x3x2_S10000x3x3_n_01_01_3_wf : ScatterDims.WF S7500x7500 S10000x3x3x2 S10000x3x3 [] [0, 1] [0, 1] 3
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000.size a ≤ S10000.size a
  hwx0_0 : ∀ i : grid0.Coords, EltTy.bits .f32 = 32 ∨ (Rect.block (s := S10000) S10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000.size a ≤ S10000.size a
  hwx0_1 : ∀ i : grid0.Coords, EltTy.bits .f32 = 32 ∨ (Rect.block (s := S10000) S10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000.size a ≤ S10000.size a
  hwx0_2 : ∀ i : grid0.Coords, EltTy.bits .f32 = 32 ∨ (Rect.block (s := S10000) S10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000.size a ≤ S10000.size a
  hwx0_3 : ∀ i : grid0.Coords, EltTy.bits .f32 = 32 ∨ (Rect.block (s := S10000) S10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S36x10000.size a ≤ S36x10000.size a
  hwx0_4 : ∀ i : grid0.Coords, EltTy.bits .f32 = 32 ∨ (Rect.block (s := S36x10000) S36x10000.size (cc0_transform_4 i) (hinb0_4 i)).WholeWords (EltTy.packing .f32)

variable [Facts₀]

def gather_S2500x2_S10000x1_S10000x2_1_0_n_n_0_1_12 : GatherDims S2500x2 S10000x1 S10000x2 where
  offsetDims := [1]
  collapsedSliceDims := [0]
  operandBatchingDims := []
  startIndicesBatchingDims := []
  startIndexMap := [0]
  indexVectorDim := 1
  sliceSizes := ![1, 2]
  wf := gather_S2500x2_S10000x1_S10000x2_1_0_n_n_0_1_12_wf
def scatter_S7500x7500_S10000x3x3x2_S10000x3x3_n_01_01_3 : ScatterDims S7500x7500 S10000x3x3x2 S10000x3x3 where
  updateWindowDims := []
  insertedWindowDims := [0, 1]
  scatterDimsToOperandDims := [0, 1]
  indexVectorDim := 3
  wf := scatter_S7500x7500_S10000x3x3x2_S10000x3x3_n_01_01_3_wf

abbrev win0_0 : Pipeline.Window sig grid0 :=
  Pipeline.Window.ofSpec (Memref.whole main_v16) S10000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S10000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S10000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S36x10000.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2500x2 : Shape := ⟨2, ![2500, 2]⟩
abbrev S10000 : Shape := ⟨1, ![10000]⟩
abbrev S_ : Shape := ⟨0, ![]⟩
abbrev S10000x1 : Shape := ⟨2, ![10000, 1]⟩
abbrev S10000x2 : Shape := ⟨2, ![10000, 2]⟩
abbrev S10000x16 : Shape := ⟨2, ![10000, 16]⟩
abbrev S10000x4 : Shape := ⟨2, ![10000, 4]⟩
abbrev S10000x36 : Shape := ⟨2, ![10000, 36]⟩
abbrev S10000x6x6 : Shape := ⟨3, ![10000, 6, 6]⟩
abbrev S3 : Shape := ⟨1, ![3]⟩
abbrev S1x3 : Shape := ⟨2, ![1, 3]⟩
abbrev S10000x3 : Shape := ⟨2, ![10000, 3]⟩
abbrev S7500x7500 : Shape := ⟨2, ![7500, 7500]⟩
abbrev S10000x3x1 : Shape := ⟨3, ![10000, 3, 1]⟩
abbrev S10000x1x3 : Shape := ⟨3, ![10000, 1, 3]⟩
abbrev S10000x3x3 : Shape := ⟨3, ![10000, 3, 3]⟩
abbrev S10000x3x3x1 : Shape := ⟨4, ![10000, 3, 3, 1]⟩
abbrev S10000x3x3x2 : Shape := ⟨4, ![10000, 3, 3, 2]⟩

abbrev nBuf : Space → Nat
  | .hbm => 329
  | .vmem => 0
  | .smem => 0
  | _ => 0

abbrev hbmTy0_0 (i : Nat) : BufTy := match i % 128 with
  | 0 => ⟨S2500x2, .f32⟩
  | 1 => ⟨S10000, .i32⟩
  | 2 => ⟨S10000, .i32⟩
  | 3 => ⟨S10000, .f32⟩
  | 4 => ⟨S10000, .f32⟩
  | 5 => ⟨S_, .i32⟩
  | 6 => ⟨S10000, .i32⟩
  | 7 => ⟨S10000, .i1⟩
  | 8 => ⟨S_, .i32⟩
  | 9 => ⟨S10000, .i32⟩
  | 10 => ⟨S10000, .i32⟩
  | 11 => ⟨S10000, .i32⟩
  | 12 => ⟨S10000x1, .i32⟩
  | 13 => ⟨S10000x2, .f32⟩
  | 14 => ⟨S_, .i32⟩
  | 15 => ⟨S10000, .i32⟩
  | 16 => ⟨S10000, .i1⟩
  | 17 => ⟨S_, .i32⟩
  | 18 => ⟨S10000, .i32⟩
  | 19 => ⟨S10000, .i32⟩
  | 20 => ⟨S10000, .i32⟩
  | 21 => ⟨S10000x1, .i32⟩
  | 22 => ⟨S10000x2, .f32⟩
  | 23 => ⟨S10000x2, .f32⟩
  | 24 => ⟨S10000x2, .f32⟩
  | 25 => ⟨S_, .f32⟩
  | 26 => ⟨S10000, .f32⟩
  | 27 => ⟨S10000, .f32⟩
  | 28 => ⟨S10000, .f32⟩
  | 29 => ⟨S_, .f32⟩
  | 30 => ⟨S10000, .f32⟩
  | 31 => ⟨S10000, .f32⟩
  | 32 => ⟨S10000, .f32⟩
  | 33 => ⟨S10000, .f32⟩
  | 34 => ⟨S10000, .f32⟩
  | 35 => ⟨S10000, .f32⟩
  | 36 => ⟨S10000, .f32⟩
  | 37 => ⟨S10000, .f32⟩
  | 38 => ⟨S10000x1, .f32⟩
  | 39 => ⟨S10000, .f32⟩
  | 40 => ⟨S10000, .f32⟩
  | 41 => ⟨S10000x1, .f32⟩
  | 42 => ⟨S10000, .f32⟩
  | 43 => ⟨S10000, .f32⟩
  | 44 => ⟨S10000, .f32⟩
  | 45 => ⟨S10000, .f32⟩
  | 46 => ⟨S10000, .f32⟩
  | 47 => ⟨S10000, .f32⟩
  | 48 => ⟨S_, .f32⟩
  | 49 => ⟨S10000, .f32⟩
  | 50 => ⟨S10000, .f32⟩
  | 51 => ⟨S10000, .f32⟩
  | 52 => ⟨S_, .f32⟩
  | 53 => ⟨S10000, .f32⟩
  | 54 => ⟨S10000, .f32⟩
  | 55 => ⟨S10000, .f32⟩
  | 56 => ⟨S10000, .f32⟩
  | 57 => ⟨S_, .f32⟩
  | 58 => ⟨S10000, .f32⟩
  | 59 => ⟨S10000, .f32⟩
  | 60 => ⟨S10000, .f32⟩
  | 61 => ⟨S_, .f32⟩
  | 62 => ⟨S10000, .f32⟩
  | 63 => ⟨S10000, .f32⟩
  | 64 => ⟨S_, .f32⟩
  | 65 => ⟨S10000, .f32⟩
  | 66 => ⟨S_, .f32⟩
  | 67 => ⟨S10000, .f32⟩
  | 68 => ⟨S10000, .f32⟩
  | 69 => ⟨S_, .f32⟩
  | 70 => ⟨S10000, .f32⟩
  | 71 => ⟨S10000, .f32⟩
  | 72 => ⟨S10000, .f32⟩
  | 73 => ⟨S_, .f32⟩
  | 74 => ⟨S10000, .f32⟩
  | 75 => ⟨S10000, .f32⟩
  | 76 => ⟨S_, .f32⟩
  | 77 => ⟨S10000, .f32⟩
  | 78 => ⟨S10000, .f32⟩
  | 79 => ⟨S10000, .f32⟩
  | 80 => ⟨S_, .f32⟩
  | 81 => ⟨S10000, .f32⟩
  | 82 => ⟨S10000, .f32⟩
  | 83 => ⟨S_, .f32⟩
  | 84 => ⟨S10000, .f32⟩
  | 85 => ⟨S10000, .f32⟩
  | 86 => ⟨S10000, .f32⟩
  | 87 => ⟨S_, .f32⟩
  | 88 => ⟨S10000, .f32⟩
  | 89 => ⟨S10000, .f32⟩
  | 90 => ⟨S_, .f32⟩
  | 91 => ⟨S10000, .f32⟩
  | 92 => ⟨S10000, .f32⟩
  | 93 => ⟨S10000, .f32⟩
  | 94 => ⟨S10000, .f32⟩
  | 95 => ⟨S10000, .f32⟩
  | 96 => ⟨S_, .f32⟩
  | 97 => ⟨S10000, .f32⟩
  | 98 => ⟨S10000, .f32⟩
  | 99 => ⟨S_, .f32⟩
  | 100 => ⟨S10000, .f32⟩
  | 101 => ⟨S10000, .f32⟩
  | 102 => ⟨S_, .f32⟩
  | 103 => ⟨S10000, .f32⟩
  | 104 => ⟨S10000, .f32⟩
  | 105 => ⟨S_, .f32⟩
  | 106 => ⟨S10000, .f32⟩
  | 107 => ⟨S10000, .f32⟩
  | 108 => ⟨S_, .f32⟩
  | 109 => ⟨S10000, .f32⟩
  | 110 => ⟨S10000, .f32⟩
  | 111 => ⟨S_, .f32⟩
  | 112 => ⟨S10000, .f32⟩
  | 113 => ⟨S10000, .f32⟩
  | 114 => ⟨S_, .f32⟩
  | 115 => ⟨S10000, .f32⟩
  | 116 => ⟨S10000, .f32⟩
  | 117 => ⟨S_, .f32⟩
  | 118 => ⟨S10000, .f32⟩
  | 119 => ⟨S10000, .f32⟩
  | 120 => ⟨S10000, .f32⟩
  | 121 => ⟨S10000, .f32⟩
  | 122 => ⟨S10000x1, .f32⟩
  | 123 => ⟨S10000x1, .f32⟩
  | 124 => ⟨S10000x1, .f32⟩
  | 125 => ⟨S10000x1, .f32⟩
  | 126 => ⟨S10000x1, .f32⟩
  | 127 => ⟨S10000x1, .f32⟩
  | _ => ⟨S2500x2, .f32⟩

abbrev hbmTy0_1 (i : Nat) : BufTy := match i % 128 with
  | 0 => ⟨S10000x1, .f32⟩
  | 1 => ⟨S10000x1, .f32⟩
  | 2 => ⟨S10000x1, .f32⟩
  | 3 => ⟨S10000x1, .f32⟩
  | 4 => ⟨S10000x1, .f32⟩
  | 5 => ⟨S10000x1, .f32⟩
  | 6 => ⟨S10000x1, .f32⟩
  | 7 => ⟨S10000x1, .f32⟩
  | 8 => ⟨S10000x1, .f32⟩
  | 9 => ⟨S10000x1, .f32⟩
  | 10 => ⟨S10000x1, .f32⟩
  | 11 => ⟨S10000x1, .f32⟩
  | 12 => ⟨S10000x1, .f32⟩
  | 13 => ⟨S10000x1, .f32⟩
  | 14 => ⟨S10000x1, .f32⟩
  | 15 => ⟨S10000x1, .f32⟩
  | 16 => ⟨S10000x1, .f32⟩
  | 17 => ⟨S10000x1, .f32⟩
  | 18 => ⟨S10000x1, .f32⟩
  | 19 => ⟨S10000x1, .f32⟩
  | 20 => ⟨S10000x1, .f32⟩
  | 21 => ⟨S10000x1, .f32⟩
  | 22 => ⟨S10000x1, .f32⟩
  | 23 => ⟨S10000x1, .f32⟩
  | 24 => ⟨S10000x1, .f32⟩
  | 25 => ⟨S10000x1, .f32⟩
  | 26 => ⟨S10000x1, .f32⟩
  | 27 => ⟨S10000x1, .f32⟩
  | 28 => ⟨S10000x1, .f32⟩
  | 29 => ⟨S10000x1, .f32⟩
  | 30 => ⟨S10000x16, .f32⟩
  | 31 => ⟨S10000x16, .f32⟩
  | 32 => ⟨S10000x4, .f32⟩
  | 33 => ⟨S10000x36, .f32⟩
  | 34 => ⟨S10000, .f32⟩
  | 35 => ⟨S10000, .f32⟩
  | 36 => ⟨S10000, .f32⟩
  | 37 => ⟨S10000, .f32⟩
  | 38 => ⟨S10000, .f32⟩
  | 39 => ⟨S10000, .f32⟩
  | 40 => ⟨S10000, .f32⟩
  | 41 => ⟨S10000, .f32⟩
  | 42 => ⟨S10000x1, .f32⟩
  | 43 => ⟨S10000x1, .f32⟩
  | 44 => ⟨S10000x1, .f32⟩
  | 45 => ⟨S10000x1, .f32⟩
  | 46 => ⟨S10000x1, .f32⟩
  | 47 => ⟨S10000x1, .f32⟩
  | 48 => ⟨S10000x1, .f32⟩
  | 49 => ⟨S10000x1, .f32⟩
  | 50 => ⟨S10000x1, .f32⟩
  | 51 => ⟨S10000x1, .f32⟩
  | 52 => ⟨S10000x1, .f32⟩
  | 53 => ⟨S10000x1, .f32⟩
  | 54 => ⟨S10000x1, .f32⟩
  | 55 => ⟨S10000x1, .f32⟩
  | 56 => ⟨S10000x1, .f32⟩
  | 57 => ⟨S10000x1, .f32⟩
  | 58 => ⟨S10000x1, .f32⟩
  | 59 => ⟨S10000x1, .f32⟩
  | 60 => ⟨S10000x1, .f32⟩
  | 61 => ⟨S10000x1, .f32⟩
  | 62 => ⟨S10000x1, .f32⟩
  | 63 => ⟨S10000x1, .f32⟩
  | 64 => ⟨S10000x1, .f32⟩
  | 65 => ⟨S10000x1, .f32⟩
  | 66 => ⟨S10000x1, .f32⟩
  | 67 => ⟨S10000x1, .f32⟩
  | 68 => ⟨S10000x1, .f32⟩
  | 69 => ⟨S10000x1, .f32⟩
  | 70 => ⟨S10000x1, .f32⟩
  | 71 => ⟨S10000x1, .f32⟩
  | 72 => ⟨S10000x1, .f32⟩
  | 73 => ⟨S10000x1, .f32⟩
  | 74 => ⟨S10000x1, .f32⟩
  | 75 => ⟨S10000x1, .f32⟩
  | 76 => ⟨S10000x1, .f32⟩
  | 77 => ⟨S10000x1, .f32⟩
  | 78 => ⟨S10000x16, .f32⟩
  | 79 => ⟨S10000x16, .f32⟩
  | 80 => ⟨S10000x4, .f32⟩
  | 81 => ⟨S10000x36, .f32⟩
  | 82 => ⟨S10000x1, .f32⟩
  | 83 => ⟨S10000x36, .f32⟩
  | 84 => ⟨S10000x36, .f32⟩
  | 85 => ⟨S10000x1, .f32⟩
  | 86 => ⟨S10000x36, .f32⟩
  | 87 => ⟨S10000x36, .f32⟩
  | 88 => ⟨S10000x36, .f32⟩
  | 89 => ⟨S10000x6x6, .f32⟩
  | 90 => ⟨S3, .i32⟩
  | 91 => ⟨S10000x1, .i32⟩
  | 92 => ⟨S_, .i32⟩
  | 93 => ⟨S10000x1, .i32⟩
  | 94 => ⟨S10000x1, .i32⟩
  | 95 => ⟨S1x3, .i32⟩
  | 96 => ⟨S10000x3, .i32⟩
  | 97 => ⟨S10000x3, .i32⟩
  | 98 => ⟨S10000x3, .i32⟩
  | 99 => ⟨S10000x1, .i32⟩
  | 100 => ⟨S_, .i32⟩
  | 101 => ⟨S10000x1, .i32⟩
  | 102 => ⟨S10000x1, .i32⟩
  | 103 => ⟨S1x3, .i32⟩
  | 104 => ⟨S10000x3, .i32⟩
  | 105 => ⟨S10000x3, .i32⟩
  | 106 => ⟨S10000x3, .i32⟩
  | 107 => ⟨S_, .f32⟩
  | 108 => ⟨S7500x7500, .f32⟩
  | 109 => ⟨S10000x3x1, .i32⟩
  | 110 => ⟨S10000x1x3, .i32⟩
  | 111 => ⟨S10000x3x3, .f32⟩
  | 112 => ⟨S_, .i32⟩
  | 113 => ⟨S10000x3x1, .i32⟩
  | 114 => ⟨S10000x3x1, .i1⟩
  | 115 => ⟨S_, .i32⟩
  | 116 => ⟨S10000x3x1, .i32⟩
  | 117 => ⟨S10000x3x1, .i32⟩
  | 118 => ⟨S10000x3x1, .i32⟩
  | 119 => ⟨S_, .i32⟩
  | 120 => ⟨S10000x1x3, .i32⟩
  | 121 => ⟨S10000x1x3, .i1⟩
  | 122 => ⟨S_, .i32⟩
  | 123 => ⟨S10000x1x3, .i32⟩
  | 124 => ⟨S10000x1x3, .i32⟩
  | 125 => ⟨S10000x1x3, .i32⟩
  | 126 => ⟨S10000x3x3, .i32⟩
  | 127 => ⟨S10000x3x3, .i32⟩
  | _ => ⟨S2500x2, .f32⟩

abbrev hbmTy0_2 (i : Nat) : BufTy := match i % 128 with
  | 0 => ⟨S10000x3x3x1, .i32⟩
  | 1 => ⟨S10000x3x3x1, .i32⟩
  | 2 => ⟨S10000x3x3x2, .i32⟩
  | 3 => ⟨S7500x7500, .f32⟩
  | 4 => ⟨S10000x3x1, .i32⟩
  | 5 => ⟨S10000x1x3, .i32⟩
  | 6 => ⟨S10000x3x3, .f32⟩
  | 7 => ⟨S_, .i32⟩
  | 8 => ⟨S10000x3x1, .i32⟩
  | 9 => ⟨S10000x3x1, .i1⟩
  | 10 => ⟨S_, .i32⟩
  | 11 => ⟨S10000x3x1, .i32⟩
  | 12 => ⟨S10000x3x1, .i32⟩
  | 13 => ⟨S10000x3x1, .i32⟩
  | 14 => ⟨S_, .i32⟩
  | 15 => ⟨S10000x1x3, .i32⟩
  | 16 => ⟨S10000x1x3, .i1⟩
  | 17 => ⟨S_, .i32⟩
  | 18 => ⟨S10000x1x3, .i32⟩
  | 19 => ⟨S10000x1x3, .i32⟩
  | 20 => ⟨S10000x1x3, .i32⟩
  | 21 => ⟨S10000x3x3, .i32⟩
  | 22 => ⟨S10000x3x3, .i32⟩
  | 23 => ⟨S10000x3x3x1, .i32⟩
  | 24 => ⟨S10000x3x3x1, .i32⟩
  | 25 => ⟨S10000x3x3x2, .i32⟩
  | 26 => ⟨S7500x7500, .f32⟩
  | 27 => ⟨S10000x3x1, .i32⟩
  | 28 => ⟨S10000x1x3, .i32⟩
  | 29 => ⟨S10000x3x3, .f32⟩
  | 30 => ⟨S_, .i32⟩
  | 31 => ⟨S10000x3x1, .i32⟩
  | 32 => ⟨S10000x3x1, .i1⟩
  | 33 => ⟨S_, .i32⟩
  | 34 => ⟨S10000x3x1, .i32⟩
  | 35 => ⟨S10000x3x1, .i32⟩
  | 36 => ⟨S10000x3x1, .i32⟩
  | 37 => ⟨S_, .i32⟩
  | 38 => ⟨S10000x1x3, .i32⟩
  | 39 => ⟨S10000x1x3, .i1⟩
  | 40 => ⟨S_, .i32⟩
  | 41 => ⟨S10000x1x3, .i32⟩
  | 42 => ⟨S10000x1x3, .i32⟩
  | 43 => ⟨S10000x1x3, .i32⟩
  | 44 => ⟨S10000x3x3, .i32⟩
  | 45 => ⟨S10000x3x3, .i32⟩
  | 46 => ⟨S10000x3x3x1, .i32⟩
  | 47 => ⟨S10000x3x3x1, .i32⟩
  | 48 => ⟨S10000x3x3x2, .i32⟩
  | 49 => ⟨S7500x7500, .f32⟩
  | 50 => ⟨S10000x3x1, .i32⟩
  | 51 => ⟨S10000x1x3, .i32⟩
  | 52 => ⟨S10000x3x3, .f32⟩
  | 53 => ⟨S_, .i32⟩
  | 54 => ⟨S10000x3x1, .i32⟩
  | 55 => ⟨S10000x3x1, .i1⟩
  | 56 => ⟨S_, .i32⟩
  | 57 => ⟨S10000x3x1, .i32⟩
  | 58 => ⟨S10000x3x1, .i32⟩
  | 59 => ⟨S10000x3x1, .i32⟩
  | 60 => ⟨S_, .i32⟩
  | 61 => ⟨S10000x1x3, .i32⟩
  | 62 => ⟨S10000x1x3, .i1⟩
  | 63 => ⟨S_, .i32⟩
  | 64 => ⟨S10000x1x3, .i32⟩
  | 65 => ⟨S10000x1x3, .i32⟩
  | 66 => ⟨S10000x1x3, .i32⟩
  | 67 => ⟨S10000x3x3, .i32⟩
  | 68 => ⟨S10000x3x3, .i32⟩
  | 69 => ⟨S10000x3x3x1, .i32⟩
  | 70 => ⟨S10000x3x3x1, .i32⟩
  | 71 => ⟨S10000x3x3x2, .i32⟩
  | 72 => ⟨S7500x7500, .f32⟩
  | _ => ⟨S2500x2, .f32⟩

abbrev hbmTy (i : Nat) : BufTy := match i / 128 with
  | 0 => hbmTy0_0 i
  | 1 => hbmTy0_1 i
  | 2 => hbmTy0_2 i
  | _ => ⟨S2500x2, .f32⟩

abbrev bufTy : (tb : Table) → Fin (tcTables nBuf tb) → BufTy
  | .hbm, ⟨i, _⟩ => hbmTy i
  | _, _ => ⟨S2500x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_cst_18 : Ref sig .tc := ⟨.hbm, 102, rfl⟩
abbrev main_v74 : Ref sig .tc := ⟨.hbm, 103, rfl⟩
abbrev main_v75 : Ref sig .tc := ⟨.hbm, 104, rfl⟩
abbrev main_cst_19 : Ref sig .tc := ⟨.hbm, 105, rfl⟩
abbrev main_v76 : Ref sig .tc := ⟨.hbm, 106, rfl⟩
abbrev main_v77 : Ref sig .tc := ⟨.hbm, 107, rfl⟩
abbrev main_cst_20 : Ref sig .tc := ⟨.hbm, 108, rfl⟩
abbrev main_v78 : Ref sig .tc := ⟨.hbm, 109, rfl⟩
abbrev main_v79 : Ref sig .tc := ⟨.hbm, 110, rfl⟩
abbrev main_cst_21 : Ref sig .tc := ⟨.hbm, 111, rfl⟩
abbrev main_v80 : Ref sig .tc := ⟨.hbm, 112, rfl⟩
abbrev main_v81 : Ref sig .tc := ⟨.hbm, 113, rfl⟩
abbrev main_cst_22 : Ref sig .tc := ⟨.hbm, 114, rfl⟩
abbrev main_v82 : Ref sig .tc := ⟨.hbm, 115, rfl⟩
abbrev main_v83 : Ref sig .tc := ⟨.hbm, 116, rfl⟩
abbrev main_cst_23 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_c_24 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_c_25 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_cst_26 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_c_27 : Ref sig .tc := ⟨.hbm, 240, rfl⟩
abbrev main_v203 : Ref sig .tc := ⟨.hbm, 241, rfl⟩
abbrev main_v204 : Ref sig .tc := ⟨.hbm, 242, rfl⟩
abbrev main_c_28 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_c_29 : Ref sig .tc := ⟨.hbm, 247, rfl⟩
abbrev main_v208 : Ref sig .tc := ⟨.hbm, 248, rfl⟩
abbrev main_v209 : Ref sig .tc := ⟨.hbm, 249, rfl⟩
abbrev main_c_30 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_c_31 : Ref sig .tc := ⟨.hbm, 263, rfl⟩
abbrev main_v222 : Ref sig .tc := ⟨.hbm, 264, rfl⟩
abbrev main_v223 : Ref sig .tc := ⟨.hbm, 265, rfl⟩
abbrev main_c_32 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_c_33 : Ref sig .tc := ⟨.hbm, 270, rfl⟩
abbrev main_v227 : Ref sig .tc := ⟨.hbm, 271, rfl⟩
abbrev main_v228 : Ref sig .tc := ⟨.hbm, 272, rfl⟩
abbrev main_c_34 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_c_35 : Ref sig .tc := ⟨.hbm, 286, rfl⟩
abbrev main_v241 : Ref sig .tc := ⟨.hbm, 287, rfl⟩
abbrev main_v242 : Ref sig .tc := ⟨.hbm, 288, rfl⟩
abbrev main_c_36 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_c_37 : Ref sig .tc := ⟨.hbm, 293, rfl⟩
abbrev main_v246 : Ref sig .tc := ⟨.hbm, 294, rfl⟩
abbrev main_v247 : Ref sig .tc := ⟨.hbm, 295, rfl⟩
abbrev main_c_38 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_c_39 : Ref sig .tc := ⟨.hbm, 309, rfl⟩
abbrev main_v260 : Ref sig .tc := ⟨.hbm, 310, rfl⟩
abbrev main_v261 : Ref sig .tc := ⟨.hbm, 311, rfl⟩
abbrev main_c_40 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_c_41 : Ref sig .tc := ⟨.hbm, 316, rfl⟩
abbrev main_v265 : Ref sig .tc := ⟨.hbm, 317, rfl⟩
abbrev main_v266 : Ref sig .tc := ⟨.hbm, 318, rfl⟩
abbrev main_c_42 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  reducesTo_S10000x2_S10000_d1 : S10000x2.ReducesTo [1] S10000
  h_S_ : 0 < S_.numel
  slices_S10000x2_S10000x1_0_0 : S10000x2.Slices ![0, 0] S10000x1
  shapeCasts_S10000x1_S10000 : S10000x1.ShapeCasts S10000
  slices_S10000x2_S10000x1_0_1 : S10000x2.Slices ![0, 1] S10000x1
  concatenates_S10000x1_S10000x1_S10000x1_S10000x1_S10000x1_S10000x1_S10000x1_S10000x1_S10000x1_S10000x1_S10000x1_S10000x1_S10000x1_S10000x1_S10000x1_S10000x1_S10000x16_d1 : Shape.Concatenates [S10000x1, S10000x1, S10000x1, S10000x1, S10000x1, S10000x1, S10000x1, S10000x1, S10000x1, S10000x1, S10000x1, S10000x1, S10000x1, S10000x1, S10000x1, S10000x1] S10000x16 1
  concatenates_S10000x1_S10000x1_S10000x1_S10000x1_S10000x4_d1 : Shape.Concatenates [S10000x1, S10000x1, S10000x1, S10000x1] S10000x4 1
  concatenates_S10000x16_S10000x16_S10000x4_S10000x36_d1 : Shape.Concatenates [S10000x16, S10000x16, S10000x4] S10000x36 1
  bcast_S10000x1_S10000x36_0_1 : S10000x1.BroadcastsInDim S10000x36 (![0, 1] : Fin 2 → Fin S10000x36.rank)
  shapeCasts_S10000x36_S10000x6x6 : S10000x36.ShapeCasts S10000x6x6
  bcast_S_S10000x1 : S_.BroadcastsInDim S10000x1 (![] : Fin 0 → Fin S10000x1.rank)
  bcast_S3_S1x3_1 : S3.BroadcastsInDim S1x3 (![1] : Fin 1 → Fin S1x3.rank)
  bcast_S10000x1_S10000x3_0_1 : S10000x1.BroadcastsInDim S10000x3 (![0, 1] : Fin 2 → Fin S10000x3.rank)
  bcast_S1x3_S10000x3_0_1 : S1x3.BroadcastsInDim S10000x3 (![0, 1] : Fin 2 → Fin S10000x3.rank)
  bcast_S_S7500x7500 : S_.BroadcastsInDim S7500x7500 (![] : Fin 0 → Fin S7500x7500.rank)
  bcast_S10000x3_S10000x3x1_0_1 : S10000x3.BroadcastsInDim S10000x3x1 (![0, 1] : Fin 2 → Fin S10000x3x1.rank)
  bcast_S10000x3_S10000x1x3_0_2 : S10000x3.BroadcastsInDim S10000x1x3 (![0, 2] : Fin 2 → Fin S10000x1x3.rank)
  slices_S10000x6x6_S10000x3x3_0_0_0 : S10000x6x6.Slices ![0, 0, 0] S10000x3x3
  bcast_S_S10000x3x1 : S_.BroadcastsInDim S10000x3x1 (![] : Fin 0 → Fin S10000x3x1.rank)
  bcast_S_S10000x1x3 : S_.BroadcastsInDim S10000x1x3 (![] : Fin 0 → Fin S10000x1x3.rank)
  bcast_S10000x3x1_S10000x3x3_0_1_2 : S10000x3x1.BroadcastsInDim S10000x3x3 (![0, 1, 2] : Fin 3 → Fin S10000x3x3.rank)
  bcast_S10000x1x3_S10000x3x3_0_1_2 : S10000x1x3.BroadcastsInDim S10000x3x3 (![0, 1, 2] : Fin 3 → Fin S10000x3x3.rank)
  bcast_S10000x3x3_S10000x3x3x1_0_1_2 : S10000x3x3.BroadcastsInDim S10000x3x3x1 (![0, 1, 2] : Fin 3 → Fin S10000x3x3x1.rank)
  concatenates_S10000x3x3x1_S10000x3x3x1_S10000x3x3x2_d3 : Shape.Concatenates [S10000x3x3x1, S10000x3x3x1] S10000x3x3x2 3
  slices_S10000x6x6_S10000x3x3_0_0_3 : S10000x6x6.Slices ![0, 0, 3] S10000x3x3
  slices_S10000x6x6_S10000x3x3_0_3_0 : S10000x6x6.Slices ![0, 3, 0] S10000x3x3
  slices_S10000x6x6_S10000x3x3_0_3_3 : S10000x6x6.Slices ![0, 3, 3] S10000x3x3
  gather_S2500x2_S10000x1_S10000x2_1_0_n_n_0_1_12_wf : GatherDims.WF S2500x2 S10000x1 S10000x2 [1] [0] [] [0] [] 1 ![1, 2]
  scatter_S7500x7500_S10000x3x3x2_S10000x3x3_n_01_01_3_wf : ScatterDims.WF S7500x7500 S10000x3x3x2 S10000x3x3 [] [0, 1] [0, 1] 3

variable [Facts₀]

def gather_S2500x2_S10000x1_S10000x2_1_0_n_n_0_1_12 : GatherDims S2500x2 S10000x1 S10000x2 where
  offsetDims := [1]
  collapsedSliceDims := [0]
  operandBatchingDims := []
  startIndicesBatchingDims := []
  startIndexMap := [0]
  indexVectorDim := 1
  sliceSizes := ![1, 2]
  wf := gather_S2500x2_S10000x1_S10000x2_1_0_n_n_0_1_12_wf
def scatter_S7500x7500_S10000x3x3x2_S10000x3x3_n_01_01_3 : ScatterDims S7500x7500 S10000x3x3x2 S10000x3x3 where
  updateWindowDims := []
  insertedWindowDims := [0, 1]
  scatterDimsToOperandDims := [0, 1]
  indexVectorDim := 3
  wf := scatter_S7500x7500_S10000x3x3x2_S10000x3x3_n_01_01_3_wf

class Facts : Prop extends Facts₀ where

variable [Facts]
-- ==== Proof.KFrame.lean ====
/- The frame certificate of `Cert.Kernel`: @main is a stretch of host operations, one region over a grid of a single
   point, and a second stretch of host operations. This file places the region inside @main, names what each
   window's array holds when the region is entered, computes what the body leaves in the output window's buffer,
   proves the body's triple, and from the run of the whole program reads off that the five argument arrays end as
   they began. Everything is stated for an arbitrary float model `F`. -/
import proofs.«116600_j39926015984151_2_alg».proof.Proof.Gen.Kernel.Launch
import proofs.«116600_j39926015984151_2_alg».proof.Proof.Gen.Kernel.Skeleton
import proofs.«116600_j39926015984151_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- deciding membership in a rectangle of extent 36 × 10000 recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region inside @main -/

/-- The TensorCore buffers of core `c` at the moment the region is entered: the launch memory pushed through the
    first stretch of host operations. -/
abbrev V0 (c : Dev nD) : Valuation τ sig (Elt F) := StableHlo.after (List.flatten [hostOps0]) (fun b => m (c, b))
/-- `V0` looked up at one TensorCore reference. -/
abbrev V (c : Dev nD) (b : Ref sig .tc) : Buf (Elt F) ((c : Thread nD τ).loc b) := V0 m c (Proc.devRef .tc b)

/-- Flattening a one-element list of lists gives the element back. -/
theorem flatten_one {α : Type _} (l : List α) : List.flatten [l] = l := by
  simp only [List.flatten_cons, List.flatten_nil, List.append_nil]

/-- No host operation before the region allocates. -/
theorem hostOps0_fresh : (hostOps0 : List (HloOp τ sig (Elt F))).Forall fun op => op.fresh = ∅ := by
  simp only [List.Forall]; repeat' constructor
set_option maxHeartbeats 4000000 in
/-- Nor does any after it. -/
theorem hostOps1_fresh : (hostOps1 : List (HloOp τ sig (Elt F))).Forall fun op => op.fresh = ∅ := by
  simp only [List.Forall]; repeat' constructor

/-- @main is the first stretch, then the region, then the second stretch; so, seen from the region, it is the
    region continued by the second stretch, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The second stretch leaves the region's arrays and the arguments alone

Every host operation writes exactly one buffer, its result, and the result buffers of the second stretch are
all different from the five window arrays and from the five arguments. Each statement below is one conjunction
over the whole stretch, every conjunct an inequality of two named references. -/

/-- The conjunction, over a named stretch, that no operation of it writes the named buffer. -/
local macro "stretch_avoids " ops:ident : tactic => `(tactic| (
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

set_option maxHeartbeats 4000000 in
theorem tail_avoids_v16 : (hostOps1 : List (HloOp τ sig (Elt F))).Forall fun op => Proc.devRef .tc main_v16 ∉ op.writes := by
  stretch_avoids hostOps1
set_option maxHeartbeats 4000000 in
theorem tail_avoids_v18 : (hostOps1 : List (HloOp τ sig (Elt F))).Forall fun op => Proc.devRef .tc main_v18 ∉ op.writes := by
  stretch_avoids hostOps1
set_option maxHeartbeats 4000000 in
theorem tail_avoids_v19 : (hostOps1 : List (HloOp τ sig (Elt F))).Forall fun op => Proc.devRef .tc main_v19 ∉ op.writes := by
  stretch_avoids hostOps1
set_option maxHeartbeats 4000000 in
theorem tail_avoids_arg0 : (hostOps1 : List (HloOp τ sig (Elt F))).Forall fun op => Proc.devRef .tc main_arg0 ∉ op.writes := by
  stretch_avoids hostOps1
set_option maxHeartbeats 4000000 in
theorem tail_avoids_arg1 : (hostOps1 : List (HloOp τ sig (Elt F))).Forall fun op => Proc.devRef .tc main_arg1 ∉ op.writes := by
  stretch_avoids hostOps1
set_option maxHeartbeats 4000000 in
theorem tail_avoids_arg2 : (hostOps1 : List (HloOp τ sig (Elt F))).Forall fun op => Proc.devRef .tc main_arg2 ∉ op.writes := by
  stretch_avoids hostOps1
set_option maxHeartbeats 4000000 in
theorem tail_avoids_arg3 : (hostOps1 : List (HloOp τ sig (Elt F))).Forall fun op => Proc.devRef .tc main_arg3 ∉ op.writes := by
  stretch_avoids hostOps1
set_option maxHeartbeats 4000000 in
theorem tail_avoids_arg4 : (hostOps1 : List (HloOp τ sig (Elt F))).Forall fun op => Proc.devRef .tc main_arg4 ∉ op.writes := by
  stretch_avoids hostOps1

theorem head_avoids_arg0 : (hostOps0 : List (HloOp τ sig (Elt F))).Forall fun op => Proc.devRef .tc main_arg0 ∉ op.writes := by
  stretch_avoids hostOps0
theorem head_avoids_arg1 : (hostOps0 : List (HloOp τ sig (Elt F))).Forall fun op => Proc.devRef .tc main_arg1 ∉ op.writes := by
  stretch_avoids hostOps0
theorem head_avoids_arg2 : (hostOps0 : List (HloOp τ sig (Elt F))).Forall fun op => Proc.devRef .tc main_arg2 ∉ op.writes := by
  stretch_avoids hostOps0
theorem head_avoids_arg3 : (hostOps0 : List (HloOp τ sig (Elt F))).Forall fun op => Proc.devRef .tc main_arg3 ∉ op.writes := by
  stretch_avoids hostOps0
theorem head_avoids_arg4 : (hostOps0 : List (HloOp τ sig (Elt F))).Forall fun op => Proc.devRef .tc main_arg4 ∉ op.writes := by
  stretch_avoids hostOps0

/-- The operations after the region touch only unscoped TensorCore buffers; with nothing prefetched, those are
    exactly the pipeline's arrays together with the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- And none of them writes an array of the pipeline: window by window, the array is one of the named buffers
    the stretch avoids. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  intro w
  fin_cases w
  · exact (List.forall_iff_forall_mem.mp tail_avoids_v16) op hop
  · exact (List.forall_iff_forall_mem.mp tail_avoids_v18) op hop
  · exact (List.forall_iff_forall_mem.mp tail_avoids_arg3) op hop
  · exact (List.forall_iff_forall_mem.mp tail_avoids_arg4) op hop
  · exact (List.forall_iff_forall_mem.mp tail_avoids_v19) op hop

/-! ## The arguments when the region is entered, and when @main ends -/

/-- The first stretch writes none of the arguments, so the region finds each as launched. -/
theorem V_main_arg0 (c : Dev nD) : V m c main_arg0 = m ((c : Thread nD τ).loc main_arg0) :=
  StableHlo.after_of_forall_not_mem (b := Proc.devRef .tc main_arg0) _ _
    (List.forall_iff_forall_mem.mp (by rw [flatten_one]; exact head_avoids_arg0))
theorem V_main_arg1 (c : Dev nD) : V m c main_arg1 = m ((c : Thread nD τ).loc main_arg1) :=
  StableHlo.after_of_forall_not_mem (b := Proc.devRef .tc main_arg1) _ _
    (List.forall_iff_forall_mem.mp (by rw [flatten_one]; exact head_avoids_arg1))
theorem V_main_arg2 (c : Dev nD) : V m c main_arg2 = m ((c : Thread nD τ).loc main_arg2) :=
  StableHlo.after_of_forall_not_mem (b := Proc.devRef .tc main_arg2) _ _
    (List.forall_iff_forall_mem.mp (by rw [flatten_one]; exact head_avoids_arg2))
theorem V_main_arg3 (c : Dev nD) : V m c main_arg3 = m ((c : Thread nD τ).loc main_arg3) :=
  StableHlo.after_of_forall_not_mem (b := Proc.devRef .tc main_arg3) _ _
    (List.forall_iff_forall_mem.mp (by rw [flatten_one]; exact head_avoids_arg3))
theorem V_main_arg4 (c : Dev nD) : V m c main_arg4 = m ((c : Thread nD τ).loc main_arg4) :=
  StableHlo.after_of_forall_not_mem (b := Proc.devRef .tc main_arg4) _ _
    (List.forall_iff_forall_mem.mp (by rw [flatten_one]; exact head_avoids_arg4))

/-- An argument that no window stages is, at the end of @main, what the second stretch leaves of the region-entry
    contents with the arrays replaced; the stretch does not write it and it is no array, so it is as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _
      (List.forall_iff_forall_mem.mp (by rw [flatten_one]; exact tail_avoids_arg0)),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _
      (List.forall_iff_forall_mem.mp (by rw [flatten_one]; exact tail_avoids_arg1)),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _
      (List.forall_iff_forall_mem.mp (by rw [flatten_one]; exact tail_avoids_arg2)),
    Pipeline.withArrays_of_ne _ c (V0 m c) _ main_arg2 (by exact (by decide : ∀ w, Pipeline.arrRef spec0 w ≠ main_arg2))]
  exact V_main_arg2 m c

/-! ## The windows' blocks -/

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- For proof data whose array of input window `w` is the region-entry contents and whose body hands the block
    back unchanged, the window's current staging buffer holds that block at every point (the window is never cut
    and never idle, so the fetched block is the block of the array). One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim -/

/-- Suppose @main runs to the post that every array of the pipeline holds what the proof data compute for it
    and every other unscoped buffer what the second stretch leaves. Then the five arguments end as launched: the
    two that input windows stage because an input array is never rewritten and was found as launched; the three
    that no window stages because neither stretch writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).1 2).trans (((dats 0 c).arrAt_in 2 rfl _).trans ((hA c 2).trans (V_main_arg3 m c))),
     ((h c).1 3).trans (((dats 0 c).arrAt_in 3 rfl _).trans ((hA c 3).trans (V_main_arg4 m c)))⟩) h

/-! ## What the body reads and writes -/

/-- The rectangle every input load reads: the whole of a vector of 10000 entries. -/
abbrev rIn : Rect S10000 := Rect.unit (s := S10000) ![0] S10000.size inb_S10000_S10000_0
/-- The rectangle of the body's one store: the whole 36 × 10000 block. -/
abbrev rOut : Rect S36x10000 := Rect.unit (s := S36x10000) ![0, 0] S36x10000.size inb_S36x10000_S36x10000_0_0

/-- The value the body stores, as a function of the four vectors it loads: the composition of the skeleton's
    payloads in the order the three parts of the body produce them (the first part from the loaded vectors, the
    second from the first's results, the third from both), ending in the payload that is handed to the store. -/
def stored0_4 (v0 v2 v4 v5 : Vec F S10000 .f32) : Vec F S36x10000 .f32 :=
  have v16 : FVec F S10000 .f32 := k0_pay5 v0 v2 v4 v5
  have v18 : FVec F S10000 .f32 := k0_pay6 v0 v2 v4 v5
  have v23 : FVec F S10000 .f32 := k0_pay9 v0 v2
  have v24 : FVec F S10000 .f32 := k0_pay10 v0 v2
  have v25 : FVec F S10000 .f32 := k0_pay11 v0 v2
  have v28 : FVec F S10000 .f32 := k0_pay12 v0 v2
  have v31 : FVec F S10000 .f32 := k0_pay13 v0 v2
  have v34 : FVec F S10000 .f32 := k0_pay14 v0 v2
  have v37 : FVec F S10000 .f32 := k0_pay15 v0 v2
  have v38 : FVec F S10000 .f32 := k0_pay16 (F := F)
  have v40 : FVec F S10000 .f32 := k0_pay17 v0 v2
  have v42 : FVec F S10000 .f32 := k0_pay18 v0 v2
  have v44 : FVec F S10000 .f32 := k0_pay19 v0 v2
  have v46 : FVec F S10000 .f32 := k0_pay20 v23
  have v48 : FVec F S10000 .f32 := k0_pay21 v25
  have v50 : FVec F S10000 .f32 := k0_pay22 v28
  have v52 : FVec F S10000 .f32 := k0_pay23 v25
  have v54 : FVec F S10000 .f32 := k0_pay24 v24
  have v56 : FVec F S10000 .f32 := k0_pay25 v31
  have v58 : FVec F S10000 .f32 := k0_pay26 v25
  have v60 : FVec F S10000 .f32 := k0_pay27 v24
  have v62 : FVec F S10000 .f32 := k0_pay28 v31
  have v64 : FVec F S10000 .f32 := k0_pay29 v28
  have v66 : FVec F S10000 .f32 := k0_pay30 v31
  have v68 : FVec F S10000 .f32 := k0_pay31 v23
  have v70 : FVec F S10000 .f32 := k0_pay32 v25
  have v72 : FVec F S10000 .f32 := k0_pay33 v23
  have v74 : FVec F S10000 .f32 := k0_pay34 v25
  have v76 : FVec F S10000 .f32 := k0_pay35 v25
  have v78 : FVec F S10000 .f32 := k0_pay36 v24
  have v80 : FVec F S10000 .f32 := k0_pay37 v25
  have v82 : FVec F S10000 .f32 := k0_pay38 v24
  have v84 : FVec F S10000 .f32 := k0_pay39 v28
  have v123 : FVec F S36x10000 .f32 := k0_pay40 v28 v31 v34 v37 v40 v42 v44 v46 v48 v50 v52 v54 v56 v58 v60 v62 v64 v66 v68 v70 v72 v74 v76 v78 v80 v82 v84
  have v125 : FVec F S10000 .f32 := k0_pay41 v25
  have v127 : FVec F S10000 .f32 := k0_pay42 v24
  have v129 : FVec F S10000 .f32 := k0_pay43 v25
  have v131 : FVec F S10000 .f32 := k0_pay44 v23
  have v133 : FVec F S10000 .f32 := k0_pay45 v24
  have v135 : FVec F S10000 .f32 := k0_pay46 v25
  have v136 : FVec F S10000 .f32 := k0_pay47 (F := F)
  k0_pay1 v16 v18 v23 v24 v25 v38 v123 v125 v127 v129 v131 v133 v135 v136

/-- What the body leaves in the output window's buffer, from the four input buffers: the buffer's one store read
    as a list of pieces (one piece: the whole rectangle, holding the stored value of the four vectors loaded
    through the whole input rectangle). -/
def out0_4 (x0 x1 x2 x3 : Vec F S10000 .f32) : Vec F S36x10000 .f32 :=
  View.canon [⟨rOut, stored0_4 (View.ld x0 rIn) (View.ld x1 rIn) (View.ld x2 rIn) (View.ld x3 rIn)⟩]

/-- The one rectangle tiles the block, so every index of the block lies in it. -/
theorem cover0_4 (p0 : Vec F S36x10000 .f32) (y : S36x10000.Idx) :
    ∃ pc ∈ ([⟨rOut, p0⟩] : List (View.Piece (Elt F) S36x10000 .f32)), y ∈ pc.1.set :=
  View.cover_of_tiled [⟨rOut, p0⟩] S36x10000.size (by rfl) y

/-! ## The body's triple -/

set_option maxHeartbeats 4000000 in
/-- Run on whole staging buffers — the four inputs' at known contents, the output's at any contents — the body
    returns the inputs' buffers as they were and the output's at `out0_4` of the inputs. The printed body and its
    three parts are their skeletons; symbolic execution walks the loads (the output buffer's own load reads
    whatever it holds and the value is dropped) and the one store; the stored buffer read back is the canonical
    form of the store because the store's rectangle covers the block. -/
theorem sound_kernel (c : Dev nD) (E : Set ℕ) (i : grid0.Coords)
    (arg1 : Memref sig .tc .vmem S10000 .f32) (harg1 : arg1.IsWhole) (arg2 : Memref sig .tc .vmem S10000 .f32) (harg2 : arg2.IsWhole)
    (arg3 : Memref sig .tc .vmem S10000 .f32) (harg3 : arg3.IsWhole) (arg4 : Memref sig .tc .vmem S10000 .f32) (harg4 : arg4.IsWhole)
    (arg5 : Memref sig .tc .vmem S36x10000 .f32) (harg5 : arg5.IsWhole)
    (x0 x1 x2 x3 : Vec F S10000 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__edge_kmat_kernel i arg1 harg1 arg2 harg2 arg3 harg3 arg4 harg4 arg5 harg5) K := by
  simp only [cc0__edge_kmat_kernel_eq_skeleton]; unfold cc0__edge_kmat_kernel_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the one pipeline on core `c`. The arrays are the region-entry contents. After the body at
    point `t` an input's buffer still holds its block, and the output's buffer holds `out0_4` of the four input
    blocks. The invariant is the class's standing one (the scoped rest and the generator register, untouched);
    nothing is owed; every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents, by projecting the definition (so that the fold over the
    first stretch inside `V` is never opened). -/
theorem A_eq (c : Dev nD) (w : Fin cfg0.W) : (dats m 0 c).A w = V m c (Pipeline.arrRef spec0 w) := by
  dsimp only [dats]

/-- What the body leaves, window by window (the definition's case split reduced at each literal window). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the pipeline hands the body at point `t`: the invariant, what is owed, and each window's current staging
    buffer at the contents the proof data prescribe before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body must hand back: the same, with each buffer at the contents prescribed after the body. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
/-- The body at any point: the inputs' buffers hold their blocks, so the body's triple applies; the invariant and
    what is owed are carried across untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: its two products over the windows written out factor by factor. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with the statement below, which needs
-- plain definitions unfolded inside the type of a metavariable
set_option backward.isDefEq.respectTransparency.types false in
/-- From any launch memory with all counters at zero, every weakly fair execution of @main on the TensorCores
    terminates, and in every final state each array of the pipeline holds what the proof data compute for it and
    every other unscoped buffer holds what the second stretch leaves of the region-entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any float model: @main terminates and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KIFrame.lean ====
/- The frame certificate of `Cert.KernelIdeal`: @main is a stretch of host operations, one region over a grid of a single
   point, and a second stretch of host operations. This file places the region inside @main, names what each
   window's array holds when the region is entered, computes what the body leaves in the output window's buffer,
   proves the body's triple, and from the run of the whole program reads off that the five argument arrays end as
   they began. Everything is stated for an arbitrary float model `F`. -/
import proofs.«116600_j39926015984151_2_alg».proof.Proof.Gen.KernelIdeal.Launch
import proofs.«116600_j39926015984151_2_alg».proof.Proof.Gen.KernelIdeal.Skeleton
import proofs.«116600_j39926015984151_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- deciding membership in a rectangle of extent 36 × 10000 recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region inside @main -/

/-- The TensorCore buffers of core `c` at the moment the region is entered: the launch memory pushed through the
    first stretch of host operations. -/
abbrev V0 (c : Dev nD) : Valuation τ sig (Elt F) := StableHlo.after (List.flatten [hostOps0]) (fun b => m (c, b))
/-- `V0` looked up at one TensorCore reference. -/
abbrev V (c : Dev nD) (b : Ref sig .tc) : Buf (Elt F) ((c : Thread nD τ).loc b) := V0 m c (Proc.devRef .tc b)

/-- Flattening a one-element list of lists gives the element back. -/
theorem flatten_one {α : Type _} (l : List α) : List.flatten [l] = l := by
  simp only [List.flatten_cons, List.flatten_nil, List.append_nil]

/-- No host operation before the region allocates. -/
theorem hostOps0_fresh : (hostOps0 : List (HloOp τ sig (Elt F))).Forall fun op => op.fresh = ∅ := by
  simp only [List.Forall]; repeat' constructor
set_option maxHeartbeats 4000000 in
/-- Nor does any after it. -/
theorem hostOps1_fresh : (hostOps1 : List (HloOp τ sig (Elt F))).Forall fun op => op.fresh = ∅ := by
  simp only [List.Forall]; repeat' constructor

/-- @main is the first stretch, then the region, then the second stretch; so, seen from the region, it is the
    region continued by the second stretch, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The second stretch leaves the region's arrays and the arguments alone

Every host operation writes exactly one buffer, its result, and the result buffers of the second stretch are
all different from the five window arrays and from the five arguments. Each statement below is one conjunction
over the whole stretch, every conjunct an inequality of two named references. -/

/-- The conjunction, over a named stretch, that no operation of it writes the named buffer. -/
local macro "stretch_avoids " ops:ident : tactic => `(tactic| (
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

set_option maxHeartbeats 4000000 in
theorem tail_avoids_v16 : (hostOps1 : List (HloOp τ sig (Elt F))).Forall fun op => Proc.devRef .tc main_v16 ∉ op.writes := by
  stretch_avoids hostOps1
set_option maxHeartbeats 4000000 in
theorem tail_avoids_v18 : (hostOps1 : List (HloOp τ sig (Elt F))).Forall fun op => Proc.devRef .tc main_v18 ∉ op.writes := by
  stretch_avoids hostOps1
set_option maxHeartbeats 4000000 in
theorem tail_avoids_v19 : (hostOps1 : List (HloOp τ sig (Elt F))).Forall fun op => Proc.devRef .tc main_v19 ∉ op.writes := by
  stretch_avoids hostOps1
set_option maxHeartbeats 4000000 in
theorem tail_avoids_arg0 : (hostOps1 : List (HloOp τ sig (Elt F))).Forall fun op => Proc.devRef .tc main_arg0 ∉ op.writes := by
  stretch_avoids hostOps1
set_option maxHeartbeats 4000000 in
theorem tail_avoids_arg1 : (hostOps1 : List (HloOp τ sig (Elt F))).Forall fun op => Proc.devRef .tc main_arg1 ∉ op.writes := by
  stretch_avoids hostOps1
set_option maxHeartbeats 4000000 in
theorem tail_avoids_arg2 : (hostOps1 : List (HloOp τ sig (Elt F))).Forall fun op => Proc.devRef .tc main_arg2 ∉ op.writes := by
  stretch_avoids hostOps1
set_option maxHeartbeats 4000000 in
theorem tail_avoids_arg3 : (hostOps1 : List (HloOp τ sig (Elt F))).Forall fun op => Proc.devRef .tc main_arg3 ∉ op.writes := by
  stretch_avoids hostOps1
set_option maxHeartbeats 4000000 in
theorem tail_avoids_arg4 : (hostOps1 : List (HloOp τ sig (Elt F))).Forall fun op => Proc.devRef .tc main_arg4 ∉ op.writes := by
  stretch_avoids hostOps1

theorem head_avoids_arg0 : (hostOps0 : List (HloOp τ sig (Elt F))).Forall fun op => Proc.devRef .tc main_arg0 ∉ op.writes := by
  stretch_avoids hostOps0
theorem head_avoids_arg1 : (hostOps0 : List (HloOp τ sig (Elt F))).Forall fun op => Proc.devRef .tc main_arg1 ∉ op.writes := by
  stretch_avoids hostOps0
theorem head_avoids_arg2 : (hostOps0 : List (HloOp τ sig (Elt F))).Forall fun op => Proc.devRef .tc main_arg2 ∉ op.writes := by
  stretch_avoids hostOps0
theorem head_avoids_arg3 : (hostOps0 : List (HloOp τ sig (Elt F))).Forall fun op => Proc.devRef .tc main_arg3 ∉ op.writes := by
  stretch_avoids hostOps0
theorem head_avoids_arg4 : (hostOps0 : List (HloOp τ sig (Elt F))).Forall fun op => Proc.devRef .tc main_arg4 ∉ op.writes := by
  stretch_avoids hostOps0

/-- The operations after the region touch only unscoped TensorCore buffers; with nothing prefetched, those are
    exactly the pipeline's arrays together with the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- And none of them writes an array of the pipeline: window by window, the array is one of the named buffers
    the stretch avoids. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  intro w
  fin_cases w
  · exact (List.forall_iff_forall_mem.mp tail_avoids_v16) op hop
  · exact (List.forall_iff_forall_mem.mp tail_avoids_v18) op hop
  · exact (List.forall_iff_forall_mem.mp tail_avoids_arg3) op hop
  · exact (List.forall_iff_forall_mem.mp tail_avoids_arg4) op hop
  · exact (List.forall_iff_forall_mem.mp tail_avoids_v19) op hop

/-! ## The arguments when the region is entered, and when @main ends -/

/-- The first stretch writes none of the arguments, so the region finds each as launched. -/
theorem V_main_arg0 (c : Dev nD) : V m c main_arg0 = m ((c : Thread nD τ).loc main_arg0) :=
  StableHlo.after_of_forall_not_mem (b := Proc.devRef .tc main_arg0) _ _
    (List.forall_iff_forall_mem.mp (by rw [flatten_one]; exact head_avoids_arg0))
theorem V_main_arg1 (c : Dev nD) : V m c main_arg1 = m ((c : Thread nD τ).loc main_arg1) :=
  StableHlo.after_of_forall_not_mem (b := Proc.devRef .tc main_arg1) _ _
    (List.forall_iff_forall_mem.mp (by rw [flatten_one]; exact head_avoids_arg1))
theorem V_main_arg2 (c : Dev nD) : V m c main_arg2 = m ((c : Thread nD τ).loc main_arg2) :=
  StableHlo.after_of_forall_not_mem (b := Proc.devRef .tc main_arg2) _ _
    (List.forall_iff_forall_mem.mp (by rw [flatten_one]; exact head_avoids_arg2))
theorem V_main_arg3 (c : Dev nD) : V m c main_arg3 = m ((c : Thread nD τ).loc main_arg3) :=
  StableHlo.after_of_forall_not_mem (b := Proc.devRef .tc main_arg3) _ _
    (List.forall_iff_forall_mem.mp (by rw [flatten_one]; exact head_avoids_arg3))
theorem V_main_arg4 (c : Dev nD) : V m c main_arg4 = m ((c : Thread nD τ).loc main_arg4) :=
  StableHlo.after_of_forall_not_mem (b := Proc.devRef .tc main_arg4) _ _
    (List.forall_iff_forall_mem.mp (by rw [flatten_one]; exact head_avoids_arg4))

/-- An argument that no window stages is, at the end of @main, what the second stretch leaves of the region-entry
    contents with the arrays replaced; the stretch does not write it and it is no array, so it is as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _
      (List.forall_iff_forall_mem.mp (by rw [flatten_one]; exact tail_avoids_arg0)),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _
      (List.forall_iff_forall_mem.mp (by rw [flatten_one]; exact tail_avoids_arg1)),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _
      (List.forall_iff_forall_mem.mp (by rw [flatten_one]; exact tail_avoids_arg2)),
    Pipeline.withArrays_of_ne _ c (V0 m c) _ main_arg2 (by exact (by decide : ∀ w, Pipeline.arrRef spec0 w ≠ main_arg2))]
  exact V_main_arg2 m c

/-! ## The windows' blocks -/

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- For proof data whose array of input window `w` is the region-entry contents and whose body hands the block
    back unchanged, the window's current staging buffer holds that block at every point (the window is never cut
    and never idle, so the fetched block is the block of the array). One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim -/

/-- Suppose @main runs to the post that every array of the pipeline holds what the proof data compute for it
    and every other unscoped buffer what the second stretch leaves. Then the five arguments end as launched: the
    two that input windows stage because an input array is never rewritten and was found as launched; the three
    that no window stages because neither stretch writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).1 2).trans (((dats 0 c).arrAt_in 2 rfl _).trans ((hA c 2).trans (V_main_arg3 m c))),
     ((h c).1 3).trans (((dats 0 c).arrAt_in 3 rfl _).trans ((hA c 3).trans (V_main_arg4 m c)))⟩) h

/-! ## What the body reads and writes -/

/-- The rectangle every input load reads: the whole of a vector of 10000 entries. -/
abbrev rIn : Rect S10000 := Rect.unit (s := S10000) ![0] S10000.size inb_S10000_S10000_0
/-- The rectangle of the body's one store: the whole 36 × 10000 block. -/
abbrev rOut : Rect S36x10000 := Rect.unit (s := S36x10000) ![0, 0] S36x10000.size inb_S36x10000_S36x10000_0_0

/-- The value the body stores, as a function of the four vectors it loads: the composition of the skeleton's
    payloads in the order the three parts of the body produce them (the first part from the loaded vectors, the
    second from the first's results, the third from both), ending in the payload that is handed to the store. -/
def stored0_4 (v0 v2 v4 v5 : Vec F S10000 .f32) : Vec F S36x10000 .f32 :=
  have v16 : FVec F S10000 .f32 := k0_pay5 v0 v2 v4 v5
  have v18 : FVec F S10000 .f32 := k0_pay6 v0 v2 v4 v5
  have v23 : FVec F S10000 .f32 := k0_pay9 v0 v2
  have v24 : FVec F S10000 .f32 := k0_pay10 v0 v2
  have v25 : FVec F S10000 .f32 := k0_pay11 v0 v2
  have v28 : FVec F S10000 .f32 := k0_pay12 v0 v2
  have v31 : FVec F S10000 .f32 := k0_pay13 v0 v2
  have v34 : FVec F S10000 .f32 := k0_pay14 v0 v2
  have v37 : FVec F S10000 .f32 := k0_pay15 v0 v2
  have v38 : FVec F S10000 .f32 := k0_pay16 (F := F)
  have v40 : FVec F S10000 .f32 := k0_pay17 v0 v2
  have v42 : FVec F S10000 .f32 := k0_pay18 v0 v2
  have v44 : FVec F S10000 .f32 := k0_pay19 v0 v2
  have v46 : FVec F S10000 .f32 := k0_pay20 v23
  have v48 : FVec F S10000 .f32 := k0_pay21 v25
  have v50 : FVec F S10000 .f32 := k0_pay22 v28
  have v52 : FVec F S10000 .f32 := k0_pay23 v25
  have v54 : FVec F S10000 .f32 := k0_pay24 v24
  have v56 : FVec F S10000 .f32 := k0_pay25 v31
  have v58 : FVec F S10000 .f32 := k0_pay26 v25
  have v60 : FVec F S10000 .f32 := k0_pay27 v24
  have v62 : FVec F S10000 .f32 := k0_pay28 v31
  have v64 : FVec F S10000 .f32 := k0_pay29 v28
  have v66 : FVec F S10000 .f32 := k0_pay30 v31
  have v68 : FVec F S10000 .f32 := k0_pay31 v23
  have v70 : FVec F S10000 .f32 := k0_pay32 v25
  have v72 : FVec F S10000 .f32 := k0_pay33 v23
  have v74 : FVec F S10000 .f32 := k0_pay34 v25
  have v76 : FVec F S10000 .f32 := k0_pay35 v25
  have v78 : FVec F S10000 .f32 := k0_pay36 v24
  have v80 : FVec F S10000 .f32 := k0_pay37 v25
  have v82 : FVec F S10000 .f32 := k0_pay38 v24
  have v84 : FVec F S10000 .f32 := k0_pay39 v28
  have v123 : FVec F S36x10000 .f32 := k0_pay40 v28 v31 v34 v37 v40 v42 v44 v46 v48 v50 v52 v54 v56 v58 v60 v62 v64 v66 v68 v70 v72 v74 v76 v78 v80 v82 v84
  have v125 : FVec F S10000 .f32 := k0_pay41 v25
  have v127 : FVec F S10000 .f32 := k0_pay42 v24
  have v129 : FVec F S10000 .f32 := k0_pay43 v25
  have v131 : FVec F S10000 .f32 := k0_pay44 v23
  have v133 : FVec F S10000 .f32 := k0_pay45 v24
  have v135 : FVec F S10000 .f32 := k0_pay46 v25
  have v136 : FVec F S10000 .f32 := k0_pay47 (F := F)
  k0_pay1 v16 v18 v23 v24 v25 v38 v123 v125 v127 v129 v131 v133 v135 v136

/-- What the body leaves in the output window's buffer, from the four input buffers: the buffer's one store read
    as a list of pieces (one piece: the whole rectangle, holding the stored value of the four vectors loaded
    through the whole input rectangle). -/
def out0_4 (x0 x1 x2 x3 : Vec F S10000 .f32) : Vec F S36x10000 .f32 :=
  View.canon [⟨rOut, stored0_4 (View.ld x0 rIn) (View.ld x1 rIn) (View.ld x2 rIn) (View.ld x3 rIn)⟩]

/-- The one rectangle tiles the block, so every index of the block lies in it. -/
theorem cover0_4 (p0 : Vec F S36x10000 .f32) (y : S36x10000.Idx) :
    ∃ pc ∈ ([⟨rOut, p0⟩] : List (View.Piece (Elt F) S36x10000 .f32)), y ∈ pc.1.set :=
  View.cover_of_tiled [⟨rOut, p0⟩] S36x10000.size (by rfl) y

/-! ## The body's triple -/

set_option maxHeartbeats 4000000 in
/-- Run on whole staging buffers — the four inputs' at known contents, the output's at any contents — the body
    returns the inputs' buffers as they were and the output's at `out0_4` of the inputs. The printed body and its
    three parts are their skeletons; symbolic execution walks the loads (the output buffer's own load reads
    whatever it holds and the value is dropped) and the one store; the stored buffer read back is the canonical
    form of the store because the store's rectangle covers the block. -/
theorem sound_kernel (c : Dev nD) (E : Set ℕ) (i : grid0.Coords)
    (arg1 : Memref sig .tc .vmem S10000 .f32) (harg1 : arg1.IsWhole) (arg2 : Memref sig .tc .vmem S10000 .f32) (harg2 : arg2.IsWhole)
    (arg3 : Memref sig .tc .vmem S10000 .f32) (harg3 : arg3.IsWhole) (arg4 : Memref sig .tc .vmem S10000 .f32) (harg4 : arg4.IsWhole)
    (arg5 : Memref sig .tc .vmem S36x10000 .f32) (harg5 : arg5.IsWhole)
    (x0 x1 x2 x3 : Vec F S10000 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__edge_kmat_kernel i arg1 harg1 arg2 harg2 arg3 harg3 arg4 harg4 arg5 harg5) K := by
  simp only [cc0__edge_kmat_kernel_eq_skeleton]; unfold cc0__edge_kmat_kernel_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the one pipeline on core `c`. The arrays are the region-entry contents. After the body at
    point `t` an input's buffer still holds its block, and the output's buffer holds `out0_4` of the four input
    blocks. The invariant is the class's standing one (the scoped rest and the generator register, untouched);
    nothing is owed; every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents, by projecting the definition (so that the fold over the
    first stretch inside `V` is never opened). -/
theorem A_eq (c : Dev nD) (w : Fin cfg0.W) : (dats m 0 c).A w = V m c (Pipeline.arrRef spec0 w) := by
  dsimp only [dats]

/-- What the body leaves, window by window (the definition's case split reduced at each literal window). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the pipeline hands the body at point `t`: the invariant, what is owed, and each window's current staging
    buffer at the contents the proof data prescribe before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body must hand back: the same, with each buffer at the contents prescribed after the body. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
/-- The body at any point: the inputs' buffers hold their blocks, so the body's triple applies; the invariant and
    what is owed are carried across untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: its two products over the windows written out factor by factor. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with the statement below, which needs
-- plain definitions unfolded inside the type of a metavariable
set_option backward.isDefEq.respectTransparency.types false in
/-- From any launch memory with all counters at zero, every weakly fair execution of @main on the TensorCores
    terminates, and in every final state each array of the pipeline holds what the proof data compute for it and
    every other unscoped buffer holds what the second stretch leaves of the region-entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any float model: @main terminates and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KIFinal.lean ====
/- The closed form of the output array of `Cert.KernelIdeal` after the run. The grid has a single point and every window's
   block is the whole of its array; so each input block is the input array itself, the body's one store fills the
   whole output block, and the one write-back fills the whole output array. The array therefore ends holding the
   stored value of the four input arrays as the region finds them. -/
import proofs.«116600_j39926015984151_2_alg».proof.Proof.KIFrame
import Idealize.ShloMosaic.Lib.Pipeline.Value

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The offsets of the two whole rectangles are zero on every axis. -/
theorem hz1 : (![0] : Fin 1 → Nat) = fun _ => 0 := funext fun a => by fin_cases a <;> rfl
theorem hz2 : (![0, 0] : Fin 2 → Nat) = fun _ => 0 := funext fun a => by fin_cases a <;> rfl

/-- At the only point of the grid every window's block index is zero on every axis (decided over the grid). -/
theorem idx_zero : ∀ t : Fin cfg0.N, win0_0.index t (0 : Fin 1) = 0 ∧ win0_1.index t (0 : Fin 1) = 0
    ∧ win0_2.index t (0 : Fin 1) = 0 ∧ win0_3.index t (0 : Fin 1) = 0
    ∧ win0_4.index t (0 : Fin 2) = 0 ∧ win0_4.index t (1 : Fin 2) = 0 :=
  (by decide +kernel : ∀ t : Fin grid0.N, _)

/-- An input window's block is its whole array: the block's position `y` sits at array index
    `0 * 10000 + 1 * y = y`. One statement per input window, as an equality of functions. -/
theorem iblk0_eq (c : Dev nD) (t : Fin cfg0.N) : iblk m c 0 t = V m c main_v16 := by
  obtain ⟨e0, e1, e2, e3, e4, e5⟩ := idx_zero t
  funext y
  show V m c main_v16 (((cfg0.win 0).blk t).view.emb y) = V m c main_v16 y
  congr 1
  funext a; apply Fin.ext
  match a with
  | ⟨0, _⟩ => show win0_0.index t (0 : Fin 1) * 10000 + 1 * (y 0).val = (y 0).val; omega
theorem iblk1_eq (c : Dev nD) (t : Fin cfg0.N) : iblk m c 1 t = V m c main_v18 := by
  obtain ⟨e0, e1, e2, e3, e4, e5⟩ := idx_zero t
  funext y
  show V m c main_v18 (((cfg0.win 1).blk t).view.emb y) = V m c main_v18 y
  congr 1
  funext a; apply Fin.ext
  match a with
  | ⟨0, _⟩ => show win0_1.index t (0 : Fin 1) * 10000 + 1 * (y 0).val = (y 0).val; omega
theorem iblk2_eq (c : Dev nD) (t : Fin cfg0.N) : iblk m c 2 t = V m c main_arg3 := by
  obtain ⟨e0, e1, e2, e3, e4, e5⟩ := idx_zero t
  funext y
  show V m c main_arg3 (((cfg0.win 2).blk t).view.emb y) = V m c main_arg3 y
  congr 1
  funext a; apply Fin.ext
  match a with
  | ⟨0, _⟩ => show win0_2.index t (0 : Fin 1) * 10000 + 1 * (y 0).val = (y 0).val; omega
theorem iblk3_eq (c : Dev nD) (t : Fin cfg0.N) : iblk m c 3 t = V m c main_arg4 := by
  obtain ⟨e0, e1, e2, e3, e4, e5⟩ := idx_zero t
  funext y
  show V m c main_arg4 (((cfg0.win 3).blk t).view.emb y) = V m c main_arg4 y
  congr 1
  funext a; apply Fin.ext
  match a with
  | ⟨0, _⟩ => show win0_3.index t (0 : Fin 1) * 10000 + 1 * (y 0).val = (y 0).val; omega

/-- What the output array ends holding: the stored value of the four input arrays as the region finds them. -/
abbrev G4 (c : Dev nD) : Vec F S36x10000 .f32 :=
  stored0_4 (V m c main_v16) (V m c main_v18) (V m c main_arg3) (V m c main_arg4)

/-- What the only point writes back is `G4` read through the point's block: the store's rectangle is the whole
    block, the loads' rectangle the whole input, the input blocks the input arrays, and the output block's position
    `j` sits at array index `j`. -/
theorem flushed4_eq (c : Dev nD) (t : Fin cfg0.N) :
    (dats m 0 c).flushed 4 t = ((cfg0.win 4).blk t).view.read (Elt F) (G4 m c) := by
  show (cfg0.win 4).cut (grid0.coords t) ((dats m 0 c).after 4 t) = _
  rw [after0_4]
  unfold out0_4
  rw [View.canon_unit_zero hz2]
  simp only [View.ld_unit_zero (S := S10000) hz1]
  rw [iblk0_eq, iblk1_eq, iblk2_eq, iblk3_eq]
  obtain ⟨e0, e1, e2, e3, e4, e5⟩ := idx_zero t
  funext j
  show G4 m c j = G4 m c (((cfg0.win 4).blk t).view.emb j)
  congr 1
  funext a; apply Fin.ext
  match a with
  | ⟨0, _⟩ => show (j 0).val = win0_4.index t (0 : Fin 2) * 36 + 1 * (j 0).val; omega
  | ⟨1, _⟩ => show (j 1).val = win0_4.index t (1 : Fin 2) * 10000 + 1 * (j 1).val; omega

/-- An index of the output array lies in the point's block iff each coordinate lies in the block's range. -/
theorem mem_blk4 (t : Fin cfg0.N) (i : S36x10000.Idx) :
    i ∈ ((cfg0.win 4).blk t).view.set ↔ ∀ a : Fin 2, win0_4.index t a * S36x10000.size a ≤ (i a).val ∧ (i a).val < win0_4.index t a * S36x10000.size a + S36x10000.size a := by
  show i ∈ ((View.whole main_v19).slice (win0_4.rect t)).set ↔ _
  rw [View.set_slice_whole, Rect.mem_set_unit]
  exact Iff.rfl

/-- Every index of the output array lies in the block of the grid's point, which is written back. -/
theorem covered4 (i : S36x10000.Idx) :
    ∃ t : Fin cfg0.N, (cfg0.win 4).flush t = true ∧ i ∈ ((cfg0.win 4).blk t).view.set := by
  refine ⟨t0_0, flush0_4 t0_0, ?_⟩
  rw [mem_blk4]
  obtain ⟨e0, e1, e2, e3, e4, e5⟩ := idx_zero t0_0
  have hi0 : (i 0).val < 36 := (i 0).isLt
  have hi1 : (i 1).val < 10000 := (i 1).isLt
  intro a
  match a with
  | ⟨0, _⟩ => show win0_4.index t0_0 (0 : Fin 2) * 36 ≤ (i 0).val ∧ (i 0).val < win0_4.index t0_0 (0 : Fin 2) * 36 + 36; omega
  | ⟨1, _⟩ => show win0_4.index t0_0 (1 : Fin 2) * 10000 ≤ (i 1).val ∧ (i 1).val < win0_4.index t0_0 (1 : Fin 2) * 10000 + 10000; omega

/-- THE OUTPUT ARRAY after the run: the stored value of the four input arrays as the region finds them. -/
theorem final4 (c : Dev nD) : (dats m 0 c).arrAt 4 cfg0.N
    = stored0_4 (V m c main_v16) (V m c main_v18) (V m c main_arg3) (V m c main_arg4) :=
  (dats m 0 c).arrAt_eq_of_cover 4 (G4 m c) (fun t _ => flushed4_eq m c t) covered4

end Cert.KernelIdeal.Hand

end
-- ==== Proof.KIResult.lean ====
/- The host side of `Cert.KernelIdeal`'s value: what the host operations before the region put in the two input arrays they
   compute, what the host operations after the region make of the region's output array, and the run of @main
   re-posted over these pure functions of the launch arguments. -/
import proofs.«116600_j39926015984151_2_alg».proof.Proof.KIFinal
import Idealize.ShloMosaic.Lib.StableHlo.Run

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after_cons after_nil)
open Idealize.ShloMosaic.Pipeline (Dat Cfg Window BodyObligation cellOf)

variable {F : FTy → Type} [FloatOps F]

variable (m : (ℓ : Loc nD τ sig) → Buf (Elt F) ℓ) (ρ : Dev nD → PrngReg)

/-! ## Before the region -/

/-- The first input array of the region, from the launch arguments: the host operations before the region, in
    the program's order, up to the one that writes it. Each index vector is wrapped into the table's range (a
    negative entry has the table's length added), the table's rows are gathered at the two index vectors, the
    gathered rows are subtracted, and the first column of the difference is taken as a vector. -/
def preDx (a0 : (⟨S2500x2, .f32⟩ : BufTy).Contents (Elt F)) (a1 a2 : (⟨S10000, .i32⟩ : BufTy).Contents (Elt F)) :
    (⟨S10000, .f32⟩ : BufTy).Contents (Elt F) :=
  have c_ : main_c.ty.Contents (Elt F) := constantI S_ 32 0#32
  have v0 : (⟨S10000, .i32⟩ : BufTy).Contents (Elt F) := (broadcastInDim S10000 ![] bcast_S_S10000 : (⟨S_, .i32⟩ : BufTy).Contents (Elt F) → (⟨S10000, .i32⟩ : BufTy).Contents (Elt F)) c_
  have v1 : (⟨S10000, .i1⟩ : BufTy).Contents (Elt F) := (cmpi .slt : (⟨S10000, .i32⟩ : BufTy).Contents (Elt F) → (⟨S10000, .i32⟩ : BufTy).Contents (Elt F) → (⟨S10000, .i1⟩ : BufTy).Contents (Elt F)) a1 v0
  have c_0 : main_c_0.ty.Contents (Elt F) := constantI S_ 32 2500#32
  have v2 : (⟨S10000, .i32⟩ : BufTy).Contents (Elt F) := (broadcastInDim S10000 ![] bcast_S_S10000 : (⟨S_, .i32⟩ : BufTy).Contents (Elt F) → (⟨S10000, .i32⟩ : BufTy).Contents (Elt F)) c_0
  have v3 : (⟨S10000, .i32⟩ : BufTy).Contents (Elt F) := (addi : (⟨S10000, .i32⟩ : BufTy).Contents (Elt F) → (⟨S10000, .i32⟩ : BufTy).Contents (Elt F) → (⟨S10000, .i32⟩ : BufTy).Contents (Elt F)) a1 v2
  have v4 : (⟨S10000, .i32⟩ : BufTy).Contents (Elt F) := (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)) v1 v3 a1
  have v5 : (⟨S10000x1, .i32⟩ : BufTy).Contents (Elt F) := (broadcastInDim S10000x1 ![0] bcast_S10000_S10000x1_0 : (⟨S10000, .i32⟩ : BufTy).Contents (Elt F) → (⟨S10000x1, .i32⟩ : BufTy).Contents (Elt F)) v4
  have v6 : (⟨S10000x2, .f32⟩ : BufTy).Contents (Elt F) := ((fun x i => Host.gather gather_S2500x2_S10000x1_S10000x2_1_0_n_n_0_1_12 x i) : (⟨S2500x2, .f32⟩ : BufTy).Contents (Elt F) → (⟨S10000x1, .i32⟩ : BufTy).Contents (Elt F) → (⟨S10000x2, .f32⟩ : BufTy).Contents (Elt F)) a0 v5
  have c_1 : main_c_1.ty.Contents (Elt F) := constantI S_ 32 0#32
  have v7 : (⟨S10000, .i32⟩ : BufTy).Contents (Elt F) := (broadcastInDim S10000 ![] bcast_S_S10000 : (⟨S_, .i32⟩ : BufTy).Contents (Elt F) → (⟨S10000, .i32⟩ : BufTy).Contents (Elt F)) c_1
  have v8 : (⟨S10000, .i1⟩ : BufTy).Contents (Elt F) := (cmpi .slt : (⟨S10000, .i32⟩ : BufTy).Contents (Elt F) → (⟨S10000, .i32⟩ : BufTy).Contents (Elt F) → (⟨S10000, .i1⟩ : BufTy).Contents (Elt F)) a2 v7
  have c_2 : main_c_2.ty.Contents (Elt F) := constantI S_ 32 2500#32
  have v9 : (⟨S10000, .i32⟩ : BufTy).Contents (Elt F) := (broadcastInDim S10000 ![] bcast_S_S10000 : (⟨S_, .i32⟩ : BufTy).Contents (Elt F) → (⟨S10000, .i32⟩ : BufTy).Contents (Elt F)) c_2
  have v10 : (⟨S10000, .i32⟩ : BufTy).Contents (Elt F) := (addi : (⟨S10000, .i32⟩ : BufTy).Contents (Elt F) → (⟨S10000, .i32⟩ : BufTy).Contents (Elt F) → (⟨S10000, .i32⟩ : BufTy).Contents (Elt F)) a2 v9
  have v11 : (⟨S10000, .i32⟩ : BufTy).Contents (Elt F) := (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)) v8 v10 a2
  have v12 : (⟨S10000x1, .i32⟩ : BufTy).Contents (Elt F) := (broadcastInDim S10000x1 ![0] bcast_S10000_S10000x1_0 : (⟨S10000, .i32⟩ : BufTy).Contents (Elt F) → (⟨S10000x1, .i32⟩ : BufTy).Contents (Elt F)) v11
  have v13 : (⟨S10000x2, .f32⟩ : BufTy).Contents (Elt F) := ((fun x i => Host.gather gather_S2500x2_S10000x1_S10000x2_1_0_n_n_0_1_12 x i) : (⟨S2500x2, .f32⟩ : BufTy).Contents (Elt F) → (⟨S10000x1, .i32⟩ : BufTy).Contents (Elt F) → (⟨S10000x2, .f32⟩ : BufTy).Contents (Elt F)) a0 v12
  have v14 : (⟨S10000x2, .f32⟩ : BufTy).Contents (Elt F) := (subf : (⟨S10000x2, .f32⟩ : BufTy).Contents (Elt F) → (⟨S10000x2, .f32⟩ : BufTy).Contents (Elt F) → (⟨S10000x2, .f32⟩ : BufTy).Contents (Elt F)) v6 v13
  have v15 : (⟨S10000x1, .f32⟩ : BufTy).Contents (Elt F) := ((extractStridedSlice S10000x1 ![0, 0] · slices_S10000x2_S10000x1_0_0) : (⟨S10000x2, .f32⟩ : BufTy).Contents (Elt F) → (⟨S10000x1, .f32⟩ : BufTy).Contents (Elt F)) v14
  have v16 : main_v16.ty.Contents (Elt F) := shapeCast _ v15 shapeCasts_S10000x1_S10000
  v16

/-- The second input array of the region: the same difference of gathered rows, its second column. -/
def preDy (a0 : (⟨S2500x2, .f32⟩ : BufTy).Contents (Elt F)) (a1 a2 : (⟨S10000, .i32⟩ : BufTy).Contents (Elt F)) :
    (⟨S10000, .f32⟩ : BufTy).Contents (Elt F) :=
  have c_ : main_c.ty.Contents (Elt F) := constantI S_ 32 0#32
  have v0 : (⟨S10000, .i32⟩ : BufTy).Contents (Elt F) := (broadcastInDim S10000 ![] bcast_S_S10000 : (⟨S_, .i32⟩ : BufTy).Contents (Elt F) → (⟨S10000, .i32⟩ : BufTy).Contents (Elt F)) c_
  have v1 : (⟨S10000, .i1⟩ : BufTy).Contents (Elt F) := (cmpi .slt : (⟨S10000, .i32⟩ : BufTy).Contents (Elt F) → (⟨S10000, .i32⟩ : BufTy).Contents (Elt F) → (⟨S10000, .i1⟩ : BufTy).Contents (Elt F)) a1 v0
  have c_0 : main_c_0.ty.Contents (Elt F) := constantI S_ 32 2500#32
  have v2 : (⟨S10000, .i32⟩ : BufTy).Contents (Elt F) := (broadcastInDim S10000 ![] bcast_S_S10000 : (⟨S_, .i32⟩ : BufTy).Contents (Elt F) → (⟨S10000, .i32⟩ : BufTy).Contents (Elt F)) c_0
  have v3 : (⟨S10000, .i32⟩ : BufTy).Contents (Elt F) := (addi : (⟨S10000, .i32⟩ : BufTy).Contents (Elt F) → (⟨S10000, .i32⟩ : BufTy).Contents (Elt F) → (⟨S10000, .i32⟩ : BufTy).Contents (Elt F)) a1 v2
  have v4 : (⟨S10000, .i32⟩ : BufTy).Contents (Elt F) := (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)) v1 v3 a1
  have v5 : (⟨S10000x1, .i32⟩ : BufTy).Contents (Elt F) := (broadcastInDim S10000x1 ![0] bcast_S10000_S10000x1_0 : (⟨S10000, .i32⟩ : BufTy).Contents (Elt F) → (⟨S10000x1, .i32⟩ : BufTy).Contents (Elt F)) v4
  have v6 : (⟨S10000x2, .f32⟩ : BufTy).Contents (Elt F) := ((fun x i => Host.gather gather_S2500x2_S10000x1_S10000x2_1_0_n_n_0_1_12 x i) : (⟨S2500x2, .f32⟩ : BufTy).Contents (Elt F) → (⟨S10000x1, .i32⟩ : BufTy).Contents (Elt F) → (⟨S10000x2, .f32⟩ : BufTy).Contents (Elt F)) a0 v5
  have c_1 : main_c_1.ty.Contents (Elt F) := constantI S_ 32 0#32
  have v7 : (⟨S10000, .i32⟩ : BufTy).Contents (Elt F) := (broadcastInDim S10000 ![] bcast_S_S10000 : (⟨S_, .i32⟩ : BufTy).Contents (Elt F) → (⟨S10000, .i32⟩ : BufTy).Contents (Elt F)) c_1
  have v8 : (⟨S10000, .i1⟩ : BufTy).Contents (Elt F) := (cmpi .slt : (⟨S10000, .i32⟩ : BufTy).Contents (Elt F) → (⟨S10000, .i32⟩ : BufTy).Contents (Elt F) → (⟨S10000, .i1⟩ : BufTy).Contents (Elt F)) a2 v7
  have c_2 : main_c_2.ty.Contents (Elt F) := constantI S_ 32 2500#32
  have v9 : (⟨S10000, .i32⟩ : BufTy).Contents (Elt F) := (broadcastInDim S10000 ![] bcast_S_S10000 : (⟨S_, .i32⟩ : BufTy).Contents (Elt F) → (⟨S10000, .i32⟩ : BufTy).Contents (Elt F)) c_2
  have v10 : (⟨S10000, .i32⟩ : BufTy).Contents (Elt F) := (addi : (⟨S10000, .i32⟩ : BufTy).Contents (Elt F) → (⟨S10000, .i32⟩ : BufTy).Contents (Elt F) → (⟨S10000, .i32⟩ : BufTy).Contents (Elt F)) a2 v9
  have v11 : (⟨S10000, .i32⟩ : BufTy).Contents (Elt F) := (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)) v8 v10 a2
  have v12 : (⟨S10000x1, .i32⟩ : BufTy).Contents (Elt F) := (broadcastInDim S10000x1 ![0] bcast_S10000_S10000x1_0 : (⟨S10000, .i32⟩ : BufTy).Contents (Elt F) → (⟨S10000x1, .i32⟩ : BufTy).Contents (Elt F)) v11
  have v13 : (⟨S10000x2, .f32⟩ : BufTy).Contents (Elt F) := ((fun x i => Host.gather gather_S2500x2_S10000x1_S10000x2_1_0_n_n_0_1_12 x i) : (⟨S2500x2, .f32⟩ : BufTy).Contents (Elt F) → (⟨S10000x1, .i32⟩ : BufTy).Contents (Elt F) → (⟨S10000x2, .f32⟩ : BufTy).Contents (Elt F)) a0 v12
  have v14 : (⟨S10000x2, .f32⟩ : BufTy).Contents (Elt F) := (subf : (⟨S10000x2, .f32⟩ : BufTy).Contents (Elt F) → (⟨S10000x2, .f32⟩ : BufTy).Contents (Elt F) → (⟨S10000x2, .f32⟩ : BufTy).Contents (Elt F)) v6 v13
  have v17 : (⟨S10000x1, .f32⟩ : BufTy).Contents (Elt F) := ((extractStridedSlice S10000x1 ![0, 1] · slices_S10000x2_S10000x1_0_1) : (⟨S10000x2, .f32⟩ : BufTy).Contents (Elt F) → (⟨S10000x1, .f32⟩ : BufTy).Contents (Elt F)) v14
  have v18 : main_v18.ty.Contents (Elt F) := shapeCast _ v17 shapeCasts_S10000x1_S10000
  v18

set_option maxHeartbeats 4000000 in
/-- When the region is entered the first computed input array holds `preDx` of the launch arguments: folding the
    host operations, each one's result buffer takes its function's value and every other buffer keeps what it had. -/
theorem V_main_v16 (c : Dev nD) : V m c main_v16
    = preDx (m ((c : Thread nD τ).loc main_arg0)) (m ((c : Thread nD τ).loc main_arg1)) (m ((c : Thread nD τ).loc main_arg2)) := by
  dsimp only [V, V0]
  rw [flatten_one]
  after_results_simp
  rfl

set_option maxHeartbeats 4000000 in
/-- And the second holds `preDy` of them. -/
theorem V_main_v18 (c : Dev nD) : V m c main_v18
    = preDy (m ((c : Thread nD τ).loc main_arg0)) (m ((c : Thread nD τ).loc main_arg1)) (m ((c : Thread nD τ).loc main_arg2)) := by
  dsimp only [V, V0]
  rw [flatten_one]
  after_results_simp
  rfl

/-! ## After the region -/

/-- The region's 36 × 10000 output array as 10000 blocks of 6 × 6: transposed, then its 36 columns regrouped
    (the first two host operations after the region). -/
def kmatOf (K : (⟨S36x10000, .f32⟩ : BufTy).Contents (Elt F)) : (⟨S10000x6x6, .f32⟩ : BufTy).Contents (Elt F) :=
  have v20 : (⟨S10000x36, .f32⟩ : BufTy).Contents (Elt F) := ((transpose S10000x36 [1, 0] · transposes_S36x10000_S10000x36_1_0) : (⟨S36x10000, .f32⟩ : BufTy).Contents (Elt F) → (⟨S10000x36, .f32⟩ : BufTy).Contents (Elt F)) K
  have v21 : main_v21.ty.Contents (Elt F) := shapeCast _ v20 shapeCasts_S10000x36_S10000x6x6
  v21

/-- The result of @main from the block array and the two index vectors: the remaining host operations, in the
    program's order. Each index vector `a` becomes the 10000 × 3 table `3 * a + {0, 1, 2}`. The four 3 × 3
    quarters of every 6 × 6 block are then scatter-added, one after the other, into a zero 7500 × 7500 matrix: the
    quarter in block row `p` and block column `q` goes to the rows the `p`-th table names and the columns the
    `q`-th table names (a negative index has the matrix's side added first). -/
def tail21 (Kmat : (⟨S10000x6x6, .f32⟩ : BufTy).Contents (Elt F)) (a1 a2 : (⟨S10000, .i32⟩ : BufTy).Contents (Elt F)) :
    (⟨S7500x7500, .f32⟩ : BufTy).Contents (Elt F) :=
  have v22 : main_v22.ty.Contents (Elt F) := iotaInDim S3 32 0
  have v23 : (⟨S10000x1, .i32⟩ : BufTy).Contents (Elt F) := (broadcastInDim S10000x1 ![0] bcast_S10000_S10000x1_0 : (⟨S10000, .i32⟩ : BufTy).Contents (Elt F) → (⟨S10000x1, .i32⟩ : BufTy).Contents (Elt F)) a1
  have c_3 : main_c_3.ty.Contents (Elt F) := constantI S_ 32 3#32
  have v24 : (⟨S10000x1, .i32⟩ : BufTy).Contents (Elt F) := (broadcastInDim S10000x1 ![] bcast_S_S10000x1 : (⟨S_, .i32⟩ : BufTy).Contents (Elt F) → (⟨S10000x1, .i32⟩ : BufTy).Contents (Elt F)) c_3
  have v25 : (⟨S10000x1, .i32⟩ : BufTy).Contents (Elt F) := (muli : (⟨S10000x1, .i32⟩ : BufTy).Contents (Elt F) → (⟨S10000x1, .i32⟩ : BufTy).Contents (Elt F) → (⟨S10000x1, .i32⟩ : BufTy).Contents (Elt F)) v23 v24
  have v26 : (⟨S1x3, .i32⟩ : BufTy).Contents (Elt F) := (broadcastInDim S1x3 ![1] bcast_S3_S1x3_1 : (⟨S3, .i32⟩ : BufTy).Contents (Elt F) → (⟨S1x3, .i32⟩ : BufTy).Contents (Elt F)) v22
  have v27 : (⟨S10000x3, .i32⟩ : BufTy).Contents (Elt F) := (broadcastInDim S10000x3 ![0, 1] bcast_S10000x1_S10000x3_0_1 : (⟨S10000x1, .i32⟩ : BufTy).Contents (Elt F) → (⟨S10000x3, .i32⟩ : BufTy).Contents (Elt F)) v25
  have v28 : (⟨S10000x3, .i32⟩ : BufTy).Contents (Elt F) := (broadcastInDim S10000x3 ![0, 1] bcast_S1x3_S10000x3_0_1 : (⟨S1x3, .i32⟩ : BufTy).Contents (Elt F) → (⟨S10000x3, .i32⟩ : BufTy).Contents (Elt F)) v26
  have v29 : (⟨S10000x3, .i32⟩ : BufTy).Contents (Elt F) := (addi : (⟨S10000x3, .i32⟩ : BufTy).Contents (Elt F) → (⟨S10000x3, .i32⟩ : BufTy).Contents (Elt F) → (⟨S10000x3, .i32⟩ : BufTy).Contents (Elt F)) v27 v28
  have v30 : (⟨S10000x1, .i32⟩ : BufTy).Contents (Elt F) := (broadcastInDim S10000x1 ![0] bcast_S10000_S10000x1_0 : (⟨S10000, .i32⟩ : BufTy).Contents (Elt F) → (⟨S10000x1, .i32⟩ : BufTy).Contents (Elt F)) a2
  have c_4 : main_c_4.ty.Contents (Elt F) := constantI S_ 32 3#32
  have v31 : (⟨S10000x1, .i32⟩ : BufTy).Contents (Elt F) := (broadcastInDim S10000x1 ![] bcast_S_S10000x1 : (⟨S_, .i32⟩ : BufTy).Contents (Elt F) → (⟨S10000x1, .i32⟩ : BufTy).Contents (Elt F)) c_4
  have v32 : (⟨S10000x1, .i32⟩ : BufTy).Contents (Elt F) := (muli : (⟨S10000x1, .i32⟩ : BufTy).Contents (Elt F) → (⟨S10000x1, .i32⟩ : BufTy).Contents (Elt F) → (⟨S10000x1, .i32⟩ : BufTy).Contents (Elt F)) v30 v31
  have v33 : (⟨S1x3, .i32⟩ : BufTy).Contents (Elt F) := (broadcastInDim S1x3 ![1] bcast_S3_S1x3_1 : (⟨S3, .i32⟩ : BufTy).Contents (Elt F) → (⟨S1x3, .i32⟩ : BufTy).Contents (Elt F)) v22
  have v34 : (⟨S10000x3, .i32⟩ : BufTy).Contents (Elt F) := (broadcastInDim S10000x3 ![0, 1] bcast_S10000x1_S10000x3_0_1 : (⟨S10000x1, .i32⟩ : BufTy).Contents (Elt F) → (⟨S10000x3, .i32⟩ : BufTy).Contents (Elt F)) v32
  have v35 : (⟨S10000x3, .i32⟩ : BufTy).Contents (Elt F) := (broadcastInDim S10000x3 ![0, 1] bcast_S1x3_S10000x3_0_1 : (⟨S1x3, .i32⟩ : BufTy).Contents (Elt F) → (⟨S10000x3, .i32⟩ : BufTy).Contents (Elt F)) v33
  have v36 : (⟨S10000x3, .i32⟩ : BufTy).Contents (Elt F) := (addi : (⟨S10000x3, .i32⟩ : BufTy).Contents (Elt F) → (⟨S10000x3, .i32⟩ : BufTy).Contents (Elt F) → (⟨S10000x3, .i32⟩ : BufTy).Contents (Elt F)) v34 v35
  have cst : main_cst.ty.Contents (Elt F) := constant S_ .f32 0x00000000#32
  have v37 : (⟨S7500x7500, .f32⟩ : BufTy).Contents (Elt F) := (broadcastInDim S7500x7500 ![] bcast_S_S7500x7500 : (⟨S_, .f32⟩ : BufTy).Contents (Elt F) → (⟨S7500x7500, .f32⟩ : BufTy).Contents (Elt F)) cst
  have v38 : (⟨S10000x3x1, .i32⟩ : BufTy).Contents (Elt F) := (broadcastInDim S10000x3x1 ![0, 1] bcast_S10000x3_S10000x3x1_0_1 : (⟨S10000x3, .i32⟩ : BufTy).Contents (Elt F) → (⟨S10000x3x1, .i32⟩ : BufTy).Contents (Elt F)) v29
  have v39 : (⟨S10000x1x3, .i32⟩ : BufTy).Contents (Elt F) := (broadcastInDim S10000x1x3 ![0, 2] bcast_S10000x3_S10000x1x3_0_2 : (⟨S10000x3, .i32⟩ : BufTy).Contents (Elt F) → (⟨S10000x1x3, .i32⟩ : BufTy).Contents (Elt F)) v29
  have v40 : (⟨S10000x3x3, .f32⟩ : BufTy).Contents (Elt F) := ((extractStridedSlice S10000x3x3 ![0, 0, 0] · slices_S10000x6x6_S10000x3x3_0_0_0) : (⟨S10000x6x6, .f32⟩ : BufTy).Contents (Elt F) → (⟨S10000x3x3, .f32⟩ : BufTy).Contents (Elt F)) Kmat
  have c_5 : main_c_5.ty.Contents (Elt F) := constantI S_ 32 0#32
  have v41 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_5
  have v42 : (⟨S10000x3x1, .i1⟩ : BufTy).Contents (Elt F) := (cmpi .slt : (⟨S10000x3x1, .i32⟩ : BufTy).Contents (Elt F) → (⟨S10000x3x1, .i32⟩ : BufTy).Contents (Elt F) → (⟨S10000x3x1, .i1⟩ : BufTy).Contents (Elt F)) v38 v41
  have c_6 : main_c_6.ty.Contents (Elt F) := constantI S_ 32 7500#32
  have v43 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_6
  have v44 : (⟨S10000x3x1, .i32⟩ : BufTy).Contents (Elt F) := (addi : (⟨S10000x3x1, .i32⟩ : BufTy).Contents (Elt F) → (⟨S10000x3x1, .i32⟩ : BufTy).Contents (Elt F) → (⟨S10000x3x1, .i32⟩ : BufTy).Contents (Elt F)) v38 v43
  have v45 : (⟨S10000x3x1, .i32⟩ : BufTy).Contents (Elt F) := (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)) v42 v44 v38
  have c_7 : main_c_7.ty.Contents (Elt F) := constantI S_ 32 0#32
  have v46 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_7
  have v47 : (⟨S10000x1x3, .i1⟩ : BufTy).Contents (Elt F) := (cmpi .slt : (⟨S10000x1x3, .i32⟩ : BufTy).Contents (Elt F) → (⟨S10000x1x3, .i32⟩ : BufTy).Contents (Elt F) → (⟨S10000x1x3, .i1⟩ : BufTy).Contents (Elt F)) v39 v46
  have c_8 : main_c_8.ty.Contents (Elt F) := constantI S_ 32 7500#32
  have v48 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_8
  have v49 : (⟨S10000x1x3, .i32⟩ : BufTy).Contents (Elt F) := (addi : (⟨S10000x1x3, .i32⟩ : BufTy).Contents (Elt F) → (⟨S10000x1x3, .i32⟩ : BufTy).Contents (Elt F) → (⟨S10000x1x3, .i32⟩ : BufTy).Contents (Elt F)) v39 v48
  have v50 : (⟨S10000x1x3, .i32⟩ : BufTy).Contents (Elt F) := (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)) v47 v49 v39
  have v51 : (⟨S10000x3x3, .i32⟩ : BufTy).Contents (Elt F) := (broadcastInDim S10000x3x3 ![0, 1, 2] bcast_S10000x3x1_S10000x3x3_0_1_2 : (⟨S10000x3x1, .i32⟩ : BufTy).Contents (Elt F) → (⟨S10000x3x3, .i32⟩ : BufTy).Contents (Elt F)) v45
  have v52 : (⟨S10000x3x3, .i32⟩ : BufTy).Contents (Elt F) := (broadcastInDim S10000x3x3 ![0, 1, 2] bcast_S10000x1x3_S10000x3x3_0_1_2 : (⟨S10000x1x3, .i32⟩ : BufTy).Contents (Elt F) → (⟨S10000x3x3, .i32⟩ : BufTy).Contents (Elt F)) v50
  have v53 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v51
  have v54 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v52
  have v55 : (⟨S10000x3x3x2, .i32⟩ : BufTy).Contents (Elt F) := ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)) v53 v54
  have v56 : (⟨S7500x7500, .f32⟩ : BufTy).Contents (Elt F) := ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)) v37 v55 v40
  have v57 : (⟨S10000x3x1, .i32⟩ : BufTy).Contents (Elt F) := (broadcastInDim S10000x3x1 ![0, 1] bcast_S10000x3_S10000x3x1_0_1 : (⟨S10000x3, .i32⟩ : BufTy).Contents (Elt F) → (⟨S10000x3x1, .i32⟩ : BufTy).Contents (Elt F)) v29
  have v58 : (⟨S10000x1x3, .i32⟩ : BufTy).Contents (Elt F) := (broadcastInDim S10000x1x3 ![0, 2] bcast_S10000x3_S10000x1x3_0_2 : (⟨S10000x3, .i32⟩ : BufTy).Contents (Elt F) → (⟨S10000x1x3, .i32⟩ : BufTy).Contents (Elt F)) v36
  have v59 : (⟨S10000x3x3, .f32⟩ : BufTy).Contents (Elt F) := ((extractStridedSlice S10000x3x3 ![0, 0, 3] · slices_S10000x6x6_S10000x3x3_0_0_3) : (⟨S10000x6x6, .f32⟩ : BufTy).Contents (Elt F) → (⟨S10000x3x3, .f32⟩ : BufTy).Contents (Elt F)) Kmat
  have c_9 : main_c_9.ty.Contents (Elt F) := constantI S_ 32 0#32
  have v60 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_9
  have v61 : (⟨S10000x3x1, .i1⟩ : BufTy).Contents (Elt F) := (cmpi .slt : (⟨S10000x3x1, .i32⟩ : BufTy).Contents (Elt F) → (⟨S10000x3x1, .i32⟩ : BufTy).Contents (Elt F) → (⟨S10000x3x1, .i1⟩ : BufTy).Contents (Elt F)) v57 v60
  have c_10 : main_c_10.ty.Contents (Elt F) := constantI S_ 32 7500#32
  have v62 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_10
  have v63 : (⟨S10000x3x1, .i32⟩ : BufTy).Contents (Elt F) := (addi : (⟨S10000x3x1, .i32⟩ : BufTy).Contents (Elt F) → (⟨S10000x3x1, .i32⟩ : BufTy).Contents (Elt F) → (⟨S10000x3x1, .i32⟩ : BufTy).Contents (Elt F)) v57 v62
  have v64 : (⟨S10000x3x1, .i32⟩ : BufTy).Contents (Elt F) := (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)) v61 v63 v57
  have c_11 : main_c_11.ty.Contents (Elt F) := constantI S_ 32 0#32
  have v65 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_11
  have v66 : (⟨S10000x1x3, .i1⟩ : BufTy).Contents (Elt F) := (cmpi .slt : (⟨S10000x1x3, .i32⟩ : BufTy).Contents (Elt F) → (⟨S10000x1x3, .i32⟩ : BufTy).Contents (Elt F) → (⟨S10000x1x3, .i1⟩ : BufTy).Contents (Elt F)) v58 v65
  have c_12 : main_c_12.ty.Contents (Elt F) := constantI S_ 32 7500#32
  have v67 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_12
  have v68 : (⟨S10000x1x3, .i32⟩ : BufTy).Contents (Elt F) := (addi : (⟨S10000x1x3, .i32⟩ : BufTy).Contents (Elt F) → (⟨S10000x1x3, .i32⟩ : BufTy).Contents (Elt F) → (⟨S10000x1x3, .i32⟩ : BufTy).Contents (Elt F)) v58 v67
  have v69 : (⟨S10000x1x3, .i32⟩ : BufTy).Contents (Elt F) := (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)) v66 v68 v58
  have v70 : (⟨S10000x3x3, .i32⟩ : BufTy).Contents (Elt F) := (broadcastInDim S10000x3x3 ![0, 1, 2] bcast_S10000x3x1_S10000x3x3_0_1_2 : (⟨S10000x3x1, .i32⟩ : BufTy).Contents (Elt F) → (⟨S10000x3x3, .i32⟩ : BufTy).Contents (Elt F)) v64
  have v71 : (⟨S10000x3x3, .i32⟩ : BufTy).Contents (Elt F) := (broadcastInDim S10000x3x3 ![0, 1, 2] bcast_S10000x1x3_S10000x3x3_0_1_2 : (⟨S10000x1x3, .i32⟩ : BufTy).Contents (Elt F) → (⟨S10000x3x3, .i32⟩ : BufTy).Contents (Elt F)) v69
  have v72 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v70
  have v73 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v71
  have v74 : (⟨S10000x3x3x2, .i32⟩ : BufTy).Contents (Elt F) := ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)) v72 v73
  have v75 : (⟨S7500x7500, .f32⟩ : BufTy).Contents (Elt F) := ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)) v56 v74 v59
  have v76 : (⟨S10000x3x1, .i32⟩ : BufTy).Contents (Elt F) := (broadcastInDim S10000x3x1 ![0, 1] bcast_S10000x3_S10000x3x1_0_1 : (⟨S10000x3, .i32⟩ : BufTy).Contents (Elt F) → (⟨S10000x3x1, .i32⟩ : BufTy).Contents (Elt F)) v36
  have v77 : (⟨S10000x1x3, .i32⟩ : BufTy).Contents (Elt F) := (broadcastInDim S10000x1x3 ![0, 2] bcast_S10000x3_S10000x1x3_0_2 : (⟨S10000x3, .i32⟩ : BufTy).Contents (Elt F) → (⟨S10000x1x3, .i32⟩ : BufTy).Contents (Elt F)) v29
  have v78 : (⟨S10000x3x3, .f32⟩ : BufTy).Contents (Elt F) := ((extractStridedSlice S10000x3x3 ![0, 3, 0] · slices_S10000x6x6_S10000x3x3_0_3_0) : (⟨S10000x6x6, .f32⟩ : BufTy).Contents (Elt F) → (⟨S10000x3x3, .f32⟩ : BufTy).Contents (Elt F)) Kmat
  have c_13 : main_c_13.ty.Contents (Elt F) := constantI S_ 32 0#32
  have v79 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_13
  have v80 : (⟨S10000x3x1, .i1⟩ : BufTy).Contents (Elt F) := (cmpi .slt : (⟨S10000x3x1, .i32⟩ : BufTy).Contents (Elt F) → (⟨S10000x3x1, .i32⟩ : BufTy).Contents (Elt F) → (⟨S10000x3x1, .i1⟩ : BufTy).Contents (Elt F)) v76 v79
  have c_14 : main_c_14.ty.Contents (Elt F) := constantI S_ 32 7500#32
  have v81 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_14
  have v82 : (⟨S10000x3x1, .i32⟩ : BufTy).Contents (Elt F) := (addi : (⟨S10000x3x1, .i32⟩ : BufTy).Contents (Elt F) → (⟨S10000x3x1, .i32⟩ : BufTy).Contents (Elt F) → (⟨S10000x3x1, .i32⟩ : BufTy).Contents (Elt F)) v76 v81
  have v83 : (⟨S10000x3x1, .i32⟩ : BufTy).Contents (Elt F) := (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)) v80 v82 v76
  have c_15 : main_c_15.ty.Contents (Elt F) := constantI S_ 32 0#32
  have v84 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_15
  have v85 : (⟨S10000x1x3, .i1⟩ : BufTy).Contents (Elt F) := (cmpi .slt : (⟨S10000x1x3, .i32⟩ : BufTy).Contents (Elt F) → (⟨S10000x1x3, .i32⟩ : BufTy).Contents (Elt F) → (⟨S10000x1x3, .i1⟩ : BufTy).Contents (Elt F)) v77 v84
  have c_16 : main_c_16.ty.Contents (Elt F) := constantI S_ 32 7500#32
  have v86 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_16
  have v87 : (⟨S10000x1x3, .i32⟩ : BufTy).Contents (Elt F) := (addi : (⟨S10000x1x3, .i32⟩ : BufTy).Contents (Elt F) → (⟨S10000x1x3, .i32⟩ : BufTy).Contents (Elt F) → (⟨S10000x1x3, .i32⟩ : BufTy).Contents (Elt F)) v77 v86
  have v88 : (⟨S10000x1x3, .i32⟩ : BufTy).Contents (Elt F) := (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)) v85 v87 v77
  have v89 : (⟨S10000x3x3, .i32⟩ : BufTy).Contents (Elt F) := (broadcastInDim S10000x3x3 ![0, 1, 2] bcast_S10000x3x1_S10000x3x3_0_1_2 : (⟨S10000x3x1, .i32⟩ : BufTy).Contents (Elt F) → (⟨S10000x3x3, .i32⟩ : BufTy).Contents (Elt F)) v83
  have v90 : (⟨S10000x3x3, .i32⟩ : BufTy).Contents (Elt F) := (broadcastInDim S10000x3x3 ![0, 1, 2] bcast_S10000x1x3_S10000x3x3_0_1_2 : (⟨S10000x1x3, .i32⟩ : BufTy).Contents (Elt F) → (⟨S10000x3x3, .i32⟩ : BufTy).Contents (Elt F)) v88
  have v91 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v89
  have v92 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v90
  have v93 : (⟨S10000x3x3x2, .i32⟩ : BufTy).Contents (Elt F) := ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)) v91 v92
  have v94 : (⟨S7500x7500, .f32⟩ : BufTy).Contents (Elt F) := ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)) v75 v93 v78
  have v95 : (⟨S10000x3x1, .i32⟩ : BufTy).Contents (Elt F) := (broadcastInDim S10000x3x1 ![0, 1] bcast_S10000x3_S10000x3x1_0_1 : (⟨S10000x3, .i32⟩ : BufTy).Contents (Elt F) → (⟨S10000x3x1, .i32⟩ : BufTy).Contents (Elt F)) v36
  have v96 : (⟨S10000x1x3, .i32⟩ : BufTy).Contents (Elt F) := (broadcastInDim S10000x1x3 ![0, 2] bcast_S10000x3_S10000x1x3_0_2 : (⟨S10000x3, .i32⟩ : BufTy).Contents (Elt F) → (⟨S10000x1x3, .i32⟩ : BufTy).Contents (Elt F)) v36
  have v97 : (⟨S10000x3x3, .f32⟩ : BufTy).Contents (Elt F) := ((extractStridedSlice S10000x3x3 ![0, 3, 3] · slices_S10000x6x6_S10000x3x3_0_3_3) : (⟨S10000x6x6, .f32⟩ : BufTy).Contents (Elt F) → (⟨S10000x3x3, .f32⟩ : BufTy).Contents (Elt F)) Kmat
  have c_17 : main_c_17.ty.Contents (Elt F) := constantI S_ 32 0#32
  have v98 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_17
  have v99 : (⟨S10000x3x1, .i1⟩ : BufTy).Contents (Elt F) := (cmpi .slt : (⟨S10000x3x1, .i32⟩ : BufTy).Contents (Elt F) → (⟨S10000x3x1, .i32⟩ : BufTy).Contents (Elt F) → (⟨S10000x3x1, .i1⟩ : BufTy).Contents (Elt F)) v95 v98
  have c_18 : main_c_18.ty.Contents (Elt F) := constantI S_ 32 7500#32
  have v100 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_18
  have v101 : (⟨S10000x3x1, .i32⟩ : BufTy).Contents (Elt F) := (addi : (⟨S10000x3x1, .i32⟩ : BufTy).Contents (Elt F) → (⟨S10000x3x1, .i32⟩ : BufTy).Contents (Elt F) → (⟨S10000x3x1, .i32⟩ : BufTy).Contents (Elt F)) v95 v100
  have v102 : (⟨S10000x3x1, .i32⟩ : BufTy).Contents (Elt F) := (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)) v99 v101 v95
  have c_19 : main_c_19.ty.Contents (Elt F) := constantI S_ 32 0#32
  have v103 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_19
  have v104 : (⟨S10000x1x3, .i1⟩ : BufTy).Contents (Elt F) := (cmpi .slt : (⟨S10000x1x3, .i32⟩ : BufTy).Contents (Elt F) → (⟨S10000x1x3, .i32⟩ : BufTy).Contents (Elt F) → (⟨S10000x1x3, .i1⟩ : BufTy).Contents (Elt F)) v96 v103
  have c_20 : main_c_20.ty.Contents (Elt F) := constantI S_ 32 7500#32
  have v105 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_20
  have v106 : (⟨S10000x1x3, .i32⟩ : BufTy).Contents (Elt F) := (addi : (⟨S10000x1x3, .i32⟩ : BufTy).Contents (Elt F) → (⟨S10000x1x3, .i32⟩ : BufTy).Contents (Elt F) → (⟨S10000x1x3, .i32⟩ : BufTy).Contents (Elt F)) v96 v105
  have v107 : (⟨S10000x1x3, .i32⟩ : BufTy).Contents (Elt F) := (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)) v104 v106 v96
  have v108 : (⟨S10000x3x3, .i32⟩ : BufTy).Contents (Elt F) := (broadcastInDim S10000x3x3 ![0, 1, 2] bcast_S10000x3x1_S10000x3x3_0_1_2 : (⟨S10000x3x1, .i32⟩ : BufTy).Contents (Elt F) → (⟨S10000x3x3, .i32⟩ : BufTy).Contents (Elt F)) v102
  have v109 : (⟨S10000x3x3, .i32⟩ : BufTy).Contents (Elt F) := (broadcastInDim S10000x3x3 ![0, 1, 2] bcast_S10000x1x3_S10000x3x3_0_1_2 : (⟨S10000x1x3, .i32⟩ : BufTy).Contents (Elt F) → (⟨S10000x3x3, .i32⟩ : BufTy).Contents (Elt F)) v107
  have v110 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v108
  have v111 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v109
  have v112 : (⟨S10000x3x3x2, .i32⟩ : BufTy).Contents (Elt F) := ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)) v110 v111
  have v113 : (⟨S7500x7500, .f32⟩ : BufTy).Contents (Elt F) := ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)) v94 v112 v97
  v113

/-- The result of @main from the region's output array and the two index vectors. -/
def tailOf (K : (⟨S36x10000, .f32⟩ : BufTy).Contents (Elt F)) (a1 a2 : (⟨S10000, .i32⟩ : BufTy).Contents (Elt F)) :
    (⟨S7500x7500, .f32⟩ : BufTy).Contents (Elt F) :=
  tail21 (kmatOf K) a1 a2

set_option maxHeartbeats 40000000 in
/-- Folding the host operations after the region over ANY contents `W`, the result buffer ends at `tailOf` of what
    `W` holds at the region's output array and at the two index arguments: each operation's result buffer takes its
    function's value, every other buffer keeps what it had, and no operation of the stretch writes those three. -/
theorem after_tail (W : Valuation τ sig (Elt F)) :
    StableHlo.after (hostOps1 : List (HloOp τ sig (Elt F))) W (Proc.devRef .tc main_v113)
      = tailOf (W (Proc.devRef .tc main_v19)) (W (Proc.devRef .tc main_arg1)) (W (Proc.devRef .tc main_arg2)) := by
  after_results_simp
  rfl

/-- The result buffer at the end of @main: the contents the region leaves are the region-entry contents with the
    pipeline's arrays replaced; the output array among them holds the stored value of the four input arrays
    (`final4`), and the two index arguments, which are no array and which the first stretch does not write, are as
    launched. -/
theorem tail_eq (c : Dev nD) : Pipeline.afterTail₀ cfgs (dats m) 0 (V0 m) [hostOps1] c main_v113
    = tailOf (stored0_4 (V m c main_v16) (V m c main_v18) (V m c main_arg3) (V m c main_arg4))
        (m ((c : Thread nD τ).loc main_arg1)) (m ((c : Thread nD τ).loc main_arg2)) := by
  have h19 : Pipeline.withArrays spec0 c (V0 m c) (fun w => (dats m 0 c).arrAt w cfg0.N) (Proc.devRef .tc main_v19)
      = (dats m 0 c).arrAt 4 cfg0.N :=
    Pipeline.withArrays_arr spec0 launch0.win.arr_inj c (V0 m c) (fun w => (dats m 0 c).arrAt w cfg0.N) 4
  have h1 : Pipeline.withArrays spec0 c (V0 m c) (fun w => (dats m 0 c).arrAt w cfg0.N) (Proc.devRef .tc main_arg1)
      = m ((c : Thread nD τ).loc main_arg1) :=
    (Pipeline.withArrays_of_ne spec0 c (V0 m c) _ main_arg1 (by exact (by decide : ∀ w, Pipeline.arrRef spec0 w ≠ main_arg1))).trans (V_main_arg1 m c)
  have h2 : Pipeline.withArrays spec0 c (V0 m c) (fun w => (dats m 0 c).arrAt w cfg0.N) (Proc.devRef .tc main_arg2)
      = m ((c : Thread nD τ).loc main_arg2) :=
    (Pipeline.withArrays_of_ne spec0 c (V0 m c) _ main_arg2 (by exact (by decide : ∀ w, Pipeline.arrRef spec0 w ≠ main_arg2))).trans (V_main_arg2 m c)
  show StableHlo.after (List.flatten [hostOps1]) (Pipeline.withArrays spec0 c (V0 m c) fun w => (dats m 0 c).arrAt w cfg0.N)
      (Proc.devRef .tc main_v113) = _
  rw [flatten_one, after_tail, h19, h1, h2, final4]

/-! ## The run, read -/

/-- From any launch memory with all counters at zero, @main terminates; its result buffer ends at `tailOf` of the
    stored value of the four input arrays — the two computed ones as `preDx` and `preDy` of the launch arguments,
    the two staged arguments as launched — and the five arguments end as launched. -/
theorem kernel_run : θ_run defs (onTc (τ := τ) (main (F := F))) ⟨m, fun _ => 0, ρ⟩ (fun r => ∀ c : Dev nD,
      r.2.mem ((c.tc : Thread nD τ).loc main_v113)
        = tailOf (stored0_4
            (preDx (m ((c.tc : Thread nD τ).loc main_arg0)) (m ((c.tc : Thread nD τ).loc main_arg1)) (m ((c.tc : Thread nD τ).loc main_arg2)))
            (preDy (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).2 main_v113 (Pipeline.mem_restRefs_of main_v113 (by decide) (by decide))).trans (tail_eq m c)).trans (by
        rw [V_main_v16, V_main_v18, V_main_arg3, V_main_arg4]),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).1 2).trans (((dats m 0 c).arrAt_in 2 rfl _).trans ((A_eq m c 2).trans (V_main_arg3 m c))),
     ((h c).1 3).trans (((dats m 0 c).arrAt_in 3 rfl _).trans ((A_eq m c 3).trans (V_main_arg4 m c)))⟩)
    (run_main m ρ)

end Cert.KernelIdeal.Hand

end
-- ==== Proof.LibStack36.lean ====
import Idealize.ShloMosaic.Lib.Pipeline.Value
import Idealize.ShloMosaic.Lib.ValueIdx

/-!
# Thirty-six vectors stacked as rows, or as columns in blocks of 16, 16 and 4

A family `p : Fin 36 → (vector of length 10000)` can be laid out as the ROWS of a 36 × 10000 array (each vector
cast to a 1 × 10000 row, the rows joined along axis 0), or as the COLUMNS of a 10000 × 36 array (each vector
broadcast to a 10000 × 1 column, the columns joined along axis 1 — here in three blocks of 16, 16 and 4 columns that
are then joined). Either way the entry in row/column `j` at position `e` is `p j e`; so the second array is the
transpose of the first. The lemmas below read each layout at an index, for any element type.
-/

noncomputable section
namespace Cert.Stack
open Idealize.ShloMosaic Idealize.ShloMosaic.ValueIdx

abbrev SN : Shape := ⟨1, ![10000]⟩
abbrev S1N : Shape := ⟨2, ![1, 10000]⟩
abbrev S36N : Shape := ⟨2, ![36, 10000]⟩
abbrev SNx1 : Shape := ⟨2, ![10000, 1]⟩
abbrev SNx4 : Shape := ⟨2, ![10000, 4]⟩
abbrev SNx16 : Shape := ⟨2, ![10000, 16]⟩
abbrev SNx36 : Shape := ⟨2, ![10000, 36]⟩

variable {α : Type}

/-- Thirty-six vectors laid as the rows of a 36 × 10000 array: row `j` at column `e` is vector `j` at `e`. -/
theorem rows_apply (p : Fin 36 → (SN.Idx → α)) (hc : SN.ShapeCasts S1N)
    (hk : Shape.Concatenates (([⟨S1N, shapeCast S1N (p 0) hc⟩, ⟨S1N, shapeCast S1N (p 1) hc⟩, ⟨S1N, shapeCast S1N (p 2) hc⟩, ⟨S1N, shapeCast S1N (p 3) hc⟩, ⟨S1N, shapeCast S1N (p 4) hc⟩, ⟨S1N, shapeCast S1N (p 5) hc⟩, ⟨S1N, shapeCast S1N (p 6) hc⟩, ⟨S1N, shapeCast S1N (p 7) hc⟩, ⟨S1N, shapeCast S1N (p 8) hc⟩, ⟨S1N, shapeCast S1N (p 9) hc⟩, ⟨S1N, shapeCast S1N (p 10) hc⟩, ⟨S1N, shapeCast S1N (p 11) hc⟩, ⟨S1N, shapeCast S1N (p 12) hc⟩, ⟨S1N, shapeCast S1N (p 13) hc⟩, ⟨S1N, shapeCast S1N (p 14) hc⟩, ⟨S1N, shapeCast S1N (p 15) hc⟩, ⟨S1N, shapeCast S1N (p 16) hc⟩, ⟨S1N, shapeCast S1N (p 17) hc⟩, ⟨S1N, shapeCast S1N (p 18) hc⟩, ⟨S1N, shapeCast S1N (p 19) hc⟩, ⟨S1N, shapeCast S1N (p 20) hc⟩, ⟨S1N, shapeCast S1N (p 21) hc⟩, ⟨S1N, shapeCast S1N (p 22) hc⟩, ⟨S1N, shapeCast S1N (p 23) hc⟩, ⟨S1N, shapeCast S1N (p 24) hc⟩, ⟨S1N, shapeCast S1N (p 25) hc⟩, ⟨S1N, shapeCast S1N (p 26) hc⟩, ⟨S1N, shapeCast S1N (p 27) hc⟩, ⟨S1N, shapeCast S1N (p 28) hc⟩, ⟨S1N, shapeCast S1N (p 29) hc⟩, ⟨S1N, shapeCast S1N (p 30) hc⟩, ⟨S1N, shapeCast S1N (p 31) hc⟩, ⟨S1N, shapeCast S1N (p 32) hc⟩, ⟨S1N, shapeCast S1N (p 33) hc⟩, ⟨S1N, shapeCast S1N (p 34) hc⟩, ⟨S1N, shapeCast S1N (p 35) hc⟩] : List ((s : Shape) × (s.Idx → α))).map (·.1)) S36N 0)
    (j : Fin 36) (e : Fin 10000) :
    concatenate S36N 0 [⟨S1N, shapeCast S1N (p 0) hc⟩, ⟨S1N, shapeCast S1N (p 1) hc⟩, ⟨S1N, shapeCast S1N (p 2) hc⟩, ⟨S1N, shapeCast S1N (p 3) hc⟩, ⟨S1N, shapeCast S1N (p 4) hc⟩, ⟨S1N, shapeCast S1N (p 5) hc⟩, ⟨S1N, shapeCast S1N (p 6) hc⟩, ⟨S1N, shapeCast S1N (p 7) hc⟩, ⟨S1N, shapeCast S1N (p 8) hc⟩, ⟨S1N, shapeCast S1N (p 9) hc⟩, ⟨S1N, shapeCast S1N (p 10) hc⟩, ⟨S1N, shapeCast S1N (p 11) hc⟩, ⟨S1N, shapeCast S1N (p 12) hc⟩, ⟨S1N, shapeCast S1N (p 13) hc⟩, ⟨S1N, shapeCast S1N (p 14) hc⟩, ⟨S1N, shapeCast S1N (p 15) hc⟩, ⟨S1N, shapeCast S1N (p 16) hc⟩, ⟨S1N, shapeCast S1N (p 17) hc⟩, ⟨S1N, shapeCast S1N (p 18) hc⟩, ⟨S1N, shapeCast S1N (p 19) hc⟩, ⟨S1N, shapeCast S1N (p 20) hc⟩, ⟨S1N, shapeCast S1N (p 21) hc⟩, ⟨S1N, shapeCast S1N (p 22) hc⟩, ⟨S1N, shapeCast S1N (p 23) hc⟩, ⟨S1N, shapeCast S1N (p 24) hc⟩, ⟨S1N, shapeCast S1N (p 25) hc⟩, ⟨S1N, shapeCast S1N (p 26) hc⟩, ⟨S1N, shapeCast S1N (p 27) hc⟩, ⟨S1N, shapeCast S1N (p 28) hc⟩, ⟨S1N, shapeCast S1N (p 29) hc⟩, ⟨S1N, shapeCast S1N (p 30) hc⟩, ⟨S1N, shapeCast S1N (p 31) hc⟩, ⟨S1N, shapeCast S1N (p 32) hc⟩, ⟨S1N, shapeCast S1N (p 33) hc⟩, ⟨S1N, shapeCast S1N (p 34) hc⟩, ⟨S1N, shapeCast S1N (p 35) hc⟩] hk (ix2 j e) = p j (ix1 e) := by
  have hl : ([⟨S1N, shapeCast S1N (p 0) hc⟩, ⟨S1N, shapeCast S1N (p 1) hc⟩, ⟨S1N, shapeCast S1N (p 2) hc⟩, ⟨S1N, shapeCast S1N (p 3) hc⟩, ⟨S1N, shapeCast S1N (p 4) hc⟩, ⟨S1N, shapeCast S1N (p 5) hc⟩, ⟨S1N, shapeCast S1N (p 6) hc⟩, ⟨S1N, shapeCast S1N (p 7) hc⟩, ⟨S1N, shapeCast S1N (p 8) hc⟩, ⟨S1N, shapeCast S1N (p 9) hc⟩, ⟨S1N, shapeCast S1N (p 10) hc⟩, ⟨S1N, shapeCast S1N (p 11) hc⟩, ⟨S1N, shapeCast S1N (p 12) hc⟩, ⟨S1N, shapeCast S1N (p 13) hc⟩, ⟨S1N, shapeCast S1N (p 14) hc⟩, ⟨S1N, shapeCast S1N (p 15) hc⟩, ⟨S1N, shapeCast S1N (p 16) hc⟩, ⟨S1N, shapeCast S1N (p 17) hc⟩, ⟨S1N, shapeCast S1N (p 18) hc⟩, ⟨S1N, shapeCast S1N (p 19) hc⟩, ⟨S1N, shapeCast S1N (p 20) hc⟩, ⟨S1N, shapeCast S1N (p 21) hc⟩, ⟨S1N, shapeCast S1N (p 22) hc⟩, ⟨S1N, shapeCast S1N (p 23) hc⟩, ⟨S1N, shapeCast S1N (p 24) hc⟩, ⟨S1N, shapeCast S1N (p 25) hc⟩, ⟨S1N, shapeCast S1N (p 26) hc⟩, ⟨S1N, shapeCast S1N (p 27) hc⟩, ⟨S1N, shapeCast S1N (p 28) hc⟩, ⟨S1N, shapeCast S1N (p 29) hc⟩, ⟨S1N, shapeCast S1N (p 30) hc⟩, ⟨S1N, shapeCast S1N (p 31) hc⟩, ⟨S1N, shapeCast S1N (p 32) hc⟩, ⟨S1N, shapeCast S1N (p 33) hc⟩, ⟨S1N, shapeCast S1N (p 34) hc⟩, ⟨S1N, shapeCast S1N (p 35) hc⟩] : List ((s : Shape) × (s.Idx → α)))
      = List.ofFn fun n : Fin 36 => (⟨S1N, shapeCast S1N (p n) hc⟩ : (s : Shape) × (s.Idx → α)) := rfl
  have key := concatenate_ofFn_unit_apply (t := S36N) (s₁ := S1N) (0 : Fin 2) (fun n : Fin 36 => shapeCast S1N (p n) hc)
    (hl ▸ hk) rfl rfl (ix2 j e) j rfl (ix2 (0 : Fin 1) e)
    (fun b hb => by match b with | ⟨0, _⟩ => exact absurd rfl hb | ⟨1, _⟩ => rfl)
  refine Eq.trans ?_ (key.trans ?_)
  · congr 1
  · exact shapeCast_apply (p j) hc (ix2 (0 : Fin 1) e) (ix1 e) (by rw [Shape.rowMajor_val_one, Shape.rowMajor_val_two]; simp)

/-- A vector broadcast to a 10000 × 1 column, read at row `e`. -/
theorem column_apply (x : SN.Idx → α) (hb : SN.BroadcastsInDim SNx1 ![0]) (e : Fin 10000) :
    broadcastInDim SNx1 ![0] hb x (ix2 e (0 : Fin 1)) = x (ix1 e) :=
  broadcastInDim_apply ![0] hb x (ix2 e (0 : Fin 1)) (ix1 e) (fun a => match a with
    | ⟨0, _⟩ => by show e.val = if (10000 : Nat) = 1 then 0 else e.val; rw [if_neg (by decide)])

/-- Sixteen vectors laid as the columns of a 10000 × 16 array: column `j` at row `e` is vector `j` at `e`. -/
theorem cols16_apply (r : Fin 16 → (SN.Idx → α)) (hb : SN.BroadcastsInDim SNx1 ![0])
    (hk : Shape.Concatenates (([⟨SNx1, broadcastInDim SNx1 ![0] hb (r 0)⟩, ⟨SNx1, broadcastInDim SNx1 ![0] hb (r 1)⟩, ⟨SNx1, broadcastInDim SNx1 ![0] hb (r 2)⟩, ⟨SNx1, broadcastInDim SNx1 ![0] hb (r 3)⟩, ⟨SNx1, broadcastInDim SNx1 ![0] hb (r 4)⟩, ⟨SNx1, broadcastInDim SNx1 ![0] hb (r 5)⟩, ⟨SNx1, broadcastInDim SNx1 ![0] hb (r 6)⟩, ⟨SNx1, broadcastInDim SNx1 ![0] hb (r 7)⟩, ⟨SNx1, broadcastInDim SNx1 ![0] hb (r 8)⟩, ⟨SNx1, broadcastInDim SNx1 ![0] hb (r 9)⟩, ⟨SNx1, broadcastInDim SNx1 ![0] hb (r 10)⟩, ⟨SNx1, broadcastInDim SNx1 ![0] hb (r 11)⟩, ⟨SNx1, broadcastInDim SNx1 ![0] hb (r 12)⟩, ⟨SNx1, broadcastInDim SNx1 ![0] hb (r 13)⟩, ⟨SNx1, broadcastInDim SNx1 ![0] hb (r 14)⟩, ⟨SNx1, broadcastInDim SNx1 ![0] hb (r 15)⟩] : List ((s : Shape) × (s.Idx → α))).map (·.1)) SNx16 1)
    (j : Fin 16) (e : Fin 10000) :
    concatenate SNx16 1 [⟨SNx1, broadcastInDim SNx1 ![0] hb (r 0)⟩, ⟨SNx1, broadcastInDim SNx1 ![0] hb (r 1)⟩, ⟨SNx1, broadcastInDim SNx1 ![0] hb (r 2)⟩, ⟨SNx1, broadcastInDim SNx1 ![0] hb (r 3)⟩, ⟨SNx1, broadcastInDim SNx1 ![0] hb (r 4)⟩, ⟨SNx1, broadcastInDim SNx1 ![0] hb (r 5)⟩, ⟨SNx1, broadcastInDim SNx1 ![0] hb (r 6)⟩, ⟨SNx1, broadcastInDim SNx1 ![0] hb (r 7)⟩, ⟨SNx1, broadcastInDim SNx1 ![0] hb (r 8)⟩, ⟨SNx1, broadcastInDim SNx1 ![0] hb (r 9)⟩, ⟨SNx1, broadcastInDim SNx1 ![0] hb (r 10)⟩, ⟨SNx1, broadcastInDim SNx1 ![0] hb (r 11)⟩, ⟨SNx1, broadcastInDim SNx1 ![0] hb (r 12)⟩, ⟨SNx1, broadcastInDim SNx1 ![0] hb (r 13)⟩, ⟨SNx1, broadcastInDim SNx1 ![0] hb (r 14)⟩, ⟨SNx1, broadcastInDim SNx1 ![0] hb (r 15)⟩] hk (ix2 e j) = r j (ix1 e) := by
  have hl : ([⟨SNx1, broadcastInDim SNx1 ![0] hb (r 0)⟩, ⟨SNx1, broadcastInDim SNx1 ![0] hb (r 1)⟩, ⟨SNx1, broadcastInDim SNx1 ![0] hb (r 2)⟩, ⟨SNx1, broadcastInDim SNx1 ![0] hb (r 3)⟩, ⟨SNx1, broadcastInDim SNx1 ![0] hb (r 4)⟩, ⟨SNx1, broadcastInDim SNx1 ![0] hb (r 5)⟩, ⟨SNx1, broadcastInDim SNx1 ![0] hb (r 6)⟩, ⟨SNx1, broadcastInDim SNx1 ![0] hb (r 7)⟩, ⟨SNx1, broadcastInDim SNx1 ![0] hb (r 8)⟩, ⟨SNx1, broadcastInDim SNx1 ![0] hb (r 9)⟩, ⟨SNx1, broadcastInDim SNx1 ![0] hb (r 10)⟩, ⟨SNx1, broadcastInDim SNx1 ![0] hb (r 11)⟩, ⟨SNx1, broadcastInDim SNx1 ![0] hb (r 12)⟩, ⟨SNx1, broadcastInDim SNx1 ![0] hb (r 13)⟩, ⟨SNx1, broadcastInDim SNx1 ![0] hb (r 14)⟩, ⟨SNx1, broadcastInDim SNx1 ![0] hb (r 15)⟩] : List ((s : Shape) × (s.Idx → α)))
      = List.ofFn fun n : Fin 16 => (⟨SNx1, broadcastInDim SNx1 ![0] hb (r n)⟩ : (s : Shape) × (s.Idx → α)) := rfl
  have key := concatenate_ofFn_unit_apply (t := SNx16) (s₁ := SNx1) (1 : Fin 2) (fun n : Fin 16 => broadcastInDim SNx1 ![0] hb (r n))
    (hl ▸ hk) rfl rfl (ix2 e j) j rfl (ix2 e (0 : Fin 1))
    (fun b hb => by match b with | ⟨0, _⟩ => rfl | ⟨1, _⟩ => exact absurd rfl hb)
  refine Eq.trans ?_ (key.trans (column_apply (r j) hb e))
  congr 1

/-- Four vectors laid as the columns of a 10000 × 4 array. -/
theorem cols4_apply (r : Fin 4 → (SN.Idx → α)) (hb : SN.BroadcastsInDim SNx1 ![0])
    (hk : Shape.Concatenates (([⟨SNx1, broadcastInDim SNx1 ![0] hb (r 0)⟩, ⟨SNx1, broadcastInDim SNx1 ![0] hb (r 1)⟩, ⟨SNx1, broadcastInDim SNx1 ![0] hb (r 2)⟩, ⟨SNx1, broadcastInDim SNx1 ![0] hb (r 3)⟩] : List ((s : Shape) × (s.Idx → α))).map (·.1)) SNx4 1)
    (j : Fin 4) (e : Fin 10000) :
    concatenate SNx4 1 [⟨SNx1, broadcastInDim SNx1 ![0] hb (r 0)⟩, ⟨SNx1, broadcastInDim SNx1 ![0] hb (r 1)⟩, ⟨SNx1, broadcastInDim SNx1 ![0] hb (r 2)⟩, ⟨SNx1, broadcastInDim SNx1 ![0] hb (r 3)⟩] hk (ix2 e j) = r j (ix1 e) := by
  have hl : ([⟨SNx1, broadcastInDim SNx1 ![0] hb (r 0)⟩, ⟨SNx1, broadcastInDim SNx1 ![0] hb (r 1)⟩, ⟨SNx1, broadcastInDim SNx1 ![0] hb (r 2)⟩, ⟨SNx1, broadcastInDim SNx1 ![0] hb (r 3)⟩] : List ((s : Shape) × (s.Idx → α)))
      = List.ofFn fun n : Fin 4 => (⟨SNx1, broadcastInDim SNx1 ![0] hb (r n)⟩ : (s : Shape) × (s.Idx → α)) := rfl
  have key := concatenate_ofFn_unit_apply (t := SNx4) (s₁ := SNx1) (1 : Fin 2) (fun n : Fin 4 => broadcastInDim SNx1 ![0] hb (r n))
    (hl ▸ hk) rfl rfl (ix2 e j) j rfl (ix2 e (0 : Fin 1))
    (fun b hb => by match b with | ⟨0, _⟩ => rfl | ⟨1, _⟩ => exact absurd rfl hb)
  refine Eq.trans ?_ (key.trans (column_apply (r j) hb e))
  congr 1

/-- Three blocks of 16, 16 and 4 columns joined into 36 columns: column `j` lies in the block its number falls in. -/
theorem blocks_apply (A B : SNx16.Idx → α) (C : SNx4.Idx → α)
    (hk : Shape.Concatenates (([⟨SNx16, A⟩, ⟨SNx16, B⟩, ⟨SNx4, C⟩] : List ((s : Shape) × (s.Idx → α))).map (·.1)) SNx36 1)
    (j : Fin 36) (e : Fin 10000) :
    concatenate SNx36 1 [⟨SNx16, A⟩, ⟨SNx16, B⟩, ⟨SNx4, C⟩] hk (ix2 e j)
      = if h : j.val < 16 then A (ix2 e ⟨j.val, h⟩)
        else if h2 : j.val < 32 then B (ix2 e ⟨j.val - 16, by omega⟩)
        else C (ix2 e ⟨j.val - 32, by have := j.isLt; omega⟩) := by
  by_cases h : j.val < 16
  · rw [dif_pos h]
    exact concatenate_apply_piece (1 : Fin 2) _ hk (ix2 e j) 0 (by show 0 < 3; omega) SNx16 A rfl rfl 0 rfl (ix2 e ⟨j.val, h⟩)
      (fun b hb => by match b with | ⟨0, _⟩ => rfl | ⟨1, _⟩ => exact absurd rfl hb) (by show 0 + j.val = j.val; omega)
  · rw [dif_neg h]
    by_cases h2 : j.val < 32
    · rw [dif_pos h2]
      exact concatenate_apply_piece (1 : Fin 2) _ hk (ix2 e j) 1 (by show 1 < 3; omega) SNx16 B rfl rfl 16 rfl (ix2 e ⟨j.val - 16, by omega⟩)
        (fun b hb => by match b with | ⟨0, _⟩ => rfl | ⟨1, _⟩ => exact absurd rfl hb) (by show 16 + (j.val - 16) = j.val; omega)
    · rw [dif_neg h2]
      exact concatenate_apply_piece (1 : Fin 2) _ hk (ix2 e j) 2 (by show 2 < 3; omega) SNx4 C rfl rfl 32 rfl (ix2 e ⟨j.val - 32, by have := j.isLt; omega⟩)
        (fun b hb => by match b with | ⟨0, _⟩ => rfl | ⟨1, _⟩ => exact absurd rfl hb) (by show 32 + (j.val - 32) = j.val; have := j.isLt; omega)

/-- Thirty-six vectors laid as columns in blocks of 16, 16 and 4: column `j` at row `e` is vector `j` at `e` — the
    transpose of `rows_apply`'s array. -/
theorem blockCols_apply (q : Fin 36 → (SN.Idx → α)) (hb : SN.BroadcastsInDim SNx1 ![0])
    (hkA : Shape.Concatenates (([⟨SNx1, broadcastInDim SNx1 ![0] hb (q 0)⟩, ⟨SNx1, broadcastInDim SNx1 ![0] hb (q 1)⟩, ⟨SNx1, broadcastInDim SNx1 ![0] hb (q 2)⟩, ⟨SNx1, broadcastInDim SNx1 ![0] hb (q 3)⟩, ⟨SNx1, broadcastInDim SNx1 ![0] hb (q 4)⟩, ⟨SNx1, broadcastInDim SNx1 ![0] hb (q 5)⟩, ⟨SNx1, broadcastInDim SNx1 ![0] hb (q 6)⟩, ⟨SNx1, broadcastInDim SNx1 ![0] hb (q 7)⟩, ⟨SNx1, broadcastInDim SNx1 ![0] hb (q 8)⟩, ⟨SNx1, broadcastInDim SNx1 ![0] hb (q 9)⟩, ⟨SNx1, broadcastInDim SNx1 ![0] hb (q 10)⟩, ⟨SNx1, broadcastInDim SNx1 ![0] hb (q 11)⟩, ⟨SNx1, broadcastInDim SNx1 ![0] hb (q 12)⟩, ⟨SNx1, broadcastInDim SNx1 ![0] hb (q 13)⟩, ⟨SNx1, broadcastInDim SNx1 ![0] hb (q 14)⟩, ⟨SNx1, broadcastInDim SNx1 ![0] hb (q 15)⟩] : List ((s : Shape) × (s.Idx → α))).map (·.1)) SNx16 1)
    (hkB : Shape.Concatenates (([⟨SNx1, broadcastInDim SNx1 ![0] hb (q 16)⟩, ⟨SNx1, broadcastInDim SNx1 ![0] hb (q 17)⟩, ⟨SNx1, broadcastInDim SNx1 ![0] hb (q 18)⟩, ⟨SNx1, broadcastInDim SNx1 ![0] hb (q 19)⟩, ⟨SNx1, broadcastInDim SNx1 ![0] hb (q 20)⟩, ⟨SNx1, broadcastInDim SNx1 ![0] hb (q 21)⟩, ⟨SNx1, broadcastInDim SNx1 ![0] hb (q 22)⟩, ⟨SNx1, broadcastInDim SNx1 ![0] hb (q 23)⟩, ⟨SNx1, broadcastInDim SNx1 ![0] hb (q 24)⟩, ⟨SNx1, broadcastInDim SNx1 ![0] hb (q 25)⟩, ⟨SNx1, broadcastInDim SNx1 ![0] hb (q 26)⟩, ⟨SNx1, broadcastInDim SNx1 ![0] hb (q 27)⟩, ⟨SNx1, broadcastInDim SNx1 ![0] hb (q 28)⟩, ⟨SNx1, broadcastInDim SNx1 ![0] hb (q 29)⟩, ⟨SNx1, broadcastInDim SNx1 ![0] hb (q 30)⟩, ⟨SNx1, broadcastInDim SNx1 ![0] hb (q 31)⟩] : List ((s : Shape) × (s.Idx → α))).map (·.1)) SNx16 1)
    (hkC : Shape.Concatenates (([⟨SNx1, broadcastInDim SNx1 ![0] hb (q 32)⟩, ⟨SNx1, broadcastInDim SNx1 ![0] hb (q 33)⟩, ⟨SNx1, broadcastInDim SNx1 ![0] hb (q 34)⟩, ⟨SNx1, broadcastInDim SNx1 ![0] hb (q 35)⟩] : List ((s : Shape) × (s.Idx → α))).map (·.1)) SNx4 1)
    (hk : Shape.Concatenates (([⟨SNx16, concatenate SNx16 1 [⟨SNx1, broadcastInDim SNx1 ![0] hb (q 0)⟩, ⟨SNx1, broadcastInDim SNx1 ![0] hb (q 1)⟩, ⟨SNx1, broadcastInDim SNx1 ![0] hb (q 2)⟩, ⟨SNx1, broadcastInDim SNx1 ![0] hb (q 3)⟩, ⟨SNx1, broadcastInDim SNx1 ![0] hb (q 4)⟩, ⟨SNx1, broadcastInDim SNx1 ![0] hb (q 5)⟩, ⟨SNx1, broadcastInDim SNx1 ![0] hb (q 6)⟩, ⟨SNx1, broadcastInDim SNx1 ![0] hb (q 7)⟩, ⟨SNx1, broadcastInDim SNx1 ![0] hb (q 8)⟩, ⟨SNx1, broadcastInDim SNx1 ![0] hb (q 9)⟩, ⟨SNx1, broadcastInDim SNx1 ![0] hb (q 10)⟩, ⟨SNx1, broadcastInDim SNx1 ![0] hb (q 11)⟩, ⟨SNx1, broadcastInDim SNx1 ![0] hb (q 12)⟩, ⟨SNx1, broadcastInDim SNx1 ![0] hb (q 13)⟩, ⟨SNx1, broadcastInDim SNx1 ![0] hb (q 14)⟩, ⟨SNx1, broadcastInDim SNx1 ![0] hb (q 15)⟩] hkA⟩, ⟨SNx16, concatenate SNx16 1 [⟨SNx1, broadcastInDim SNx1 ![0] hb (q 16)⟩, ⟨SNx1, broadcastInDim SNx1 ![0] hb (q 17)⟩, ⟨SNx1, broadcastInDim SNx1 ![0] hb (q 18)⟩, ⟨SNx1, broadcastInDim SNx1 ![0] hb (q 19)⟩, ⟨SNx1, broadcastInDim SNx1 ![0] hb (q 20)⟩, ⟨SNx1, broadcastInDim SNx1 ![0] hb (q 21)⟩, ⟨SNx1, broadcastInDim SNx1 ![0] hb (q 22)⟩, ⟨SNx1, broadcastInDim SNx1 ![0] hb (q 23)⟩, ⟨SNx1, broadcastInDim SNx1 ![0] hb (q 24)⟩, ⟨SNx1, broadcastInDim SNx1 ![0] hb (q 25)⟩, ⟨SNx1, broadcastInDim SNx1 ![0] hb (q 26)⟩, ⟨SNx1, broadcastInDim SNx1 ![0] hb (q 27)⟩, ⟨SNx1, broadcastInDim SNx1 ![0] hb (q 28)⟩, ⟨SNx1, broadcastInDim SNx1 ![0] hb (q 29)⟩, ⟨SNx1, broadcastInDim SNx1 ![0] hb (q 30)⟩, ⟨SNx1, broadcastInDim SNx1 ![0] hb (q 31)⟩] hkB⟩, ⟨SNx4, concatenate SNx4 1 [⟨SNx1, broadcastInDim SNx1 ![0] hb (q 32)⟩, ⟨SNx1, broadcastInDim SNx1 ![0] hb (q 33)⟩, ⟨SNx1, broadcastInDim SNx1 ![0] hb (q 34)⟩, ⟨SNx1, broadcastInDim SNx1 ![0] hb (q 35)⟩] hkC⟩] : List ((s : Shape) × (s.Idx → α))).map (·.1)) SNx36 1)
    (j : Fin 36) (e : Fin 10000) :
    concatenate SNx36 1 [⟨SNx16, concatenate SNx16 1 [⟨SNx1, broadcastInDim SNx1 ![0] hb (q 0)⟩, ⟨SNx1, broadcastInDim SNx1 ![0] hb (q 1)⟩, ⟨SNx1, broadcastInDim SNx1 ![0] hb (q 2)⟩, ⟨SNx1, broadcastInDim SNx1 ![0] hb (q 3)⟩, ⟨SNx1, broadcastInDim SNx1 ![0] hb (q 4)⟩, ⟨SNx1, broadcastInDim SNx1 ![0] hb (q 5)⟩, ⟨SNx1, broadcastInDim SNx1 ![0] hb (q 6)⟩, ⟨SNx1, broadcastInDim SNx1 ![0] hb (q 7)⟩, ⟨SNx1, broadcastInDim SNx1 ![0] hb (q 8)⟩, ⟨SNx1, broadcastInDim SNx1 ![0] hb (q 9)⟩, ⟨SNx1, broadcastInDim SNx1 ![0] hb (q 10)⟩, ⟨SNx1, broadcastInDim SNx1 ![0] hb (q 11)⟩, ⟨SNx1, broadcastInDim SNx1 ![0] hb (q 12)⟩, ⟨SNx1, broadcastInDim SNx1 ![0] hb (q 13)⟩, ⟨SNx1, broadcastInDim SNx1 ![0] hb (q 14)⟩, ⟨SNx1, broadcastInDim SNx1 ![0] hb (q 15)⟩] hkA⟩, ⟨SNx16, concatenate SNx16 1 [⟨SNx1, broadcastInDim SNx1 ![0] hb (q 16)⟩, ⟨SNx1, broadcastInDim SNx1 ![0] hb (q 17)⟩, ⟨SNx1, broadcastInDim SNx1 ![0] hb (q 18)⟩, ⟨SNx1, broadcastInDim SNx1 ![0] hb (q 19)⟩, ⟨SNx1, broadcastInDim SNx1 ![0] hb (q 20)⟩, ⟨SNx1, broadcastInDim SNx1 ![0] hb (q 21)⟩, ⟨SNx1, broadcastInDim SNx1 ![0] hb (q 22)⟩, ⟨SNx1, broadcastInDim SNx1 ![0] hb (q 23)⟩, ⟨SNx1, broadcastInDim SNx1 ![0] hb (q 24)⟩, ⟨SNx1, broadcastInDim SNx1 ![0] hb (q 25)⟩, ⟨SNx1, broadcastInDim SNx1 ![0] hb (q 26)⟩, ⟨SNx1, broadcastInDim SNx1 ![0] hb (q 27)⟩, ⟨SNx1, broadcastInDim SNx1 ![0] hb (q 28)⟩, ⟨SNx1, broadcastInDim SNx1 ![0] hb (q 29)⟩, ⟨SNx1, broadcastInDim SNx1 ![0] hb (q 30)⟩, ⟨SNx1, broadcastInDim SNx1 ![0] hb (q 31)⟩] hkB⟩, ⟨SNx4, concatenate SNx4 1 [⟨SNx1, broadcastInDim SNx1 ![0] hb (q 32)⟩, ⟨SNx1, broadcastInDim SNx1 ![0] hb (q 33)⟩, ⟨SNx1, broadcastInDim SNx1 ![0] hb (q 34)⟩, ⟨SNx1, broadcastInDim SNx1 ![0] hb (q 35)⟩] hkC⟩] hk (ix2 e j)
      = q j (ix1 e) := by
  rw [blocks_apply]
  by_cases h : j.val < 16
  · rw [dif_pos h]
    exact (cols16_apply (fun n : Fin 16 => q ⟨n.val, by have := n.isLt; omega⟩) hb hkA ⟨j.val, h⟩ e).trans rfl
  · rw [dif_neg h]
    by_cases h2 : j.val < 32
    · rw [dif_pos h2]
      refine (cols16_apply (fun n : Fin 16 => q ⟨n.val + 16, by have := n.isLt; omega⟩) hb hkB ⟨j.val - 16, by omega⟩ e).trans ?_
      exact congrArg (fun k => q k (ix1 e)) (Fin.ext (by show j.val - 16 + 16 = j.val; omega))
    · rw [dif_neg h2]
      refine (cols4_apply (fun n : Fin 4 => q ⟨n.val + 32, by have := n.isLt; omega⟩) hb hkC ⟨j.val - 32, by have := j.isLt; omega⟩ e).trans ?_
      exact congrArg (fun k => q k (ix1 e)) (Fin.ext (by show j.val - 32 + 32 = j.val; omega))

end Cert.Stack
end
-- ==== Proof.RefColumns.lean ====
import proofs.«116600_j39926015984151_2_alg».proof.Proof.RefReadP
import proofs.«116600_j39926015984151_2_alg».proof.Proof.LibStack36
import Idealize.ShloMosaic.Lib.ValueIdx
import Idealize.ShloMosaic.Lib.Pipeline.Value

/-!
# The reference's two 10000 × 36 stacks, read at an entry

The reference lays the 36 entries of each edge's 6 × 6 block as the COLUMNS of a 10000 × 36 array: each entry's vector
(one number per edge) is broadcast to a 10000 × 1 column, the columns are joined in blocks of 16, 16 and 4, and the three
blocks are joined. This module names the two families of columns (the rotational and the axial one) and reads the two
joined arrays at (e, j): column j at edge e.
-/

noncomputable section
namespace Cert.ReferenceIdeal.EdgeValue
open Idealize.ShloMosaic Idealize.ShloMosaic.ValueIdx Cert.ReferenceIdeal Cert.ReferenceIdeal.Gen Cert.ReferenceIdeal.ReadP

variable {F : FTy → Type} [FloatOps F]
variable (x0 : (⟨S2500x2, .f32⟩ : BufTy).Contents (Elt F)) (x1 x2 : (⟨S10000, .i32⟩ : BufTy).Contents (Elt F))

/-- The 36 columns of the rotational array, in row-major order of the 6 × 6 block. -/
def rotCols : Fin 36 → FVec F S10000 .f32 :=
  ![val_main_v49 (F := F) x0 x1 x2, val_main_v51 (F := F) x0 x1 x2, val_main_v52 (F := F) x0 x1 x2, val_main_v54 (F := F) x0 x1 x2, val_main_v56 (F := F) x0 x1 x2, val_main_v57 (F := F) x0 x1 x2, val_main_v59 (F := F) x0 x1 x2, val_main_v61 (F := F) x0 x1 x2, val_main_v62 (F := F) x0 x1 x2, val_main_v64 (F := F) x0 x1 x2, val_main_v66 (F := F) x0 x1 x2, val_main_v67 (F := F) x0 x1 x2, val_main_v68 (F := F) x0 x1 x2, val_main_v69 (F := F) x0 x1 x2, val_main_v46 (F := F) x0 x1 x2, val_main_v37 (F := F) x0 x1 x2, val_main_v40 (F := F) x0 x1 x2, val_main_v43 (F := F) x0 x1 x2, val_main_v71 (F := F) x0 x1 x2, val_main_v73 (F := F) x0 x1 x2, val_main_v37 (F := F) x0 x1 x2, val_main_v75 (F := F) x0 x1 x2, val_main_v77 (F := F) x0 x1 x2, val_main_v37 (F := F) x0 x1 x2, val_main_v79 (F := F) x0 x1 x2, val_main_v81 (F := F) x0 x1 x2, val_main_v40 (F := F) x0 x1 x2, val_main_v83 (F := F) x0 x1 x2, val_main_v85 (F := F) x0 x1 x2, val_main_v40 (F := F) x0 x1 x2, val_main_v86 (F := F) x0 x1 x2, val_main_v87 (F := F) x0 x1 x2, val_main_v43 (F := F) x0 x1 x2, val_main_v37 (F := F) x0 x1 x2, val_main_v40 (F := F) x0 x1 x2, val_main_v46 (F := F) x0 x1 x2]

/-- The rotational array at (e, j) is column j at e. -/
theorem rot_apply (j : Fin 36) (e : Fin 10000) :
    val_main_v127 (F := F) x0 x1 x2 (ix2 e j) = rotCols x0 x1 x2 j (ix1 e) := by
  unfold val_main_v127 val_main_v124 val_main_v125 val_main_v126
  unfold val_main_v88 val_main_v89 val_main_v90 val_main_v91 val_main_v92 val_main_v93 val_main_v94 val_main_v95 val_main_v96 val_main_v97 val_main_v98 val_main_v99 val_main_v100 val_main_v101 val_main_v102 val_main_v103 val_main_v104 val_main_v105 val_main_v106 val_main_v107 val_main_v108 val_main_v109 val_main_v110 val_main_v111 val_main_v112 val_main_v113 val_main_v114 val_main_v115 val_main_v116 val_main_v117 val_main_v118 val_main_v119 val_main_v120 val_main_v121 val_main_v122 val_main_v123
  exact Cert.Stack.blockCols_apply (rotCols x0 x1 x2) bcast_S10000_S10000x1_0 concatenates_S10000x1_S10000x1_S10000x1_S10000x1_S10000x1_S10000x1_S10000x1_S10000x1_S10000x1_S10000x1_S10000x1_S10000x1_S10000x1_S10000x1_S10000x1_S10000x1_S10000x16_d1 concatenates_S10000x1_S10000x1_S10000x1_S10000x1_S10000x1_S10000x1_S10000x1_S10000x1_S10000x1_S10000x1_S10000x1_S10000x1_S10000x1_S10000x1_S10000x1_S10000x1_S10000x16_d1 concatenates_S10000x1_S10000x1_S10000x1_S10000x1_S10000x4_d1 concatenates_S10000x16_S10000x16_S10000x4_S10000x36_d1 j e

/-- The 36 columns of the axial array. -/
def linCols : Fin 36 → FVec F S10000 .f32 :=
  ![val_main_v33 (F := F) x0 x1 x2, val_main_v128 (F := F) x0 x1 x2, val_main_v47 (F := F), val_main_v129 (F := F) x0 x1 x2, val_main_v34 (F := F) x0 x1 x2, val_main_v47 (F := F), val_main_v130 (F := F) x0 x1 x2, val_main_v32 (F := F) x0 x1 x2, val_main_v47 (F := F), val_main_v34 (F := F) x0 x1 x2, val_main_v131 (F := F) x0 x1 x2, val_main_v47 (F := F), val_main_v47 (F := F), val_main_v47 (F := F), val_main_v47 (F := F), val_main_v47 (F := F), val_main_v47 (F := F), val_main_v47 (F := F), val_main_v132 (F := F) x0 x1 x2, val_main_v34 (F := F) x0 x1 x2, val_main_v47 (F := F), val_main_v33 (F := F) x0 x1 x2, val_main_v133 (F := F) x0 x1 x2, val_main_v47 (F := F), val_main_v34 (F := F) x0 x1 x2, val_main_v134 (F := F) x0 x1 x2, val_main_v47 (F := F), val_main_v135 (F := F) x0 x1 x2, val_main_v32 (F := F) x0 x1 x2, val_main_v47 (F := F), val_main_v47 (F := F), val_main_v47 (F := F), val_main_v47 (F := F), val_main_v47 (F := F), val_main_v47 (F := F), val_main_v47 (F := F)]

/-- The axial array at (e, j) is column j at e. -/
theorem lin_apply (j : Fin 36) (e : Fin 10000) :
    val_main_v175 (F := F) x0 x1 x2 (ix2 e j) = linCols x0 x1 x2 j (ix1 e) := by
  unfold val_main_v175 val_main_v172 val_main_v173 val_main_v174
  unfold val_main_v136 val_main_v137 val_main_v138 val_main_v139 val_main_v140 val_main_v141 val_main_v142 val_main_v143 val_main_v144 val_main_v145 val_main_v146 val_main_v147 val_main_v148 val_main_v149 val_main_v150 val_main_v151 val_main_v152 val_main_v153 val_main_v154 val_main_v155 val_main_v156 val_main_v157 val_main_v158 val_main_v159 val_main_v160 val_main_v161 val_main_v162 val_main_v163 val_main_v164 val_main_v165 val_main_v166 val_main_v167 val_main_v168 val_main_v169 val_main_v170 val_main_v171
  exact Cert.Stack.blockCols_apply (linCols x0 x1 x2) bcast_S10000_S10000x1_0 concatenates_S10000x1_S10000x1_S10000x1_S10000x1_S10000x1_S10000x1_S10000x1_S10000x1_S10000x1_S10000x1_S10000x1_S10000x1_S10000x1_S10000x1_S10000x1_S10000x1_S10000x16_d1 concatenates_S10000x1_S10000x1_S10000x1_S10000x1_S10000x1_S10000x1_S10000x1_S10000x1_S10000x1_S10000x1_S10000x1_S10000x1_S10000x1_S10000x1_S10000x1_S10000x1_S10000x16_d1 concatenates_S10000x1_S10000x1_S10000x1_S10000x1_S10000x4_d1 concatenates_S10000x16_S10000x16_S10000x4_S10000x36_d1 j e

end Cert.ReferenceIdeal.EdgeValue
end
-- ==== Proof.KernelRows.lean ====
import proofs.«116600_j39926015984151_2_alg».proof.Proof.Gen.KernelIdeal.Skeleton
import proofs.«116600_j39926015984151_2_alg».proof.Proof.LibStack36
import Idealize.ShloMosaic.Lib.ValueIdx
import Idealize.ShloMosaic.Lib.Pipeline.Value

/-!
# The value the kernel stores, read at an entry

The kernel stores one 36 × 10000 array: entry (j, e) is `rot j e · krot e + lin j e · klin e`, where `rot` and `lin` are
each 36 vectors of length 10000 (one per entry of the edge's 6 × 6 stiffness block, in row-major order) stacked as
rows, and `krot`, `klin` are the two per-edge stiffness scales broadcast along the rows. This module names the two
families of rows, reads the two stacks and the stored sum at an index, and writes the stored array as one function
`stored` of the four vectors the body loads (the two coordinate differences, the modulus and the area).
-/

noncomputable section
namespace Cert.KernelIdeal.EdgeValue
open Idealize.ShloMosaic Idealize.ShloMosaic.ValueIdx Cert.KernelIdeal Cert.KernelIdeal.Gen

variable {F : FTy → Type} [FloatOps F]

/-- The 36 rows of the rotational stack, in row-major order of the 6 × 6 block. -/
def rotRows (v28 v31 v34 v37 v40 v42 v44 v46 v48 v50 v52 v54 v56 v58 v60 v62 v64 v66 v68 v70 v72 v74 v76 v78 v80 v82 v84 : FVec F S10000 .f32) : Fin 36 → FVec F S10000 .f32 :=
  ![v40, v42, v44, v46, v48, v50, v52, v54, v56, v58, v60, v62, v64, v66, v37, v28, v31, v34, v68, v70, v28, v72, v74, v28, v76, v78, v31, v80, v82, v31, v84, subf (broadcast S10000 (Scalar.ofBits .f32 0x00000000#32 : F .f32)) v31, v34, v28, v31, v37]

/-- The rotational stack at (j, e) is row j at e. -/
theorem pay40_apply (v28 v31 v34 v37 v40 v42 v44 v46 v48 v50 v52 v54 v56 v58 v60 v62 v64 v66 v68 v70 v72 v74 v76 v78 v80 v82 v84 : FVec F S10000 .f32) (j : Fin 36) (e : Fin 10000) :
    k0_pay40 v28 v31 v34 v37 v40 v42 v44 v46 v48 v50 v52 v54 v56 v58 v60 v62 v64 v66 v68 v70 v72 v74 v76 v78 v80 v82 v84 (ix2 j e) = rotRows v28 v31 v34 v37 v40 v42 v44 v46 v48 v50 v52 v54 v56 v58 v60 v62 v64 v66 v68 v70 v72 v74 v76 v78 v80 v82 v84 j (ix1 e) :=
  Cert.Stack.rows_apply (rotRows v28 v31 v34 v37 v40 v42 v44 v46 v48 v50 v52 v54 v56 v58 v60 v62 v64 v66 v68 v70 v72 v74 v76 v78 v80 v82 v84) shapeCasts_S10000_S1x10000 concatenates_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S36x10000_d0 j e

/-- The 36 rows of the axial stack. -/
def linRows (v23 v24 v25 v38 v125 v127 v129 v131 v133 v135 v136 : FVec F S10000 .f32) : Fin 36 → FVec F S10000 .f32 :=
  ![v24, v125, v38, v127, v25, v38, v129, v23, v38, v25, v131, v38, v38, v38, v38, v38, v38, v38, v133, v25, v38, v24, v135, v38, v25, subf v136 v23, v38, subf (broadcast S10000 (Scalar.ofBits .f32 0x00000000#32 : F .f32)) v25, v23, v38, v38, v38, v38, v38, v38, v38]

/-- A vector cast to a 1 × 10000 row and broadcast over 36 rows, at (j, e), is the vector at e. -/
theorem rowBroadcast_apply (v : FVec F S10000 .f32) (j : Fin 36) (e : Fin 10000) :
    broadcastTo S36x10000 (shapeCast S1x10000 v shapeCasts_S10000_S1x10000) broadcasts_S1x10000_S36x10000 (ix2 j e) = v (ix1 e) :=
  (broadcastTo_apply _ broadcasts_S1x10000_S36x10000 (ix2 j e) (ix2 (0 : Fin 1) e) (fun a => by
    match a with
    | ⟨0, _⟩ => show 0 = if (1 : Nat) = 1 then 0 else _; rw [if_pos rfl]
    | ⟨1, _⟩ => show e.val = if (10000 : Nat) = 1 then 0 else _; rw [if_neg (by decide)]; rfl)).trans
  (shapeCast_apply v shapeCasts_S10000_S1x10000 (ix2 (0 : Fin 1) e) (ix1 e)
    (by rw [Shape.rowMajor_val_one, Shape.rowMajor_val_two]; simp))

/-- The stored sum at (j, e): the rotational entry times krot at e plus the axial row j at e times klin at e. -/
theorem pay1_apply (v16 v18 : FVec F S10000 .f32) (v23 v24 v25 v38 : FVec F S10000 .f32) (v123 : FVec F S36x10000 .f32)
    (v125 v127 v129 v131 v133 v135 v136 : FVec F S10000 .f32) (j : Fin 36) (e : Fin 10000) :
    k0_pay1 v16 v18 v23 v24 v25 v38 v123 v125 v127 v129 v131 v133 v135 v136 (ix2 j e)
      = FloatOps.addf (FloatOps.mulf (v123 (ix2 j e)) (v16 (ix1 e)))
          (FloatOps.mulf (linRows v23 v24 v25 v38 v125 v127 v129 v131 v133 v135 v136 j (ix1 e)) (v18 (ix1 e))) := by
  have hl := Cert.Stack.rows_apply (linRows v23 v24 v25 v38 v125 v127 v129 v131 v133 v135 v136) shapeCasts_S10000_S1x10000 concatenates_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S1x10000_S36x10000_d0 j e
  unfold k0_pay1
  simp only [addf, mulf]
  rw [rowBroadcast_apply v16 j e, rowBroadcast_apply v18 j e]
  exact congrArg (fun z => FloatOps.addf (FloatOps.mulf (v123 (ix2 j e)) (v16 (ix1 e))) (FloatOps.mulf z (v18 (ix1 e)))) hl

/-- The stored array as one function of the four loaded vectors: the body's payloads composed as the body composes them. -/
def stored (v0 v2 v4 v5 : Vec F S10000 .f32) : FVec F S36x10000 .f32 :=
  let v23 := k0_pay9 v0 v2; let v24 := k0_pay10 v0 v2; let v25 := k0_pay11 v0 v2
  let v28 := k0_pay12 v0 v2; let v31 := k0_pay13 v0 v2
  k0_pay1 (k0_pay5 v0 v2 v4 v5) (k0_pay6 v0 v2 v4 v5) v23 v24 v25 (k0_pay16 (F := F))
    (k0_pay40 v28 v31 (k0_pay14 v0 v2) (k0_pay15 v0 v2) (k0_pay17 v0 v2) (k0_pay18 v0 v2) (k0_pay19 v0 v2)
      (k0_pay20 v23) (k0_pay21 v25) (k0_pay22 v28) (k0_pay23 v25) (k0_pay24 v24) (k0_pay25 v31) (k0_pay26 v25) (k0_pay27 v24)
      (k0_pay28 v31) (k0_pay29 v28) (k0_pay30 v31) (k0_pay31 v23) (k0_pay32 v25) (k0_pay33 v23) (k0_pay34 v25) (k0_pay35 v25)
      (k0_pay36 v24) (k0_pay37 v25) (k0_pay38 v24) (k0_pay39 v28))
    (k0_pay41 v25) (k0_pay42 v24) (k0_pay43 v25) (k0_pay44 v23) (k0_pay45 v24) (k0_pay46 v25) (k0_pay47 (F := F))

/-- The rows of the two stacks as functions of the two coordinate differences. -/
def rotOf (v0 v2 : Vec F S10000 .f32) : Fin 36 → FVec F S10000 .f32 :=
  let v23 := k0_pay9 v0 v2; let v24 := k0_pay10 v0 v2; let v25 := k0_pay11 v0 v2
  let v28 := k0_pay12 v0 v2; let v31 := k0_pay13 v0 v2
  rotRows v28 v31 (k0_pay14 v0 v2) (k0_pay15 v0 v2) (k0_pay17 v0 v2) (k0_pay18 v0 v2) (k0_pay19 v0 v2)
      (k0_pay20 v23) (k0_pay21 v25) (k0_pay22 v28) (k0_pay23 v25) (k0_pay24 v24) (k0_pay25 v31) (k0_pay26 v25) (k0_pay27 v24)
      (k0_pay28 v31) (k0_pay29 v28) (k0_pay30 v31) (k0_pay31 v23) (k0_pay32 v25) (k0_pay33 v23) (k0_pay34 v25) (k0_pay35 v25)
      (k0_pay36 v24) (k0_pay37 v25) (k0_pay38 v24) (k0_pay39 v28)
def linOf (v0 v2 : Vec F S10000 .f32) : Fin 36 → FVec F S10000 .f32 :=
  let v23 := k0_pay9 v0 v2; let v24 := k0_pay10 v0 v2; let v25 := k0_pay11 v0 v2
  linRows v23 v24 v25 (k0_pay16 (F := F)) (k0_pay41 v25) (k0_pay42 v24) (k0_pay43 v25) (k0_pay44 v23) (k0_pay45 v24) (k0_pay46 v25) (k0_pay47 (F := F))

/-- The stored array at (j, e). -/
theorem stored_apply (v0 v2 v4 v5 : Vec F S10000 .f32) (j : Fin 36) (e : Fin 10000) :
    stored v0 v2 v4 v5 (ix2 j e)
      = FloatOps.addf (FloatOps.mulf (rotOf v0 v2 j (ix1 e)) (k0_pay5 v0 v2 v4 v5 (ix1 e)))
          (FloatOps.mulf (linOf v0 v2 j (ix1 e)) (k0_pay6 v0 v2 v4 v5 (ix1 e))) := by
  simp only [stored, rotOf, linOf, pay1_apply, pay40_apply]

end Cert.KernelIdeal.EdgeValue
end
-- ==== Proof.KmatBridge.lean ====
import proofs.«116600_j39926015984151_2_alg».proof.Proof.RefColumns
import proofs.«116600_j39926015984151_2_alg».proof.Proof.KernelRows
import Idealize.ShloMosaic.PureOps.Ideal.Laws

/-!
# One 6 × 6 stiffness block per edge, computed two ways

For an edge with coordinate difference (dx, dy), modulus E and area A, both programs compute the length
`L = √(dx² + dy²)`, the scales `krot = E·(A²/12) / L³` and `klin = E·A / L`, the direction cosines `c = dx / L` and
`s = −dy / L`, and from them the 36 entries `rot_j · krot + lin_j · klin` of the edge's block. They differ only in
how the same extended-real expressions are spelt:

* the length: the reference sums the squares of the two coordinates starting from 0, the kernel adds the two squares;
* a negation: the reference negates, the kernel subtracts from 0;
* `2·L²` and `4·L²`: the reference multiplies the constant by `L·L`, the kernel multiplies `(constant · L)` by `L`
  (and `L³` is `(L·L)·L` in both);
* the layout: the reference's array is 10000 × 36 (entries as columns), the kernel's 36 × 10000 (entries as rows).

None of these needs finiteness: `0 + x = x`, `0 − x = −x` and associativity of the product hold for every extended real.
So the two arrays are transposes of one another, entry by entry.
-/

noncomputable section
namespace Cert.EdgeBridge
open Idealize.ShloMosaic Idealize.ShloMosaic.ValueIdx
open Cert.ReferenceIdeal.ReadP Cert.ReferenceIdeal.EdgeValue Cert.KernelIdeal.Gen Cert.KernelIdeal.EdgeValue

variable (x0 : (⟨Cert.ReferenceIdeal.S2500x2, .f32⟩ : BufTy).Contents (Elt Ideal))
  (x1 x2 : (⟨Cert.ReferenceIdeal.S10000, .i32⟩ : BufTy).Contents (Elt Ideal))
  (x3 x4 : (⟨Cert.ReferenceIdeal.S10000, .f32⟩ : BufTy).Contents (Elt Ideal))

/-- The reference's edge length — the root of the sum, from 0, of the squares of the difference's two coordinates — is
    the root of `dx² + dy²`. -/
theorem len_pt (i : Cert.ReferenceIdeal.S10000.Idx) :
    val_main_v15 (F := Ideal) x0 x1 x2 i
      = Ideal.sqrt ((val_main_v26 (F := Ideal) x0 x1 x2) i * (val_main_v26 (F := Ideal) x0 x1 x2) i + (val_main_v29 (F := Ideal) x0 x1 x2) i * (val_main_v29 (F := Ideal) x0 x1 x2) i) := by
  have hx : val_main_v14 (F := Ideal) x0 x1 x2 (idx_main_call0_v1 i 0) = (val_main_v26 (F := Ideal) x0 x1 x2) i := by
    rw [val_main_v26_apply, val_main_v25_apply]
    exact congrArg _ (funext fun a => Fin.ext (by
      match a with
      | ⟨0, _⟩ => show (i 0).val = (i 0).val / 1; omega
      | ⟨1, _⟩ => rfl))
  have hy : val_main_v14 (F := Ideal) x0 x1 x2 (idx_main_call0_v1 i 1) = (val_main_v29 (F := Ideal) x0 x1 x2) i := by
    rw [val_main_v29_apply, val_main_v28_apply]
    exact congrArg _ (funext fun a => Fin.ext (by
      match a with
      | ⟨0, _⟩ => show (i 0).val = (i 0).val / 1; omega
      | ⟨1, _⟩ => rfl))
  rw [val_main_v15_apply, val_main_call0_v1_apply, Fin.sum_univ_two, val_main_call0_v0_apply, val_main_call0_v0_apply, hx, hy,
    val_main_call0_cst_apply]
  simp only [Ideal.hostUnary_sqrt_def, Ideal.mulf_def, Ideal.ofBits_def, Ideal.ofBits_zero_f32, zero_add]

/-- Both sides written out as extended-real expressions in dx, dy, E, A at one edge, negations as `−x` and products
    associated to the right. -/
macro "edge_norm" x0:ident x1:ident x2:ident : tactic => `(tactic|
  simp only [val_main_v16, val_main_v17, val_main_v18, val_main_v19, val_main_v20, val_main_v21, val_main_v22, val_main_v23, val_main_v24, val_main_v27, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v128, val_main_v129, val_main_v130, val_main_v131, val_main_v132, val_main_v133, val_main_v134, val_main_v135, val_main_cst, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, k0_pay2, k0_pay3, k0_pay4, k0_pay7, k0_pay8, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay41, k0_pay42, k0_pay43, k0_pay44, k0_pay45, k0_pay46, k0_pay47, Idealize.ShloMosaic.mulf, Idealize.ShloMosaic.addf, Idealize.ShloMosaic.subf, Idealize.ShloMosaic.divf, Idealize.ShloMosaic.sqrt, Idealize.ShloMosaic.Host.divf, Idealize.ShloMosaic.Host.negf, Idealize.ShloMosaic.Host.sqrt, broadcast, broadcastInDim, constant, Ideal.mulf_def, Ideal.addf_def, Ideal.subf_def, Ideal.divf_def, Ideal.hostDivf_def, Ideal.sqrt_def, Ideal.hostUnary_sqrt_def, Ideal.hostNegf_def, Ideal.negf_def, Ideal.ofBits_def, Ideal.ofBits_zero_f32, zero_sub, mul_assoc, shapeCast_self, len_pt $x0 $x1 $x2])

/-- The rotational scale. -/
theorem krot_pt (i : Cert.ReferenceIdeal.S10000.Idx) :
    val_main_v22 (F := Ideal) x0 x1 x2 x3 x4 i = k0_pay5 (F := Ideal) (val_main_v26 (F := Ideal) x0 x1 x2) (val_main_v29 (F := Ideal) x0 x1 x2) x3 x4 i := by
  edge_norm x0 x1 x2

/-- The axial scale. -/
theorem klin_pt (i : Cert.ReferenceIdeal.S10000.Idx) :
    val_main_v24 (F := Ideal) x0 x1 x2 x3 x4 i = k0_pay6 (F := Ideal) (val_main_v26 (F := Ideal) x0 x1 x2) (val_main_v29 (F := Ideal) x0 x1 x2) x3 x4 i := by
  edge_norm x0 x1 x2

/-- Entry j of the rotational part, for every j at once: the reference's column j is the kernel's row j. -/
theorem rotcol_all (i : Cert.ReferenceIdeal.S10000.Idx) :
    ∀ j : Fin 36, rotCols (F := Ideal) x0 x1 x2 j i = rotOf (F := Ideal) (val_main_v26 (F := Ideal) x0 x1 x2) (val_main_v29 (F := Ideal) x0 x1 x2) j i := by
  simp only [rotCols, rotOf, rotRows, Fin.forall_fin_succ, Matrix.cons_val_zero, Matrix.cons_val_succ, IsEmpty.forall_iff, and_true]
  repeat' apply And.intro
  all_goals edge_norm x0 x1 x2

theorem rotcol_eq (j : Fin 36) (i : Cert.ReferenceIdeal.S10000.Idx) :
    rotCols (F := Ideal) x0 x1 x2 j i = rotOf (F := Ideal) (val_main_v26 (F := Ideal) x0 x1 x2) (val_main_v29 (F := Ideal) x0 x1 x2) j i := rotcol_all x0 x1 x2 i j

/-- Entry j of the axial part, for every j at once. -/
theorem lincol_all (i : Cert.ReferenceIdeal.S10000.Idx) :
    ∀ j : Fin 36, linCols (F := Ideal) x0 x1 x2 j i = linOf (F := Ideal) (val_main_v26 (F := Ideal) x0 x1 x2) (val_main_v29 (F := Ideal) x0 x1 x2) j i := by
  simp only [linCols, linOf, linRows, Fin.forall_fin_succ, Matrix.cons_val_zero, Matrix.cons_val_succ, IsEmpty.forall_iff, and_true]
  repeat' apply And.intro
  all_goals edge_norm x0 x1 x2

theorem lincol_eq (j : Fin 36) (i : Cert.ReferenceIdeal.S10000.Idx) :
    linCols (F := Ideal) x0 x1 x2 j i = linOf (F := Ideal) (val_main_v26 (F := Ideal) x0 x1 x2) (val_main_v29 (F := Ideal) x0 x1 x2) j i := lincol_all x0 x1 x2 i j

/-- The reference's 10000 × 36 array of block entries is the transpose of the array the kernel stores, computed from the
    same coordinate differences, moduli and areas. -/
theorem kmat36_eq :
    val_main_v182 (F := Ideal) x0 x1 x2 x3 x4
      = transpose Cert.KernelIdeal.S10000x36 [1, 0] (stored (F := Ideal) (val_main_v26 (F := Ideal) x0 x1 x2) (val_main_v29 (F := Ideal) x0 x1 x2) x3 x4)
          Cert.KernelIdeal.Gen.transposes_S36x10000_S10000x36_1_0 := by
  funext i
  obtain ⟨e, j, rfl⟩ : ∃ (e : Fin 10000) (j : Fin 36), i = ix2 e j := ⟨i 0, i 1, eq_ix2 i⟩
  rw [transpose_apply [1, 0] _ Cert.KernelIdeal.Gen.transposes_S36x10000_S10000x36_1_0 (ix2 e j) (ix2 j e)
    (fun b => by match b with | ⟨0, _⟩ => rfl | ⟨1, _⟩ => rfl)]
  have hi1 : idx_main_v176 (idx_main_v177 (ix2 e j)) = ix1 e := funext fun a => by match a with | ⟨0, _⟩ => rfl
  have hi2 : idx_main_v179 (idx_main_v180 (ix2 e j)) = ix1 e := funext fun a => by match a with | ⟨0, _⟩ => rfl
  rw [stored_apply, val_main_v182_apply, val_main_v178_apply, val_main_v181_apply, val_main_v177_apply, val_main_v176_apply,
    val_main_v180_apply, val_main_v179_apply, rot_apply, lin_apply, hi1, hi2, krot_pt, klin_pt, rotcol_eq, lincol_eq]

end Cert.EdgeBridge
end
-- ==== Proof.FinalBridge.lean ====
import proofs.«116600_j39926015984151_2_alg».proof.Proof.KmatBridge
import proofs.«116600_j39926015984151_2_alg».proof.Proof.KIResult

/-!
# The two programs' results are one function of the arguments

Outside the per-edge 6 × 6 blocks the two programs are the same text. Before the blocks: both gather the two end
points' coordinates of every edge (after the same normalisation of negative node numbers) and subtract them. After the
blocks: both assemble the global 7500 × 7500 matrix by the same four scatter-additions of the blocks' 3 × 3 quarters at
the same computed row and column numbers. So the kernel's coordinate differences ARE the reference's, the reference's
result is the kernel's assembly function of the reference's blocks, and the blocks agree (the transpose law of the
previous module, reshaped to 10000 × 6 × 6 on both sides).
-/

set_option maxRecDepth 65536
noncomputable section
namespace Cert.EdgeBridge
open Idealize.ShloMosaic Idealize.ShloMosaic.ValueIdx
open Cert.ReferenceIdeal.ReadP Cert.KernelIdeal.EdgeValue

variable (a0 : (⟨Cert.ReferenceIdeal.S2500x2, .f32⟩ : BufTy).Contents (Elt Ideal))
  (a1 a2 : (⟨Cert.ReferenceIdeal.S10000, .i32⟩ : BufTy).Contents (Elt Ideal))
  (a3 a4 : (⟨Cert.ReferenceIdeal.S10000, .f32⟩ : BufTy).Contents (Elt Ideal))

/-- The first coordinate of every edge's difference: the same gathers, subtraction, slice and reshape in both programs. -/
theorem preDx_eq : Cert.KernelIdeal.Hand.preDx (F := Ideal) a0 a1 a2 = val_main_v26 (F := Ideal) a0 a1 a2 := by
  unfold Cert.KernelIdeal.Hand.preDx val_main_v26 val_main_v25 val_main_v14 val_main_v6 val_main_v13 val_main_v5 val_main_v12 val_main_v4 val_main_v11 val_main_v1 val_main_v3 val_main_v8 val_main_v10 val_main_v0 val_main_v2 val_main_v7 val_main_v9 val_main_c val_main_c_0 val_main_c_1 val_main_c_2
  rfl

/-- The second coordinate. -/
theorem preDy_eq : Cert.KernelIdeal.Hand.preDy (F := Ideal) a0 a1 a2 = val_main_v29 (F := Ideal) a0 a1 a2 := by
  unfold Cert.KernelIdeal.Hand.preDy val_main_v29 val_main_v28 val_main_v14 val_main_v6 val_main_v13 val_main_v5 val_main_v12 val_main_v4 val_main_v11 val_main_v1 val_main_v3 val_main_v8 val_main_v10 val_main_v0 val_main_v2 val_main_v7 val_main_v9 val_main_c val_main_c_0 val_main_c_1 val_main_c_2
  rfl

/-- The array the kernel stores, as the frame names it, is the composition of the body's payloads read above. -/
theorem stored_eq (v0 v2 v4 v5 : Vec Ideal Cert.KernelIdeal.S10000 .f32) :
    Cert.KernelIdeal.Hand.stored0_4 (F := Ideal) v0 v2 v4 v5 = stored (F := Ideal) v0 v2 v4 v5 := rfl

set_option maxHeartbeats 40000000 in
/-- The reference's result is the kernel's assembly of the reference's own 10000 × 6 × 6 blocks: the same four
    scatter-additions at the same row and column numbers. -/
theorem tail_ref : val_main_v275 (F := Ideal) a0 a1 a2 a3 a4
    = Cert.KernelIdeal.Hand.tail21 (F := Ideal) (val_main_v183 (F := Ideal) a0 a1 a2 a3 a4) a1 a2 := by
  unfold Cert.KernelIdeal.Hand.tail21 val_main_v275 val_main_v274 val_main_v273 val_main_v272 val_main_v271 val_main_v270 val_main_v269 val_main_v268 val_main_v267 val_main_c_42 val_main_v266 val_main_v265 val_main_c_41 val_main_v264 val_main_v263 val_main_v262 val_main_c_40 val_main_v261 val_main_v260 val_main_c_39 val_main_v259 val_main_v258 val_main_v257 val_main_v256 val_main_v255 val_main_v254 val_main_v253 val_main_v252 val_main_v251 val_main_v250 val_main_v249 val_main_v248 val_main_c_38 val_main_v247 val_main_v246 val_main_c_37 val_main_v245 val_main_v244 val_main_v243 val_main_c_36 val_main_v242 val_main_v241 val_main_c_35 val_main_v240 val_main_v239 val_main_v238 val_main_v237 val_main_v236 val_main_v235 val_main_v234 val_main_v233 val_main_v232 val_main_v231 val_main_v230 val_main_v229 val_main_c_34 val_main_v228 val_main_v227 val_main_c_33 val_main_v226 val_main_v225 val_main_v224 val_main_c_32 val_main_v223 val_main_v222 val_main_c_31 val_main_v221 val_main_v220 val_main_v219 val_main_v218 val_main_v217 val_main_v216 val_main_v215 val_main_v214 val_main_v213 val_main_v212 val_main_v211 val_main_v210 val_main_c_30 val_main_v209 val_main_v208 val_main_c_29 val_main_v207 val_main_v206 val_main_v205 val_main_c_28 val_main_v204 val_main_v203 val_main_c_27 val_main_v202 val_main_v201 val_main_v200 val_main_v199 val_main_v198 val_main_v197 val_main_v196 val_main_v195 val_main_v194 val_main_v193 val_main_c_25 val_main_v192 val_main_v191 val_main_v190 val_main_v189 val_main_v188 val_main_v187 val_main_v186 val_main_c_24 val_main_v185 val_main_v184
  rfl

/-- The blocks agree: the reference's 10000 × 36 array reshaped is the kernel's stored array transposed and reshaped. -/
theorem kmat_eq : val_main_v183 (F := Ideal) a0 a1 a2 a3 a4
    = Cert.KernelIdeal.Hand.kmatOf (F := Ideal) (Cert.KernelIdeal.Hand.stored0_4 (F := Ideal) (val_main_v26 (F := Ideal) a0 a1 a2) (val_main_v29 (F := Ideal) a0 a1 a2) a3 a4) := by
  unfold val_main_v183 Cert.KernelIdeal.Hand.kmatOf
  rw [kmat36_eq, stored_eq]
  rfl

/-- The kernel's result — its assembly of the blocks it stores, from the coordinate differences its host lines compute —
    is the reference's result. -/
theorem result_eq :
    Cert.KernelIdeal.Hand.tailOf (F := Ideal) (Cert.KernelIdeal.Hand.stored0_4 (F := Ideal) (Cert.KernelIdeal.Hand.preDx (F := Ideal) a0 a1 a2) (Cert.KernelIdeal.Hand.preDy (F := Ideal) a0 a1 a2) a3 a4) a1 a2
      = val_main_v275 (F := Ideal) a0 a1 a2 a3 a4 := by
  rw [tail_ref, kmat_eq, preDx_eq, preDy_eq]
  rfl

end Cert.EdgeBridge
end
-- ==== Proof.RefRunSeg.lean ====
/- The reference program's run, in three stretches. @main of the reference is a straight line of 324 host operations;
   it is cut after the operation that writes the coordinate differences and after the one that writes the 6 × 6
   blocks. Each stretch is read as a pure function of what it finds, the three are composed, and the run of the
   whole line is re-posted over the composition: the result as a function of the five arguments, the arguments
   unchanged. -/
import proofs.«116600_j39926015984151_2_alg».proof.Proof.Gen.ReferenceIdeal
import Idealize.ShloMosaic.Lib.StableHlo.Run

noncomputable section

namespace Cert.ReferenceIdeal.RunSeg

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- @main's 324 operations, in order (a called function's operations stand in its call's place, spelt `TRef.…`). -/
abbrev ops : List (HloOp τ sig (Elt F)) :=
  [ nullary main_c (constantI S_ 32 0#32),
    unary main_c main_v0 (broadcastInDim S10000 ![] bcast_S_S10000 : (⟨S_, .i32⟩ : BufTy).Contents (Elt F) → (⟨S10000, .i32⟩ : BufTy).Contents (Elt F)),
    binary main_arg1 main_v0 main_v1 (cmpi .slt : (⟨S10000, .i32⟩ : BufTy).Contents (Elt F) → (⟨S10000, .i32⟩ : BufTy).Contents (Elt F) → (⟨S10000, .i1⟩ : BufTy).Contents (Elt F)),
    nullary main_c_0 (constantI S_ 32 2500#32),
    unary main_c_0 main_v2 (broadcastInDim S10000 ![] bcast_S_S10000 : (⟨S_, .i32⟩ : BufTy).Contents (Elt F) → (⟨S10000, .i32⟩ : BufTy).Contents (Elt F)),
    binary main_arg1 main_v2 main_v3 (addi : (⟨S10000, .i32⟩ : BufTy).Contents (Elt F) → (⟨S10000, .i32⟩ : BufTy).Contents (Elt F) → (⟨S10000, .i32⟩ : BufTy).Contents (Elt F)),
    ternary main_v1 main_v3 main_arg1 main_v4 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    unary main_v4 main_v5 (broadcastInDim S10000x1 ![0] bcast_S10000_S10000x1_0 : (⟨S10000, .i32⟩ : BufTy).Contents (Elt F) → (⟨S10000x1, .i32⟩ : BufTy).Contents (Elt F)),
    binary main_arg0 main_v5 main_v6 ((fun x i => Host.gather gather_S2500x2_S10000x1_S10000x2_1_0_n_n_0_1_12 x i) : (⟨S2500x2, .f32⟩ : BufTy).Contents (Elt F) → (⟨S10000x1, .i32⟩ : BufTy).Contents (Elt F) → (⟨S10000x2, .f32⟩ : BufTy).Contents (Elt F)),
    nullary main_c_1 (constantI S_ 32 0#32),
    unary main_c_1 main_v7 (broadcastInDim S10000 ![] bcast_S_S10000 : (⟨S_, .i32⟩ : BufTy).Contents (Elt F) → (⟨S10000, .i32⟩ : BufTy).Contents (Elt F)),
    binary main_arg2 main_v7 main_v8 (cmpi .slt : (⟨S10000, .i32⟩ : BufTy).Contents (Elt F) → (⟨S10000, .i32⟩ : BufTy).Contents (Elt F) → (⟨S10000, .i1⟩ : BufTy).Contents (Elt F)),
    nullary main_c_2 (constantI S_ 32 2500#32),
    unary main_c_2 main_v9 (broadcastInDim S10000 ![] bcast_S_S10000 : (⟨S_, .i32⟩ : BufTy).Contents (Elt F) → (⟨S10000, .i32⟩ : BufTy).Contents (Elt F)),
    binary main_arg2 main_v9 main_v10 (addi : (⟨S10000, .i32⟩ : BufTy).Contents (Elt F) → (⟨S10000, .i32⟩ : BufTy).Contents (Elt F) → (⟨S10000, .i32⟩ : BufTy).Contents (Elt F)),
    ternary main_v8 main_v10 main_arg2 main_v11 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    unary main_v11 main_v12 (broadcastInDim S10000x1 ![0] bcast_S10000_S10000x1_0 : (⟨S10000, .i32⟩ : BufTy).Contents (Elt F) → (⟨S10000x1, .i32⟩ : BufTy).Contents (Elt F)),
    binary main_arg0 main_v12 main_v13 ((fun x i => Host.gather gather_S2500x2_S10000x1_S10000x2_1_0_n_n_0_1_12 x i) : (⟨S2500x2, .f32⟩ : BufTy).Contents (Elt F) → (⟨S10000x1, .i32⟩ : BufTy).Contents (Elt F) → (⟨S10000x2, .f32⟩ : BufTy).Contents (Elt F)),
    binary main_v6 main_v13 main_v14 (subf : (⟨S10000x2, .f32⟩ : BufTy).Contents (Elt F) → (⟨S10000x2, .f32⟩ : BufTy).Contents (Elt F) → (⟨S10000x2, .f32⟩ : BufTy).Contents (Elt F)),
    TRef.binary (TRef.of (T := ⟨S10000x2, .f32⟩) main_v14) (TRef.of (T := ⟨S10000x2, .f32⟩) main_v14) (TRef.of (T := ⟨S10000x2, .f32⟩) main_call0_v0) mulf,
    TRef.nullary (TRef.of (T := ⟨S_, .f32⟩) main_call0_cst) (constant S_ .f32 0x00000000#32),
    TRef.binary (TRef.of (T := ⟨S10000x2, .f32⟩) main_call0_v0) (TRef.of (T := ⟨S_, .f32⟩) main_call0_cst) (TRef.of (T := ⟨S10000, .f32⟩) main_call0_v1) (fun x v => Host.reduceAdd x v reducesTo_S10000x2_S10000_d1 h_S_),
    TRef.unary (TRef.of (T := ⟨S10000, .f32⟩) main_call0_v1) (TRef.of (T := ⟨S10000, .f32⟩) main_v15) Host.sqrt,
    binary main_arg4 main_arg4 main_v16 (mulf : (⟨S10000, .f32⟩ : BufTy).Contents (Elt F) → (⟨S10000, .f32⟩ : BufTy).Contents (Elt F) → (⟨S10000, .f32⟩ : BufTy).Contents (Elt F)),
    nullary main_cst (constant S_ .f32 0x41400000#32),
    unary main_cst main_v17 (broadcastInDim S10000 ![] bcast_S_S10000 : (⟨S_, .f32⟩ : BufTy).Contents (Elt F) → (⟨S10000, .f32⟩ : BufTy).Contents (Elt F)),
    binary main_v16 main_v17 main_v18 (Host.divf : (⟨S10000, .f32⟩ : BufTy).Contents (Elt F) → (⟨S10000, .f32⟩ : BufTy).Contents (Elt F) → (⟨S10000, .f32⟩ : BufTy).Contents (Elt F)),
    binary main_arg3 main_v18 main_v19 (mulf : (⟨S10000, .f32⟩ : BufTy).Contents (Elt F) → (⟨S10000, .f32⟩ : BufTy).Contents (Elt F) → (⟨S10000, .f32⟩ : BufTy).Contents (Elt F)),
    binary main_v15 main_v15 main_v20 (mulf : (⟨S10000, .f32⟩ : BufTy).Contents (Elt F) → (⟨S10000, .f32⟩ : BufTy).Contents (Elt F) → (⟨S10000, .f32⟩ : BufTy).Contents (Elt F)),
    binary main_v20 main_v15 main_v21 (mulf : (⟨S10000, .f32⟩ : BufTy).Contents (Elt F) → (⟨S10000, .f32⟩ : BufTy).Contents (Elt F) → (⟨S10000, .f32⟩ : BufTy).Contents (Elt F)),
    binary main_v19 main_v21 main_v22 (Host.divf : (⟨S10000, .f32⟩ : BufTy).Contents (Elt F) → (⟨S10000, .f32⟩ : BufTy).Contents (Elt F) → (⟨S10000, .f32⟩ : BufTy).Contents (Elt F)),
    binary main_arg3 main_arg4 main_v23 (mulf : (⟨S10000, .f32⟩ : BufTy).Contents (Elt F) → (⟨S10000, .f32⟩ : BufTy).Contents (Elt F) → (⟨S10000, .f32⟩ : BufTy).Contents (Elt F)),
    binary main_v23 main_v15 main_v24 (Host.divf : (⟨S10000, .f32⟩ : BufTy).Contents (Elt F) → (⟨S10000, .f32⟩ : BufTy).Contents (Elt F) → (⟨S10000, .f32⟩ : BufTy).Contents (Elt F)),
    unary main_v14 main_v25 ((extractStridedSlice S10000x1 ![0, 0] · slices_S10000x2_S10000x1_0_0) : (⟨S10000x2, .f32⟩ : BufTy).Contents (Elt F) → (⟨S10000x1, .f32⟩ : BufTy).Contents (Elt F)),
    reshape main_v25 main_v26 rfl shapeCasts_S10000x1_S10000,
    binary main_v26 main_v15 main_v27 (Host.divf : (⟨S10000, .f32⟩ : BufTy).Contents (Elt F) → (⟨S10000, .f32⟩ : BufTy).Contents (Elt F) → (⟨S10000, .f32⟩ : BufTy).Contents (Elt F)),
    unary main_v14 main_v28 ((extractStridedSlice S10000x1 ![0, 1] · slices_S10000x2_S10000x1_0_1) : (⟨S10000x2, .f32⟩ : BufTy).Contents (Elt F) → (⟨S10000x1, .f32⟩ : BufTy).Contents (Elt F)),
    reshape main_v28 main_v29 rfl shapeCasts_S10000x1_S10000,
    unary main_v29 main_v30 (Host.negf : (⟨S10000, .f32⟩ : BufTy).Contents (Elt F) → (⟨S10000, .f32⟩ : BufTy).Contents (Elt F)),
    binary main_v30 main_v15 main_v31 (Host.divf : (⟨S10000, .f32⟩ : BufTy).Contents (Elt F) → (⟨S10000, .f32⟩ : BufTy).Contents (Elt F) → (⟨S10000, .f32⟩ : BufTy).Contents (Elt F)),
    binary main_v31 main_v31 main_v32 (mulf : (⟨S10000, .f32⟩ : BufTy).Contents (Elt F) → (⟨S10000, .f32⟩ : BufTy).Contents (Elt F) → (⟨S10000, .f32⟩ : BufTy).Contents (Elt F)),
    binary main_v27 main_v27 main_v33 (mulf : (⟨S10000, .f32⟩ : BufTy).Contents (Elt F) → (⟨S10000, .f32⟩ : BufTy).Contents (Elt F) → (⟨S10000, .f32⟩ : BufTy).Contents (Elt F)),
    binary main_v31 main_v27 main_v34 (mulf : (⟨S10000, .f32⟩ : BufTy).Contents (Elt F) → (⟨S10000, .f32⟩ : BufTy).Contents (Elt F) → (⟨S10000, .f32⟩ : BufTy).Contents (Elt F)),
    nullary main_cst_3 (constant S_ .f32 0x40C00000#32),
    unary main_cst_3 main_v35 (broadcastInDim S10000 ![] bcast_S_S10000 : (⟨S_, .f32⟩ : BufTy).Contents (Elt F) → (⟨S10000, .f32⟩ : BufTy).Contents (Elt F)),
    binary main_v35 main_v15 main_v36 (mulf : (⟨S10000, .f32⟩ : BufTy).Contents (Elt F) → (⟨S10000, .f32⟩ : BufTy).Contents (Elt F) → (⟨S10000, .f32⟩ : BufTy).Contents (Elt F)),
    binary main_v36 main_v31 main_v37 (mulf : (⟨S10000, .f32⟩ : BufTy).Contents (Elt F) → (⟨S10000, .f32⟩ : BufTy).Contents (Elt F) → (⟨S10000, .f32⟩ : BufTy).Contents (Elt F)),
    nullary main_cst_4 (constant S_ .f32 0x40C00000#32),
    unary main_cst_4 main_v38 (broadcastInDim S10000 ![] bcast_S_S10000 : (⟨S_, .f32⟩ : BufTy).Contents (Elt F) → (⟨S10000, .f32⟩ : BufTy).Contents (Elt F)),
    binary main_v38 main_v15 main_v39 (mulf : (⟨S10000, .f32⟩ : BufTy).Contents (Elt F) → (⟨S10000, .f32⟩ : BufTy).Contents (Elt F) → (⟨S10000, .f32⟩ : BufTy).Contents (Elt F)),
    binary main_v39 main_v27 main_v40 (mulf : (⟨S10000, .f32⟩ : BufTy).Contents (Elt F) → (⟨S10000, .f32⟩ : BufTy).Contents (Elt F) → (⟨S10000, .f32⟩ : BufTy).Contents (Elt F)),
    binary main_v15 main_v15 main_v41 (mulf : (⟨S10000, .f32⟩ : BufTy).Contents (Elt F) → (⟨S10000, .f32⟩ : BufTy).Contents (Elt F) → (⟨S10000, .f32⟩ : BufTy).Contents (Elt F)),
    nullary main_cst_5 (constant S_ .f32 0x40000000#32),
    unary main_cst_5 main_v42 (broadcastInDim S10000 ![] bcast_S_S10000 : (⟨S_, .f32⟩ : BufTy).Contents (Elt F) → (⟨S10000, .f32⟩ : BufTy).Contents (Elt F)),
    binary main_v42 main_v41 main_v43 (mulf : (⟨S10000, .f32⟩ : BufTy).Contents (Elt F) → (⟨S10000, .f32⟩ : BufTy).Contents (Elt F) → (⟨S10000, .f32⟩ : BufTy).Contents (Elt F)),
    binary main_v15 main_v15 main_v44 (mulf : (⟨S10000, .f32⟩ : BufTy).Contents (Elt F) → (⟨S10000, .f32⟩ : BufTy).Contents (Elt F) → (⟨S10000, .f32⟩ : BufTy).Contents (Elt F)),
    nullary main_cst_6 (constant S_ .f32 0x40800000#32),
    unary main_cst_6 main_v45 (broadcastInDim S10000 ![] bcast_S_S10000 : (⟨S_, .f32⟩ : BufTy).Contents (Elt F) → (⟨S10000, .f32⟩ : BufTy).Contents (Elt F)),
    binary main_v45 main_v44 main_v46 (mulf : (⟨S10000, .f32⟩ : BufTy).Contents (Elt F) → (⟨S10000, .f32⟩ : BufTy).Contents (Elt F) → (⟨S10000, .f32⟩ : BufTy).Contents (Elt F)),
    nullary main_cst_7 (constant S_ .f32 0x00000000#32),
    unary main_cst_7 main_v47 (broadcastInDim S10000 ![] bcast_S_S10000 : (⟨S_, .f32⟩ : BufTy).Contents (Elt F) → (⟨S10000, .f32⟩ : BufTy).Contents (Elt F)),
    nullary main_cst_8 (constant S_ .f32 0x41400000#32),
    unary main_cst_8 main_v48 (broadcastInDim S10000 ![] bcast_S_S10000 : (⟨S_, .f32⟩ : BufTy).Contents (Elt F) → (⟨S10000, .f32⟩ : BufTy).Contents (Elt F)),
    binary main_v48 main_v32 main_v49 (mulf : (⟨S10000, .f32⟩ : BufTy).Contents (Elt F) → (⟨S10000, .f32⟩ : BufTy).Contents (Elt F) → (⟨S10000, .f32⟩ : BufTy).Contents (Elt F)),
    nullary main_cst_9 (constant S_ .f32 0x41400000#32),
    unary main_cst_9 main_v50 (broadcastInDim S10000 ![] bcast_S_S10000 : (⟨S_, .f32⟩ : BufTy).Contents (Elt F) → (⟨S10000, .f32⟩ : BufTy).Contents (Elt F)),
    binary main_v50 main_v34 main_v51 (mulf : (⟨S10000, .f32⟩ : BufTy).Contents (Elt F) → (⟨S10000, .f32⟩ : BufTy).Contents (Elt F) → (⟨S10000, .f32⟩ : BufTy).Contents (Elt F)),
    unary main_v37 main_v52 (Host.negf : (⟨S10000, .f32⟩ : BufTy).Contents (Elt F) → (⟨S10000, .f32⟩ : BufTy).Contents (Elt F)),
    nullary main_cst_10 (constant S_ .f32 0xC1400000#32),
    unary main_cst_10 main_v53 (broadcastInDim S10000 ![] bcast_S_S10000 : (⟨S_, .f32⟩ : BufTy).Contents (Elt F) → (⟨S10000, .f32⟩ : BufTy).Contents (Elt F)),
    binary main_v53 main_v32 main_v54 (mulf : (⟨S10000, .f32⟩ : BufTy).Contents (Elt F) → (⟨S10000, .f32⟩ : BufTy).Contents (Elt F) → (⟨S10000, .f32⟩ : BufTy).Contents (Elt F)),
    nullary main_cst_11 (constant S_ .f32 0xC1400000#32),
    unary main_cst_11 main_v55 (broadcastInDim S10000 ![] bcast_S_S10000 : (⟨S_, .f32⟩ : BufTy).Contents (Elt F) → (⟨S10000, .f32⟩ : BufTy).Contents (Elt F)),
    binary main_v55 main_v34 main_v56 (mulf : (⟨S10000, .f32⟩ : BufTy).Contents (Elt F) → (⟨S10000, .f32⟩ : BufTy).Contents (Elt F) → (⟨S10000, .f32⟩ : BufTy).Contents (Elt F)),
    unary main_v37 main_v57 (Host.negf : (⟨S10000, .f32⟩ : BufTy).Contents (Elt F) → (⟨S10000, .f32⟩ : BufTy).Contents (Elt F)),
    nullary main_cst_12 (constant S_ .f32 0x41400000#32),
    unary main_cst_12 main_v58 (broadcastInDim S10000 ![] bcast_S_S10000 : (⟨S_, .f32⟩ : BufTy).Contents (Elt F) → (⟨S10000, .f32⟩ : BufTy).Contents (Elt F)),
    binary main_v58 main_v34 main_v59 (mulf : (⟨S10000, .f32⟩ : BufTy).Contents (Elt F) → (⟨S10000, .f32⟩ : BufTy).Contents (Elt F) → (⟨S10000, .f32⟩ : BufTy).Contents (Elt F)),
    nullary main_cst_13 (constant S_ .f32 0x41400000#32),
    unary main_cst_13 main_v60 (broadcastInDim S10000 ![] bcast_S_S10000 : (⟨S_, .f32⟩ : BufTy).Contents (Elt F) → (⟨S10000, .f32⟩ : BufTy).Contents (Elt F)),
    binary main_v60 main_v33 main_v61 (mulf : (⟨S10000, .f32⟩ : BufTy).Contents (Elt F) → (⟨S10000, .f32⟩ : BufTy).Contents (Elt F) → (⟨S10000, .f32⟩ : BufTy).Contents (Elt F)),
    unary main_v40 main_v62 (Host.negf : (⟨S10000, .f32⟩ : BufTy).Contents (Elt F) → (⟨S10000, .f32⟩ : BufTy).Contents (Elt F)),
    nullary main_cst_14 (constant S_ .f32 0xC1400000#32),
    unary main_cst_14 main_v63 (broadcastInDim S10000 ![] bcast_S_S10000 : (⟨S_, .f32⟩ : BufTy).Contents (Elt F) → (⟨S10000, .f32⟩ : BufTy).Contents (Elt F)),
    binary main_v63 main_v34 main_v64 (mulf : (⟨S10000, .f32⟩ : BufTy).Contents (Elt F) → (⟨S10000, .f32⟩ : BufTy).Contents (Elt F) → (⟨S10000, .f32⟩ : BufTy).Contents (Elt F)),
    nullary main_cst_15 (constant S_ .f32 0xC1400000#32),
    unary main_cst_15 main_v65 (broadcastInDim S10000 ![] bcast_S_S10000 : (⟨S_, .f32⟩ : BufTy).Contents (Elt F) → (⟨S10000, .f32⟩ : BufTy).Contents (Elt F)),
    binary main_v65 main_v33 main_v66 (mulf : (⟨S10000, .f32⟩ : BufTy).Contents (Elt F) → (⟨S10000, .f32⟩ : BufTy).Contents (Elt F) → (⟨S10000, .f32⟩ : BufTy).Contents (Elt F)),
    unary main_v40 main_v67 (Host.negf : (⟨S10000, .f32⟩ : BufTy).Contents (Elt F) → (⟨S10000, .f32⟩ : BufTy).Contents (Elt F)),
    unary main_v37 main_v68 (Host.negf : (⟨S10000, .f32⟩ : BufTy).Contents (Elt F) → (⟨S10000, .f32⟩ : BufTy).Contents (Elt F)),
    unary main_v40 main_v69 (Host.negf : (⟨S10000, .f32⟩ : BufTy).Contents (Elt F) → (⟨S10000, .f32⟩ : BufTy).Contents (Elt F)),
    nullary main_cst_16 (constant S_ .f32 0xC1400000#32),
    unary main_cst_16 main_v70 (broadcastInDim S10000 ![] bcast_S_S10000 : (⟨S_, .f32⟩ : BufTy).Contents (Elt F) → (⟨S10000, .f32⟩ : BufTy).Contents (Elt F)),
    binary main_v70 main_v32 main_v71 (mulf : (⟨S10000, .f32⟩ : BufTy).Contents (Elt F) → (⟨S10000, .f32⟩ : BufTy).Contents (Elt F) → (⟨S10000, .f32⟩ : BufTy).Contents (Elt F)),
    nullary main_cst_17 (constant S_ .f32 0xC1400000#32),
    unary main_cst_17 main_v72 (broadcastInDim S10000 ![] bcast_S_S10000 : (⟨S_, .f32⟩ : BufTy).Contents (Elt F) → (⟨S10000, .f32⟩ : BufTy).Contents (Elt F)),
    binary main_v72 main_v34 main_v73 (mulf : (⟨S10000, .f32⟩ : BufTy).Contents (Elt F) → (⟨S10000, .f32⟩ : BufTy).Contents (Elt F) → (⟨S10000, .f32⟩ : BufTy).Contents (Elt F)),
    nullary main_cst_18 (constant S_ .f32 0x41400000#32),
    unary main_cst_18 main_v74 (broadcastInDim S10000 ![] bcast_S_S10000 : (⟨S_, .f32⟩ : BufTy).Contents (Elt F) → (⟨S10000, .f32⟩ : BufTy).Contents (Elt F)),
    binary main_v74 main_v32 main_v75 (mulf : (⟨S10000, .f32⟩ : BufTy).Contents (Elt F) → (⟨S10000, .f32⟩ : BufTy).Contents (Elt F) → (⟨S10000, .f32⟩ : BufTy).Contents (Elt F)),
    nullary main_cst_19 (constant S_ .f32 0x41400000#32),
    unary main_cst_19 main_v76 (broadcastInDim S10000 ![] bcast_S_S10000 : (⟨S_, .f32⟩ : BufTy).Contents (Elt F) → (⟨S10000, .f32⟩ : BufTy).Contents (Elt F)),
    binary main_v76 main_v34 main_v77 (mulf : (⟨S10000, .f32⟩ : BufTy).Contents (Elt F) → (⟨S10000, .f32⟩ : BufTy).Contents (Elt F) → (⟨S10000, .f32⟩ : BufTy).Contents (Elt F)),
    nullary main_cst_20 (constant S_ .f32 0xC1400000#32),
    unary main_cst_20 main_v78 (broadcastInDim S10000 ![] bcast_S_S10000 : (⟨S_, .f32⟩ : BufTy).Contents (Elt F) → (⟨S10000, .f32⟩ : BufTy).Contents (Elt F)),
    binary main_v78 main_v34 main_v79 (mulf : (⟨S10000, .f32⟩ : BufTy).Contents (Elt F) → (⟨S10000, .f32⟩ : BufTy).Contents (Elt F) → (⟨S10000, .f32⟩ : BufTy).Contents (Elt F)),
    nullary main_cst_21 (constant S_ .f32 0xC1400000#32),
    unary main_cst_21 main_v80 (broadcastInDim S10000 ![] bcast_S_S10000 : (⟨S_, .f32⟩ : BufTy).Contents (Elt F) → (⟨S10000, .f32⟩ : BufTy).Contents (Elt F)),
    binary main_v80 main_v33 main_v81 (mulf : (⟨S10000, .f32⟩ : BufTy).Contents (Elt F) → (⟨S10000, .f32⟩ : BufTy).Contents (Elt F) → (⟨S10000, .f32⟩ : BufTy).Contents (Elt F)),
    nullary main_cst_22 (constant S_ .f32 0x41400000#32),
    unary main_cst_22 main_v82 (broadcastInDim S10000 ![] bcast_S_S10000 : (⟨S_, .f32⟩ : BufTy).Contents (Elt F) → (⟨S10000, .f32⟩ : BufTy).Contents (Elt F)),
    binary main_v82 main_v34 main_v83 (mulf : (⟨S10000, .f32⟩ : BufTy).Contents (Elt F) → (⟨S10000, .f32⟩ : BufTy).Contents (Elt F) → (⟨S10000, .f32⟩ : BufTy).Contents (Elt F)),
    nullary main_cst_23 (constant S_ .f32 0x41400000#32),
    unary main_cst_23 main_v84 (broadcastInDim S10000 ![] bcast_S_S10000 : (⟨S_, .f32⟩ : BufTy).Contents (Elt F) → (⟨S10000, .f32⟩ : BufTy).Contents (Elt F)),
    binary main_v84 main_v33 main_v85 (mulf : (⟨S10000, .f32⟩ : BufTy).Contents (Elt F) → (⟨S10000, .f32⟩ : BufTy).Contents (Elt F) → (⟨S10000, .f32⟩ : BufTy).Contents (Elt F)),
    unary main_v37 main_v86 (Host.negf : (⟨S10000, .f32⟩ : BufTy).Contents (Elt F) → (⟨S10000, .f32⟩ : BufTy).Contents (Elt F)),
    unary main_v40 main_v87 (Host.negf : (⟨S10000, .f32⟩ : BufTy).Contents (Elt F) → (⟨S10000, .f32⟩ : BufTy).Contents (Elt F)),
    unary main_v49 main_v88 (broadcastInDim S10000x1 ![0] bcast_S10000_S10000x1_0 : (⟨S10000, .f32⟩ : BufTy).Contents (Elt F) → (⟨S10000x1, .f32⟩ : BufTy).Contents (Elt F)),
    unary main_v51 main_v89 (broadcastInDim S10000x1 ![0] bcast_S10000_S10000x1_0 : (⟨S10000, .f32⟩ : BufTy).Contents (Elt F) → (⟨S10000x1, .f32⟩ : BufTy).Contents (Elt F)),
    unary main_v52 main_v90 (broadcastInDim S10000x1 ![0] bcast_S10000_S10000x1_0 : (⟨S10000, .f32⟩ : BufTy).Contents (Elt F) → (⟨S10000x1, .f32⟩ : BufTy).Contents (Elt F)),
    unary main_v54 main_v91 (broadcastInDim S10000x1 ![0] bcast_S10000_S10000x1_0 : (⟨S10000, .f32⟩ : BufTy).Contents (Elt F) → (⟨S10000x1, .f32⟩ : BufTy).Contents (Elt F)),
    unary main_v56 main_v92 (broadcastInDim S10000x1 ![0] bcast_S10000_S10000x1_0 : (⟨S10000, .f32⟩ : BufTy).Contents (Elt F) → (⟨S10000x1, .f32⟩ : BufTy).Contents (Elt F)),
    unary main_v57 main_v93 (broadcastInDim S10000x1 ![0] bcast_S10000_S10000x1_0 : (⟨S10000, .f32⟩ : BufTy).Contents (Elt F) → (⟨S10000x1, .f32⟩ : BufTy).Contents (Elt F)),
    unary main_v59 main_v94 (broadcastInDim S10000x1 ![0] bcast_S10000_S10000x1_0 : (⟨S10000, .f32⟩ : BufTy).Contents (Elt F) → (⟨S10000x1, .f32⟩ : BufTy).Contents (Elt F)),
    unary main_v61 main_v95 (broadcastInDim S10000x1 ![0] bcast_S10000_S10000x1_0 : (⟨S10000, .f32⟩ : BufTy).Contents (Elt F) → (⟨S10000x1, .f32⟩ : BufTy).Contents (Elt F)),
    unary main_v62 main_v96 (broadcastInDim S10000x1 ![0] bcast_S10000_S10000x1_0 : (⟨S10000, .f32⟩ : BufTy).Contents (Elt F) → (⟨S10000x1, .f32⟩ : BufTy).Contents (Elt F)),
    unary main_v64 main_v97 (broadcastInDim S10000x1 ![0] bcast_S10000_S10000x1_0 : (⟨S10000, .f32⟩ : BufTy).Contents (Elt F) → (⟨S10000x1, .f32⟩ : BufTy).Contents (Elt F)),
    unary main_v66 main_v98 (broadcastInDim S10000x1 ![0] bcast_S10000_S10000x1_0 : (⟨S10000, .f32⟩ : BufTy).Contents (Elt F) → (⟨S10000x1, .f32⟩ : BufTy).Contents (Elt F)),
    unary main_v67 main_v99 (broadcastInDim S10000x1 ![0] bcast_S10000_S10000x1_0 : (⟨S10000, .f32⟩ : BufTy).Contents (Elt F) → (⟨S10000x1, .f32⟩ : BufTy).Contents (Elt F)),
    unary main_v68 main_v100 (broadcastInDim S10000x1 ![0] bcast_S10000_S10000x1_0 : (⟨S10000, .f32⟩ : BufTy).Contents (Elt F) → (⟨S10000x1, .f32⟩ : BufTy).Contents (Elt F)),
    unary main_v69 main_v101 (broadcastInDim S10000x1 ![0] bcast_S10000_S10000x1_0 : (⟨S10000, .f32⟩ : BufTy).Contents (Elt F) → (⟨S10000x1, .f32⟩ : BufTy).Contents (Elt F)),
    unary main_v46 main_v102 (broadcastInDim S10000x1 ![0] bcast_S10000_S10000x1_0 : (⟨S10000, .f32⟩ : BufTy).Contents (Elt F) → (⟨S10000x1, .f32⟩ : BufTy).Contents (Elt F)),
    unary main_v37 main_v103 (broadcastInDim S10000x1 ![0] bcast_S10000_S10000x1_0 : (⟨S10000, .f32⟩ : BufTy).Contents (Elt F) → (⟨S10000x1, .f32⟩ : BufTy).Contents (Elt F)),
    unary main_v40 main_v104 (broadcastInDim S10000x1 ![0] bcast_S10000_S10000x1_0 : (⟨S10000, .f32⟩ : BufTy).Contents (Elt F) → (⟨S10000x1, .f32⟩ : BufTy).Contents (Elt F)),
    unary main_v43 main_v105 (broadcastInDim S10000x1 ![0] bcast_S10000_S10000x1_0 : (⟨S10000, .f32⟩ : BufTy).Contents (Elt F) → (⟨S10000x1, .f32⟩ : BufTy).Contents (Elt F)),
    unary main_v71 main_v106 (broadcastInDim S10000x1 ![0] bcast_S10000_S10000x1_0 : (⟨S10000, .f32⟩ : BufTy).Contents (Elt F) → (⟨S10000x1, .f32⟩ : BufTy).Contents (Elt F)),
    unary main_v73 main_v107 (broadcastInDim S10000x1 ![0] bcast_S10000_S10000x1_0 : (⟨S10000, .f32⟩ : BufTy).Contents (Elt F) → (⟨S10000x1, .f32⟩ : BufTy).Contents (Elt F)),
    unary main_v37 main_v108 (broadcastInDim S10000x1 ![0] bcast_S10000_S10000x1_0 : (⟨S10000, .f32⟩ : BufTy).Contents (Elt F) → (⟨S10000x1, .f32⟩ : BufTy).Contents (Elt F)),
    unary main_v75 main_v109 (broadcastInDim S10000x1 ![0] bcast_S10000_S10000x1_0 : (⟨S10000, .f32⟩ : BufTy).Contents (Elt F) → (⟨S10000x1, .f32⟩ : BufTy).Contents (Elt F)),
    unary main_v77 main_v110 (broadcastInDim S10000x1 ![0] bcast_S10000_S10000x1_0 : (⟨S10000, .f32⟩ : BufTy).Contents (Elt F) → (⟨S10000x1, .f32⟩ : BufTy).Contents (Elt F)),
    unary main_v37 main_v111 (broadcastInDim S10000x1 ![0] bcast_S10000_S10000x1_0 : (⟨S10000, .f32⟩ : BufTy).Contents (Elt F) → (⟨S10000x1, .f32⟩ : BufTy).Contents (Elt F)),
    unary main_v79 main_v112 (broadcastInDim S10000x1 ![0] bcast_S10000_S10000x1_0 : (⟨S10000, .f32⟩ : BufTy).Contents (Elt F) → (⟨S10000x1, .f32⟩ : BufTy).Contents (Elt F)),
    unary main_v81 main_v113 (broadcastInDim S10000x1 ![0] bcast_S10000_S10000x1_0 : (⟨S10000, .f32⟩ : BufTy).Contents (Elt F) → (⟨S10000x1, .f32⟩ : BufTy).Contents (Elt F)),
    unary main_v40 main_v114 (broadcastInDim S10000x1 ![0] bcast_S10000_S10000x1_0 : (⟨S10000, .f32⟩ : BufTy).Contents (Elt F) → (⟨S10000x1, .f32⟩ : BufTy).Contents (Elt F)),
    unary main_v83 main_v115 (broadcastInDim S10000x1 ![0] bcast_S10000_S10000x1_0 : (⟨S10000, .f32⟩ : BufTy).Contents (Elt F) → (⟨S10000x1, .f32⟩ : BufTy).Contents (Elt F)),
    unary main_v85 main_v116 (broadcastInDim S10000x1 ![0] bcast_S10000_S10000x1_0 : (⟨S10000, .f32⟩ : BufTy).Contents (Elt F) → (⟨S10000x1, .f32⟩ : BufTy).Contents (Elt F)),
    unary main_v40 main_v117 (broadcastInDim S10000x1 ![0] bcast_S10000_S10000x1_0 : (⟨S10000, .f32⟩ : BufTy).Contents (Elt F) → (⟨S10000x1, .f32⟩ : BufTy).Contents (Elt F)),
    unary main_v86 main_v118 (broadcastInDim S10000x1 ![0] bcast_S10000_S10000x1_0 : (⟨S10000, .f32⟩ : BufTy).Contents (Elt F) → (⟨S10000x1, .f32⟩ : BufTy).Contents (Elt F)),
    unary main_v87 main_v119 (broadcastInDim S10000x1 ![0] bcast_S10000_S10000x1_0 : (⟨S10000, .f32⟩ : BufTy).Contents (Elt F) → (⟨S10000x1, .f32⟩ : BufTy).Contents (Elt F)),
    unary main_v43 main_v120 (broadcastInDim S10000x1 ![0] bcast_S10000_S10000x1_0 : (⟨S10000, .f32⟩ : BufTy).Contents (Elt F) → (⟨S10000x1, .f32⟩ : BufTy).Contents (Elt F)),
    unary main_v37 main_v121 (broadcastInDim S10000x1 ![0] bcast_S10000_S10000x1_0 : (⟨S10000, .f32⟩ : BufTy).Contents (Elt F) → (⟨S10000x1, .f32⟩ : BufTy).Contents (Elt F)),
    unary main_v40 main_v122 (broadcastInDim S10000x1 ![0] bcast_S10000_S10000x1_0 : (⟨S10000, .f32⟩ : BufTy).Contents (Elt F) → (⟨S10000x1, .f32⟩ : BufTy).Contents (Elt F)),
    unary main_v46 main_v123 (broadcastInDim S10000x1 ![0] bcast_S10000_S10000x1_0 : (⟨S10000, .f32⟩ : BufTy).Contents (Elt F) → (⟨S10000x1, .f32⟩ : BufTy).Contents (Elt F)),
    nary ![main_v88, main_v89, main_v90, main_v91, main_v92, main_v93, main_v94, main_v95, main_v96, main_v97, main_v98, main_v99, main_v100, main_v101, main_v102, main_v103] main_v124 (fun u => concatenate S10000x16 1 [⟨S10000x1, u 0⟩, ⟨S10000x1, u 1⟩, ⟨S10000x1, u 2⟩, ⟨S10000x1, u 3⟩, ⟨S10000x1, u 4⟩, ⟨S10000x1, u 5⟩, ⟨S10000x1, u 6⟩, ⟨S10000x1, u 7⟩, ⟨S10000x1, u 8⟩, ⟨S10000x1, u 9⟩, ⟨S10000x1, u 10⟩, ⟨S10000x1, u 11⟩, ⟨S10000x1, u 12⟩, ⟨S10000x1, u 13⟩, ⟨S10000x1, u 14⟩, ⟨S10000x1, u 15⟩] concatenates_S10000x1_S10000x1_S10000x1_S10000x1_S10000x1_S10000x1_S10000x1_S10000x1_S10000x1_S10000x1_S10000x1_S10000x1_S10000x1_S10000x1_S10000x1_S10000x1_S10000x16_d1),
    nary ![main_v104, main_v105, main_v106, main_v107, main_v108, main_v109, main_v110, main_v111, main_v112, main_v113, main_v114, main_v115, main_v116, main_v117, main_v118, main_v119] main_v125 (fun u => concatenate S10000x16 1 [⟨S10000x1, u 0⟩, ⟨S10000x1, u 1⟩, ⟨S10000x1, u 2⟩, ⟨S10000x1, u 3⟩, ⟨S10000x1, u 4⟩, ⟨S10000x1, u 5⟩, ⟨S10000x1, u 6⟩, ⟨S10000x1, u 7⟩, ⟨S10000x1, u 8⟩, ⟨S10000x1, u 9⟩, ⟨S10000x1, u 10⟩, ⟨S10000x1, u 11⟩, ⟨S10000x1, u 12⟩, ⟨S10000x1, u 13⟩, ⟨S10000x1, u 14⟩, ⟨S10000x1, u 15⟩] concatenates_S10000x1_S10000x1_S10000x1_S10000x1_S10000x1_S10000x1_S10000x1_S10000x1_S10000x1_S10000x1_S10000x1_S10000x1_S10000x1_S10000x1_S10000x1_S10000x1_S10000x16_d1),
    nary ![main_v120, main_v121, main_v122, main_v123] main_v126 (fun u => concatenate S10000x4 1 [⟨S10000x1, u 0⟩, ⟨S10000x1, u 1⟩, ⟨S10000x1, u 2⟩, ⟨S10000x1, u 3⟩] concatenates_S10000x1_S10000x1_S10000x1_S10000x1_S10000x4_d1),
    nary ![main_v124, main_v125, main_v126] main_v127 (fun u => concatenate S10000x36 1 [⟨S10000x16, u 0⟩, ⟨S10000x16, u 1⟩, ⟨S10000x4, u 2⟩] concatenates_S10000x16_S10000x16_S10000x4_S10000x36_d1),
    unary main_v34 main_v128 (Host.negf : (⟨S10000, .f32⟩ : BufTy).Contents (Elt F) → (⟨S10000, .f32⟩ : BufTy).Contents (Elt F)),
    unary main_v33 main_v129 (Host.negf : (⟨S10000, .f32⟩ : BufTy).Contents (Elt F) → (⟨S10000, .f32⟩ : BufTy).Contents (Elt F)),
    unary main_v34 main_v130 (Host.negf : (⟨S10000, .f32⟩ : BufTy).Contents (Elt F) → (⟨S10000, .f32⟩ : BufTy).Contents (Elt F)),
    unary main_v32 main_v131 (Host.negf : (⟨S10000, .f32⟩ : BufTy).Contents (Elt F) → (⟨S10000, .f32⟩ : BufTy).Contents (Elt F)),
    unary main_v33 main_v132 (Host.negf : (⟨S10000, .f32⟩ : BufTy).Contents (Elt F) → (⟨S10000, .f32⟩ : BufTy).Contents (Elt F)),
    unary main_v34 main_v133 (Host.negf : (⟨S10000, .f32⟩ : BufTy).Contents (Elt F) → (⟨S10000, .f32⟩ : BufTy).Contents (Elt F)),
    unary main_v32 main_v134 (Host.negf : (⟨S10000, .f32⟩ : BufTy).Contents (Elt F) → (⟨S10000, .f32⟩ : BufTy).Contents (Elt F)),
    unary main_v34 main_v135 (Host.negf : (⟨S10000, .f32⟩ : BufTy).Contents (Elt F) → (⟨S10000, .f32⟩ : BufTy).Contents (Elt F)),
    unary main_v33 main_v136 (broadcastInDim S10000x1 ![0] bcast_S10000_S10000x1_0 : (⟨S10000, .f32⟩ : BufTy).Contents (Elt F) → (⟨S10000x1, .f32⟩ : BufTy).Contents (Elt F)),
    unary main_v128 main_v137 (broadcastInDim S10000x1 ![0] bcast_S10000_S10000x1_0 : (⟨S10000, .f32⟩ : BufTy).Contents (Elt F) → (⟨S10000x1, .f32⟩ : BufTy).Contents (Elt F)),
    unary main_v47 main_v138 (broadcastInDim S10000x1 ![0] bcast_S10000_S10000x1_0 : (⟨S10000, .f32⟩ : BufTy).Contents (Elt F) → (⟨S10000x1, .f32⟩ : BufTy).Contents (Elt F)),
    unary main_v129 main_v139 (broadcastInDim S10000x1 ![0] bcast_S10000_S10000x1_0 : (⟨S10000, .f32⟩ : BufTy).Contents (Elt F) → (⟨S10000x1, .f32⟩ : BufTy).Contents (Elt F)),
    unary main_v34 main_v140 (broadcastInDim S10000x1 ![0] bcast_S10000_S10000x1_0 : (⟨S10000, .f32⟩ : BufTy).Contents (Elt F) → (⟨S10000x1, .f32⟩ : BufTy).Contents (Elt F)),
    unary main_v47 main_v141 (broadcastInDim S10000x1 ![0] bcast_S10000_S10000x1_0 : (⟨S10000, .f32⟩ : BufTy).Contents (Elt F) → (⟨S10000x1, .f32⟩ : BufTy).Contents (Elt F)),
    unary main_v130 main_v142 (broadcastInDim S10000x1 ![0] bcast_S10000_S10000x1_0 : (⟨S10000, .f32⟩ : BufTy).Contents (Elt F) → (⟨S10000x1, .f32⟩ : BufTy).Contents (Elt F)),
    unary main_v32 main_v143 (broadcastInDim S10000x1 ![0] bcast_S10000_S10000x1_0 : (⟨S10000, .f32⟩ : BufTy).Contents (Elt F) → (⟨S10000x1, .f32⟩ : BufTy).Contents (Elt F)),
    unary main_v47 main_v144 (broadcastInDim S10000x1 ![0] bcast_S10000_S10000x1_0 : (⟨S10000, .f32⟩ : BufTy).Contents (Elt F) → (⟨S10000x1, .f32⟩ : BufTy).Contents (Elt F)),
    unary main_v34 main_v145 (broadcastInDim S10000x1 ![0] bcast_S10000_S10000x1_0 : (⟨S10000, .f32⟩ : BufTy).Contents (Elt F) → (⟨S10000x1, .f32⟩ : BufTy).Contents (Elt F)),
    unary main_v131 main_v146 (broadcastInDim S10000x1 ![0] bcast_S10000_S10000x1_0 : (⟨S10000, .f32⟩ : BufTy).Contents (Elt F) → (⟨S10000x1, .f32⟩ : BufTy).Contents (Elt F)),
    unary main_v47 main_v147 (broadcastInDim S10000x1 ![0] bcast_S10000_S10000x1_0 : (⟨S10000, .f32⟩ : BufTy).Contents (Elt F) → (⟨S10000x1, .f32⟩ : BufTy).Contents (Elt F)),
    unary main_v47 main_v148 (broadcastInDim S10000x1 ![0] bcast_S10000_S10000x1_0 : (⟨S10000, .f32⟩ : BufTy).Contents (Elt F) → (⟨S10000x1, .f32⟩ : BufTy).Contents (Elt F)),
    unary main_v47 main_v149 (broadcastInDim S10000x1 ![0] bcast_S10000_S10000x1_0 : (⟨S10000, .f32⟩ : BufTy).Contents (Elt F) → (⟨S10000x1, .f32⟩ : BufTy).Contents (Elt F)),
    unary main_v47 main_v150 (broadcastInDim S10000x1 ![0] bcast_S10000_S10000x1_0 : (⟨S10000, .f32⟩ : BufTy).Contents (Elt F) → (⟨S10000x1, .f32⟩ : BufTy).Contents (Elt F)),
    unary main_v47 main_v151 (broadcastInDim S10000x1 ![0] bcast_S10000_S10000x1_0 : (⟨S10000, .f32⟩ : BufTy).Contents (Elt F) → (⟨S10000x1, .f32⟩ : BufTy).Contents (Elt F)),
    unary main_v47 main_v152 (broadcastInDim S10000x1 ![0] bcast_S10000_S10000x1_0 : (⟨S10000, .f32⟩ : BufTy).Contents (Elt F) → (⟨S10000x1, .f32⟩ : BufTy).Contents (Elt F)),
    unary main_v47 main_v153 (broadcastInDim S10000x1 ![0] bcast_S10000_S10000x1_0 : (⟨S10000, .f32⟩ : BufTy).Contents (Elt F) → (⟨S10000x1, .f32⟩ : BufTy).Contents (Elt F)),
    unary main_v132 main_v154 (broadcastInDim S10000x1 ![0] bcast_S10000_S10000x1_0 : (⟨S10000, .f32⟩ : BufTy).Contents (Elt F) → (⟨S10000x1, .f32⟩ : BufTy).Contents (Elt F)),
    unary main_v34 main_v155 (broadcastInDim S10000x1 ![0] bcast_S10000_S10000x1_0 : (⟨S10000, .f32⟩ : BufTy).Contents (Elt F) → (⟨S10000x1, .f32⟩ : BufTy).Contents (Elt F)),
    unary main_v47 main_v156 (broadcastInDim S10000x1 ![0] bcast_S10000_S10000x1_0 : (⟨S10000, .f32⟩ : BufTy).Contents (Elt F) → (⟨S10000x1, .f32⟩ : BufTy).Contents (Elt F)),
    unary main_v33 main_v157 (broadcastInDim S10000x1 ![0] bcast_S10000_S10000x1_0 : (⟨S10000, .f32⟩ : BufTy).Contents (Elt F) → (⟨S10000x1, .f32⟩ : BufTy).Contents (Elt F)),
    unary main_v133 main_v158 (broadcastInDim S10000x1 ![0] bcast_S10000_S10000x1_0 : (⟨S10000, .f32⟩ : BufTy).Contents (Elt F) → (⟨S10000x1, .f32⟩ : BufTy).Contents (Elt F)),
    unary main_v47 main_v159 (broadcastInDim S10000x1 ![0] bcast_S10000_S10000x1_0 : (⟨S10000, .f32⟩ : BufTy).Contents (Elt F) → (⟨S10000x1, .f32⟩ : BufTy).Contents (Elt F)),
    unary main_v34 main_v160 (broadcastInDim S10000x1 ![0] bcast_S10000_S10000x1_0 : (⟨S10000, .f32⟩ : BufTy).Contents (Elt F) → (⟨S10000x1, .f32⟩ : BufTy).Contents (Elt F)),
    unary main_v134 main_v161 (broadcastInDim S10000x1 ![0] bcast_S10000_S10000x1_0 : (⟨S10000, .f32⟩ : BufTy).Contents (Elt F) → (⟨S10000x1, .f32⟩ : BufTy).Contents (Elt F)),
    unary main_v47 main_v162 (broadcastInDim S10000x1 ![0] bcast_S10000_S10000x1_0 : (⟨S10000, .f32⟩ : BufTy).Contents (Elt F) → (⟨S10000x1, .f32⟩ : BufTy).Contents (Elt F)),
    unary main_v135 main_v163 (broadcastInDim S10000x1 ![0] bcast_S10000_S10000x1_0 : (⟨S10000, .f32⟩ : BufTy).Contents (Elt F) → (⟨S10000x1, .f32⟩ : BufTy).Contents (Elt F)),
    unary main_v32 main_v164 (broadcastInDim S10000x1 ![0] bcast_S10000_S10000x1_0 : (⟨S10000, .f32⟩ : BufTy).Contents (Elt F) → (⟨S10000x1, .f32⟩ : BufTy).Contents (Elt F)),
    unary main_v47 main_v165 (broadcastInDim S10000x1 ![0] bcast_S10000_S10000x1_0 : (⟨S10000, .f32⟩ : BufTy).Contents (Elt F) → (⟨S10000x1, .f32⟩ : BufTy).Contents (Elt F)),
    unary main_v47 main_v166 (broadcastInDim S10000x1 ![0] bcast_S10000_S10000x1_0 : (⟨S10000, .f32⟩ : BufTy).Contents (Elt F) → (⟨S10000x1, .f32⟩ : BufTy).Contents (Elt F)),
    unary main_v47 main_v167 (broadcastInDim S10000x1 ![0] bcast_S10000_S10000x1_0 : (⟨S10000, .f32⟩ : BufTy).Contents (Elt F) → (⟨S10000x1, .f32⟩ : BufTy).Contents (Elt F)),
    unary main_v47 main_v168 (broadcastInDim S10000x1 ![0] bcast_S10000_S10000x1_0 : (⟨S10000, .f32⟩ : BufTy).Contents (Elt F) → (⟨S10000x1, .f32⟩ : BufTy).Contents (Elt F)),
    unary main_v47 main_v169 (broadcastInDim S10000x1 ![0] bcast_S10000_S10000x1_0 : (⟨S10000, .f32⟩ : BufTy).Contents (Elt F) → (⟨S10000x1, .f32⟩ : BufTy).Contents (Elt F)),
    unary main_v47 main_v170 (broadcastInDim S10000x1 ![0] bcast_S10000_S10000x1_0 : (⟨S10000, .f32⟩ : BufTy).Contents (Elt F) → (⟨S10000x1, .f32⟩ : BufTy).Contents (Elt F)),
    unary main_v47 main_v171 (broadcastInDim S10000x1 ![0] bcast_S10000_S10000x1_0 : (⟨S10000, .f32⟩ : BufTy).Contents (Elt F) → (⟨S10000x1, .f32⟩ : BufTy).Contents (Elt F)),
    nary ![main_v136, main_v137, main_v138, main_v139, main_v140, main_v141, main_v142, main_v143, main_v144, main_v145, main_v146, main_v147, main_v148, main_v149, main_v150, main_v151] main_v172 (fun u => concatenate S10000x16 1 [⟨S10000x1, u 0⟩, ⟨S10000x1, u 1⟩, ⟨S10000x1, u 2⟩, ⟨S10000x1, u 3⟩, ⟨S10000x1, u 4⟩, ⟨S10000x1, u 5⟩, ⟨S10000x1, u 6⟩, ⟨S10000x1, u 7⟩, ⟨S10000x1, u 8⟩, ⟨S10000x1, u 9⟩, ⟨S10000x1, u 10⟩, ⟨S10000x1, u 11⟩, ⟨S10000x1, u 12⟩, ⟨S10000x1, u 13⟩, ⟨S10000x1, u 14⟩, ⟨S10000x1, u 15⟩] concatenates_S10000x1_S10000x1_S10000x1_S10000x1_S10000x1_S10000x1_S10000x1_S10000x1_S10000x1_S10000x1_S10000x1_S10000x1_S10000x1_S10000x1_S10000x1_S10000x1_S10000x16_d1),
    nary ![main_v152, main_v153, main_v154, main_v155, main_v156, main_v157, main_v158, main_v159, main_v160, main_v161, main_v162, main_v163, main_v164, main_v165, main_v166, main_v167] main_v173 (fun u => concatenate S10000x16 1 [⟨S10000x1, u 0⟩, ⟨S10000x1, u 1⟩, ⟨S10000x1, u 2⟩, ⟨S10000x1, u 3⟩, ⟨S10000x1, u 4⟩, ⟨S10000x1, u 5⟩, ⟨S10000x1, u 6⟩, ⟨S10000x1, u 7⟩, ⟨S10000x1, u 8⟩, ⟨S10000x1, u 9⟩, ⟨S10000x1, u 10⟩, ⟨S10000x1, u 11⟩, ⟨S10000x1, u 12⟩, ⟨S10000x1, u 13⟩, ⟨S10000x1, u 14⟩, ⟨S10000x1, u 15⟩] concatenates_S10000x1_S10000x1_S10000x1_S10000x1_S10000x1_S10000x1_S10000x1_S10000x1_S10000x1_S10000x1_S10000x1_S10000x1_S10000x1_S10000x1_S10000x1_S10000x1_S10000x16_d1),
    nary ![main_v168, main_v169, main_v170, main_v171] main_v174 (fun u => concatenate S10000x4 1 [⟨S10000x1, u 0⟩, ⟨S10000x1, u 1⟩, ⟨S10000x1, u 2⟩, ⟨S10000x1, u 3⟩] concatenates_S10000x1_S10000x1_S10000x1_S10000x1_S10000x4_d1),
    nary ![main_v172, main_v173, main_v174] main_v175 (fun u => concatenate S10000x36 1 [⟨S10000x16, u 0⟩, ⟨S10000x16, u 1⟩, ⟨S10000x4, u 2⟩] concatenates_S10000x16_S10000x16_S10000x4_S10000x36_d1),
    unary main_v22 main_v176 (broadcastInDim S10000x1 ![0] bcast_S10000_S10000x1_0 : (⟨S10000, .f32⟩ : BufTy).Contents (Elt F) → (⟨S10000x1, .f32⟩ : BufTy).Contents (Elt F)),
    unary main_v176 main_v177 (broadcastInDim S10000x36 ![0, 1] bcast_S10000x1_S10000x36_0_1 : (⟨S10000x1, .f32⟩ : BufTy).Contents (Elt F) → (⟨S10000x36, .f32⟩ : BufTy).Contents (Elt F)),
    binary main_v127 main_v177 main_v178 (mulf : (⟨S10000x36, .f32⟩ : BufTy).Contents (Elt F) → (⟨S10000x36, .f32⟩ : BufTy).Contents (Elt F) → (⟨S10000x36, .f32⟩ : BufTy).Contents (Elt F)),
    unary main_v24 main_v179 (broadcastInDim S10000x1 ![0] bcast_S10000_S10000x1_0 : (⟨S10000, .f32⟩ : BufTy).Contents (Elt F) → (⟨S10000x1, .f32⟩ : BufTy).Contents (Elt F)),
    unary main_v179 main_v180 (broadcastInDim S10000x36 ![0, 1] bcast_S10000x1_S10000x36_0_1 : (⟨S10000x1, .f32⟩ : BufTy).Contents (Elt F) → (⟨S10000x36, .f32⟩ : BufTy).Contents (Elt F)),
    binary main_v175 main_v180 main_v181 (mulf : (⟨S10000x36, .f32⟩ : BufTy).Contents (Elt F) → (⟨S10000x36, .f32⟩ : BufTy).Contents (Elt F) → (⟨S10000x36, .f32⟩ : BufTy).Contents (Elt F)),
    binary main_v178 main_v181 main_v182 (addf : (⟨S10000x36, .f32⟩ : BufTy).Contents (Elt F) → (⟨S10000x36, .f32⟩ : BufTy).Contents (Elt F) → (⟨S10000x36, .f32⟩ : BufTy).Contents (Elt F)),
    reshape main_v182 main_v183 rfl shapeCasts_S10000x36_S10000x6x6,
    nullary main_v184 (iotaInDim S3 32 0),
    unary main_arg1 main_v185 (broadcastInDim S10000x1 ![0] bcast_S10000_S10000x1_0 : (⟨S10000, .i32⟩ : BufTy).Contents (Elt F) → (⟨S10000x1, .i32⟩ : BufTy).Contents (Elt F)),
    nullary main_c_24 (constantI S_ 32 3#32),
    unary main_c_24 main_v186 (broadcastInDim S10000x1 ![] bcast_S_S10000x1 : (⟨S_, .i32⟩ : BufTy).Contents (Elt F) → (⟨S10000x1, .i32⟩ : BufTy).Contents (Elt F)),
    binary main_v185 main_v186 main_v187 (muli : (⟨S10000x1, .i32⟩ : BufTy).Contents (Elt F) → (⟨S10000x1, .i32⟩ : BufTy).Contents (Elt F) → (⟨S10000x1, .i32⟩ : BufTy).Contents (Elt F)),
    unary main_v184 main_v188 (broadcastInDim S1x3 ![1] bcast_S3_S1x3_1 : (⟨S3, .i32⟩ : BufTy).Contents (Elt F) → (⟨S1x3, .i32⟩ : BufTy).Contents (Elt F)),
    unary main_v187 main_v189 (broadcastInDim S10000x3 ![0, 1] bcast_S10000x1_S10000x3_0_1 : (⟨S10000x1, .i32⟩ : BufTy).Contents (Elt F) → (⟨S10000x3, .i32⟩ : BufTy).Contents (Elt F)),
    unary main_v188 main_v190 (broadcastInDim S10000x3 ![0, 1] bcast_S1x3_S10000x3_0_1 : (⟨S1x3, .i32⟩ : BufTy).Contents (Elt F) → (⟨S10000x3, .i32⟩ : BufTy).Contents (Elt F)),
    binary main_v189 main_v190 main_v191 (addi : (⟨S10000x3, .i32⟩ : BufTy).Contents (Elt F) → (⟨S10000x3, .i32⟩ : BufTy).Contents (Elt F) → (⟨S10000x3, .i32⟩ : BufTy).Contents (Elt F)),
    unary main_arg2 main_v192 (broadcastInDim S10000x1 ![0] bcast_S10000_S10000x1_0 : (⟨S10000, .i32⟩ : BufTy).Contents (Elt F) → (⟨S10000x1, .i32⟩ : BufTy).Contents (Elt F)),
    nullary main_c_25 (constantI S_ 32 3#32),
    unary main_c_25 main_v193 (broadcastInDim S10000x1 ![] bcast_S_S10000x1 : (⟨S_, .i32⟩ : BufTy).Contents (Elt F) → (⟨S10000x1, .i32⟩ : BufTy).Contents (Elt F)),
    binary main_v192 main_v193 main_v194 (muli : (⟨S10000x1, .i32⟩ : BufTy).Contents (Elt F) → (⟨S10000x1, .i32⟩ : BufTy).Contents (Elt F) → (⟨S10000x1, .i32⟩ : BufTy).Contents (Elt F)),
    unary main_v184 main_v195 (broadcastInDim S1x3 ![1] bcast_S3_S1x3_1 : (⟨S3, .i32⟩ : BufTy).Contents (Elt F) → (⟨S1x3, .i32⟩ : BufTy).Contents (Elt F)),
    unary main_v194 main_v196 (broadcastInDim S10000x3 ![0, 1] bcast_S10000x1_S10000x3_0_1 : (⟨S10000x1, .i32⟩ : BufTy).Contents (Elt F) → (⟨S10000x3, .i32⟩ : BufTy).Contents (Elt F)),
    unary main_v195 main_v197 (broadcastInDim S10000x3 ![0, 1] bcast_S1x3_S10000x3_0_1 : (⟨S1x3, .i32⟩ : BufTy).Contents (Elt F) → (⟨S10000x3, .i32⟩ : BufTy).Contents (Elt F)),
    binary main_v196 main_v197 main_v198 (addi : (⟨S10000x3, .i32⟩ : BufTy).Contents (Elt F) → (⟨S10000x3, .i32⟩ : BufTy).Contents (Elt F) → (⟨S10000x3, .i32⟩ : BufTy).Contents (Elt F)),
    nullary main_cst_26 (constant S_ .f32 0x00000000#32),
    unary main_cst_26 main_v199 (broadcastInDim S7500x7500 ![] bcast_S_S7500x7500 : (⟨S_, .f32⟩ : BufTy).Contents (Elt F) → (⟨S7500x7500, .f32⟩ : BufTy).Contents (Elt F)),
    unary main_v191 main_v200 (broadcastInDim S10000x3x1 ![0, 1] bcast_S10000x3_S10000x3x1_0_1 : (⟨S10000x3, .i32⟩ : BufTy).Contents (Elt F) → (⟨S10000x3x1, .i32⟩ : BufTy).Contents (Elt F)),
    unary main_v191 main_v201 (broadcastInDim S10000x1x3 ![0, 2] bcast_S10000x3_S10000x1x3_0_2 : (⟨S10000x3, .i32⟩ : BufTy).Contents (Elt F) → (⟨S10000x1x3, .i32⟩ : BufTy).Contents (Elt F)),
    unary main_v183 main_v202 ((extractStridedSlice S10000x3x3 ![0, 0, 0] · slices_S10000x6x6_S10000x3x3_0_0_0) : (⟨S10000x6x6, .f32⟩ : BufTy).Contents (Elt F) → (⟨S10000x3x3, .f32⟩ : BufTy).Contents (Elt F)),
    nullary main_c_27 (constantI S_ 32 0#32),
    unary main_c_27 main_v203 (broadcastInDim S10000x3x1 ![] bcast_S_S10000x3x1 : (⟨S_, .i32⟩ : BufTy).Contents (Elt F) → (⟨S10000x3x1, .i32⟩ : BufTy).Contents (Elt F)),
    binary main_v200 main_v203 main_v204 (cmpi .slt : (⟨S10000x3x1, .i32⟩ : BufTy).Contents (Elt F) → (⟨S10000x3x1, .i32⟩ : BufTy).Contents (Elt F) → (⟨S10000x3x1, .i1⟩ : BufTy).Contents (Elt F)),
    nullary main_c_28 (constantI S_ 32 7500#32),
    unary main_c_28 main_v205 (broadcastInDim S10000x3x1 ![] bcast_S_S10000x3x1 : (⟨S_, .i32⟩ : BufTy).Contents (Elt F) → (⟨S10000x3x1, .i32⟩ : BufTy).Contents (Elt F)),
    binary main_v200 main_v205 main_v206 (addi : (⟨S10000x3x1, .i32⟩ : BufTy).Contents (Elt F) → (⟨S10000x3x1, .i32⟩ : BufTy).Contents (Elt F) → (⟨S10000x3x1, .i32⟩ : BufTy).Contents (Elt F)),
    ternary main_v204 main_v206 main_v200 main_v207 (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)),
    nullary main_c_29 (constantI S_ 32 0#32),
    unary main_c_29 main_v208 (broadcastInDim S10000x1x3 ![] bcast_S_S10000x1x3 : (⟨S_, .i32⟩ : BufTy).Contents (Elt F) → (⟨S10000x1x3, .i32⟩ : BufTy).Contents (Elt F)),
    binary main_v201 main_v208 main_v209 (cmpi .slt : (⟨S10000x1x3, .i32⟩ : BufTy).Contents (Elt F) → (⟨S10000x1x3, .i32⟩ : BufTy).Contents (Elt F) → (⟨S10000x1x3, .i1⟩ : BufTy).Contents (Elt F)),
    nullary main_c_30 (constantI S_ 32 7500#32),
    unary main_c_30 main_v210 (broadcastInDim S10000x1x3 ![] bcast_S_S10000x1x3 : (⟨S_, .i32⟩ : BufTy).Contents (Elt F) → (⟨S10000x1x3, .i32⟩ : BufTy).Contents (Elt F)),
    binary main_v201 main_v210 main_v211 (addi : (⟨S10000x1x3, .i32⟩ : BufTy).Contents (Elt F) → (⟨S10000x1x3, .i32⟩ : BufTy).Contents (Elt F) → (⟨S10000x1x3, .i32⟩ : BufTy).Contents (Elt F)),
    ternary main_v209 main_v211 main_v201 main_v212 (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)),
    unary main_v207 main_v213 (broadcastInDim S10000x3x3 ![0, 1, 2] bcast_S10000x3x1_S10000x3x3_0_1_2 : (⟨S10000x3x1, .i32⟩ : BufTy).Contents (Elt F) → (⟨S10000x3x3, .i32⟩ : BufTy).Contents (Elt F)),
    unary main_v212 main_v214 (broadcastInDim S10000x3x3 ![0, 1, 2] bcast_S10000x1x3_S10000x3x3_0_1_2 : (⟨S10000x1x3, .i32⟩ : BufTy).Contents (Elt F) → (⟨S10000x3x3, .i32⟩ : BufTy).Contents (Elt F)),
    unary main_v213 main_v215 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    unary main_v214 main_v216 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    binary main_v215 main_v216 main_v217 ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)),
    ternary main_v199 main_v217 main_v202 main_v218 ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)),
    unary main_v191 main_v219 (broadcastInDim S10000x3x1 ![0, 1] bcast_S10000x3_S10000x3x1_0_1 : (⟨S10000x3, .i32⟩ : BufTy).Contents (Elt F) → (⟨S10000x3x1, .i32⟩ : BufTy).Contents (Elt F)),
    unary main_v198 main_v220 (broadcastInDim S10000x1x3 ![0, 2] bcast_S10000x3_S10000x1x3_0_2 : (⟨S10000x3, .i32⟩ : BufTy).Contents (Elt F) → (⟨S10000x1x3, .i32⟩ : BufTy).Contents (Elt F)),
    unary main_v183 main_v221 ((extractStridedSlice S10000x3x3 ![0, 0, 3] · slices_S10000x6x6_S10000x3x3_0_0_3) : (⟨S10000x6x6, .f32⟩ : BufTy).Contents (Elt F) → (⟨S10000x3x3, .f32⟩ : BufTy).Contents (Elt F)),
    nullary main_c_31 (constantI S_ 32 0#32),
    unary main_c_31 main_v222 (broadcastInDim S10000x3x1 ![] bcast_S_S10000x3x1 : (⟨S_, .i32⟩ : BufTy).Contents (Elt F) → (⟨S10000x3x1, .i32⟩ : BufTy).Contents (Elt F)),
    binary main_v219 main_v222 main_v223 (cmpi .slt : (⟨S10000x3x1, .i32⟩ : BufTy).Contents (Elt F) → (⟨S10000x3x1, .i32⟩ : BufTy).Contents (Elt F) → (⟨S10000x3x1, .i1⟩ : BufTy).Contents (Elt F)),
    nullary main_c_32 (constantI S_ 32 7500#32),
    unary main_c_32 main_v224 (broadcastInDim S10000x3x1 ![] bcast_S_S10000x3x1 : (⟨S_, .i32⟩ : BufTy).Contents (Elt F) → (⟨S10000x3x1, .i32⟩ : BufTy).Contents (Elt F)),
    binary main_v219 main_v224 main_v225 (addi : (⟨S10000x3x1, .i32⟩ : BufTy).Contents (Elt F) → (⟨S10000x3x1, .i32⟩ : BufTy).Contents (Elt F) → (⟨S10000x3x1, .i32⟩ : BufTy).Contents (Elt F)),
    ternary main_v223 main_v225 main_v219 main_v226 (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)),
    nullary main_c_33 (constantI S_ 32 0#32),
    unary main_c_33 main_v227 (broadcastInDim S10000x1x3 ![] bcast_S_S10000x1x3 : (⟨S_, .i32⟩ : BufTy).Contents (Elt F) → (⟨S10000x1x3, .i32⟩ : BufTy).Contents (Elt F)),
    binary main_v220 main_v227 main_v228 (cmpi .slt : (⟨S10000x1x3, .i32⟩ : BufTy).Contents (Elt F) → (⟨S10000x1x3, .i32⟩ : BufTy).Contents (Elt F) → (⟨S10000x1x3, .i1⟩ : BufTy).Contents (Elt F)),
    nullary main_c_34 (constantI S_ 32 7500#32),
    unary main_c_34 main_v229 (broadcastInDim S10000x1x3 ![] bcast_S_S10000x1x3 : (⟨S_, .i32⟩ : BufTy).Contents (Elt F) → (⟨S10000x1x3, .i32⟩ : BufTy).Contents (Elt F)),
    binary main_v220 main_v229 main_v230 (addi : (⟨S10000x1x3, .i32⟩ : BufTy).Contents (Elt F) → (⟨S10000x1x3, .i32⟩ : BufTy).Contents (Elt F) → (⟨S10000x1x3, .i32⟩ : BufTy).Contents (Elt F)),
    ternary main_v228 main_v230 main_v220 main_v231 (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)),
    unary main_v226 main_v232 (broadcastInDim S10000x3x3 ![0, 1, 2] bcast_S10000x3x1_S10000x3x3_0_1_2 : (⟨S10000x3x1, .i32⟩ : BufTy).Contents (Elt F) → (⟨S10000x3x3, .i32⟩ : BufTy).Contents (Elt F)),
    unary main_v231 main_v233 (broadcastInDim S10000x3x3 ![0, 1, 2] bcast_S10000x1x3_S10000x3x3_0_1_2 : (⟨S10000x1x3, .i32⟩ : BufTy).Contents (Elt F) → (⟨S10000x3x3, .i32⟩ : BufTy).Contents (Elt F)),
    unary main_v232 main_v234 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    unary main_v233 main_v235 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    binary main_v234 main_v235 main_v236 ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)),
    ternary main_v218 main_v236 main_v221 main_v237 ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)),
    unary main_v198 main_v238 (broadcastInDim S10000x3x1 ![0, 1] bcast_S10000x3_S10000x3x1_0_1 : (⟨S10000x3, .i32⟩ : BufTy).Contents (Elt F) → (⟨S10000x3x1, .i32⟩ : BufTy).Contents (Elt F)),
    unary main_v191 main_v239 (broadcastInDim S10000x1x3 ![0, 2] bcast_S10000x3_S10000x1x3_0_2 : (⟨S10000x3, .i32⟩ : BufTy).Contents (Elt F) → (⟨S10000x1x3, .i32⟩ : BufTy).Contents (Elt F)),
    unary main_v183 main_v240 ((extractStridedSlice S10000x3x3 ![0, 3, 0] · slices_S10000x6x6_S10000x3x3_0_3_0) : (⟨S10000x6x6, .f32⟩ : BufTy).Contents (Elt F) → (⟨S10000x3x3, .f32⟩ : BufTy).Contents (Elt F)),
    nullary main_c_35 (constantI S_ 32 0#32),
    unary main_c_35 main_v241 (broadcastInDim S10000x3x1 ![] bcast_S_S10000x3x1 : (⟨S_, .i32⟩ : BufTy).Contents (Elt F) → (⟨S10000x3x1, .i32⟩ : BufTy).Contents (Elt F)),
    binary main_v238 main_v241 main_v242 (cmpi .slt : (⟨S10000x3x1, .i32⟩ : BufTy).Contents (Elt F) → (⟨S10000x3x1, .i32⟩ : BufTy).Contents (Elt F) → (⟨S10000x3x1, .i1⟩ : BufTy).Contents (Elt F)),
    nullary main_c_36 (constantI S_ 32 7500#32),
    unary main_c_36 main_v243 (broadcastInDim S10000x3x1 ![] bcast_S_S10000x3x1 : (⟨S_, .i32⟩ : BufTy).Contents (Elt F) → (⟨S10000x3x1, .i32⟩ : BufTy).Contents (Elt F)),
    binary main_v238 main_v243 main_v244 (addi : (⟨S10000x3x1, .i32⟩ : BufTy).Contents (Elt F) → (⟨S10000x3x1, .i32⟩ : BufTy).Contents (Elt F) → (⟨S10000x3x1, .i32⟩ : BufTy).Contents (Elt F)),
    ternary main_v242 main_v244 main_v238 main_v245 (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)),
    nullary main_c_37 (constantI S_ 32 0#32),
    unary main_c_37 main_v246 (broadcastInDim S10000x1x3 ![] bcast_S_S10000x1x3 : (⟨S_, .i32⟩ : BufTy).Contents (Elt F) → (⟨S10000x1x3, .i32⟩ : BufTy).Contents (Elt F)),
    binary main_v239 main_v246 main_v247 (cmpi .slt : (⟨S10000x1x3, .i32⟩ : BufTy).Contents (Elt F) → (⟨S10000x1x3, .i32⟩ : BufTy).Contents (Elt F) → (⟨S10000x1x3, .i1⟩ : BufTy).Contents (Elt F)),
    nullary main_c_38 (constantI S_ 32 7500#32),
    unary main_c_38 main_v248 (broadcastInDim S10000x1x3 ![] bcast_S_S10000x1x3 : (⟨S_, .i32⟩ : BufTy).Contents (Elt F) → (⟨S10000x1x3, .i32⟩ : BufTy).Contents (Elt F)),
    binary main_v239 main_v248 main_v249 (addi : (⟨S10000x1x3, .i32⟩ : BufTy).Contents (Elt F) → (⟨S10000x1x3, .i32⟩ : BufTy).Contents (Elt F) → (⟨S10000x1x3, .i32⟩ : BufTy).Contents (Elt F)),
    ternary main_v247 main_v249 main_v239 main_v250 (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)),
    unary main_v245 main_v251 (broadcastInDim S10000x3x3 ![0, 1, 2] bcast_S10000x3x1_S10000x3x3_0_1_2 : (⟨S10000x3x1, .i32⟩ : BufTy).Contents (Elt F) → (⟨S10000x3x3, .i32⟩ : BufTy).Contents (Elt F)),
    unary main_v250 main_v252 (broadcastInDim S10000x3x3 ![0, 1, 2] bcast_S10000x1x3_S10000x3x3_0_1_2 : (⟨S10000x1x3, .i32⟩ : BufTy).Contents (Elt F) → (⟨S10000x3x3, .i32⟩ : BufTy).Contents (Elt F)),
    unary main_v251 main_v253 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    unary main_v252 main_v254 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    binary main_v253 main_v254 main_v255 ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)),
    ternary main_v237 main_v255 main_v240 main_v256 ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)),
    unary main_v198 main_v257 (broadcastInDim S10000x3x1 ![0, 1] bcast_S10000x3_S10000x3x1_0_1 : (⟨S10000x3, .i32⟩ : BufTy).Contents (Elt F) → (⟨S10000x3x1, .i32⟩ : BufTy).Contents (Elt F)),
    unary main_v198 main_v258 (broadcastInDim S10000x1x3 ![0, 2] bcast_S10000x3_S10000x1x3_0_2 : (⟨S10000x3, .i32⟩ : BufTy).Contents (Elt F) → (⟨S10000x1x3, .i32⟩ : BufTy).Contents (Elt F)),
    unary main_v183 main_v259 ((extractStridedSlice S10000x3x3 ![0, 3, 3] · slices_S10000x6x6_S10000x3x3_0_3_3) : (⟨S10000x6x6, .f32⟩ : BufTy).Contents (Elt F) → (⟨S10000x3x3, .f32⟩ : BufTy).Contents (Elt F)),
    nullary main_c_39 (constantI S_ 32 0#32),
    unary main_c_39 main_v260 (broadcastInDim S10000x3x1 ![] bcast_S_S10000x3x1 : (⟨S_, .i32⟩ : BufTy).Contents (Elt F) → (⟨S10000x3x1, .i32⟩ : BufTy).Contents (Elt F)),
    binary main_v257 main_v260 main_v261 (cmpi .slt : (⟨S10000x3x1, .i32⟩ : BufTy).Contents (Elt F) → (⟨S10000x3x1, .i32⟩ : BufTy).Contents (Elt F) → (⟨S10000x3x1, .i1⟩ : BufTy).Contents (Elt F)),
    nullary main_c_40 (constantI S_ 32 7500#32),
    unary main_c_40 main_v262 (broadcastInDim S10000x3x1 ![] bcast_S_S10000x3x1 : (⟨S_, .i32⟩ : BufTy).Contents (Elt F) → (⟨S10000x3x1, .i32⟩ : BufTy).Contents (Elt F)),
    binary main_v257 main_v262 main_v263 (addi : (⟨S10000x3x1, .i32⟩ : BufTy).Contents (Elt F) → (⟨S10000x3x1, .i32⟩ : BufTy).Contents (Elt F) → (⟨S10000x3x1, .i32⟩ : BufTy).Contents (Elt F)),
    ternary main_v261 main_v263 main_v257 main_v264 (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)),
    nullary main_c_41 (constantI S_ 32 0#32),
    unary main_c_41 main_v265 (broadcastInDim S10000x1x3 ![] bcast_S_S10000x1x3 : (⟨S_, .i32⟩ : BufTy).Contents (Elt F) → (⟨S10000x1x3, .i32⟩ : BufTy).Contents (Elt F)),
    binary main_v258 main_v265 main_v266 (cmpi .slt : (⟨S10000x1x3, .i32⟩ : BufTy).Contents (Elt F) → (⟨S10000x1x3, .i32⟩ : BufTy).Contents (Elt F) → (⟨S10000x1x3, .i1⟩ : BufTy).Contents (Elt F)),
    nullary main_c_42 (constantI S_ 32 7500#32),
    unary main_c_42 main_v267 (broadcastInDim S10000x1x3 ![] bcast_S_S10000x1x3 : (⟨S_, .i32⟩ : BufTy).Contents (Elt F) → (⟨S10000x1x3, .i32⟩ : BufTy).Contents (Elt F)),
    binary main_v258 main_v267 main_v268 (addi : (⟨S10000x1x3, .i32⟩ : BufTy).Contents (Elt F) → (⟨S10000x1x3, .i32⟩ : BufTy).Contents (Elt F) → (⟨S10000x1x3, .i32⟩ : BufTy).Contents (Elt F)),
    ternary main_v266 main_v268 main_v258 main_v269 (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)),
    unary main_v264 main_v270 (broadcastInDim S10000x3x3 ![0, 1, 2] bcast_S10000x3x1_S10000x3x3_0_1_2 : (⟨S10000x3x1, .i32⟩ : BufTy).Contents (Elt F) → (⟨S10000x3x3, .i32⟩ : BufTy).Contents (Elt F)),
    unary main_v269 main_v271 (broadcastInDim S10000x3x3 ![0, 1, 2] bcast_S10000x1x3_S10000x3x3_0_1_2 : (⟨S10000x1x3, .i32⟩ : BufTy).Contents (Elt F) → (⟨S10000x3x3, .i32⟩ : BufTy).Contents (Elt F)),
    unary main_v270 main_v272 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    unary main_v271 main_v273 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    binary main_v272 main_v273 main_v274 ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)),
    ternary main_v256 main_v274 main_v259 main_v275 ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., binary_bufs_sub .., binary_bufs_sub .., binary_bufs_sub .., binary_bufs_sub .., binary_bufs_sub .., binary_bufs_sub .., unary_bufs_sub .., reshape_bufs_sub .., binary_bufs_sub .., unary_bufs_sub .., reshape_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., nary_bufs_sub .., nary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., nary_bufs_sub .., nary_bufs_sub .., unary_bufs_sub .., unary_bufs_sub .., binary_bufs_sub .., unary_bufs_sub .., unary_bufs_sub .., binary_bufs_sub .., binary_bufs_sub .., reshape_bufs_sub .., nullary_bufs_sub .., unary_bufs_sub .., nullary_bufs_sub .., unary_bufs_sub .., binary_bufs_sub .., unary_bufs_sub .., unary_bufs_sub .., unary_bufs_sub .., binary_bufs_sub .., unary_bufs_sub .., nullary_bufs_sub .., unary_bufs_sub .., binary_bufs_sub .., unary_bufs_sub .., unary_bufs_sub .., unary_bufs_sub .., binary_bufs_sub .., nullary_bufs_sub .., unary_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., ternary_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., ternary_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., ternary_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., ternary_bufs_sub ..⟩

/-! ## The three stretches -/

set_option maxHeartbeats 40000000 in
abbrev opsA : List (HloOp τ sig (Elt F)) :=
  [ nullary main_c (constantI S_ 32 0#32),
    unary main_c main_v0 (broadcastInDim S10000 ![] bcast_S_S10000 : (⟨S_, .i32⟩ : BufTy).Contents (Elt F) → (⟨S10000, .i32⟩ : BufTy).Contents (Elt F)),
    binary main_arg1 main_v0 main_v1 (cmpi .slt : (⟨S10000, .i32⟩ : BufTy).Contents (Elt F) → (⟨S10000, .i32⟩ : BufTy).Contents (Elt F) → (⟨S10000, .i1⟩ : BufTy).Contents (Elt F)),
    nullary main_c_0 (constantI S_ 32 2500#32),
    unary main_c_0 main_v2 (broadcastInDim S10000 ![] bcast_S_S10000 : (⟨S_, .i32⟩ : BufTy).Contents (Elt F) → (⟨S10000, .i32⟩ : BufTy).Contents (Elt F)),
    binary main_arg1 main_v2 main_v3 (addi : (⟨S10000, .i32⟩ : BufTy).Contents (Elt F) → (⟨S10000, .i32⟩ : BufTy).Contents (Elt F) → (⟨S10000, .i32⟩ : BufTy).Contents (Elt F)),
    ternary main_v1 main_v3 main_arg1 main_v4 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    unary main_v4 main_v5 (broadcastInDim S10000x1 ![0] bcast_S10000_S10000x1_0 : (⟨S10000, .i32⟩ : BufTy).Contents (Elt F) → (⟨S10000x1, .i32⟩ : BufTy).Contents (Elt F)),
    binary main_arg0 main_v5 main_v6 ((fun x i => Host.gather gather_S2500x2_S10000x1_S10000x2_1_0_n_n_0_1_12 x i) : (⟨S2500x2, .f32⟩ : BufTy).Contents (Elt F) → (⟨S10000x1, .i32⟩ : BufTy).Contents (Elt F) → (⟨S10000x2, .f32⟩ : BufTy).Contents (Elt F)),
    nullary main_c_1 (constantI S_ 32 0#32),
    unary main_c_1 main_v7 (broadcastInDim S10000 ![] bcast_S_S10000 : (⟨S_, .i32⟩ : BufTy).Contents (Elt F) → (⟨S10000, .i32⟩ : BufTy).Contents (Elt F)),
    binary main_arg2 main_v7 main_v8 (cmpi .slt : (⟨S10000, .i32⟩ : BufTy).Contents (Elt F) → (⟨S10000, .i32⟩ : BufTy).Contents (Elt F) → (⟨S10000, .i1⟩ : BufTy).Contents (Elt F)),
    nullary main_c_2 (constantI S_ 32 2500#32),
    unary main_c_2 main_v9 (broadcastInDim S10000 ![] bcast_S_S10000 : (⟨S_, .i32⟩ : BufTy).Contents (Elt F) → (⟨S10000, .i32⟩ : BufTy).Contents (Elt F)),
    binary main_arg2 main_v9 main_v10 (addi : (⟨S10000, .i32⟩ : BufTy).Contents (Elt F) → (⟨S10000, .i32⟩ : BufTy).Contents (Elt F) → (⟨S10000, .i32⟩ : BufTy).Contents (Elt F)),
    ternary main_v8 main_v10 main_arg2 main_v11 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    unary main_v11 main_v12 (broadcastInDim S10000x1 ![0] bcast_S10000_S10000x1_0 : (⟨S10000, .i32⟩ : BufTy).Contents (Elt F) → (⟨S10000x1, .i32⟩ : BufTy).Contents (Elt F)),
    binary main_arg0 main_v12 main_v13 ((fun x i => Host.gather gather_S2500x2_S10000x1_S10000x2_1_0_n_n_0_1_12 x i) : (⟨S2500x2, .f32⟩ : BufTy).Contents (Elt F) → (⟨S10000x1, .i32⟩ : BufTy).Contents (Elt F) → (⟨S10000x2, .f32⟩ : BufTy).Contents (Elt F)),
    binary main_v6 main_v13 main_v14 (subf : (⟨S10000x2, .f32⟩ : BufTy).Contents (Elt F) → (⟨S10000x2, .f32⟩ : BufTy).Contents (Elt F) → (⟨S10000x2, .f32⟩ : BufTy).Contents (Elt F)) ]

set_option maxHeartbeats 40000000 in
abbrev opsB : List (HloOp τ sig (Elt F)) :=
  [ TRef.binary (TRef.of (T := ⟨S10000x2, .f32⟩) main_v14) (TRef.of (T := ⟨S10000x2, .f32⟩) main_v14) (TRef.of (T := ⟨S10000x2, .f32⟩) main_call0_v0) mulf,
    TRef.nullary (TRef.of (T := ⟨S_, .f32⟩) main_call0_cst) (constant S_ .f32 0x00000000#32),
    TRef.binary (TRef.of (T := ⟨S10000x2, .f32⟩) main_call0_v0) (TRef.of (T := ⟨S_, .f32⟩) main_call0_cst) (TRef.of (T := ⟨S10000, .f32⟩) main_call0_v1) (fun x v => Host.reduceAdd x v reducesTo_S10000x2_S10000_d1 h_S_),
    TRef.unary (TRef.of (T := ⟨S10000, .f32⟩) main_call0_v1) (TRef.of (T := ⟨S10000, .f32⟩) main_v15) Host.sqrt,
    binary main_arg4 main_arg4 main_v16 (mulf : (⟨S10000, .f32⟩ : BufTy).Contents (Elt F) → (⟨S10000, .f32⟩ : BufTy).Contents (Elt F) → (⟨S10000, .f32⟩ : BufTy).Contents (Elt F)),
    nullary main_cst (constant S_ .f32 0x41400000#32),
    unary main_cst main_v17 (broadcastInDim S10000 ![] bcast_S_S10000 : (⟨S_, .f32⟩ : BufTy).Contents (Elt F) → (⟨S10000, .f32⟩ : BufTy).Contents (Elt F)),
    binary main_v16 main_v17 main_v18 (Host.divf : (⟨S10000, .f32⟩ : BufTy).Contents (Elt F) → (⟨S10000, .f32⟩ : BufTy).Contents (Elt F) → (⟨S10000, .f32⟩ : BufTy).Contents (Elt F)),
    binary main_arg3 main_v18 main_v19 (mulf : (⟨S10000, .f32⟩ : BufTy).Contents (Elt F) → (⟨S10000, .f32⟩ : BufTy).Contents (Elt F) → (⟨S10000, .f32⟩ : BufTy).Contents (Elt F)),
    binary main_v15 main_v15 main_v20 (mulf : (⟨S10000, .f32⟩ : BufTy).Contents (Elt F) → (⟨S10000, .f32⟩ : BufTy).Contents (Elt F) → (⟨S10000, .f32⟩ : BufTy).Contents (Elt F)),
    binary main_v20 main_v15 main_v21 (mulf : (⟨S10000, .f32⟩ : BufTy).Contents (Elt F) → (⟨S10000, .f32⟩ : BufTy).Contents (Elt F) → (⟨S10000, .f32⟩ : BufTy).Contents (Elt F)),
    binary main_v19 main_v21 main_v22 (Host.divf : (⟨S10000, .f32⟩ : BufTy).Contents (Elt F) → (⟨S10000, .f32⟩ : BufTy).Contents (Elt F) → (⟨S10000, .f32⟩ : BufTy).Contents (Elt F)),
    binary main_arg3 main_arg4 main_v23 (mulf : (⟨S10000, .f32⟩ : BufTy).Contents (Elt F) → (⟨S10000, .f32⟩ : BufTy).Contents (Elt F) → (⟨S10000, .f32⟩ : BufTy).Contents (Elt F)),
    binary main_v23 main_v15 main_v24 (Host.divf : (⟨S10000, .f32⟩ : BufTy).Contents (Elt F) → (⟨S10000, .f32⟩ : BufTy).Contents (Elt F) → (⟨S10000, .f32⟩ : BufTy).Contents (Elt F)),
    unary main_v14 main_v25 ((extractStridedSlice S10000x1 ![0, 0] · slices_S10000x2_S10000x1_0_0) : (⟨S10000x2, .f32⟩ : BufTy).Contents (Elt F) → (⟨S10000x1, .f32⟩ : BufTy).Contents (Elt F)),
    reshape main_v25 main_v26 rfl shapeCasts_S10000x1_S10000,
    binary main_v26 main_v15 main_v27 (Host.divf : (⟨S10000, .f32⟩ : BufTy).Contents (Elt F) → (⟨S10000, .f32⟩ : BufTy).Contents (Elt F) → (⟨S10000, .f32⟩ : BufTy).Contents (Elt F)),
    unary main_v14 main_v28 ((extractStridedSlice S10000x1 ![0, 1] · slices_S10000x2_S10000x1_0_1) : (⟨S10000x2, .f32⟩ : BufTy).Contents (Elt F) → (⟨S10000x1, .f32⟩ : BufTy).Contents (Elt F)),
    reshape main_v28 main_v29 rfl shapeCasts_S10000x1_S10000,
    unary main_v29 main_v30 (Host.negf : (⟨S10000, .f32⟩ : BufTy).Contents (Elt F) → (⟨S10000, .f32⟩ : BufTy).Contents (Elt F)),
    binary main_v30 main_v15 main_v31 (Host.divf : (⟨S10000, .f32⟩ : BufTy).Contents (Elt F) → (⟨S10000, .f32⟩ : BufTy).Contents (Elt F) → (⟨S10000, .f32⟩ : BufTy).Contents (Elt F)),
    binary main_v31 main_v31 main_v32 (mulf : (⟨S10000, .f32⟩ : BufTy).Contents (Elt F) → (⟨S10000, .f32⟩ : BufTy).Contents (Elt F) → (⟨S10000, .f32⟩ : BufTy).Contents (Elt F)),
    binary main_v27 main_v27 main_v33 (mulf : (⟨S10000, .f32⟩ : BufTy).Contents (Elt F) → (⟨S10000, .f32⟩ : BufTy).Contents (Elt F) → (⟨S10000, .f32⟩ : BufTy).Contents (Elt F)),
    binary main_v31 main_v27 main_v34 (mulf : (⟨S10000, .f32⟩ : BufTy).Contents (Elt F) → (⟨S10000, .f32⟩ : BufTy).Contents (Elt F) → (⟨S10000, .f32⟩ : BufTy).Contents (Elt F)),
    nullary main_cst_3 (constant S_ .f32 0x40C00000#32),
    unary main_cst_3 main_v35 (broadcastInDim S10000 ![] bcast_S_S10000 : (⟨S_, .f32⟩ : BufTy).Contents (Elt F) → (⟨S10000, .f32⟩ : BufTy).Contents (Elt F)),
    binary main_v35 main_v15 main_v36 (mulf : (⟨S10000, .f32⟩ : BufTy).Contents (Elt F) → (⟨S10000, .f32⟩ : BufTy).Contents (Elt F) → (⟨S10000, .f32⟩ : BufTy).Contents (Elt F)),
    binary main_v36 main_v31 main_v37 (mulf : (⟨S10000, .f32⟩ : BufTy).Contents (Elt F) → (⟨S10000, .f32⟩ : BufTy).Contents (Elt F) → (⟨S10000, .f32⟩ : BufTy).Contents (Elt F)),
    nullary main_cst_4 (constant S_ .f32 0x40C00000#32),
    unary main_cst_4 main_v38 (broadcastInDim S10000 ![] bcast_S_S10000 : (⟨S_, .f32⟩ : BufTy).Contents (Elt F) → (⟨S10000, .f32⟩ : BufTy).Contents (Elt F)),
    binary main_v38 main_v15 main_v39 (mulf : (⟨S10000, .f32⟩ : BufTy).Contents (Elt F) → (⟨S10000, .f32⟩ : BufTy).Contents (Elt F) → (⟨S10000, .f32⟩ : BufTy).Contents (Elt F)),
    binary main_v39 main_v27 main_v40 (mulf : (⟨S10000, .f32⟩ : BufTy).Contents (Elt F) → (⟨S10000, .f32⟩ : BufTy).Contents (Elt F) → (⟨S10000, .f32⟩ : BufTy).Contents (Elt F)),
    binary main_v15 main_v15 main_v41 (mulf : (⟨S10000, .f32⟩ : BufTy).Contents (Elt F) → (⟨S10000, .f32⟩ : BufTy).Contents (Elt F) → (⟨S10000, .f32⟩ : BufTy).Contents (Elt F)),
    nullary main_cst_5 (constant S_ .f32 0x40000000#32),
    unary main_cst_5 main_v42 (broadcastInDim S10000 ![] bcast_S_S10000 : (⟨S_, .f32⟩ : BufTy).Contents (Elt F) → (⟨S10000, .f32⟩ : BufTy).Contents (Elt F)),
    binary main_v42 main_v41 main_v43 (mulf : (⟨S10000, .f32⟩ : BufTy).Contents (Elt F) → (⟨S10000, .f32⟩ : BufTy).Contents (Elt F) → (⟨S10000, .f32⟩ : BufTy).Contents (Elt F)),
    binary main_v15 main_v15 main_v44 (mulf : (⟨S10000, .f32⟩ : BufTy).Contents (Elt F) → (⟨S10000, .f32⟩ : BufTy).Contents (Elt F) → (⟨S10000, .f32⟩ : BufTy).Contents (Elt F)),
    nullary main_cst_6 (constant S_ .f32 0x40800000#32),
    unary main_cst_6 main_v45 (broadcastInDim S10000 ![] bcast_S_S10000 : (⟨S_, .f32⟩ : BufTy).Contents (Elt F) → (⟨S10000, .f32⟩ : BufTy).Contents (Elt F)),
    binary main_v45 main_v44 main_v46 (mulf : (⟨S10000, .f32⟩ : BufTy).Contents (Elt F) → (⟨S10000, .f32⟩ : BufTy).Contents (Elt F) → (⟨S10000, .f32⟩ : BufTy).Contents (Elt F)),
    nullary main_cst_7 (constant S_ .f32 0x00000000#32),
    unary main_cst_7 main_v47 (broadcastInDim S10000 ![] bcast_S_S10000 : (⟨S_, .f32⟩ : BufTy).Contents (Elt F) → (⟨S10000, .f32⟩ : BufTy).Contents (Elt F)),
    nullary main_cst_8 (constant S_ .f32 0x41400000#32),
    unary main_cst_8 main_v48 (broadcastInDim S10000 ![] bcast_S_S10000 : (⟨S_, .f32⟩ : BufTy).Contents (Elt F) → (⟨S10000, .f32⟩ : BufTy).Contents (Elt F)),
    binary main_v48 main_v32 main_v49 (mulf : (⟨S10000, .f32⟩ : BufTy).Contents (Elt F) → (⟨S10000, .f32⟩ : BufTy).Contents (Elt F) → (⟨S10000, .f32⟩ : BufTy).Contents (Elt F)),
    nullary main_cst_9 (constant S_ .f32 0x41400000#32),
    unary main_cst_9 main_v50 (broadcastInDim S10000 ![] bcast_S_S10000 : (⟨S_, .f32⟩ : BufTy).Contents (Elt F) → (⟨S10000, .f32⟩ : BufTy).Contents (Elt F)),
    binary main_v50 main_v34 main_v51 (mulf : (⟨S10000, .f32⟩ : BufTy).Contents (Elt F) → (⟨S10000, .f32⟩ : BufTy).Contents (Elt F) → (⟨S10000, .f32⟩ : BufTy).Contents (Elt F)),
    unary main_v37 main_v52 (Host.negf : (⟨S10000, .f32⟩ : BufTy).Contents (Elt F) → (⟨S10000, .f32⟩ : BufTy).Contents (Elt F)),
    nullary main_cst_10 (constant S_ .f32 0xC1400000#32),
    unary main_cst_10 main_v53 (broadcastInDim S10000 ![] bcast_S_S10000 : (⟨S_, .f32⟩ : BufTy).Contents (Elt F) → (⟨S10000, .f32⟩ : BufTy).Contents (Elt F)),
    binary main_v53 main_v32 main_v54 (mulf : (⟨S10000, .f32⟩ : BufTy).Contents (Elt F) → (⟨S10000, .f32⟩ : BufTy).Contents (Elt F) → (⟨S10000, .f32⟩ : BufTy).Contents (Elt F)),
    nullary main_cst_11 (constant S_ .f32 0xC1400000#32),
    unary main_cst_11 main_v55 (broadcastInDim S10000 ![] bcast_S_S10000 : (⟨S_, .f32⟩ : BufTy).Contents (Elt F) → (⟨S10000, .f32⟩ : BufTy).Contents (Elt F)),
    binary main_v55 main_v34 main_v56 (mulf : (⟨S10000, .f32⟩ : BufTy).Contents (Elt F) → (⟨S10000, .f32⟩ : BufTy).Contents (Elt F) → (⟨S10000, .f32⟩ : BufTy).Contents (Elt F)),
    unary main_v37 main_v57 (Host.negf : (⟨S10000, .f32⟩ : BufTy).Contents (Elt F) → (⟨S10000, .f32⟩ : BufTy).Contents (Elt F)),
    nullary main_cst_12 (constant S_ .f32 0x41400000#32),
    unary main_cst_12 main_v58 (broadcastInDim S10000 ![] bcast_S_S10000 : (⟨S_, .f32⟩ : BufTy).Contents (Elt F) → (⟨S10000, .f32⟩ : BufTy).Contents (Elt F)),
    binary main_v58 main_v34 main_v59 (mulf : (⟨S10000, .f32⟩ : BufTy).Contents (Elt F) → (⟨S10000, .f32⟩ : BufTy).Contents (Elt F) → (⟨S10000, .f32⟩ : BufTy).Contents (Elt F)),
    nullary main_cst_13 (constant S_ .f32 0x41400000#32),
    unary main_cst_13 main_v60 (broadcastInDim S10000 ![] bcast_S_S10000 : (⟨S_, .f32⟩ : BufTy).Contents (Elt F) → (⟨S10000, .f32⟩ : BufTy).Contents (Elt F)),
    binary main_v60 main_v33 main_v61 (mulf : (⟨S10000, .f32⟩ : BufTy).Contents (Elt F) → (⟨S10000, .f32⟩ : BufTy).Contents (Elt F) → (⟨S10000, .f32⟩ : BufTy).Contents (Elt F)),
    unary main_v40 main_v62 (Host.negf : (⟨S10000, .f32⟩ : BufTy).Contents (Elt F) → (⟨S10000, .f32⟩ : BufTy).Contents (Elt F)),
    nullary main_cst_14 (constant S_ .f32 0xC1400000#32),
    unary main_cst_14 main_v63 (broadcastInDim S10000 ![] bcast_S_S10000 : (⟨S_, .f32⟩ : BufTy).Contents (Elt F) → (⟨S10000, .f32⟩ : BufTy).Contents (Elt F)),
    binary main_v63 main_v34 main_v64 (mulf : (⟨S10000, .f32⟩ : BufTy).Contents (Elt F) → (⟨S10000, .f32⟩ : BufTy).Contents (Elt F) → (⟨S10000, .f32⟩ : BufTy).Contents (Elt F)),
    nullary main_cst_15 (constant S_ .f32 0xC1400000#32),
    unary main_cst_15 main_v65 (broadcastInDim S10000 ![] bcast_S_S10000 : (⟨S_, .f32⟩ : BufTy).Contents (Elt F) → (⟨S10000, .f32⟩ : BufTy).Contents (Elt F)),
    binary main_v65 main_v33 main_v66 (mulf : (⟨S10000, .f32⟩ : BufTy).Contents (Elt F) → (⟨S10000, .f32⟩ : BufTy).Contents (Elt F) → (⟨S10000, .f32⟩ : BufTy).Contents (Elt F)),
    unary main_v40 main_v67 (Host.negf : (⟨S10000, .f32⟩ : BufTy).Contents (Elt F) → (⟨S10000, .f32⟩ : BufTy).Contents (Elt F)),
    unary main_v37 main_v68 (Host.negf : (⟨S10000, .f32⟩ : BufTy).Contents (Elt F) → (⟨S10000, .f32⟩ : BufTy).Contents (Elt F)),
    unary main_v40 main_v69 (Host.negf : (⟨S10000, .f32⟩ : BufTy).Contents (Elt F) → (⟨S10000, .f32⟩ : BufTy).Contents (Elt F)),
    nullary main_cst_16 (constant S_ .f32 0xC1400000#32),
    unary main_cst_16 main_v70 (broadcastInDim S10000 ![] bcast_S_S10000 : (⟨S_, .f32⟩ : BufTy).Contents (Elt F) → (⟨S10000, .f32⟩ : BufTy).Contents (Elt F)),
    binary main_v70 main_v32 main_v71 (mulf : (⟨S10000, .f32⟩ : BufTy).Contents (Elt F) → (⟨S10000, .f32⟩ : BufTy).Contents (Elt F) → (⟨S10000, .f32⟩ : BufTy).Contents (Elt F)),
    nullary main_cst_17 (constant S_ .f32 0xC1400000#32),
    unary main_cst_17 main_v72 (broadcastInDim S10000 ![] bcast_S_S10000 : (⟨S_, .f32⟩ : BufTy).Contents (Elt F) → (⟨S10000, .f32⟩ : BufTy).Contents (Elt F)),
    binary main_v72 main_v34 main_v73 (mulf : (⟨S10000, .f32⟩ : BufTy).Contents (Elt F) → (⟨S10000, .f32⟩ : BufTy).Contents (Elt F) → (⟨S10000, .f32⟩ : BufTy).Contents (Elt F)),
    nullary main_cst_18 (constant S_ .f32 0x41400000#32),
    unary main_cst_18 main_v74 (broadcastInDim S10000 ![] bcast_S_S10000 : (⟨S_, .f32⟩ : BufTy).Contents (Elt F) → (⟨S10000, .f32⟩ : BufTy).Contents (Elt F)),
    binary main_v74 main_v32 main_v75 (mulf : (⟨S10000, .f32⟩ : BufTy).Contents (Elt F) → (⟨S10000, .f32⟩ : BufTy).Contents (Elt F) → (⟨S10000, .f32⟩ : BufTy).Contents (Elt F)),
    nullary main_cst_19 (constant S_ .f32 0x41400000#32),
    unary main_cst_19 main_v76 (broadcastInDim S10000 ![] bcast_S_S10000 : (⟨S_, .f32⟩ : BufTy).Contents (Elt F) → (⟨S10000, .f32⟩ : BufTy).Contents (Elt F)),
    binary main_v76 main_v34 main_v77 (mulf : (⟨S10000, .f32⟩ : BufTy).Contents (Elt F) → (⟨S10000, .f32⟩ : BufTy).Contents (Elt F) → (⟨S10000, .f32⟩ : BufTy).Contents (Elt F)),
    nullary main_cst_20 (constant S_ .f32 0xC1400000#32),
    unary main_cst_20 main_v78 (broadcastInDim S10000 ![] bcast_S_S10000 : (⟨S_, .f32⟩ : BufTy).Contents (Elt F) → (⟨S10000, .f32⟩ : BufTy).Contents (Elt F)),
    binary main_v78 main_v34 main_v79 (mulf : (⟨S10000, .f32⟩ : BufTy).Contents (Elt F) → (⟨S10000, .f32⟩ : BufTy).Contents (Elt F) → (⟨S10000, .f32⟩ : BufTy).Contents (Elt F)),
    nullary main_cst_21 (constant S_ .f32 0xC1400000#32),
    unary main_cst_21 main_v80 (broadcastInDim S10000 ![] bcast_S_S10000 : (⟨S_, .f32⟩ : BufTy).Contents (Elt F) → (⟨S10000, .f32⟩ : BufTy).Contents (Elt F)),
    binary main_v80 main_v33 main_v81 (mulf : (⟨S10000, .f32⟩ : BufTy).Contents (Elt F) → (⟨S10000, .f32⟩ : BufTy).Contents (Elt F) → (⟨S10000, .f32⟩ : BufTy).Contents (Elt F)),
    nullary main_cst_22 (constant S_ .f32 0x41400000#32),
    unary main_cst_22 main_v82 (broadcastInDim S10000 ![] bcast_S_S10000 : (⟨S_, .f32⟩ : BufTy).Contents (Elt F) → (⟨S10000, .f32⟩ : BufTy).Contents (Elt F)),
    binary main_v82 main_v34 main_v83 (mulf : (⟨S10000, .f32⟩ : BufTy).Contents (Elt F) → (⟨S10000, .f32⟩ : BufTy).Contents (Elt F) → (⟨S10000, .f32⟩ : BufTy).Contents (Elt F)),
    nullary main_cst_23 (constant S_ .f32 0x41400000#32),
    unary main_cst_23 main_v84 (broadcastInDim S10000 ![] bcast_S_S10000 : (⟨S_, .f32⟩ : BufTy).Contents (Elt F) → (⟨S10000, .f32⟩ : BufTy).Contents (Elt F)),
    binary main_v84 main_v33 main_v85 (mulf : (⟨S10000, .f32⟩ : BufTy).Contents (Elt F) → (⟨S10000, .f32⟩ : BufTy).Contents (Elt F) → (⟨S10000, .f32⟩ : BufTy).Contents (Elt F)),
    unary main_v37 main_v86 (Host.negf : (⟨S10000, .f32⟩ : BufTy).Contents (Elt F) → (⟨S10000, .f32⟩ : BufTy).Contents (Elt F)),
    unary main_v40 main_v87 (Host.negf : (⟨S10000, .f32⟩ : BufTy).Contents (Elt F) → (⟨S10000, .f32⟩ : BufTy).Contents (Elt F)),
    unary main_v49 main_v88 (broadcastInDim S10000x1 ![0] bcast_S10000_S10000x1_0 : (⟨S10000, .f32⟩ : BufTy).Contents (Elt F) → (⟨S10000x1, .f32⟩ : BufTy).Contents (Elt F)),
    unary main_v51 main_v89 (broadcastInDim S10000x1 ![0] bcast_S10000_S10000x1_0 : (⟨S10000, .f32⟩ : BufTy).Contents (Elt F) → (⟨S10000x1, .f32⟩ : BufTy).Contents (Elt F)),
    unary main_v52 main_v90 (broadcastInDim S10000x1 ![0] bcast_S10000_S10000x1_0 : (⟨S10000, .f32⟩ : BufTy).Contents (Elt F) → (⟨S10000x1, .f32⟩ : BufTy).Contents (Elt F)),
    unary main_v54 main_v91 (broadcastInDim S10000x1 ![0] bcast_S10000_S10000x1_0 : (⟨S10000, .f32⟩ : BufTy).Contents (Elt F) → (⟨S10000x1, .f32⟩ : BufTy).Contents (Elt F)),
    unary main_v56 main_v92 (broadcastInDim S10000x1 ![0] bcast_S10000_S10000x1_0 : (⟨S10000, .f32⟩ : BufTy).Contents (Elt F) → (⟨S10000x1, .f32⟩ : BufTy).Contents (Elt F)),
    unary main_v57 main_v93 (broadcastInDim S10000x1 ![0] bcast_S10000_S10000x1_0 : (⟨S10000, .f32⟩ : BufTy).Contents (Elt F) → (⟨S10000x1, .f32⟩ : BufTy).Contents (Elt F)),
    unary main_v59 main_v94 (broadcastInDim S10000x1 ![0] bcast_S10000_S10000x1_0 : (⟨S10000, .f32⟩ : BufTy).Contents (Elt F) → (⟨S10000x1, .f32⟩ : BufTy).Contents (Elt F)),
    unary main_v61 main_v95 (broadcastInDim S10000x1 ![0] bcast_S10000_S10000x1_0 : (⟨S10000, .f32⟩ : BufTy).Contents (Elt F) → (⟨S10000x1, .f32⟩ : BufTy).Contents (Elt F)),
    unary main_v62 main_v96 (broadcastInDim S10000x1 ![0] bcast_S10000_S10000x1_0 : (⟨S10000, .f32⟩ : BufTy).Contents (Elt F) → (⟨S10000x1, .f32⟩ : BufTy).Contents (Elt F)),
    unary main_v64 main_v97 (broadcastInDim S10000x1 ![0] bcast_S10000_S10000x1_0 : (⟨S10000, .f32⟩ : BufTy).Contents (Elt F) → (⟨S10000x1, .f32⟩ : BufTy).Contents (Elt F)),
    unary main_v66 main_v98 (broadcastInDim S10000x1 ![0] bcast_S10000_S10000x1_0 : (⟨S10000, .f32⟩ : BufTy).Contents (Elt F) → (⟨S10000x1, .f32⟩ : BufTy).Contents (Elt F)),
    unary main_v67 main_v99 (broadcastInDim S10000x1 ![0] bcast_S10000_S10000x1_0 : (⟨S10000, .f32⟩ : BufTy).Contents (Elt F) → (⟨S10000x1, .f32⟩ : BufTy).Contents (Elt F)),
    unary main_v68 main_v100 (broadcastInDim S10000x1 ![0] bcast_S10000_S10000x1_0 : (⟨S10000, .f32⟩ : BufTy).Contents (Elt F) → (⟨S10000x1, .f32⟩ : BufTy).Contents (Elt F)),
    unary main_v69 main_v101 (broadcastInDim S10000x1 ![0] bcast_S10000_S10000x1_0 : (⟨S10000, .f32⟩ : BufTy).Contents (Elt F) → (⟨S10000x1, .f32⟩ : BufTy).Contents (Elt F)),
    unary main_v46 main_v102 (broadcastInDim S10000x1 ![0] bcast_S10000_S10000x1_0 : (⟨S10000, .f32⟩ : BufTy).Contents (Elt F) → (⟨S10000x1, .f32⟩ : BufTy).Contents (Elt F)),
    unary main_v37 main_v103 (broadcastInDim S10000x1 ![0] bcast_S10000_S10000x1_0 : (⟨S10000, .f32⟩ : BufTy).Contents (Elt F) → (⟨S10000x1, .f32⟩ : BufTy).Contents (Elt F)),
    unary main_v40 main_v104 (broadcastInDim S10000x1 ![0] bcast_S10000_S10000x1_0 : (⟨S10000, .f32⟩ : BufTy).Contents (Elt F) → (⟨S10000x1, .f32⟩ : BufTy).Contents (Elt F)),
    unary main_v43 main_v105 (broadcastInDim S10000x1 ![0] bcast_S10000_S10000x1_0 : (⟨S10000, .f32⟩ : BufTy).Contents (Elt F) → (⟨S10000x1, .f32⟩ : BufTy).Contents (Elt F)),
    unary main_v71 main_v106 (broadcastInDim S10000x1 ![0] bcast_S10000_S10000x1_0 : (⟨S10000, .f32⟩ : BufTy).Contents (Elt F) → (⟨S10000x1, .f32⟩ : BufTy).Contents (Elt F)),
    unary main_v73 main_v107 (broadcastInDim S10000x1 ![0] bcast_S10000_S10000x1_0 : (⟨S10000, .f32⟩ : BufTy).Contents (Elt F) → (⟨S10000x1, .f32⟩ : BufTy).Contents (Elt F)),
    unary main_v37 main_v108 (broadcastInDim S10000x1 ![0] bcast_S10000_S10000x1_0 : (⟨S10000, .f32⟩ : BufTy).Contents (Elt F) → (⟨S10000x1, .f32⟩ : BufTy).Contents (Elt F)),
    unary main_v75 main_v109 (broadcastInDim S10000x1 ![0] bcast_S10000_S10000x1_0 : (⟨S10000, .f32⟩ : BufTy).Contents (Elt F) → (⟨S10000x1, .f32⟩ : BufTy).Contents (Elt F)),
    unary main_v77 main_v110 (broadcastInDim S10000x1 ![0] bcast_S10000_S10000x1_0 : (⟨S10000, .f32⟩ : BufTy).Contents (Elt F) → (⟨S10000x1, .f32⟩ : BufTy).Contents (Elt F)),
    unary main_v37 main_v111 (broadcastInDim S10000x1 ![0] bcast_S10000_S10000x1_0 : (⟨S10000, .f32⟩ : BufTy).Contents (Elt F) → (⟨S10000x1, .f32⟩ : BufTy).Contents (Elt F)),
    unary main_v79 main_v112 (broadcastInDim S10000x1 ![0] bcast_S10000_S10000x1_0 : (⟨S10000, .f32⟩ : BufTy).Contents (Elt F) → (⟨S10000x1, .f32⟩ : BufTy).Contents (Elt F)),
    unary main_v81 main_v113 (broadcastInDim S10000x1 ![0] bcast_S10000_S10000x1_0 : (⟨S10000, .f32⟩ : BufTy).Contents (Elt F) → (⟨S10000x1, .f32⟩ : BufTy).Contents (Elt F)),
    unary main_v40 main_v114 (broadcastInDim S10000x1 ![0] bcast_S10000_S10000x1_0 : (⟨S10000, .f32⟩ : BufTy).Contents (Elt F) → (⟨S10000x1, .f32⟩ : BufTy).Contents (Elt F)),
    unary main_v83 main_v115 (broadcastInDim S10000x1 ![0] bcast_S10000_S10000x1_0 : (⟨S10000, .f32⟩ : BufTy).Contents (Elt F) → (⟨S10000x1, .f32⟩ : BufTy).Contents (Elt F)),
    unary main_v85 main_v116 (broadcastInDim S10000x1 ![0] bcast_S10000_S10000x1_0 : (⟨S10000, .f32⟩ : BufTy).Contents (Elt F) → (⟨S10000x1, .f32⟩ : BufTy).Contents (Elt F)),
    unary main_v40 main_v117 (broadcastInDim S10000x1 ![0] bcast_S10000_S10000x1_0 : (⟨S10000, .f32⟩ : BufTy).Contents (Elt F) → (⟨S10000x1, .f32⟩ : BufTy).Contents (Elt F)),
    unary main_v86 main_v118 (broadcastInDim S10000x1 ![0] bcast_S10000_S10000x1_0 : (⟨S10000, .f32⟩ : BufTy).Contents (Elt F) → (⟨S10000x1, .f32⟩ : BufTy).Contents (Elt F)),
    unary main_v87 main_v119 (broadcastInDim S10000x1 ![0] bcast_S10000_S10000x1_0 : (⟨S10000, .f32⟩ : BufTy).Contents (Elt F) → (⟨S10000x1, .f32⟩ : BufTy).Contents (Elt F)),
    unary main_v43 main_v120 (broadcastInDim S10000x1 ![0] bcast_S10000_S10000x1_0 : (⟨S10000, .f32⟩ : BufTy).Contents (Elt F) → (⟨S10000x1, .f32⟩ : BufTy).Contents (Elt F)),
    unary main_v37 main_v121 (broadcastInDim S10000x1 ![0] bcast_S10000_S10000x1_0 : (⟨S10000, .f32⟩ : BufTy).Contents (Elt F) → (⟨S10000x1, .f32⟩ : BufTy).Contents (Elt F)),
    unary main_v40 main_v122 (broadcastInDim S10000x1 ![0] bcast_S10000_S10000x1_0 : (⟨S10000, .f32⟩ : BufTy).Contents (Elt F) → (⟨S10000x1, .f32⟩ : BufTy).Contents (Elt F)),
    unary main_v46 main_v123 (broadcastInDim S10000x1 ![0] bcast_S10000_S10000x1_0 : (⟨S10000, .f32⟩ : BufTy).Contents (Elt F) → (⟨S10000x1, .f32⟩ : BufTy).Contents (Elt F)),
    nary ![main_v88, main_v89, main_v90, main_v91, main_v92, main_v93, main_v94, main_v95, main_v96, main_v97, main_v98, main_v99, main_v100, main_v101, main_v102, main_v103] main_v124 (fun u => concatenate S10000x16 1 [⟨S10000x1, u 0⟩, ⟨S10000x1, u 1⟩, ⟨S10000x1, u 2⟩, ⟨S10000x1, u 3⟩, ⟨S10000x1, u 4⟩, ⟨S10000x1, u 5⟩, ⟨S10000x1, u 6⟩, ⟨S10000x1, u 7⟩, ⟨S10000x1, u 8⟩, ⟨S10000x1, u 9⟩, ⟨S10000x1, u 10⟩, ⟨S10000x1, u 11⟩, ⟨S10000x1, u 12⟩, ⟨S10000x1, u 13⟩, ⟨S10000x1, u 14⟩, ⟨S10000x1, u 15⟩] concatenates_S10000x1_S10000x1_S10000x1_S10000x1_S10000x1_S10000x1_S10000x1_S10000x1_S10000x1_S10000x1_S10000x1_S10000x1_S10000x1_S10000x1_S10000x1_S10000x1_S10000x16_d1),
    nary ![main_v104, main_v105, main_v106, main_v107, main_v108, main_v109, main_v110, main_v111, main_v112, main_v113, main_v114, main_v115, main_v116, main_v117, main_v118, main_v119] main_v125 (fun u => concatenate S10000x16 1 [⟨S10000x1, u 0⟩, ⟨S10000x1, u 1⟩, ⟨S10000x1, u 2⟩, ⟨S10000x1, u 3⟩, ⟨S10000x1, u 4⟩, ⟨S10000x1, u 5⟩, ⟨S10000x1, u 6⟩, ⟨S10000x1, u 7⟩, ⟨S10000x1, u 8⟩, ⟨S10000x1, u 9⟩, ⟨S10000x1, u 10⟩, ⟨S10000x1, u 11⟩, ⟨S10000x1, u 12⟩, ⟨S10000x1, u 13⟩, ⟨S10000x1, u 14⟩, ⟨S10000x1, u 15⟩] concatenates_S10000x1_S10000x1_S10000x1_S10000x1_S10000x1_S10000x1_S10000x1_S10000x1_S10000x1_S10000x1_S10000x1_S10000x1_S10000x1_S10000x1_S10000x1_S10000x1_S10000x16_d1),
    nary ![main_v120, main_v121, main_v122, main_v123] main_v126 (fun u => concatenate S10000x4 1 [⟨S10000x1, u 0⟩, ⟨S10000x1, u 1⟩, ⟨S10000x1, u 2⟩, ⟨S10000x1, u 3⟩] concatenates_S10000x1_S10000x1_S10000x1_S10000x1_S10000x4_d1),
    nary ![main_v124, main_v125, main_v126] main_v127 (fun u => concatenate S10000x36 1 [⟨S10000x16, u 0⟩, ⟨S10000x16, u 1⟩, ⟨S10000x4, u 2⟩] concatenates_S10000x16_S10000x16_S10000x4_S10000x36_d1),
    unary main_v34 main_v128 (Host.negf : (⟨S10000, .f32⟩ : BufTy).Contents (Elt F) → (⟨S10000, .f32⟩ : BufTy).Contents (Elt F)),
    unary main_v33 main_v129 (Host.negf : (⟨S10000, .f32⟩ : BufTy).Contents (Elt F) → (⟨S10000, .f32⟩ : BufTy).Contents (Elt F)),
    unary main_v34 main_v130 (Host.negf : (⟨S10000, .f32⟩ : BufTy).Contents (Elt F) → (⟨S10000, .f32⟩ : BufTy).Contents (Elt F)),
    unary main_v32 main_v131 (Host.negf : (⟨S10000, .f32⟩ : BufTy).Contents (Elt F) → (⟨S10000, .f32⟩ : BufTy).Contents (Elt F)),
    unary main_v33 main_v132 (Host.negf : (⟨S10000, .f32⟩ : BufTy).Contents (Elt F) → (⟨S10000, .f32⟩ : BufTy).Contents (Elt F)),
    unary main_v34 main_v133 (Host.negf : (⟨S10000, .f32⟩ : BufTy).Contents (Elt F) → (⟨S10000, .f32⟩ : BufTy).Contents (Elt F)),
    unary main_v32 main_v134 (Host.negf : (⟨S10000, .f32⟩ : BufTy).Contents (Elt F) → (⟨S10000, .f32⟩ : BufTy).Contents (Elt F)),
    unary main_v34 main_v135 (Host.negf : (⟨S10000, .f32⟩ : BufTy).Contents (Elt F) → (⟨S10000, .f32⟩ : BufTy).Contents (Elt F)),
    unary main_v33 main_v136 (broadcastInDim S10000x1 ![0] bcast_S10000_S10000x1_0 : (⟨S10000, .f32⟩ : BufTy).Contents (Elt F) → (⟨S10000x1, .f32⟩ : BufTy).Contents (Elt F)),
    unary main_v128 main_v137 (broadcastInDim S10000x1 ![0] bcast_S10000_S10000x1_0 : (⟨S10000, .f32⟩ : BufTy).Contents (Elt F) → (⟨S10000x1, .f32⟩ : BufTy).Contents (Elt F)),
    unary main_v47 main_v138 (broadcastInDim S10000x1 ![0] bcast_S10000_S10000x1_0 : (⟨S10000, .f32⟩ : BufTy).Contents (Elt F) → (⟨S10000x1, .f32⟩ : BufTy).Contents (Elt F)),
    unary main_v129 main_v139 (broadcastInDim S10000x1 ![0] bcast_S10000_S10000x1_0 : (⟨S10000, .f32⟩ : BufTy).Contents (Elt F) → (⟨S10000x1, .f32⟩ : BufTy).Contents (Elt F)),
    unary main_v34 main_v140 (broadcastInDim S10000x1 ![0] bcast_S10000_S10000x1_0 : (⟨S10000, .f32⟩ : BufTy).Contents (Elt F) → (⟨S10000x1, .f32⟩ : BufTy).Contents (Elt F)),
    unary main_v47 main_v141 (broadcastInDim S10000x1 ![0] bcast_S10000_S10000x1_0 : (⟨S10000, .f32⟩ : BufTy).Contents (Elt F) → (⟨S10000x1, .f32⟩ : BufTy).Contents (Elt F)),
    unary main_v130 main_v142 (broadcastInDim S10000x1 ![0] bcast_S10000_S10000x1_0 : (⟨S10000, .f32⟩ : BufTy).Contents (Elt F) → (⟨S10000x1, .f32⟩ : BufTy).Contents (Elt F)),
    unary main_v32 main_v143 (broadcastInDim S10000x1 ![0] bcast_S10000_S10000x1_0 : (⟨S10000, .f32⟩ : BufTy).Contents (Elt F) → (⟨S10000x1, .f32⟩ : BufTy).Contents (Elt F)),
    unary main_v47 main_v144 (broadcastInDim S10000x1 ![0] bcast_S10000_S10000x1_0 : (⟨S10000, .f32⟩ : BufTy).Contents (Elt F) → (⟨S10000x1, .f32⟩ : BufTy).Contents (Elt F)),
    unary main_v34 main_v145 (broadcastInDim S10000x1 ![0] bcast_S10000_S10000x1_0 : (⟨S10000, .f32⟩ : BufTy).Contents (Elt F) → (⟨S10000x1, .f32⟩ : BufTy).Contents (Elt F)),
    unary main_v131 main_v146 (broadcastInDim S10000x1 ![0] bcast_S10000_S10000x1_0 : (⟨S10000, .f32⟩ : BufTy).Contents (Elt F) → (⟨S10000x1, .f32⟩ : BufTy).Contents (Elt F)),
    unary main_v47 main_v147 (broadcastInDim S10000x1 ![0] bcast_S10000_S10000x1_0 : (⟨S10000, .f32⟩ : BufTy).Contents (Elt F) → (⟨S10000x1, .f32⟩ : BufTy).Contents (Elt F)),
    unary main_v47 main_v148 (broadcastInDim S10000x1 ![0] bcast_S10000_S10000x1_0 : (⟨S10000, .f32⟩ : BufTy).Contents (Elt F) → (⟨S10000x1, .f32⟩ : BufTy).Contents (Elt F)),
    unary main_v47 main_v149 (broadcastInDim S10000x1 ![0] bcast_S10000_S10000x1_0 : (⟨S10000, .f32⟩ : BufTy).Contents (Elt F) → (⟨S10000x1, .f32⟩ : BufTy).Contents (Elt F)),
    unary main_v47 main_v150 (broadcastInDim S10000x1 ![0] bcast_S10000_S10000x1_0 : (⟨S10000, .f32⟩ : BufTy).Contents (Elt F) → (⟨S10000x1, .f32⟩ : BufTy).Contents (Elt F)),
    unary main_v47 main_v151 (broadcastInDim S10000x1 ![0] bcast_S10000_S10000x1_0 : (⟨S10000, .f32⟩ : BufTy).Contents (Elt F) → (⟨S10000x1, .f32⟩ : BufTy).Contents (Elt F)),
    unary main_v47 main_v152 (broadcastInDim S10000x1 ![0] bcast_S10000_S10000x1_0 : (⟨S10000, .f32⟩ : BufTy).Contents (Elt F) → (⟨S10000x1, .f32⟩ : BufTy).Contents (Elt F)),
    unary main_v47 main_v153 (broadcastInDim S10000x1 ![0] bcast_S10000_S10000x1_0 : (⟨S10000, .f32⟩ : BufTy).Contents (Elt F) → (⟨S10000x1, .f32⟩ : BufTy).Contents (Elt F)),
    unary main_v132 main_v154 (broadcastInDim S10000x1 ![0] bcast_S10000_S10000x1_0 : (⟨S10000, .f32⟩ : BufTy).Contents (Elt F) → (⟨S10000x1, .f32⟩ : BufTy).Contents (Elt F)),
    unary main_v34 main_v155 (broadcastInDim S10000x1 ![0] bcast_S10000_S10000x1_0 : (⟨S10000, .f32⟩ : BufTy).Contents (Elt F) → (⟨S10000x1, .f32⟩ : BufTy).Contents (Elt F)),
    unary main_v47 main_v156 (broadcastInDim S10000x1 ![0] bcast_S10000_S10000x1_0 : (⟨S10000, .f32⟩ : BufTy).Contents (Elt F) → (⟨S10000x1, .f32⟩ : BufTy).Contents (Elt F)),
    unary main_v33 main_v157 (broadcastInDim S10000x1 ![0] bcast_S10000_S10000x1_0 : (⟨S10000, .f32⟩ : BufTy).Contents (Elt F) → (⟨S10000x1, .f32⟩ : BufTy).Contents (Elt F)),
    unary main_v133 main_v158 (broadcastInDim S10000x1 ![0] bcast_S10000_S10000x1_0 : (⟨S10000, .f32⟩ : BufTy).Contents (Elt F) → (⟨S10000x1, .f32⟩ : BufTy).Contents (Elt F)),
    unary main_v47 main_v159 (broadcastInDim S10000x1 ![0] bcast_S10000_S10000x1_0 : (⟨S10000, .f32⟩ : BufTy).Contents (Elt F) → (⟨S10000x1, .f32⟩ : BufTy).Contents (Elt F)),
    unary main_v34 main_v160 (broadcastInDim S10000x1 ![0] bcast_S10000_S10000x1_0 : (⟨S10000, .f32⟩ : BufTy).Contents (Elt F) → (⟨S10000x1, .f32⟩ : BufTy).Contents (Elt F)),
    unary main_v134 main_v161 (broadcastInDim S10000x1 ![0] bcast_S10000_S10000x1_0 : (⟨S10000, .f32⟩ : BufTy).Contents (Elt F) → (⟨S10000x1, .f32⟩ : BufTy).Contents (Elt F)),
    unary main_v47 main_v162 (broadcastInDim S10000x1 ![0] bcast_S10000_S10000x1_0 : (⟨S10000, .f32⟩ : BufTy).Contents (Elt F) → (⟨S10000x1, .f32⟩ : BufTy).Contents (Elt F)),
    unary main_v135 main_v163 (broadcastInDim S10000x1 ![0] bcast_S10000_S10000x1_0 : (⟨S10000, .f32⟩ : BufTy).Contents (Elt F) → (⟨S10000x1, .f32⟩ : BufTy).Contents (Elt F)),
    unary main_v32 main_v164 (broadcastInDim S10000x1 ![0] bcast_S10000_S10000x1_0 : (⟨S10000, .f32⟩ : BufTy).Contents (Elt F) → (⟨S10000x1, .f32⟩ : BufTy).Contents (Elt F)),
    unary main_v47 main_v165 (broadcastInDim S10000x1 ![0] bcast_S10000_S10000x1_0 : (⟨S10000, .f32⟩ : BufTy).Contents (Elt F) → (⟨S10000x1, .f32⟩ : BufTy).Contents (Elt F)),
    unary main_v47 main_v166 (broadcastInDim S10000x1 ![0] bcast_S10000_S10000x1_0 : (⟨S10000, .f32⟩ : BufTy).Contents (Elt F) → (⟨S10000x1, .f32⟩ : BufTy).Contents (Elt F)),
    unary main_v47 main_v167 (broadcastInDim S10000x1 ![0] bcast_S10000_S10000x1_0 : (⟨S10000, .f32⟩ : BufTy).Contents (Elt F) → (⟨S10000x1, .f32⟩ : BufTy).Contents (Elt F)),
    unary main_v47 main_v168 (broadcastInDim S10000x1 ![0] bcast_S10000_S10000x1_0 : (⟨S10000, .f32⟩ : BufTy).Contents (Elt F) → (⟨S10000x1, .f32⟩ : BufTy).Contents (Elt F)),
    unary main_v47 main_v169 (broadcastInDim S10000x1 ![0] bcast_S10000_S10000x1_0 : (⟨S10000, .f32⟩ : BufTy).Contents (Elt F) → (⟨S10000x1, .f32⟩ : BufTy).Contents (Elt F)),
    unary main_v47 main_v170 (broadcastInDim S10000x1 ![0] bcast_S10000_S10000x1_0 : (⟨S10000, .f32⟩ : BufTy).Contents (Elt F) → (⟨S10000x1, .f32⟩ : BufTy).Contents (Elt F)),
    unary main_v47 main_v171 (broadcastInDim S10000x1 ![0] bcast_S10000_S10000x1_0 : (⟨S10000, .f32⟩ : BufTy).Contents (Elt F) → (⟨S10000x1, .f32⟩ : BufTy).Contents (Elt F)),
    nary ![main_v136, main_v137, main_v138, main_v139, main_v140, main_v141, main_v142, main_v143, main_v144, main_v145, main_v146, main_v147, main_v148, main_v149, main_v150, main_v151] main_v172 (fun u => concatenate S10000x16 1 [⟨S10000x1, u 0⟩, ⟨S10000x1, u 1⟩, ⟨S10000x1, u 2⟩, ⟨S10000x1, u 3⟩, ⟨S10000x1, u 4⟩, ⟨S10000x1, u 5⟩, ⟨S10000x1, u 6⟩, ⟨S10000x1, u 7⟩, ⟨S10000x1, u 8⟩, ⟨S10000x1, u 9⟩, ⟨S10000x1, u 10⟩, ⟨S10000x1, u 11⟩, ⟨S10000x1, u 12⟩, ⟨S10000x1, u 13⟩, ⟨S10000x1, u 14⟩, ⟨S10000x1, u 15⟩] concatenates_S10000x1_S10000x1_S10000x1_S10000x1_S10000x1_S10000x1_S10000x1_S10000x1_S10000x1_S10000x1_S10000x1_S10000x1_S10000x1_S10000x1_S10000x1_S10000x1_S10000x16_d1),
    nary ![main_v152, main_v153, main_v154, main_v155, main_v156, main_v157, main_v158, main_v159, main_v160, main_v161, main_v162, main_v163, main_v164, main_v165, main_v166, main_v167] main_v173 (fun u => concatenate S10000x16 1 [⟨S10000x1, u 0⟩, ⟨S10000x1, u 1⟩, ⟨S10000x1, u 2⟩, ⟨S10000x1, u 3⟩, ⟨S10000x1, u 4⟩, ⟨S10000x1, u 5⟩, ⟨S10000x1, u 6⟩, ⟨S10000x1, u 7⟩, ⟨S10000x1, u 8⟩, ⟨S10000x1, u 9⟩, ⟨S10000x1, u 10⟩, ⟨S10000x1, u 11⟩, ⟨S10000x1, u 12⟩, ⟨S10000x1, u 13⟩, ⟨S10000x1, u 14⟩, ⟨S10000x1, u 15⟩] concatenates_S10000x1_S10000x1_S10000x1_S10000x1_S10000x1_S10000x1_S10000x1_S10000x1_S10000x1_S10000x1_S10000x1_S10000x1_S10000x1_S10000x1_S10000x1_S10000x1_S10000x16_d1),
    nary ![main_v168, main_v169, main_v170, main_v171] main_v174 (fun u => concatenate S10000x4 1 [⟨S10000x1, u 0⟩, ⟨S10000x1, u 1⟩, ⟨S10000x1, u 2⟩, ⟨S10000x1, u 3⟩] concatenates_S10000x1_S10000x1_S10000x1_S10000x1_S10000x4_d1),
    nary ![main_v172, main_v173, main_v174] main_v175 (fun u => concatenate S10000x36 1 [⟨S10000x16, u 0⟩, ⟨S10000x16, u 1⟩, ⟨S10000x4, u 2⟩] concatenates_S10000x16_S10000x16_S10000x4_S10000x36_d1),
    unary main_v22 main_v176 (broadcastInDim S10000x1 ![0] bcast_S10000_S10000x1_0 : (⟨S10000, .f32⟩ : BufTy).Contents (Elt F) → (⟨S10000x1, .f32⟩ : BufTy).Contents (Elt F)),
    unary main_v176 main_v177 (broadcastInDim S10000x36 ![0, 1] bcast_S10000x1_S10000x36_0_1 : (⟨S10000x1, .f32⟩ : BufTy).Contents (Elt F) → (⟨S10000x36, .f32⟩ : BufTy).Contents (Elt F)),
    binary main_v127 main_v177 main_v178 (mulf : (⟨S10000x36, .f32⟩ : BufTy).Contents (Elt F) → (⟨S10000x36, .f32⟩ : BufTy).Contents (Elt F) → (⟨S10000x36, .f32⟩ : BufTy).Contents (Elt F)),
    unary main_v24 main_v179 (broadcastInDim S10000x1 ![0] bcast_S10000_S10000x1_0 : (⟨S10000, .f32⟩ : BufTy).Contents (Elt F) → (⟨S10000x1, .f32⟩ : BufTy).Contents (Elt F)),
    unary main_v179 main_v180 (broadcastInDim S10000x36 ![0, 1] bcast_S10000x1_S10000x36_0_1 : (⟨S10000x1, .f32⟩ : BufTy).Contents (Elt F) → (⟨S10000x36, .f32⟩ : BufTy).Contents (Elt F)),
    binary main_v175 main_v180 main_v181 (mulf : (⟨S10000x36, .f32⟩ : BufTy).Contents (Elt F) → (⟨S10000x36, .f32⟩ : BufTy).Contents (Elt F) → (⟨S10000x36, .f32⟩ : BufTy).Contents (Elt F)),
    binary main_v178 main_v181 main_v182 (addf : (⟨S10000x36, .f32⟩ : BufTy).Contents (Elt F) → (⟨S10000x36, .f32⟩ : BufTy).Contents (Elt F) → (⟨S10000x36, .f32⟩ : BufTy).Contents (Elt F)),
    reshape main_v182 main_v183 rfl shapeCasts_S10000x36_S10000x6x6 ]

set_option maxHeartbeats 40000000 in
abbrev opsC : List (HloOp τ sig (Elt F)) :=
  [ nullary main_v184 (iotaInDim S3 32 0),
    unary main_arg1 main_v185 (broadcastInDim S10000x1 ![0] bcast_S10000_S10000x1_0 : (⟨S10000, .i32⟩ : BufTy).Contents (Elt F) → (⟨S10000x1, .i32⟩ : BufTy).Contents (Elt F)),
    nullary main_c_24 (constantI S_ 32 3#32),
    unary main_c_24 main_v186 (broadcastInDim S10000x1 ![] bcast_S_S10000x1 : (⟨S_, .i32⟩ : BufTy).Contents (Elt F) → (⟨S10000x1, .i32⟩ : BufTy).Contents (Elt F)),
    binary main_v185 main_v186 main_v187 (muli : (⟨S10000x1, .i32⟩ : BufTy).Contents (Elt F) → (⟨S10000x1, .i32⟩ : BufTy).Contents (Elt F) → (⟨S10000x1, .i32⟩ : BufTy).Contents (Elt F)),
    unary main_v184 main_v188 (broadcastInDim S1x3 ![1] bcast_S3_S1x3_1 : (⟨S3, .i32⟩ : BufTy).Contents (Elt F) → (⟨S1x3, .i32⟩ : BufTy).Contents (Elt F)),
    unary main_v187 main_v189 (broadcastInDim S10000x3 ![0, 1] bcast_S10000x1_S10000x3_0_1 : (⟨S10000x1, .i32⟩ : BufTy).Contents (Elt F) → (⟨S10000x3, .i32⟩ : BufTy).Contents (Elt F)),
    unary main_v188 main_v190 (broadcastInDim S10000x3 ![0, 1] bcast_S1x3_S10000x3_0_1 : (⟨S1x3, .i32⟩ : BufTy).Contents (Elt F) → (⟨S10000x3, .i32⟩ : BufTy).Contents (Elt F)),
    binary main_v189 main_v190 main_v191 (addi : (⟨S10000x3, .i32⟩ : BufTy).Contents (Elt F) → (⟨S10000x3, .i32⟩ : BufTy).Contents (Elt F) → (⟨S10000x3, .i32⟩ : BufTy).Contents (Elt F)),
    unary main_arg2 main_v192 (broadcastInDim S10000x1 ![0] bcast_S10000_S10000x1_0 : (⟨S10000, .i32⟩ : BufTy).Contents (Elt F) → (⟨S10000x1, .i32⟩ : BufTy).Contents (Elt F)),
    nullary main_c_25 (constantI S_ 32 3#32),
    unary main_c_25 main_v193 (broadcastInDim S10000x1 ![] bcast_S_S10000x1 : (⟨S_, .i32⟩ : BufTy).Contents (Elt F) → (⟨S10000x1, .i32⟩ : BufTy).Contents (Elt F)),
    binary main_v192 main_v193 main_v194 (muli : (⟨S10000x1, .i32⟩ : BufTy).Contents (Elt F) → (⟨S10000x1, .i32⟩ : BufTy).Contents (Elt F) → (⟨S10000x1, .i32⟩ : BufTy).Contents (Elt F)),
    unary main_v184 main_v195 (broadcastInDim S1x3 ![1] bcast_S3_S1x3_1 : (⟨S3, .i32⟩ : BufTy).Contents (Elt F) → (⟨S1x3, .i32⟩ : BufTy).Contents (Elt F)),
    unary main_v194 main_v196 (broadcastInDim S10000x3 ![0, 1] bcast_S10000x1_S10000x3_0_1 : (⟨S10000x1, .i32⟩ : BufTy).Contents (Elt F) → (⟨S10000x3, .i32⟩ : BufTy).Contents (Elt F)),
    unary main_v195 main_v197 (broadcastInDim S10000x3 ![0, 1] bcast_S1x3_S10000x3_0_1 : (⟨S1x3, .i32⟩ : BufTy).Contents (Elt F) → (⟨S10000x3, .i32⟩ : BufTy).Contents (Elt F)),
    binary main_v196 main_v197 main_v198 (addi : (⟨S10000x3, .i32⟩ : BufTy).Contents (Elt F) → (⟨S10000x3, .i32⟩ : BufTy).Contents (Elt F) → (⟨S10000x3, .i32⟩ : BufTy).Contents (Elt F)),
    nullary main_cst_26 (constant S_ .f32 0x00000000#32),
    unary main_cst_26 main_v199 (broadcastInDim S7500x7500 ![] bcast_S_S7500x7500 : (⟨S_, .f32⟩ : BufTy).Contents (Elt F) → (⟨S7500x7500, .f32⟩ : BufTy).Contents (Elt F)),
    unary main_v191 main_v200 (broadcastInDim S10000x3x1 ![0, 1] bcast_S10000x3_S10000x3x1_0_1 : (⟨S10000x3, .i32⟩ : BufTy).Contents (Elt F) → (⟨S10000x3x1, .i32⟩ : BufTy).Contents (Elt F)),
    unary main_v191 main_v201 (broadcastInDim S10000x1x3 ![0, 2] bcast_S10000x3_S10000x1x3_0_2 : (⟨S10000x3, .i32⟩ : BufTy).Contents (Elt F) → (⟨S10000x1x3, .i32⟩ : BufTy).Contents (Elt F)),
    unary main_v183 main_v202 ((extractStridedSlice S10000x3x3 ![0, 0, 0] · slices_S10000x6x6_S10000x3x3_0_0_0) : (⟨S10000x6x6, .f32⟩ : BufTy).Contents (Elt F) → (⟨S10000x3x3, .f32⟩ : BufTy).Contents (Elt F)),
    nullary main_c_27 (constantI S_ 32 0#32),
    unary main_c_27 main_v203 (broadcastInDim S10000x3x1 ![] bcast_S_S10000x3x1 : (⟨S_, .i32⟩ : BufTy).Contents (Elt F) → (⟨S10000x3x1, .i32⟩ : BufTy).Contents (Elt F)),
    binary main_v200 main_v203 main_v204 (cmpi .slt : (⟨S10000x3x1, .i32⟩ : BufTy).Contents (Elt F) → (⟨S10000x3x1, .i32⟩ : BufTy).Contents (Elt F) → (⟨S10000x3x1, .i1⟩ : BufTy).Contents (Elt F)),
    nullary main_c_28 (constantI S_ 32 7500#32),
    unary main_c_28 main_v205 (broadcastInDim S10000x3x1 ![] bcast_S_S10000x3x1 : (⟨S_, .i32⟩ : BufTy).Contents (Elt F) → (⟨S10000x3x1, .i32⟩ : BufTy).Contents (Elt F)),
    binary main_v200 main_v205 main_v206 (addi : (⟨S10000x3x1, .i32⟩ : BufTy).Contents (Elt F) → (⟨S10000x3x1, .i32⟩ : BufTy).Contents (Elt F) → (⟨S10000x3x1, .i32⟩ : BufTy).Contents (Elt F)),
    ternary main_v204 main_v206 main_v200 main_v207 (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)),
    nullary main_c_29 (constantI S_ 32 0#32),
    unary main_c_29 main_v208 (broadcastInDim S10000x1x3 ![] bcast_S_S10000x1x3 : (⟨S_, .i32⟩ : BufTy).Contents (Elt F) → (⟨S10000x1x3, .i32⟩ : BufTy).Contents (Elt F)),
    binary main_v201 main_v208 main_v209 (cmpi .slt : (⟨S10000x1x3, .i32⟩ : BufTy).Contents (Elt F) → (⟨S10000x1x3, .i32⟩ : BufTy).Contents (Elt F) → (⟨S10000x1x3, .i1⟩ : BufTy).Contents (Elt F)),
    nullary main_c_30 (constantI S_ 32 7500#32),
    unary main_c_30 main_v210 (broadcastInDim S10000x1x3 ![] bcast_S_S10000x1x3 : (⟨S_, .i32⟩ : BufTy).Contents (Elt F) → (⟨S10000x1x3, .i32⟩ : BufTy).Contents (Elt F)),
    binary main_v201 main_v210 main_v211 (addi : (⟨S10000x1x3, .i32⟩ : BufTy).Contents (Elt F) → (⟨S10000x1x3, .i32⟩ : BufTy).Contents (Elt F) → (⟨S10000x1x3, .i32⟩ : BufTy).Contents (Elt F)),
    ternary main_v209 main_v211 main_v201 main_v212 (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)),
    unary main_v207 main_v213 (broadcastInDim S10000x3x3 ![0, 1, 2] bcast_S10000x3x1_S10000x3x3_0_1_2 : (⟨S10000x3x1, .i32⟩ : BufTy).Contents (Elt F) → (⟨S10000x3x3, .i32⟩ : BufTy).Contents (Elt F)),
    unary main_v212 main_v214 (broadcastInDim S10000x3x3 ![0, 1, 2] bcast_S10000x1x3_S10000x3x3_0_1_2 : (⟨S10000x1x3, .i32⟩ : BufTy).Contents (Elt F) → (⟨S10000x3x3, .i32⟩ : BufTy).Contents (Elt F)),
    unary main_v213 main_v215 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    unary main_v214 main_v216 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    binary main_v215 main_v216 main_v217 ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)),
    ternary main_v199 main_v217 main_v202 main_v218 ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)),
    unary main_v191 main_v219 (broadcastInDim S10000x3x1 ![0, 1] bcast_S10000x3_S10000x3x1_0_1 : (⟨S10000x3, .i32⟩ : BufTy).Contents (Elt F) → (⟨S10000x3x1, .i32⟩ : BufTy).Contents (Elt F)),
    unary main_v198 main_v220 (broadcastInDim S10000x1x3 ![0, 2] bcast_S10000x3_S10000x1x3_0_2 : (⟨S10000x3, .i32⟩ : BufTy).Contents (Elt F) → (⟨S10000x1x3, .i32⟩ : BufTy).Contents (Elt F)),
    unary main_v183 main_v221 ((extractStridedSlice S10000x3x3 ![0, 0, 3] · slices_S10000x6x6_S10000x3x3_0_0_3) : (⟨S10000x6x6, .f32⟩ : BufTy).Contents (Elt F) → (⟨S10000x3x3, .f32⟩ : BufTy).Contents (Elt F)),
    nullary main_c_31 (constantI S_ 32 0#32),
    unary main_c_31 main_v222 (broadcastInDim S10000x3x1 ![] bcast_S_S10000x3x1 : (⟨S_, .i32⟩ : BufTy).Contents (Elt F) → (⟨S10000x3x1, .i32⟩ : BufTy).Contents (Elt F)),
    binary main_v219 main_v222 main_v223 (cmpi .slt : (⟨S10000x3x1, .i32⟩ : BufTy).Contents (Elt F) → (⟨S10000x3x1, .i32⟩ : BufTy).Contents (Elt F) → (⟨S10000x3x1, .i1⟩ : BufTy).Contents (Elt F)),
    nullary main_c_32 (constantI S_ 32 7500#32),
    unary main_c_32 main_v224 (broadcastInDim S10000x3x1 ![] bcast_S_S10000x3x1 : (⟨S_, .i32⟩ : BufTy).Contents (Elt F) → (⟨S10000x3x1, .i32⟩ : BufTy).Contents (Elt F)),
    binary main_v219 main_v224 main_v225 (addi : (⟨S10000x3x1, .i32⟩ : BufTy).Contents (Elt F) → (⟨S10000x3x1, .i32⟩ : BufTy).Contents (Elt F) → (⟨S10000x3x1, .i32⟩ : BufTy).Contents (Elt F)),
    ternary main_v223 main_v225 main_v219 main_v226 (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)),
    nullary main_c_33 (constantI S_ 32 0#32),
    unary main_c_33 main_v227 (broadcastInDim S10000x1x3 ![] bcast_S_S10000x1x3 : (⟨S_, .i32⟩ : BufTy).Contents (Elt F) → (⟨S10000x1x3, .i32⟩ : BufTy).Contents (Elt F)),
    binary main_v220 main_v227 main_v228 (cmpi .slt : (⟨S10000x1x3, .i32⟩ : BufTy).Contents (Elt F) → (⟨S10000x1x3, .i32⟩ : BufTy).Contents (Elt F) → (⟨S10000x1x3, .i1⟩ : BufTy).Contents (Elt F)),
    nullary main_c_34 (constantI S_ 32 7500#32),
    unary main_c_34 main_v229 (broadcastInDim S10000x1x3 ![] bcast_S_S10000x1x3 : (⟨S_, .i32⟩ : BufTy).Contents (Elt F) → (⟨S10000x1x3, .i32⟩ : BufTy).Contents (Elt F)),
    binary main_v220 main_v229 main_v230 (addi : (⟨S10000x1x3, .i32⟩ : BufTy).Contents (Elt F) → (⟨S10000x1x3, .i32⟩ : BufTy).Contents (Elt F) → (⟨S10000x1x3, .i32⟩ : BufTy).Contents (Elt F)),
    ternary main_v228 main_v230 main_v220 main_v231 (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)),
    unary main_v226 main_v232 (broadcastInDim S10000x3x3 ![0, 1, 2] bcast_S10000x3x1_S10000x3x3_0_1_2 : (⟨S10000x3x1, .i32⟩ : BufTy).Contents (Elt F) → (⟨S10000x3x3, .i32⟩ : BufTy).Contents (Elt F)),
    unary main_v231 main_v233 (broadcastInDim S10000x3x3 ![0, 1, 2] bcast_S10000x1x3_S10000x3x3_0_1_2 : (⟨S10000x1x3, .i32⟩ : BufTy).Contents (Elt F) → (⟨S10000x3x3, .i32⟩ : BufTy).Contents (Elt F)),
    unary main_v232 main_v234 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    unary main_v233 main_v235 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    binary main_v234 main_v235 main_v236 ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)),
    ternary main_v218 main_v236 main_v221 main_v237 ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)),
    unary main_v198 main_v238 (broadcastInDim S10000x3x1 ![0, 1] bcast_S10000x3_S10000x3x1_0_1 : (⟨S10000x3, .i32⟩ : BufTy).Contents (Elt F) → (⟨S10000x3x1, .i32⟩ : BufTy).Contents (Elt F)),
    unary main_v191 main_v239 (broadcastInDim S10000x1x3 ![0, 2] bcast_S10000x3_S10000x1x3_0_2 : (⟨S10000x3, .i32⟩ : BufTy).Contents (Elt F) → (⟨S10000x1x3, .i32⟩ : BufTy).Contents (Elt F)),
    unary main_v183 main_v240 ((extractStridedSlice S10000x3x3 ![0, 3, 0] · slices_S10000x6x6_S10000x3x3_0_3_0) : (⟨S10000x6x6, .f32⟩ : BufTy).Contents (Elt F) → (⟨S10000x3x3, .f32⟩ : BufTy).Contents (Elt F)),
    nullary main_c_35 (constantI S_ 32 0#32),
    unary main_c_35 main_v241 (broadcastInDim S10000x3x1 ![] bcast_S_S10000x3x1 : (⟨S_, .i32⟩ : BufTy).Contents (Elt F) → (⟨S10000x3x1, .i32⟩ : BufTy).Contents (Elt F)),
    binary main_v238 main_v241 main_v242 (cmpi .slt : (⟨S10000x3x1, .i32⟩ : BufTy).Contents (Elt F) → (⟨S10000x3x1, .i32⟩ : BufTy).Contents (Elt F) → (⟨S10000x3x1, .i1⟩ : BufTy).Contents (Elt F)),
    nullary main_c_36 (constantI S_ 32 7500#32),
    unary main_c_36 main_v243 (broadcastInDim S10000x3x1 ![] bcast_S_S10000x3x1 : (⟨S_, .i32⟩ : BufTy).Contents (Elt F) → (⟨S10000x3x1, .i32⟩ : BufTy).Contents (Elt F)),
    binary main_v238 main_v243 main_v244 (addi : (⟨S10000x3x1, .i32⟩ : BufTy).Contents (Elt F) → (⟨S10000x3x1, .i32⟩ : BufTy).Contents (Elt F) → (⟨S10000x3x1, .i32⟩ : BufTy).Contents (Elt F)),
    ternary main_v242 main_v244 main_v238 main_v245 (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)),
    nullary main_c_37 (constantI S_ 32 0#32),
    unary main_c_37 main_v246 (broadcastInDim S10000x1x3 ![] bcast_S_S10000x1x3 : (⟨S_, .i32⟩ : BufTy).Contents (Elt F) → (⟨S10000x1x3, .i32⟩ : BufTy).Contents (Elt F)),
    binary main_v239 main_v246 main_v247 (cmpi .slt : (⟨S10000x1x3, .i32⟩ : BufTy).Contents (Elt F) → (⟨S10000x1x3, .i32⟩ : BufTy).Contents (Elt F) → (⟨S10000x1x3, .i1⟩ : BufTy).Contents (Elt F)),
    nullary main_c_38 (constantI S_ 32 7500#32),
    unary main_c_38 main_v248 (broadcastInDim S10000x1x3 ![] bcast_S_S10000x1x3 : (⟨S_, .i32⟩ : BufTy).Contents (Elt F) → (⟨S10000x1x3, .i32⟩ : BufTy).Contents (Elt F)),
    binary main_v239 main_v248 main_v249 (addi : (⟨S10000x1x3, .i32⟩ : BufTy).Contents (Elt F) → (⟨S10000x1x3, .i32⟩ : BufTy).Contents (Elt F) → (⟨S10000x1x3, .i32⟩ : BufTy).Contents (Elt F)),
    ternary main_v247 main_v249 main_v239 main_v250 (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)),
    unary main_v245 main_v251 (broadcastInDim S10000x3x3 ![0, 1, 2] bcast_S10000x3x1_S10000x3x3_0_1_2 : (⟨S10000x3x1, .i32⟩ : BufTy).Contents (Elt F) → (⟨S10000x3x3, .i32⟩ : BufTy).Contents (Elt F)),
    unary main_v250 main_v252 (broadcastInDim S10000x3x3 ![0, 1, 2] bcast_S10000x1x3_S10000x3x3_0_1_2 : (⟨S10000x1x3, .i32⟩ : BufTy).Contents (Elt F) → (⟨S10000x3x3, .i32⟩ : BufTy).Contents (Elt F)),
    unary main_v251 main_v253 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    unary main_v252 main_v254 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    binary main_v253 main_v254 main_v255 ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)),
    ternary main_v237 main_v255 main_v240 main_v256 ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)),
    unary main_v198 main_v257 (broadcastInDim S10000x3x1 ![0, 1] bcast_S10000x3_S10000x3x1_0_1 : (⟨S10000x3, .i32⟩ : BufTy).Contents (Elt F) → (⟨S10000x3x1, .i32⟩ : BufTy).Contents (Elt F)),
    unary main_v198 main_v258 (broadcastInDim S10000x1x3 ![0, 2] bcast_S10000x3_S10000x1x3_0_2 : (⟨S10000x3, .i32⟩ : BufTy).Contents (Elt F) → (⟨S10000x1x3, .i32⟩ : BufTy).Contents (Elt F)),
    unary main_v183 main_v259 ((extractStridedSlice S10000x3x3 ![0, 3, 3] · slices_S10000x6x6_S10000x3x3_0_3_3) : (⟨S10000x6x6, .f32⟩ : BufTy).Contents (Elt F) → (⟨S10000x3x3, .f32⟩ : BufTy).Contents (Elt F)),
    nullary main_c_39 (constantI S_ 32 0#32),
    unary main_c_39 main_v260 (broadcastInDim S10000x3x1 ![] bcast_S_S10000x3x1 : (⟨S_, .i32⟩ : BufTy).Contents (Elt F) → (⟨S10000x3x1, .i32⟩ : BufTy).Contents (Elt F)),
    binary main_v257 main_v260 main_v261 (cmpi .slt : (⟨S10000x3x1, .i32⟩ : BufTy).Contents (Elt F) → (⟨S10000x3x1, .i32⟩ : BufTy).Contents (Elt F) → (⟨S10000x3x1, .i1⟩ : BufTy).Contents (Elt F)),
    nullary main_c_40 (constantI S_ 32 7500#32),
    unary main_c_40 main_v262 (broadcastInDim S10000x3x1 ![] bcast_S_S10000x3x1 : (⟨S_, .i32⟩ : BufTy).Contents (Elt F) → (⟨S10000x3x1, .i32⟩ : BufTy).Contents (Elt F)),
    binary main_v257 main_v262 main_v263 (addi : (⟨S10000x3x1, .i32⟩ : BufTy).Contents (Elt F) → (⟨S10000x3x1, .i32⟩ : BufTy).Contents (Elt F) → (⟨S10000x3x1, .i32⟩ : BufTy).Contents (Elt F)),
    ternary main_v261 main_v263 main_v257 main_v264 (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)),
    nullary main_c_41 (constantI S_ 32 0#32),
    unary main_c_41 main_v265 (broadcastInDim S10000x1x3 ![] bcast_S_S10000x1x3 : (⟨S_, .i32⟩ : BufTy).Contents (Elt F) → (⟨S10000x1x3, .i32⟩ : BufTy).Contents (Elt F)),
    binary main_v258 main_v265 main_v266 (cmpi .slt : (⟨S10000x1x3, .i32⟩ : BufTy).Contents (Elt F) → (⟨S10000x1x3, .i32⟩ : BufTy).Contents (Elt F) → (⟨S10000x1x3, .i1⟩ : BufTy).Contents (Elt F)),
    nullary main_c_42 (constantI S_ 32 7500#32),
    unary main_c_42 main_v267 (broadcastInDim S10000x1x3 ![] bcast_S_S10000x1x3 : (⟨S_, .i32⟩ : BufTy).Contents (Elt F) → (⟨S10000x1x3, .i32⟩ : BufTy).Contents (Elt F)),
    binary main_v258 main_v267 main_v268 (addi : (⟨S10000x1x3, .i32⟩ : BufTy).Contents (Elt F) → (⟨S10000x1x3, .i32⟩ : BufTy).Contents (Elt F) → (⟨S10000x1x3, .i32⟩ : BufTy).Contents (Elt F)),
    ternary main_v266 main_v268 main_v258 main_v269 (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)),
    unary main_v264 main_v270 (broadcastInDim S10000x3x3 ![0, 1, 2] bcast_S10000x3x1_S10000x3x3_0_1_2 : (⟨S10000x3x1, .i32⟩ : BufTy).Contents (Elt F) → (⟨S10000x3x3, .i32⟩ : BufTy).Contents (Elt F)),
    unary main_v269 main_v271 (broadcastInDim S10000x3x3 ![0, 1, 2] bcast_S10000x1x3_S10000x3x3_0_1_2 : (⟨S10000x1x3, .i32⟩ : BufTy).Contents (Elt F) → (⟨S10000x3x3, .i32⟩ : BufTy).Contents (Elt F)),
    unary main_v270 main_v272 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    unary main_v271 main_v273 (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)),
    binary main_v272 main_v273 main_v274 ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)),
    ternary main_v256 main_v274 main_v259 main_v275 ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)) ]

set_option maxRecDepth 8192 in
set_option maxHeartbeats 40000000 in
/-- The line is the three stretches in order. -/
theorem ops_split : (ops : List (HloOp τ sig (Elt F))) = opsA ++ opsB ++ opsC := rfl

/-! ## Each stretch as a pure function -/

/-- The difference of the table's rows gathered at the two index vectors (each index first wrapped into the
    table's range): the reference's first stretch, in the program's order. -/
def deltaR (a0 : (⟨S2500x2, .f32⟩ : BufTy).Contents (Elt F)) (a1 a2 : (⟨S10000, .i32⟩ : BufTy).Contents (Elt F)) :
    (⟨S10000x2, .f32⟩ : BufTy).Contents (Elt F) :=
  have c_ : main_c.ty.Contents (Elt F) := constantI S_ 32 0#32
  have v0 : (⟨S10000, .i32⟩ : BufTy).Contents (Elt F) := (broadcastInDim S10000 ![] bcast_S_S10000 : (⟨S_, .i32⟩ : BufTy).Contents (Elt F) → (⟨S10000, .i32⟩ : BufTy).Contents (Elt F)) c_
  have v1 : (⟨S10000, .i1⟩ : BufTy).Contents (Elt F) := (cmpi .slt : (⟨S10000, .i32⟩ : BufTy).Contents (Elt F) → (⟨S10000, .i32⟩ : BufTy).Contents (Elt F) → (⟨S10000, .i1⟩ : BufTy).Contents (Elt F)) a1 v0
  have c_0 : main_c_0.ty.Contents (Elt F) := constantI S_ 32 2500#32
  have v2 : (⟨S10000, .i32⟩ : BufTy).Contents (Elt F) := (broadcastInDim S10000 ![] bcast_S_S10000 : (⟨S_, .i32⟩ : BufTy).Contents (Elt F) → (⟨S10000, .i32⟩ : BufTy).Contents (Elt F)) c_0
  have v3 : (⟨S10000, .i32⟩ : BufTy).Contents (Elt F) := (addi : (⟨S10000, .i32⟩ : BufTy).Contents (Elt F) → (⟨S10000, .i32⟩ : BufTy).Contents (Elt F) → (⟨S10000, .i32⟩ : BufTy).Contents (Elt F)) a1 v2
  have v4 : (⟨S10000, .i32⟩ : BufTy).Contents (Elt F) := (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)) v1 v3 a1
  have v5 : (⟨S10000x1, .i32⟩ : BufTy).Contents (Elt F) := (broadcastInDim S10000x1 ![0] bcast_S10000_S10000x1_0 : (⟨S10000, .i32⟩ : BufTy).Contents (Elt F) → (⟨S10000x1, .i32⟩ : BufTy).Contents (Elt F)) v4
  have v6 : (⟨S10000x2, .f32⟩ : BufTy).Contents (Elt F) := ((fun x i => Host.gather gather_S2500x2_S10000x1_S10000x2_1_0_n_n_0_1_12 x i) : (⟨S2500x2, .f32⟩ : BufTy).Contents (Elt F) → (⟨S10000x1, .i32⟩ : BufTy).Contents (Elt F) → (⟨S10000x2, .f32⟩ : BufTy).Contents (Elt F)) a0 v5
  have c_1 : main_c_1.ty.Contents (Elt F) := constantI S_ 32 0#32
  have v7 : (⟨S10000, .i32⟩ : BufTy).Contents (Elt F) := (broadcastInDim S10000 ![] bcast_S_S10000 : (⟨S_, .i32⟩ : BufTy).Contents (Elt F) → (⟨S10000, .i32⟩ : BufTy).Contents (Elt F)) c_1
  have v8 : (⟨S10000, .i1⟩ : BufTy).Contents (Elt F) := (cmpi .slt : (⟨S10000, .i32⟩ : BufTy).Contents (Elt F) → (⟨S10000, .i32⟩ : BufTy).Contents (Elt F) → (⟨S10000, .i1⟩ : BufTy).Contents (Elt F)) a2 v7
  have c_2 : main_c_2.ty.Contents (Elt F) := constantI S_ 32 2500#32
  have v9 : (⟨S10000, .i32⟩ : BufTy).Contents (Elt F) := (broadcastInDim S10000 ![] bcast_S_S10000 : (⟨S_, .i32⟩ : BufTy).Contents (Elt F) → (⟨S10000, .i32⟩ : BufTy).Contents (Elt F)) c_2
  have v10 : (⟨S10000, .i32⟩ : BufTy).Contents (Elt F) := (addi : (⟨S10000, .i32⟩ : BufTy).Contents (Elt F) → (⟨S10000, .i32⟩ : BufTy).Contents (Elt F) → (⟨S10000, .i32⟩ : BufTy).Contents (Elt F)) a2 v9
  have v11 : (⟨S10000, .i32⟩ : BufTy).Contents (Elt F) := (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)) v8 v10 a2
  have v12 : (⟨S10000x1, .i32⟩ : BufTy).Contents (Elt F) := (broadcastInDim S10000x1 ![0] bcast_S10000_S10000x1_0 : (⟨S10000, .i32⟩ : BufTy).Contents (Elt F) → (⟨S10000x1, .i32⟩ : BufTy).Contents (Elt F)) v11
  have v13 : (⟨S10000x2, .f32⟩ : BufTy).Contents (Elt F) := ((fun x i => Host.gather gather_S2500x2_S10000x1_S10000x2_1_0_n_n_0_1_12 x i) : (⟨S2500x2, .f32⟩ : BufTy).Contents (Elt F) → (⟨S10000x1, .i32⟩ : BufTy).Contents (Elt F) → (⟨S10000x2, .f32⟩ : BufTy).Contents (Elt F)) a0 v12
  have v14 : (⟨S10000x2, .f32⟩ : BufTy).Contents (Elt F) := (subf : (⟨S10000x2, .f32⟩ : BufTy).Contents (Elt F) → (⟨S10000x2, .f32⟩ : BufTy).Contents (Elt F) → (⟨S10000x2, .f32⟩ : BufTy).Contents (Elt F)) v6 v13
  v14

/-- The 10000 blocks of 6 × 6 from the coordinate differences and the two per-element parameter vectors: the
    reference's middle stretch (the length of each difference, the direction cosines, the 36 entries of each
    block as sums of products, joined and regrouped), in the program's order. -/
def kmatR (d : (⟨S10000x2, .f32⟩ : BufTy).Contents (Elt F)) (a3 a4 : (⟨S10000, .f32⟩ : BufTy).Contents (Elt F)) :
    (⟨S10000x6x6, .f32⟩ : BufTy).Contents (Elt F) :=
  have call0_v0 : (⟨S10000x2, .f32⟩ : BufTy).Contents (Elt F) := (mulf : (⟨S10000x2, .f32⟩ : BufTy).Contents (Elt F) → (⟨S10000x2, .f32⟩ : BufTy).Contents (Elt F) → (⟨S10000x2, .f32⟩ : BufTy).Contents (Elt F)) d d
  have call0_cst : (⟨S_, .f32⟩ : BufTy).Contents (Elt F) := constant S_ .f32 0x00000000#32
  have call0_v1 : (⟨S10000, .f32⟩ : BufTy).Contents (Elt F) := ((fun x v => Host.reduceAdd x v reducesTo_S10000x2_S10000_d1 h_S_) : (⟨S10000x2, .f32⟩ : BufTy).Contents (Elt F) → (⟨S_, .f32⟩ : BufTy).Contents (Elt F) → (⟨S10000, .f32⟩ : BufTy).Contents (Elt F)) call0_v0 call0_cst
  have v15 : (⟨S10000, .f32⟩ : BufTy).Contents (Elt F) := (Host.sqrt : (⟨S10000, .f32⟩ : BufTy).Contents (Elt F) → (⟨S10000, .f32⟩ : BufTy).Contents (Elt F)) call0_v1
  have v16 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) a4 a4
  have cst : main_cst.ty.Contents (Elt F) := constant S_ .f32 0x41400000#32
  have v17 : (⟨S10000, .f32⟩ : BufTy).Contents (Elt F) := (broadcastInDim S10000 ![] bcast_S_S10000 : (⟨S_, .f32⟩ : BufTy).Contents (Elt F) → (⟨S10000, .f32⟩ : BufTy).Contents (Elt F)) cst
  have v18 : (⟨S10000, .f32⟩ : BufTy).Contents (Elt F) := (Host.divf : (⟨S10000, .f32⟩ : BufTy).Contents (Elt F) → (⟨S10000, .f32⟩ : BufTy).Contents (Elt F) → (⟨S10000, .f32⟩ : BufTy).Contents (Elt F)) v16 v17
  have v19 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) a3 v18
  have v20 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v15 v15
  have v21 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v20 v15
  have v22 : (⟨S10000, .f32⟩ : BufTy).Contents (Elt F) := (Host.divf : (⟨S10000, .f32⟩ : BufTy).Contents (Elt F) → (⟨S10000, .f32⟩ : BufTy).Contents (Elt F) → (⟨S10000, .f32⟩ : BufTy).Contents (Elt F)) v19 v21
  have v23 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) a3 a4
  have v24 : (⟨S10000, .f32⟩ : BufTy).Contents (Elt F) := (Host.divf : (⟨S10000, .f32⟩ : BufTy).Contents (Elt F) → (⟨S10000, .f32⟩ : BufTy).Contents (Elt F) → (⟨S10000, .f32⟩ : BufTy).Contents (Elt F)) v23 v15
  have v25 : (⟨S10000x1, .f32⟩ : BufTy).Contents (Elt F) := ((extractStridedSlice S10000x1 ![0, 0] · slices_S10000x2_S10000x1_0_0) : (⟨S10000x2, .f32⟩ : BufTy).Contents (Elt F) → (⟨S10000x1, .f32⟩ : BufTy).Contents (Elt F)) d
  have v26 : main_v26.ty.Contents (Elt F) := shapeCast _ v25 shapeCasts_S10000x1_S10000
  have v27 : (⟨S10000, .f32⟩ : BufTy).Contents (Elt F) := (Host.divf : (⟨S10000, .f32⟩ : BufTy).Contents (Elt F) → (⟨S10000, .f32⟩ : BufTy).Contents (Elt F) → (⟨S10000, .f32⟩ : BufTy).Contents (Elt F)) v26 v15
  have v28 : (⟨S10000x1, .f32⟩ : BufTy).Contents (Elt F) := ((extractStridedSlice S10000x1 ![0, 1] · slices_S10000x2_S10000x1_0_1) : (⟨S10000x2, .f32⟩ : BufTy).Contents (Elt F) → (⟨S10000x1, .f32⟩ : BufTy).Contents (Elt F)) d
  have v29 : main_v29.ty.Contents (Elt F) := shapeCast _ v28 shapeCasts_S10000x1_S10000
  have v30 : (⟨S10000, .f32⟩ : BufTy).Contents (Elt F) := (Host.negf : (⟨S10000, .f32⟩ : BufTy).Contents (Elt F) → (⟨S10000, .f32⟩ : BufTy).Contents (Elt F)) v29
  have v31 : (⟨S10000, .f32⟩ : BufTy).Contents (Elt F) := (Host.divf : (⟨S10000, .f32⟩ : BufTy).Contents (Elt F) → (⟨S10000, .f32⟩ : BufTy).Contents (Elt F) → (⟨S10000, .f32⟩ : BufTy).Contents (Elt F)) v30 v15
  have v32 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v31 v31
  have v33 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v27 v27
  have v34 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v31 v27
  have cst_3 : main_cst_3.ty.Contents (Elt F) := constant S_ .f32 0x40C00000#32
  have v35 : (⟨S10000, .f32⟩ : BufTy).Contents (Elt F) := (broadcastInDim S10000 ![] bcast_S_S10000 : (⟨S_, .f32⟩ : BufTy).Contents (Elt F) → (⟨S10000, .f32⟩ : BufTy).Contents (Elt F)) cst_3
  have v36 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v35 v15
  have v37 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v36 v31
  have cst_4 : main_cst_4.ty.Contents (Elt F) := constant S_ .f32 0x40C00000#32
  have v38 : (⟨S10000, .f32⟩ : BufTy).Contents (Elt F) := (broadcastInDim S10000 ![] bcast_S_S10000 : (⟨S_, .f32⟩ : BufTy).Contents (Elt F) → (⟨S10000, .f32⟩ : BufTy).Contents (Elt F)) cst_4
  have v39 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v38 v15
  have v40 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v39 v27
  have v41 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v15 v15
  have cst_5 : main_cst_5.ty.Contents (Elt F) := constant S_ .f32 0x40000000#32
  have v42 : (⟨S10000, .f32⟩ : BufTy).Contents (Elt F) := (broadcastInDim S10000 ![] bcast_S_S10000 : (⟨S_, .f32⟩ : BufTy).Contents (Elt F) → (⟨S10000, .f32⟩ : BufTy).Contents (Elt F)) cst_5
  have v43 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v42 v41
  have v44 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v15 v15
  have cst_6 : main_cst_6.ty.Contents (Elt F) := constant S_ .f32 0x40800000#32
  have v45 : (⟨S10000, .f32⟩ : BufTy).Contents (Elt F) := (broadcastInDim S10000 ![] bcast_S_S10000 : (⟨S_, .f32⟩ : BufTy).Contents (Elt F) → (⟨S10000, .f32⟩ : BufTy).Contents (Elt F)) cst_6
  have v46 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v45 v44
  have cst_7 : main_cst_7.ty.Contents (Elt F) := constant S_ .f32 0x00000000#32
  have v47 : (⟨S10000, .f32⟩ : BufTy).Contents (Elt F) := (broadcastInDim S10000 ![] bcast_S_S10000 : (⟨S_, .f32⟩ : BufTy).Contents (Elt F) → (⟨S10000, .f32⟩ : BufTy).Contents (Elt F)) cst_7
  have cst_8 : main_cst_8.ty.Contents (Elt F) := constant S_ .f32 0x41400000#32
  have v48 : (⟨S10000, .f32⟩ : BufTy).Contents (Elt F) := (broadcastInDim S10000 ![] bcast_S_S10000 : (⟨S_, .f32⟩ : BufTy).Contents (Elt F) → (⟨S10000, .f32⟩ : BufTy).Contents (Elt F)) cst_8
  have v49 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v48 v32
  have cst_9 : main_cst_9.ty.Contents (Elt F) := constant S_ .f32 0x41400000#32
  have v50 : (⟨S10000, .f32⟩ : BufTy).Contents (Elt F) := (broadcastInDim S10000 ![] bcast_S_S10000 : (⟨S_, .f32⟩ : BufTy).Contents (Elt F) → (⟨S10000, .f32⟩ : BufTy).Contents (Elt F)) cst_9
  have v51 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v50 v34
  have v52 : (⟨S10000, .f32⟩ : BufTy).Contents (Elt F) := (Host.negf : (⟨S10000, .f32⟩ : BufTy).Contents (Elt F) → (⟨S10000, .f32⟩ : BufTy).Contents (Elt F)) v37
  have cst_10 : main_cst_10.ty.Contents (Elt F) := constant S_ .f32 0xC1400000#32
  have v53 : (⟨S10000, .f32⟩ : BufTy).Contents (Elt F) := (broadcastInDim S10000 ![] bcast_S_S10000 : (⟨S_, .f32⟩ : BufTy).Contents (Elt F) → (⟨S10000, .f32⟩ : BufTy).Contents (Elt F)) cst_10
  have v54 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v53 v32
  have cst_11 : main_cst_11.ty.Contents (Elt F) := constant S_ .f32 0xC1400000#32
  have v55 : (⟨S10000, .f32⟩ : BufTy).Contents (Elt F) := (broadcastInDim S10000 ![] bcast_S_S10000 : (⟨S_, .f32⟩ : BufTy).Contents (Elt F) → (⟨S10000, .f32⟩ : BufTy).Contents (Elt F)) cst_11
  have v56 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v55 v34
  have v57 : (⟨S10000, .f32⟩ : BufTy).Contents (Elt F) := (Host.negf : (⟨S10000, .f32⟩ : BufTy).Contents (Elt F) → (⟨S10000, .f32⟩ : BufTy).Contents (Elt F)) v37
  have cst_12 : main_cst_12.ty.Contents (Elt F) := constant S_ .f32 0x41400000#32
  have v58 : (⟨S10000, .f32⟩ : BufTy).Contents (Elt F) := (broadcastInDim S10000 ![] bcast_S_S10000 : (⟨S_, .f32⟩ : BufTy).Contents (Elt F) → (⟨S10000, .f32⟩ : BufTy).Contents (Elt F)) cst_12
  have v59 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v58 v34
  have cst_13 : main_cst_13.ty.Contents (Elt F) := constant S_ .f32 0x41400000#32
  have v60 : (⟨S10000, .f32⟩ : BufTy).Contents (Elt F) := (broadcastInDim S10000 ![] bcast_S_S10000 : (⟨S_, .f32⟩ : BufTy).Contents (Elt F) → (⟨S10000, .f32⟩ : BufTy).Contents (Elt F)) cst_13
  have v61 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v60 v33
  have v62 : (⟨S10000, .f32⟩ : BufTy).Contents (Elt F) := (Host.negf : (⟨S10000, .f32⟩ : BufTy).Contents (Elt F) → (⟨S10000, .f32⟩ : BufTy).Contents (Elt F)) v40
  have cst_14 : main_cst_14.ty.Contents (Elt F) := constant S_ .f32 0xC1400000#32
  have v63 : (⟨S10000, .f32⟩ : BufTy).Contents (Elt F) := (broadcastInDim S10000 ![] bcast_S_S10000 : (⟨S_, .f32⟩ : BufTy).Contents (Elt F) → (⟨S10000, .f32⟩ : BufTy).Contents (Elt F)) cst_14
  have v64 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v63 v34
  have cst_15 : main_cst_15.ty.Contents (Elt F) := constant S_ .f32 0xC1400000#32
  have v65 : (⟨S10000, .f32⟩ : BufTy).Contents (Elt F) := (broadcastInDim S10000 ![] bcast_S_S10000 : (⟨S_, .f32⟩ : BufTy).Contents (Elt F) → (⟨S10000, .f32⟩ : BufTy).Contents (Elt F)) cst_15
  have v66 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v65 v33
  have v67 : (⟨S10000, .f32⟩ : BufTy).Contents (Elt F) := (Host.negf : (⟨S10000, .f32⟩ : BufTy).Contents (Elt F) → (⟨S10000, .f32⟩ : BufTy).Contents (Elt F)) v40
  have v68 : (⟨S10000, .f32⟩ : BufTy).Contents (Elt F) := (Host.negf : (⟨S10000, .f32⟩ : BufTy).Contents (Elt F) → (⟨S10000, .f32⟩ : BufTy).Contents (Elt F)) v37
  have v69 : (⟨S10000, .f32⟩ : BufTy).Contents (Elt F) := (Host.negf : (⟨S10000, .f32⟩ : BufTy).Contents (Elt F) → (⟨S10000, .f32⟩ : BufTy).Contents (Elt F)) v40
  have cst_16 : main_cst_16.ty.Contents (Elt F) := constant S_ .f32 0xC1400000#32
  have v70 : (⟨S10000, .f32⟩ : BufTy).Contents (Elt F) := (broadcastInDim S10000 ![] bcast_S_S10000 : (⟨S_, .f32⟩ : BufTy).Contents (Elt F) → (⟨S10000, .f32⟩ : BufTy).Contents (Elt F)) cst_16
  have v71 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v70 v32
  have cst_17 : main_cst_17.ty.Contents (Elt F) := constant S_ .f32 0xC1400000#32
  have v72 : (⟨S10000, .f32⟩ : BufTy).Contents (Elt F) := (broadcastInDim S10000 ![] bcast_S_S10000 : (⟨S_, .f32⟩ : BufTy).Contents (Elt F) → (⟨S10000, .f32⟩ : BufTy).Contents (Elt F)) cst_17
  have v73 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v72 v34
  have cst_18 : main_cst_18.ty.Contents (Elt F) := constant S_ .f32 0x41400000#32
  have v74 : (⟨S10000, .f32⟩ : BufTy).Contents (Elt F) := (broadcastInDim S10000 ![] bcast_S_S10000 : (⟨S_, .f32⟩ : BufTy).Contents (Elt F) → (⟨S10000, .f32⟩ : BufTy).Contents (Elt F)) cst_18
  have v75 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v74 v32
  have cst_19 : main_cst_19.ty.Contents (Elt F) := constant S_ .f32 0x41400000#32
  have v76 : (⟨S10000, .f32⟩ : BufTy).Contents (Elt F) := (broadcastInDim S10000 ![] bcast_S_S10000 : (⟨S_, .f32⟩ : BufTy).Contents (Elt F) → (⟨S10000, .f32⟩ : BufTy).Contents (Elt F)) cst_19
  have v77 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v76 v34
  have cst_20 : main_cst_20.ty.Contents (Elt F) := constant S_ .f32 0xC1400000#32
  have v78 : (⟨S10000, .f32⟩ : BufTy).Contents (Elt F) := (broadcastInDim S10000 ![] bcast_S_S10000 : (⟨S_, .f32⟩ : BufTy).Contents (Elt F) → (⟨S10000, .f32⟩ : BufTy).Contents (Elt F)) cst_20
  have v79 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v78 v34
  have cst_21 : main_cst_21.ty.Contents (Elt F) := constant S_ .f32 0xC1400000#32
  have v80 : (⟨S10000, .f32⟩ : BufTy).Contents (Elt F) := (broadcastInDim S10000 ![] bcast_S_S10000 : (⟨S_, .f32⟩ : BufTy).Contents (Elt F) → (⟨S10000, .f32⟩ : BufTy).Contents (Elt F)) cst_21
  have v81 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v80 v33
  have cst_22 : main_cst_22.ty.Contents (Elt F) := constant S_ .f32 0x41400000#32
  have v82 : (⟨S10000, .f32⟩ : BufTy).Contents (Elt F) := (broadcastInDim S10000 ![] bcast_S_S10000 : (⟨S_, .f32⟩ : BufTy).Contents (Elt F) → (⟨S10000, .f32⟩ : BufTy).Contents (Elt F)) cst_22
  have v83 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v82 v34
  have cst_23 : main_cst_23.ty.Contents (Elt F) := constant S_ .f32 0x41400000#32
  have v84 : (⟨S10000, .f32⟩ : BufTy).Contents (Elt F) := (broadcastInDim S10000 ![] bcast_S_S10000 : (⟨S_, .f32⟩ : BufTy).Contents (Elt F) → (⟨S10000, .f32⟩ : BufTy).Contents (Elt F)) cst_23
  have v85 : (⟨S10000, .f32⟩ : BufTy).Contents (Elt F) := (mulf : (⟨S10000, .f32⟩ : BufTy).Contents (Elt F) → (⟨S10000, .f32⟩ : BufTy).Contents (Elt F) → (⟨S10000, .f32⟩ : BufTy).Contents (Elt F)) v84 v33
  have v86 : (⟨S10000, .f32⟩ : BufTy).Contents (Elt F) := (Host.negf : (⟨S10000, .f32⟩ : BufTy).Contents (Elt F) → (⟨S10000, .f32⟩ : BufTy).Contents (Elt F)) v37
  have v87 : (⟨S10000, .f32⟩ : BufTy).Contents (Elt F) := (Host.negf : (⟨S10000, .f32⟩ : BufTy).Contents (Elt F) → (⟨S10000, .f32⟩ : BufTy).Contents (Elt F)) v40
  have v88 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v49
  have v89 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v51
  have v90 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v52
  have v91 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v54
  have v92 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v56
  have v93 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v57
  have v94 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v59
  have v95 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v61
  have v96 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v62
  have v97 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v64
  have v98 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v66
  have v99 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v67
  have v100 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v68
  have v101 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v69
  have v102 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v46
  have v103 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v37
  have v104 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v40
  have v105 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v43
  have v106 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v71
  have v107 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v73
  have v108 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v37
  have v109 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v75
  have v110 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v77
  have v111 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v37
  have v112 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v79
  have v113 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v81
  have v114 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v40
  have v115 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v83
  have v116 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v85
  have v117 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v40
  have v118 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v86
  have v119 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v87
  have v120 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v43
  have v121 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v37
  have v122 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v40
  have v123 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v46
  have v124 : main_v124.ty.Contents (Elt F) := concatenate S10000x16 1 [⟨S10000x1, v88⟩, ⟨S10000x1, v89⟩, ⟨S10000x1, v90⟩, ⟨S10000x1, v91⟩, ⟨S10000x1, v92⟩, ⟨S10000x1, v93⟩, ⟨S10000x1, v94⟩, ⟨S10000x1, v95⟩, ⟨S10000x1, v96⟩, ⟨S10000x1, v97⟩, ⟨S10000x1, v98⟩, ⟨S10000x1, v99⟩, ⟨S10000x1, v100⟩, ⟨S10000x1, v101⟩, ⟨S10000x1, v102⟩, ⟨S10000x1, v103⟩] concatenates_S10000x1_S10000x1_S10000x1_S10000x1_S10000x1_S10000x1_S10000x1_S10000x1_S10000x1_S10000x1_S10000x1_S10000x1_S10000x1_S10000x1_S10000x1_S10000x1_S10000x16_d1
  have v125 : main_v125.ty.Contents (Elt F) := concatenate S10000x16 1 [⟨S10000x1, v104⟩, ⟨S10000x1, v105⟩, ⟨S10000x1, v106⟩, ⟨S10000x1, v107⟩, ⟨S10000x1, v108⟩, ⟨S10000x1, v109⟩, ⟨S10000x1, v110⟩, ⟨S10000x1, v111⟩, ⟨S10000x1, v112⟩, ⟨S10000x1, v113⟩, ⟨S10000x1, v114⟩, ⟨S10000x1, v115⟩, ⟨S10000x1, v116⟩, ⟨S10000x1, v117⟩, ⟨S10000x1, v118⟩, ⟨S10000x1, v119⟩] concatenates_S10000x1_S10000x1_S10000x1_S10000x1_S10000x1_S10000x1_S10000x1_S10000x1_S10000x1_S10000x1_S10000x1_S10000x1_S10000x1_S10000x1_S10000x1_S10000x1_S10000x16_d1
  have v126 : main_v126.ty.Contents (Elt F) := concatenate S10000x4 1 [⟨S10000x1, v120⟩, ⟨S10000x1, v121⟩, ⟨S10000x1, v122⟩, ⟨S10000x1, v123⟩] concatenates_S10000x1_S10000x1_S10000x1_S10000x1_S10000x4_d1
  have v127 : main_v127.ty.Contents (Elt F) := concatenate S10000x36 1 [⟨S10000x16, v124⟩, ⟨S10000x16, v125⟩, ⟨S10000x4, v126⟩] concatenates_S10000x16_S10000x16_S10000x4_S10000x36_d1
  have v128 : (⟨S10000, .f32⟩ : BufTy).Contents (Elt F) := (Host.negf : (⟨S10000, .f32⟩ : BufTy).Contents (Elt F) → (⟨S10000, .f32⟩ : BufTy).Contents (Elt F)) v34
  have v129 : (⟨S10000, .f32⟩ : BufTy).Contents (Elt F) := (Host.negf : (⟨S10000, .f32⟩ : BufTy).Contents (Elt F) → (⟨S10000, .f32⟩ : BufTy).Contents (Elt F)) v33
  have v130 : (⟨S10000, .f32⟩ : BufTy).Contents (Elt F) := (Host.negf : (⟨S10000, .f32⟩ : BufTy).Contents (Elt F) → (⟨S10000, .f32⟩ : BufTy).Contents (Elt F)) v34
  have v131 : (⟨S10000, .f32⟩ : BufTy).Contents (Elt F) := (Host.negf : (⟨S10000, .f32⟩ : BufTy).Contents (Elt F) → (⟨S10000, .f32⟩ : BufTy).Contents (Elt F)) v32
  have v132 : (⟨S10000, .f32⟩ : BufTy).Contents (Elt F) := (Host.negf : (⟨S10000, .f32⟩ : BufTy).Contents (Elt F) → (⟨S10000, .f32⟩ : BufTy).Contents (Elt F)) v33
  have v133 : (⟨S10000, .f32⟩ : BufTy).Contents (Elt F) := (Host.negf : (⟨S10000, .f32⟩ : BufTy).Contents (Elt F) → (⟨S10000, .f32⟩ : BufTy).Contents (Elt F)) v34
  have v134 : (⟨S10000, .f32⟩ : BufTy).Contents (Elt F) := (Host.negf : (⟨S10000, .f32⟩ : BufTy).Contents (Elt F) → (⟨S10000, .f32⟩ : BufTy).Contents (Elt F)) v32
  have v135 : (⟨S10000, .f32⟩ : BufTy).Contents (Elt F) := (Host.negf : (⟨S10000, .f32⟩ : BufTy).Contents (Elt F) → (⟨S10000, .f32⟩ : BufTy).Contents (Elt F)) v34
  have v136 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v33
  have v137 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v128
  have v138 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v139 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v129
  have v140 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v34
  have v141 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v142 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v130
  have v143 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v32
  have v144 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v145 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v34
  have v146 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v131
  have v147 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v148 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v149 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v150 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v151 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v152 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v153 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v154 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v132
  have v155 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v34
  have v156 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v157 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v33
  have v158 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v133
  have v159 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v160 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v34
  have v161 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v134
  have v162 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v163 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v135
  have v164 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v32
  have v165 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v166 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v167 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v168 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v169 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v170 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v171 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v47
  have v172 : main_v172.ty.Contents (Elt F) := concatenate S10000x16 1 [⟨S10000x1, v136⟩, ⟨S10000x1, v137⟩, ⟨S10000x1, v138⟩, ⟨S10000x1, v139⟩, ⟨S10000x1, v140⟩, ⟨S10000x1, v141⟩, ⟨S10000x1, v142⟩, ⟨S10000x1, v143⟩, ⟨S10000x1, v144⟩, ⟨S10000x1, v145⟩, ⟨S10000x1, v146⟩, ⟨S10000x1, v147⟩, ⟨S10000x1, v148⟩, ⟨S10000x1, v149⟩, ⟨S10000x1, v150⟩, ⟨S10000x1, v151⟩] concatenates_S10000x1_S10000x1_S10000x1_S10000x1_S10000x1_S10000x1_S10000x1_S10000x1_S10000x1_S10000x1_S10000x1_S10000x1_S10000x1_S10000x1_S10000x1_S10000x1_S10000x16_d1
  have v173 : main_v173.ty.Contents (Elt F) := concatenate S10000x16 1 [⟨S10000x1, v152⟩, ⟨S10000x1, v153⟩, ⟨S10000x1, v154⟩, ⟨S10000x1, v155⟩, ⟨S10000x1, v156⟩, ⟨S10000x1, v157⟩, ⟨S10000x1, v158⟩, ⟨S10000x1, v159⟩, ⟨S10000x1, v160⟩, ⟨S10000x1, v161⟩, ⟨S10000x1, v162⟩, ⟨S10000x1, v163⟩, ⟨S10000x1, v164⟩, ⟨S10000x1, v165⟩, ⟨S10000x1, v166⟩, ⟨S10000x1, v167⟩] concatenates_S10000x1_S10000x1_S10000x1_S10000x1_S10000x1_S10000x1_S10000x1_S10000x1_S10000x1_S10000x1_S10000x1_S10000x1_S10000x1_S10000x1_S10000x1_S10000x1_S10000x16_d1
  have v174 : main_v174.ty.Contents (Elt F) := concatenate S10000x4 1 [⟨S10000x1, v168⟩, ⟨S10000x1, v169⟩, ⟨S10000x1, v170⟩, ⟨S10000x1, v171⟩] concatenates_S10000x1_S10000x1_S10000x1_S10000x1_S10000x4_d1
  have v175 : main_v175.ty.Contents (Elt F) := concatenate S10000x36 1 [⟨S10000x16, v172⟩, ⟨S10000x16, v173⟩, ⟨S10000x4, v174⟩] concatenates_S10000x16_S10000x16_S10000x4_S10000x36_d1
  have v176 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v22
  have v177 : (⟨S10000x36, .f32⟩ : BufTy).Contents (Elt F) := (broadcastInDim S10000x36 ![0, 1] bcast_S10000x1_S10000x36_0_1 : (⟨S10000x1, .f32⟩ : BufTy).Contents (Elt F) → (⟨S10000x36, .f32⟩ : BufTy).Contents (Elt F)) v176
  have v178 : (⟨S10000x36, .f32⟩ : BufTy).Contents (Elt F) := (mulf : (⟨S10000x36, .f32⟩ : BufTy).Contents (Elt F) → (⟨S10000x36, .f32⟩ : BufTy).Contents (Elt F) → (⟨S10000x36, .f32⟩ : BufTy).Contents (Elt F)) v127 v177
  have v179 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) v24
  have v180 : (⟨S10000x36, .f32⟩ : BufTy).Contents (Elt F) := (broadcastInDim S10000x36 ![0, 1] bcast_S10000x1_S10000x36_0_1 : (⟨S10000x1, .f32⟩ : BufTy).Contents (Elt F) → (⟨S10000x36, .f32⟩ : BufTy).Contents (Elt F)) v179
  have v181 : (⟨S10000x36, .f32⟩ : BufTy).Contents (Elt F) := (mulf : (⟨S10000x36, .f32⟩ : BufTy).Contents (Elt F) → (⟨S10000x36, .f32⟩ : BufTy).Contents (Elt F) → (⟨S10000x36, .f32⟩ : BufTy).Contents (Elt F)) v175 v180
  have v182 : (⟨S10000x36, .f32⟩ : BufTy).Contents (Elt F) := (addf : (⟨S10000x36, .f32⟩ : BufTy).Contents (Elt F) → (⟨S10000x36, .f32⟩ : BufTy).Contents (Elt F) → (⟨S10000x36, .f32⟩ : BufTy).Contents (Elt F)) v178 v181
  have v183 : main_v183.ty.Contents (Elt F) := shapeCast _ v182 shapeCasts_S10000x36_S10000x6x6
  v183

/-- The assembled matrix from the blocks and the two index vectors: the reference's last stretch (each index
    vector `a` as the table `3 * a + {0, 1, 2}`; the four 3 × 3 quarters of every block scatter-added in turn
    into a zero 7500 × 7500 matrix), in the program's order. -/
def tailR (K : (⟨S10000x6x6, .f32⟩ : BufTy).Contents (Elt F)) (a1 a2 : (⟨S10000, .i32⟩ : BufTy).Contents (Elt F)) :
    (⟨S7500x7500, .f32⟩ : BufTy).Contents (Elt F) :=
  have v184 : main_v184.ty.Contents (Elt F) := iotaInDim S3 32 0
  have v185 : (⟨S10000x1, .i32⟩ : BufTy).Contents (Elt F) := (broadcastInDim S10000x1 ![0] bcast_S10000_S10000x1_0 : (⟨S10000, .i32⟩ : BufTy).Contents (Elt F) → (⟨S10000x1, .i32⟩ : BufTy).Contents (Elt F)) a1
  have c_24 : main_c_24.ty.Contents (Elt F) := constantI S_ 32 3#32
  have v186 : (⟨S10000x1, .i32⟩ : BufTy).Contents (Elt F) := (broadcastInDim S10000x1 ![] bcast_S_S10000x1 : (⟨S_, .i32⟩ : BufTy).Contents (Elt F) → (⟨S10000x1, .i32⟩ : BufTy).Contents (Elt F)) c_24
  have v187 : (⟨S10000x1, .i32⟩ : BufTy).Contents (Elt F) := (muli : (⟨S10000x1, .i32⟩ : BufTy).Contents (Elt F) → (⟨S10000x1, .i32⟩ : BufTy).Contents (Elt F) → (⟨S10000x1, .i32⟩ : BufTy).Contents (Elt F)) v185 v186
  have v188 : (⟨S1x3, .i32⟩ : BufTy).Contents (Elt F) := (broadcastInDim S1x3 ![1] bcast_S3_S1x3_1 : (⟨S3, .i32⟩ : BufTy).Contents (Elt F) → (⟨S1x3, .i32⟩ : BufTy).Contents (Elt F)) v184
  have v189 : (⟨S10000x3, .i32⟩ : BufTy).Contents (Elt F) := (broadcastInDim S10000x3 ![0, 1] bcast_S10000x1_S10000x3_0_1 : (⟨S10000x1, .i32⟩ : BufTy).Contents (Elt F) → (⟨S10000x3, .i32⟩ : BufTy).Contents (Elt F)) v187
  have v190 : (⟨S10000x3, .i32⟩ : BufTy).Contents (Elt F) := (broadcastInDim S10000x3 ![0, 1] bcast_S1x3_S10000x3_0_1 : (⟨S1x3, .i32⟩ : BufTy).Contents (Elt F) → (⟨S10000x3, .i32⟩ : BufTy).Contents (Elt F)) v188
  have v191 : (⟨S10000x3, .i32⟩ : BufTy).Contents (Elt F) := (addi : (⟨S10000x3, .i32⟩ : BufTy).Contents (Elt F) → (⟨S10000x3, .i32⟩ : BufTy).Contents (Elt F) → (⟨S10000x3, .i32⟩ : BufTy).Contents (Elt F)) v189 v190
  have v192 : (⟨S10000x1, .i32⟩ : BufTy).Contents (Elt F) := (broadcastInDim S10000x1 ![0] bcast_S10000_S10000x1_0 : (⟨S10000, .i32⟩ : BufTy).Contents (Elt F) → (⟨S10000x1, .i32⟩ : BufTy).Contents (Elt F)) a2
  have c_25 : main_c_25.ty.Contents (Elt F) := constantI S_ 32 3#32
  have v193 : (⟨S10000x1, .i32⟩ : BufTy).Contents (Elt F) := (broadcastInDim S10000x1 ![] bcast_S_S10000x1 : (⟨S_, .i32⟩ : BufTy).Contents (Elt F) → (⟨S10000x1, .i32⟩ : BufTy).Contents (Elt F)) c_25
  have v194 : (⟨S10000x1, .i32⟩ : BufTy).Contents (Elt F) := (muli : (⟨S10000x1, .i32⟩ : BufTy).Contents (Elt F) → (⟨S10000x1, .i32⟩ : BufTy).Contents (Elt F) → (⟨S10000x1, .i32⟩ : BufTy).Contents (Elt F)) v192 v193
  have v195 : (⟨S1x3, .i32⟩ : BufTy).Contents (Elt F) := (broadcastInDim S1x3 ![1] bcast_S3_S1x3_1 : (⟨S3, .i32⟩ : BufTy).Contents (Elt F) → (⟨S1x3, .i32⟩ : BufTy).Contents (Elt F)) v184
  have v196 : (⟨S10000x3, .i32⟩ : BufTy).Contents (Elt F) := (broadcastInDim S10000x3 ![0, 1] bcast_S10000x1_S10000x3_0_1 : (⟨S10000x1, .i32⟩ : BufTy).Contents (Elt F) → (⟨S10000x3, .i32⟩ : BufTy).Contents (Elt F)) v194
  have v197 : (⟨S10000x3, .i32⟩ : BufTy).Contents (Elt F) := (broadcastInDim S10000x3 ![0, 1] bcast_S1x3_S10000x3_0_1 : (⟨S1x3, .i32⟩ : BufTy).Contents (Elt F) → (⟨S10000x3, .i32⟩ : BufTy).Contents (Elt F)) v195
  have v198 : (⟨S10000x3, .i32⟩ : BufTy).Contents (Elt F) := (addi : (⟨S10000x3, .i32⟩ : BufTy).Contents (Elt F) → (⟨S10000x3, .i32⟩ : BufTy).Contents (Elt F) → (⟨S10000x3, .i32⟩ : BufTy).Contents (Elt F)) v196 v197
  have cst_26 : main_cst_26.ty.Contents (Elt F) := constant S_ .f32 0x00000000#32
  have v199 : (⟨S7500x7500, .f32⟩ : BufTy).Contents (Elt F) := (broadcastInDim S7500x7500 ![] bcast_S_S7500x7500 : (⟨S_, .f32⟩ : BufTy).Contents (Elt F) → (⟨S7500x7500, .f32⟩ : BufTy).Contents (Elt F)) cst_26
  have v200 : (⟨S10000x3x1, .i32⟩ : BufTy).Contents (Elt F) := (broadcastInDim S10000x3x1 ![0, 1] bcast_S10000x3_S10000x3x1_0_1 : (⟨S10000x3, .i32⟩ : BufTy).Contents (Elt F) → (⟨S10000x3x1, .i32⟩ : BufTy).Contents (Elt F)) v191
  have v201 : (⟨S10000x1x3, .i32⟩ : BufTy).Contents (Elt F) := (broadcastInDim S10000x1x3 ![0, 2] bcast_S10000x3_S10000x1x3_0_2 : (⟨S10000x3, .i32⟩ : BufTy).Contents (Elt F) → (⟨S10000x1x3, .i32⟩ : BufTy).Contents (Elt F)) v191
  have v202 : (⟨S10000x3x3, .f32⟩ : BufTy).Contents (Elt F) := ((extractStridedSlice S10000x3x3 ![0, 0, 0] · slices_S10000x6x6_S10000x3x3_0_0_0) : (⟨S10000x6x6, .f32⟩ : BufTy).Contents (Elt F) → (⟨S10000x3x3, .f32⟩ : BufTy).Contents (Elt F)) K
  have c_27 : main_c_27.ty.Contents (Elt F) := constantI S_ 32 0#32
  have v203 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_27
  have v204 : (⟨S10000x3x1, .i1⟩ : BufTy).Contents (Elt F) := (cmpi .slt : (⟨S10000x3x1, .i32⟩ : BufTy).Contents (Elt F) → (⟨S10000x3x1, .i32⟩ : BufTy).Contents (Elt F) → (⟨S10000x3x1, .i1⟩ : BufTy).Contents (Elt F)) v200 v203
  have c_28 : main_c_28.ty.Contents (Elt F) := constantI S_ 32 7500#32
  have v205 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_28
  have v206 : (⟨S10000x3x1, .i32⟩ : BufTy).Contents (Elt F) := (addi : (⟨S10000x3x1, .i32⟩ : BufTy).Contents (Elt F) → (⟨S10000x3x1, .i32⟩ : BufTy).Contents (Elt F) → (⟨S10000x3x1, .i32⟩ : BufTy).Contents (Elt F)) v200 v205
  have v207 : (⟨S10000x3x1, .i32⟩ : BufTy).Contents (Elt F) := (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)) v204 v206 v200
  have c_29 : main_c_29.ty.Contents (Elt F) := constantI S_ 32 0#32
  have v208 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_29
  have v209 : (⟨S10000x1x3, .i1⟩ : BufTy).Contents (Elt F) := (cmpi .slt : (⟨S10000x1x3, .i32⟩ : BufTy).Contents (Elt F) → (⟨S10000x1x3, .i32⟩ : BufTy).Contents (Elt F) → (⟨S10000x1x3, .i1⟩ : BufTy).Contents (Elt F)) v201 v208
  have c_30 : main_c_30.ty.Contents (Elt F) := constantI S_ 32 7500#32
  have v210 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_30
  have v211 : (⟨S10000x1x3, .i32⟩ : BufTy).Contents (Elt F) := (addi : (⟨S10000x1x3, .i32⟩ : BufTy).Contents (Elt F) → (⟨S10000x1x3, .i32⟩ : BufTy).Contents (Elt F) → (⟨S10000x1x3, .i32⟩ : BufTy).Contents (Elt F)) v201 v210
  have v212 : (⟨S10000x1x3, .i32⟩ : BufTy).Contents (Elt F) := (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)) v209 v211 v201
  have v213 : (⟨S10000x3x3, .i32⟩ : BufTy).Contents (Elt F) := (broadcastInDim S10000x3x3 ![0, 1, 2] bcast_S10000x3x1_S10000x3x3_0_1_2 : (⟨S10000x3x1, .i32⟩ : BufTy).Contents (Elt F) → (⟨S10000x3x3, .i32⟩ : BufTy).Contents (Elt F)) v207
  have v214 : (⟨S10000x3x3, .i32⟩ : BufTy).Contents (Elt F) := (broadcastInDim S10000x3x3 ![0, 1, 2] bcast_S10000x1x3_S10000x3x3_0_1_2 : (⟨S10000x1x3, .i32⟩ : BufTy).Contents (Elt F) → (⟨S10000x3x3, .i32⟩ : BufTy).Contents (Elt F)) v212
  have v215 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v213
  have v216 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v214
  have v217 : (⟨S10000x3x3x2, .i32⟩ : BufTy).Contents (Elt F) := ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)) v215 v216
  have v218 : (⟨S7500x7500, .f32⟩ : BufTy).Contents (Elt F) := ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)) v199 v217 v202
  have v219 : (⟨S10000x3x1, .i32⟩ : BufTy).Contents (Elt F) := (broadcastInDim S10000x3x1 ![0, 1] bcast_S10000x3_S10000x3x1_0_1 : (⟨S10000x3, .i32⟩ : BufTy).Contents (Elt F) → (⟨S10000x3x1, .i32⟩ : BufTy).Contents (Elt F)) v191
  have v220 : (⟨S10000x1x3, .i32⟩ : BufTy).Contents (Elt F) := (broadcastInDim S10000x1x3 ![0, 2] bcast_S10000x3_S10000x1x3_0_2 : (⟨S10000x3, .i32⟩ : BufTy).Contents (Elt F) → (⟨S10000x1x3, .i32⟩ : BufTy).Contents (Elt F)) v198
  have v221 : (⟨S10000x3x3, .f32⟩ : BufTy).Contents (Elt F) := ((extractStridedSlice S10000x3x3 ![0, 0, 3] · slices_S10000x6x6_S10000x3x3_0_0_3) : (⟨S10000x6x6, .f32⟩ : BufTy).Contents (Elt F) → (⟨S10000x3x3, .f32⟩ : BufTy).Contents (Elt F)) K
  have c_31 : main_c_31.ty.Contents (Elt F) := constantI S_ 32 0#32
  have v222 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_31
  have v223 : (⟨S10000x3x1, .i1⟩ : BufTy).Contents (Elt F) := (cmpi .slt : (⟨S10000x3x1, .i32⟩ : BufTy).Contents (Elt F) → (⟨S10000x3x1, .i32⟩ : BufTy).Contents (Elt F) → (⟨S10000x3x1, .i1⟩ : BufTy).Contents (Elt F)) v219 v222
  have c_32 : main_c_32.ty.Contents (Elt F) := constantI S_ 32 7500#32
  have v224 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_32
  have v225 : (⟨S10000x3x1, .i32⟩ : BufTy).Contents (Elt F) := (addi : (⟨S10000x3x1, .i32⟩ : BufTy).Contents (Elt F) → (⟨S10000x3x1, .i32⟩ : BufTy).Contents (Elt F) → (⟨S10000x3x1, .i32⟩ : BufTy).Contents (Elt F)) v219 v224
  have v226 : (⟨S10000x3x1, .i32⟩ : BufTy).Contents (Elt F) := (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)) v223 v225 v219
  have c_33 : main_c_33.ty.Contents (Elt F) := constantI S_ 32 0#32
  have v227 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_33
  have v228 : (⟨S10000x1x3, .i1⟩ : BufTy).Contents (Elt F) := (cmpi .slt : (⟨S10000x1x3, .i32⟩ : BufTy).Contents (Elt F) → (⟨S10000x1x3, .i32⟩ : BufTy).Contents (Elt F) → (⟨S10000x1x3, .i1⟩ : BufTy).Contents (Elt F)) v220 v227
  have c_34 : main_c_34.ty.Contents (Elt F) := constantI S_ 32 7500#32
  have v229 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_34
  have v230 : (⟨S10000x1x3, .i32⟩ : BufTy).Contents (Elt F) := (addi : (⟨S10000x1x3, .i32⟩ : BufTy).Contents (Elt F) → (⟨S10000x1x3, .i32⟩ : BufTy).Contents (Elt F) → (⟨S10000x1x3, .i32⟩ : BufTy).Contents (Elt F)) v220 v229
  have v231 : (⟨S10000x1x3, .i32⟩ : BufTy).Contents (Elt F) := (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)) v228 v230 v220
  have v232 : (⟨S10000x3x3, .i32⟩ : BufTy).Contents (Elt F) := (broadcastInDim S10000x3x3 ![0, 1, 2] bcast_S10000x3x1_S10000x3x3_0_1_2 : (⟨S10000x3x1, .i32⟩ : BufTy).Contents (Elt F) → (⟨S10000x3x3, .i32⟩ : BufTy).Contents (Elt F)) v226
  have v233 : (⟨S10000x3x3, .i32⟩ : BufTy).Contents (Elt F) := (broadcastInDim S10000x3x3 ![0, 1, 2] bcast_S10000x1x3_S10000x3x3_0_1_2 : (⟨S10000x1x3, .i32⟩ : BufTy).Contents (Elt F) → (⟨S10000x3x3, .i32⟩ : BufTy).Contents (Elt F)) v231
  have v234 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v232
  have v235 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v233
  have v236 : (⟨S10000x3x3x2, .i32⟩ : BufTy).Contents (Elt F) := ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)) v234 v235
  have v237 : (⟨S7500x7500, .f32⟩ : BufTy).Contents (Elt F) := ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)) v218 v236 v221
  have v238 : (⟨S10000x3x1, .i32⟩ : BufTy).Contents (Elt F) := (broadcastInDim S10000x3x1 ![0, 1] bcast_S10000x3_S10000x3x1_0_1 : (⟨S10000x3, .i32⟩ : BufTy).Contents (Elt F) → (⟨S10000x3x1, .i32⟩ : BufTy).Contents (Elt F)) v198
  have v239 : (⟨S10000x1x3, .i32⟩ : BufTy).Contents (Elt F) := (broadcastInDim S10000x1x3 ![0, 2] bcast_S10000x3_S10000x1x3_0_2 : (⟨S10000x3, .i32⟩ : BufTy).Contents (Elt F) → (⟨S10000x1x3, .i32⟩ : BufTy).Contents (Elt F)) v191
  have v240 : (⟨S10000x3x3, .f32⟩ : BufTy).Contents (Elt F) := ((extractStridedSlice S10000x3x3 ![0, 3, 0] · slices_S10000x6x6_S10000x3x3_0_3_0) : (⟨S10000x6x6, .f32⟩ : BufTy).Contents (Elt F) → (⟨S10000x3x3, .f32⟩ : BufTy).Contents (Elt F)) K
  have c_35 : main_c_35.ty.Contents (Elt F) := constantI S_ 32 0#32
  have v241 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_35
  have v242 : (⟨S10000x3x1, .i1⟩ : BufTy).Contents (Elt F) := (cmpi .slt : (⟨S10000x3x1, .i32⟩ : BufTy).Contents (Elt F) → (⟨S10000x3x1, .i32⟩ : BufTy).Contents (Elt F) → (⟨S10000x3x1, .i1⟩ : BufTy).Contents (Elt F)) v238 v241
  have c_36 : main_c_36.ty.Contents (Elt F) := constantI S_ 32 7500#32
  have v243 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_36
  have v244 : (⟨S10000x3x1, .i32⟩ : BufTy).Contents (Elt F) := (addi : (⟨S10000x3x1, .i32⟩ : BufTy).Contents (Elt F) → (⟨S10000x3x1, .i32⟩ : BufTy).Contents (Elt F) → (⟨S10000x3x1, .i32⟩ : BufTy).Contents (Elt F)) v238 v243
  have v245 : (⟨S10000x3x1, .i32⟩ : BufTy).Contents (Elt F) := (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)) v242 v244 v238
  have c_37 : main_c_37.ty.Contents (Elt F) := constantI S_ 32 0#32
  have v246 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_37
  have v247 : (⟨S10000x1x3, .i1⟩ : BufTy).Contents (Elt F) := (cmpi .slt : (⟨S10000x1x3, .i32⟩ : BufTy).Contents (Elt F) → (⟨S10000x1x3, .i32⟩ : BufTy).Contents (Elt F) → (⟨S10000x1x3, .i1⟩ : BufTy).Contents (Elt F)) v239 v246
  have c_38 : main_c_38.ty.Contents (Elt F) := constantI S_ 32 7500#32
  have v248 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_38
  have v249 : (⟨S10000x1x3, .i32⟩ : BufTy).Contents (Elt F) := (addi : (⟨S10000x1x3, .i32⟩ : BufTy).Contents (Elt F) → (⟨S10000x1x3, .i32⟩ : BufTy).Contents (Elt F) → (⟨S10000x1x3, .i32⟩ : BufTy).Contents (Elt F)) v239 v248
  have v250 : (⟨S10000x1x3, .i32⟩ : BufTy).Contents (Elt F) := (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)) v247 v249 v239
  have v251 : (⟨S10000x3x3, .i32⟩ : BufTy).Contents (Elt F) := (broadcastInDim S10000x3x3 ![0, 1, 2] bcast_S10000x3x1_S10000x3x3_0_1_2 : (⟨S10000x3x1, .i32⟩ : BufTy).Contents (Elt F) → (⟨S10000x3x3, .i32⟩ : BufTy).Contents (Elt F)) v245
  have v252 : (⟨S10000x3x3, .i32⟩ : BufTy).Contents (Elt F) := (broadcastInDim S10000x3x3 ![0, 1, 2] bcast_S10000x1x3_S10000x3x3_0_1_2 : (⟨S10000x1x3, .i32⟩ : BufTy).Contents (Elt F) → (⟨S10000x3x3, .i32⟩ : BufTy).Contents (Elt F)) v250
  have v253 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v251
  have v254 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v252
  have v255 : (⟨S10000x3x3x2, .i32⟩ : BufTy).Contents (Elt F) := ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)) v253 v254
  have v256 : (⟨S7500x7500, .f32⟩ : BufTy).Contents (Elt F) := ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)) v237 v255 v240
  have v257 : (⟨S10000x3x1, .i32⟩ : BufTy).Contents (Elt F) := (broadcastInDim S10000x3x1 ![0, 1] bcast_S10000x3_S10000x3x1_0_1 : (⟨S10000x3, .i32⟩ : BufTy).Contents (Elt F) → (⟨S10000x3x1, .i32⟩ : BufTy).Contents (Elt F)) v198
  have v258 : (⟨S10000x1x3, .i32⟩ : BufTy).Contents (Elt F) := (broadcastInDim S10000x1x3 ![0, 2] bcast_S10000x3_S10000x1x3_0_2 : (⟨S10000x3, .i32⟩ : BufTy).Contents (Elt F) → (⟨S10000x1x3, .i32⟩ : BufTy).Contents (Elt F)) v198
  have v259 : (⟨S10000x3x3, .f32⟩ : BufTy).Contents (Elt F) := ((extractStridedSlice S10000x3x3 ![0, 3, 3] · slices_S10000x6x6_S10000x3x3_0_3_3) : (⟨S10000x6x6, .f32⟩ : BufTy).Contents (Elt F) → (⟨S10000x3x3, .f32⟩ : BufTy).Contents (Elt F)) K
  have c_39 : main_c_39.ty.Contents (Elt F) := constantI S_ 32 0#32
  have v260 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_39
  have v261 : (⟨S10000x3x1, .i1⟩ : BufTy).Contents (Elt F) := (cmpi .slt : (⟨S10000x3x1, .i32⟩ : BufTy).Contents (Elt F) → (⟨S10000x3x1, .i32⟩ : BufTy).Contents (Elt F) → (⟨S10000x3x1, .i1⟩ : BufTy).Contents (Elt F)) v257 v260
  have c_40 : main_c_40.ty.Contents (Elt F) := constantI S_ 32 7500#32
  have v262 : (⟨S10000x3x1, .i32⟩ : BufTy).Contents (Elt F) := (broadcastInDim S10000x3x1 ![] bcast_S_S10000x3x1 : (⟨S_, .i32⟩ : BufTy).Contents (Elt F) → (⟨S10000x3x1, .i32⟩ : BufTy).Contents (Elt F)) c_40
  have v263 : (⟨S10000x3x1, .i32⟩ : BufTy).Contents (Elt F) := (addi : (⟨S10000x3x1, .i32⟩ : BufTy).Contents (Elt F) → (⟨S10000x3x1, .i32⟩ : BufTy).Contents (Elt F) → (⟨S10000x3x1, .i32⟩ : BufTy).Contents (Elt F)) v257 v262
  have v264 : (⟨S10000x3x1, .i32⟩ : BufTy).Contents (Elt F) := (select : (⟨S10000x3x1, .i1⟩ : BufTy).Contents (Elt F) → (⟨S10000x3x1, .i32⟩ : BufTy).Contents (Elt F) → (⟨S10000x3x1, .i32⟩ : BufTy).Contents (Elt F) → (⟨S10000x3x1, .i32⟩ : BufTy).Contents (Elt F)) v261 v263 v257
  have c_41 : main_c_41.ty.Contents (Elt F) := constantI S_ 32 0#32
  have v265 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_41
  have v266 : (⟨S10000x1x3, .i1⟩ : BufTy).Contents (Elt F) := (cmpi .slt : (⟨S10000x1x3, .i32⟩ : BufTy).Contents (Elt F) → (⟨S10000x1x3, .i32⟩ : BufTy).Contents (Elt F) → (⟨S10000x1x3, .i1⟩ : BufTy).Contents (Elt F)) v258 v265
  have c_42 : main_c_42.ty.Contents (Elt F) := constantI S_ 32 7500#32
  have v267 : (⟨S10000x1x3, .i32⟩ : BufTy).Contents (Elt F) := (broadcastInDim S10000x1x3 ![] bcast_S_S10000x1x3 : (⟨S_, .i32⟩ : BufTy).Contents (Elt F) → (⟨S10000x1x3, .i32⟩ : BufTy).Contents (Elt F)) c_42
  have v268 : (⟨S10000x1x3, .i32⟩ : BufTy).Contents (Elt F) := (addi : (⟨S10000x1x3, .i32⟩ : BufTy).Contents (Elt F) → (⟨S10000x1x3, .i32⟩ : BufTy).Contents (Elt F) → (⟨S10000x1x3, .i32⟩ : BufTy).Contents (Elt F)) v258 v267
  have v269 : (⟨S10000x1x3, .i32⟩ : BufTy).Contents (Elt F) := (select : (⟨S10000x1x3, .i1⟩ : BufTy).Contents (Elt F) → (⟨S10000x1x3, .i32⟩ : BufTy).Contents (Elt F) → (⟨S10000x1x3, .i32⟩ : BufTy).Contents (Elt F) → (⟨S10000x1x3, .i32⟩ : BufTy).Contents (Elt F)) v266 v268 v258
  have v270 : (⟨S10000x3x3, .i32⟩ : BufTy).Contents (Elt F) := (broadcastInDim S10000x3x3 ![0, 1, 2] bcast_S10000x3x1_S10000x3x3_0_1_2 : (⟨S10000x3x1, .i32⟩ : BufTy).Contents (Elt F) → (⟨S10000x3x3, .i32⟩ : BufTy).Contents (Elt F)) v264
  have v271 : (⟨S10000x3x3, .i32⟩ : BufTy).Contents (Elt F) := (broadcastInDim S10000x3x3 ![0, 1, 2] bcast_S10000x1x3_S10000x3x3_0_1_2 : (⟨S10000x1x3, .i32⟩ : BufTy).Contents (Elt F) → (⟨S10000x3x3, .i32⟩ : BufTy).Contents (Elt F)) v269
  have v272 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v270
  have v273 : (⟨S10000x3x3x1, .i32⟩ : BufTy).Contents (Elt F) := (broadcastInDim S10000x3x3x1 ![0, 1, 2] bcast_S10000x3x3_S10000x3x3x1_0_1_2 : (⟨S10000x3x3, .i32⟩ : BufTy).Contents (Elt F) → (⟨S10000x3x3x1, .i32⟩ : BufTy).Contents (Elt F)) v271
  have v274 : (⟨S10000x3x3x2, .i32⟩ : BufTy).Contents (Elt F) := ((fun a b => concatenate S10000x3x3x2 3 [⟨S10000x3x3x1, a⟩, ⟨S10000x3x3x1, b⟩] concatenates_S10000x3x3x1_S10000x3x3x1_S10000x3x3x2_d3) : (⟨S10000x3x3x1, .i32⟩ : BufTy).Contents (Elt F) → (⟨S10000x3x3x1, .i32⟩ : BufTy).Contents (Elt F) → (⟨S10000x3x3x2, .i32⟩ : BufTy).Contents (Elt F)) v272 v273
  have v275 : (⟨S7500x7500, .f32⟩ : BufTy).Contents (Elt F) := ((fun x i u => Host.scatterAdd scatter_S7500x7500_S10000x3x3x2_S10000x3x3_n_01_01_3 x i u) : (⟨S7500x7500, .f32⟩ : BufTy).Contents (Elt F) → (⟨S10000x3x3x2, .i32⟩ : BufTy).Contents (Elt F) → (⟨S10000x3x3, .f32⟩ : BufTy).Contents (Elt F) → (⟨S7500x7500, .f32⟩ : BufTy).Contents (Elt F)) v256 v274 v259
  v275

/-! ## What each stretch leaves, over any contents -/

/-- Folding a concatenation is folding the first list and then the second. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 40000000 in
theorem afterA (W : Valuation τ sig (Elt F)) : after (opsA : List (HloOp τ sig (Elt F))) W (Proc.devRef .tc main_v14)
    = deltaR (W (Proc.devRef .tc main_arg0)) (W (Proc.devRef .tc main_arg1)) (W (Proc.devRef .tc main_arg2)) := by
  after_results_simp
  rfl

set_option maxRecDepth 8192 in
set_option maxHeartbeats 129600000 in
theorem afterB (W : Valuation τ sig (Elt F)) : after (opsB : List (HloOp τ sig (Elt F))) W (Proc.devRef .tc main_v183)
    = kmatR (W (Proc.devRef .tc main_v14)) (W (Proc.devRef .tc main_arg3)) (W (Proc.devRef .tc main_arg4)) := by
  after_results_simp
  rfl

set_option maxRecDepth 8192 in
set_option maxHeartbeats 40000000 in
theorem afterC (W : Valuation τ sig (Elt F)) : after (opsC : List (HloOp τ sig (Elt F))) W (Proc.devRef .tc main_v275)
    = tailR (W (Proc.devRef .tc main_v183)) (W (Proc.devRef .tc main_arg1)) (W (Proc.devRef .tc main_arg2)) := by
  after_results_simp
  rfl

/-! ## The buffers a stretch passes through

Every operation writes one buffer, its result; none of the results is an argument of @main. -/

/-- The conjunction, over a named stretch, that no operation of it writes the named buffer. -/
local macro "stretch_avoids " ops:ident : tactic => `(tactic| (
  simp only [$ops:ident, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)))

set_option maxRecDepth 8192 in
set_option maxHeartbeats 40000000 in
theorem opsA_avoids_arg1 : (opsA : List (HloOp τ sig (Elt F))).Forall fun op => Proc.devRef .tc main_arg1 ∉ op.writes := by
  stretch_avoids opsA
theorem pass_opsA_arg1 (W : Valuation τ sig (Elt F)) : after (opsA : List (HloOp τ sig (Elt F))) W (Proc.devRef .tc main_arg1) = W (Proc.devRef .tc main_arg1) :=
  after_of_forall_not_mem _ _ (List.forall_iff_forall_mem.mp opsA_avoids_arg1)

set_option maxRecDepth 8192 in
set_option maxHeartbeats 40000000 in
theorem opsA_avoids_arg2 : (opsA : List (HloOp τ sig (Elt F))).Forall fun op => Proc.devRef .tc main_arg2 ∉ op.writes := by
  stretch_avoids opsA
theorem pass_opsA_arg2 (W : Valuation τ sig (Elt F)) : after (opsA : List (HloOp τ sig (Elt F))) W (Proc.devRef .tc main_arg2) = W (Proc.devRef .tc main_arg2) :=
  after_of_forall_not_mem _ _ (List.forall_iff_forall_mem.mp opsA_avoids_arg2)

set_option maxRecDepth 8192 in
set_option maxHeartbeats 40000000 in
theorem opsA_avoids_arg3 : (opsA : List (HloOp τ sig (Elt F))).Forall fun op => Proc.devRef .tc main_arg3 ∉ op.writes := by
  stretch_avoids opsA
theorem pass_opsA_arg3 (W : Valuation τ sig (Elt F)) : after (opsA : List (HloOp τ sig (Elt F))) W (Proc.devRef .tc main_arg3) = W (Proc.devRef .tc main_arg3) :=
  after_of_forall_not_mem _ _ (List.forall_iff_forall_mem.mp opsA_avoids_arg3)

set_option maxRecDepth 8192 in
set_option maxHeartbeats 40000000 in
theorem opsA_avoids_arg4 : (opsA : List (HloOp τ sig (Elt F))).Forall fun op => Proc.devRef .tc main_arg4 ∉ op.writes := by
  stretch_avoids opsA
theorem pass_opsA_arg4 (W : Valuation τ sig (Elt F)) : after (opsA : List (HloOp τ sig (Elt F))) W (Proc.devRef .tc main_arg4) = W (Proc.devRef .tc main_arg4) :=
  after_of_forall_not_mem _ _ (List.forall_iff_forall_mem.mp opsA_avoids_arg4)

set_option maxRecDepth 8192 in
set_option maxHeartbeats 40000000 in
theorem opsB_avoids_arg1 : (opsB : List (HloOp τ sig (Elt F))).Forall fun op => Proc.devRef .tc main_arg1 ∉ op.writes := by
  stretch_avoids opsB
theorem pass_opsB_arg1 (W : Valuation τ sig (Elt F)) : after (opsB : List (HloOp τ sig (Elt F))) W (Proc.devRef .tc main_arg1) = W (Proc.devRef .tc main_arg1) :=
  after_of_forall_not_mem _ _ (List.forall_iff_forall_mem.mp opsB_avoids_arg1)

set_option maxRecDepth 8192 in
set_option maxHeartbeats 40000000 in
theorem opsB_avoids_arg2 : (opsB : List (HloOp τ sig (Elt F))).Forall fun op => Proc.devRef .tc main_arg2 ∉ op.writes := by
  stretch_avoids opsB
theorem pass_opsB_arg2 (W : Valuation τ sig (Elt F)) : after (opsB : List (HloOp τ sig (Elt F))) W (Proc.devRef .tc main_arg2) = W (Proc.devRef .tc main_arg2) :=
  after_of_forall_not_mem _ _ (List.forall_iff_forall_mem.mp opsB_avoids_arg2)

set_option maxRecDepth 8192 in
set_option maxHeartbeats 40000000 in
theorem ops_avoids_arg0 : (ops : List (HloOp τ sig (Elt F))).Forall fun op => Proc.devRef .tc main_arg0 ∉ op.writes := by
  stretch_avoids ops
theorem pass_ops_arg0 (W : Valuation τ sig (Elt F)) : after (ops : List (HloOp τ sig (Elt F))) W (Proc.devRef .tc main_arg0) = W (Proc.devRef .tc main_arg0) :=
  after_of_forall_not_mem _ _ (List.forall_iff_forall_mem.mp ops_avoids_arg0)

set_option maxRecDepth 8192 in
set_option maxHeartbeats 40000000 in
theorem ops_avoids_arg1 : (ops : List (HloOp τ sig (Elt F))).Forall fun op => Proc.devRef .tc main_arg1 ∉ op.writes := by
  stretch_avoids ops
theorem pass_ops_arg1 (W : Valuation τ sig (Elt F)) : after (ops : List (HloOp τ sig (Elt F))) W (Proc.devRef .tc main_arg1) = W (Proc.devRef .tc main_arg1) :=
  after_of_forall_not_mem _ _ (List.forall_iff_forall_mem.mp ops_avoids_arg1)

set_option maxRecDepth 8192 in
set_option maxHeartbeats 40000000 in
theorem ops_avoids_arg2 : (ops : List (HloOp τ sig (Elt F))).Forall fun op => Proc.devRef .tc main_arg2 ∉ op.writes := by
  stretch_avoids ops
theorem pass_ops_arg2 (W : Valuation τ sig (Elt F)) : after (ops : List (HloOp τ sig (Elt F))) W (Proc.devRef .tc main_arg2) = W (Proc.devRef .tc main_arg2) :=
  after_of_forall_not_mem _ _ (List.forall_iff_forall_mem.mp ops_avoids_arg2)

set_option maxRecDepth 8192 in
set_option maxHeartbeats 40000000 in
theorem ops_avoids_arg3 : (ops : List (HloOp τ sig (Elt F))).Forall fun op => Proc.devRef .tc main_arg3 ∉ op.writes := by
  stretch_avoids ops
theorem pass_ops_arg3 (W : Valuation τ sig (Elt F)) : after (ops : List (HloOp τ sig (Elt F))) W (Proc.devRef .tc main_arg3) = W (Proc.devRef .tc main_arg3) :=
  after_of_forall_not_mem _ _ (List.forall_iff_forall_mem.mp ops_avoids_arg3)

set_option maxRecDepth 8192 in
set_option maxHeartbeats 40000000 in
theorem ops_avoids_arg4 : (ops : List (HloOp τ sig (Elt F))).Forall fun op => Proc.devRef .tc main_arg4 ∉ op.writes := by
  stretch_avoids ops
theorem pass_ops_arg4 (W : Valuation τ sig (Elt F)) : after (ops : List (HloOp τ sig (Elt F))) W (Proc.devRef .tc main_arg4) = W (Proc.devRef .tc main_arg4) :=
  after_of_forall_not_mem _ _ (List.forall_iff_forall_mem.mp ops_avoids_arg4)

/-! ## The whole line -/

/-- The result buffer after the whole line, over any contents: the last stretch of the middle stretch of the first,
    the index arguments and the parameter arguments passed through the stretches before their use. -/
theorem res_eq (L : Valuation τ sig (Elt F)) : after (ops : List (HloOp τ sig (Elt F))) L (Proc.devRef .tc main_v275)
    = tailR (kmatR (deltaR (L (Proc.devRef .tc main_arg0)) (L (Proc.devRef .tc main_arg1)) (L (Proc.devRef .tc main_arg2)))
        (L (Proc.devRef .tc main_arg3)) (L (Proc.devRef .tc main_arg4))) (L (Proc.devRef .tc main_arg1)) (L (Proc.devRef .tc main_arg2)) := by
  rw [ops_split, after_append, after_append, afterC, afterB, afterA, pass_opsB_arg1, pass_opsB_arg2,
    pass_opsA_arg1, pass_opsA_arg2, pass_opsA_arg3, pass_opsA_arg4]

set_option maxRecDepth 8192 in
set_option maxHeartbeats 129600000 in
/-- On every device, for any float values, from any memory with zero counters: every weakly fair execution of
    @main terminates with the result at the composition of the three stretches' functions of the arguments, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v275)
        = tailR (kmatR (deltaR (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v275).trans (res_eq _),
      (h c main_arg0).trans (pass_ops_arg0 _),
      (h c main_arg1).trans (pass_ops_arg1 _),
      (h c main_arg2).trans (pass_ops_arg2 _),
      (h c main_arg3).trans (pass_ops_arg3 _),
      (h c main_arg4).trans (pass_ops_arg4 _)⟩)
    (run_seq scopedRefs_eq scopedSems_eq defs main (fun _ => ops) main_eq (fun _ => ops_sub) m ρ)

end Cert.ReferenceIdeal.RunSeg

end
-- ==== Proof.RefSegBridge.lean ====
import proofs.«116600_j39926015984151_2_alg».proof.Proof.FinalBridge
import proofs.«116600_j39926015984151_2_alg».proof.Proof.RefRunSeg

/-!
# The reference's run, stretch by stretch, meets the kernel's result

The reference's @main is read in three stretches — the gathers and their difference, the per-edge blocks, the assembly —
each as a pure function of what it reads. The first is the difference the per-operation stages name, the second the
block array they name (with the difference as given), the third is word for word the kernel's assembly function. So the
reference's result, as its run states it, is the kernel's result at the same arguments.
-/

set_option maxRecDepth 65536
noncomputable section
namespace Cert.EdgeBridge
open Idealize.ShloMosaic Idealize.ShloMosaic.ValueIdx
open Cert.ReferenceIdeal.ReadP

variable (a0 : (⟨Cert.ReferenceIdeal.S2500x2, .f32⟩ : BufTy).Contents (Elt Ideal))
  (a1 a2 : (⟨Cert.ReferenceIdeal.S10000, .i32⟩ : BufTy).Contents (Elt Ideal))
  (a3 a4 : (⟨Cert.ReferenceIdeal.S10000, .f32⟩ : BufTy).Contents (Elt Ideal))

/-- The first stretch computes the difference of the two gathered coordinate arrays. -/
theorem deltaR_eq : Cert.ReferenceIdeal.RunSeg.deltaR (F := Ideal) a0 a1 a2 = val_main_v14 (F := Ideal) a0 a1 a2 := by
  unfold Cert.ReferenceIdeal.RunSeg.deltaR val_main_v14 val_main_v6 val_main_v13 val_main_v5 val_main_v12 val_main_v4 val_main_v11 val_main_v1 val_main_v3 val_main_v8 val_main_v10 val_main_v0 val_main_v2 val_main_v7 val_main_v9 val_main_c val_main_c_0 val_main_c_1 val_main_c_2
  rfl

set_option maxHeartbeats 40000000 in
/-- The second stretch computes the 10000 × 6 × 6 block array from that difference, the moduli and the areas. -/
theorem kmatR_eq : Cert.ReferenceIdeal.RunSeg.kmatR (F := Ideal) (val_main_v14 (F := Ideal) a0 a1 a2) a3 a4
    = val_main_v183 (F := Ideal) a0 a1 a2 a3 a4 := by
  unfold Cert.ReferenceIdeal.RunSeg.kmatR
  rfl

set_option maxHeartbeats 40000000 in
/-- The third stretch is the kernel's assembly of a block array. -/
theorem tailR_eq (K : (⟨Cert.ReferenceIdeal.S10000x6x6, .f32⟩ : BufTy).Contents (Elt Ideal)) :
    Cert.ReferenceIdeal.RunSeg.tailR (F := Ideal) K a1 a2 = Cert.KernelIdeal.Hand.tail21 (F := Ideal) K a1 a2 := by
  unfold Cert.ReferenceIdeal.RunSeg.tailR Cert.KernelIdeal.Hand.tail21
  rfl

/-- The reference's result, as its run states it, is the kernel's result. -/
theorem ref_result_eq :
    Cert.ReferenceIdeal.RunSeg.tailR (F := Ideal) (Cert.ReferenceIdeal.RunSeg.kmatR (F := Ideal) (Cert.ReferenceIdeal.RunSeg.deltaR (F := Ideal) a0 a1 a2) a3 a4) a1 a2
      = Cert.KernelIdeal.Hand.tailOf (F := Ideal) (Cert.KernelIdeal.Hand.stored0_4 (F := Ideal) (Cert.KernelIdeal.Hand.preDx (F := Ideal) a0 a1 a2) (Cert.KernelIdeal.Hand.preDy (F := Ideal) a0 a1 a2) a3 a4) a1 a2 := by
  rw [deltaR_eq, kmatR_eq, tailR_eq, ← tail_ref, result_eq]

end Cert.EdgeBridge
end
-- ==== Proof.lean ====
/-
  The global stiffness matrix of a planar frame: a kernel that computes every edge's 6 × 6 beam block on the chip (36
  entries per edge, stored as the rows of a 36 × 10000 array) and assembles the 7500 × 7500 matrix on the host,
  against a reference that computes the same blocks on the host (as the columns of a 10000 × 36 array) and assembles
  them the same way. Read over the extended reals the two results are equal for every input:

  * the kernel runs, faults nowhere and leaves its arguments unchanged, at the word level and at the ideal level
    (Proof/KFrame.lean, Proof/KIFrame.lean: one grid point, four whole-array inputs, one whole-array output, host lines
    before and after the region);
  * the reference runs — read in three stretches: the gathers, the blocks, the assembly — to a pure function of its arguments and
    leaves them unchanged (Proof/RefRunSeg.lean);
  * the kernel's result array is its assembly function of the blocks it stores (Proof/KIFinal.lean, Proof/KIResult.lean);
  * the two block arrays are transposes of one another, entry by entry — the length as a sum of two squares, a negation
    as a difference from zero, 2·L² and 4·L² re-associated: laws that hold for every extended real, so the finiteness
    of the inputs is never used (Proof/LibStack36.lean, Proof/KernelRows.lean, Proof/RefColumns.lean,
    Proof/KmatBridge.lean) —, and everything around the blocks is the same text in both programs
    (Proof/FinalBridge.lean, Proof/RefSegBridge.lean).

  The idealization rewrote no operation of the kernel, so `preserves` has nothing to state.
-/
import proofs.«116600_j39926015984151_2_alg».proof.Defs
import proofs.«116600_j39926015984151_2_alg».proof.Proof.Gen.Kernel
import proofs.«116600_j39926015984151_2_alg».proof.Proof.Gen.KernelIdeal
import proofs.«116600_j39926015984151_2_alg».proof.Proof.Gen.ReferenceIdeal
import proofs.«116600_j39926015984151_2_alg».proof.Proof.Gen.Pre_finite_inputs
import proofs.«116600_j39926015984151_2_alg».proof.Proof.KFrame
import proofs.«116600_j39926015984151_2_alg».proof.Proof.KIResult
import proofs.«116600_j39926015984151_2_alg».proof.Proof.RefSegBridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunSeg.run (F := Ideal) m ρ)

theorem preserves : Cert.preserves_Kernel_KernelIdeal := trivial

/-- Both runs end with the result array at the kernel's assembly of its stored blocks, read at arguments that agree. -/
theorem algebraic : Cert.algebraic_KernelIdeal_ReferenceIdeal := by
  intro m ρ m' ρ' _ hagree
  refine ⟨fun c => Cert.KernelIdeal.Hand.tailOf (F := Ideal)
      (Cert.KernelIdeal.Hand.stored0_4 (F := Ideal)
        (Cert.KernelIdeal.Hand.preDx (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (Cert.KernelIdeal.Hand.preDy (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Hand.kernel_run (F := Ideal) m ρ, ?_⟩
  refine (θ_run Cert.ReferenceIdeal.defs _ _).mono (fun _ h c => ⟨(h c).1.trans ?_, (h c).2⟩) (Cert.ReferenceIdeal.RunSeg.run (F := Ideal) m' ρ')
  rw [(hagree c).1, (hagree c).2.1, (hagree c).2.2.1, (hagree c).2.2.2.1, (hagree c).2.2.2.2]
  exact Cert.EdgeBridge.ref_result_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
